-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v199)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v199) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v312) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x74 : Shape := ⟨2, ![20000, 74]⟩
abbrev S64x0 : Shape := ⟨2, ![64, 0]⟩
abbrev S74x256 : Shape := ⟨2, ![74, 256]⟩
abbrev S256 : Shape := ⟨1, ![256]⟩
abbrev S10x256x256 : Shape := ⟨3, ![10, 256, 256]⟩
abbrev S10x256 : Shape := ⟨2, ![10, 256]⟩
abbrev S256x1024 : Shape := ⟨2, ![256, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S320000 : Shape := ⟨1, ![320000]⟩
abbrev S20000 : Shape := ⟨1, ![20000]⟩
abbrev S_ : Shape := ⟨0, ![]⟩

class Facts : Prop where
  bcast_S_S20000x74 : S_.BroadcastsInDim S20000x74 (![] : Fin 0 → Fin S20000x74.rank)
  reducesTo_S20000x74_S_d0_1 : S20000x74.ReducesTo [0, 1] S_
  h_S_ : 0 < S_.numel
  bcast_S_S64x0 : S_.BroadcastsInDim S64x0 (![] : Fin 0 → Fin S64x0.rank)
  reducesTo_S64x0_S_d0_1 : S64x0.ReducesTo [0, 1] S_
  bcast_S_S74x256 : S_.BroadcastsInDim S74x256 (![] : Fin 0 → Fin S74x256.rank)
  reducesTo_S74x256_S_d0_1 : S74x256.ReducesTo [0, 1] S_
  bcast_S_S256 : S_.BroadcastsInDim S256 (![] : Fin 0 → Fin S256.rank)
  reducesTo_S256_S_d0 : S256.ReducesTo [0] S_
  bcast_S_S10x256x256 : S_.BroadcastsInDim S10x256x256 (![] : Fin 0 → Fin S10x256x256.rank)
  reducesTo_S10x256x256_S_d0_1_2 : S10x256x256.ReducesTo [0, 1, 2] S_
  bcast_S_S10x256 : S_.BroadcastsInDim S10x256 (![] : Fin 0 → Fin S10x256.rank)
  reducesTo_S10x256_S_d0_1 : S10x256.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S512x1 .f32) (main_v50 : FVec F S512x1 .f32) : IVec S_ 1 :=
  let main_v51 : IVec S512x1 1 := cmpf .olt main_v49 main_v50
  let main_c_19 : IVec S_ 1 := constantI S_ 1 1#1
  let main_v52 : IVec S_ 1 := (fun x v => Host.reduce IntOp.andi x v reducesTo_S512x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S1024 .f32) (main_arg8 : FVec F S1024x512 .f32) (main_arg9 : FVec F S512 .f32) (main_arg10 : FVec F S512x1 .f32) (main_arg11 : FVec F S1 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x512 .f32 := Host.absf main_arg8
  let main_cst_14 : FVec F S_ .f32 := constant S_ .f32 0x7F800000#32
  let main_v40 : FVec F S1024x512 .f32 := broadcastInDim S1024x512 ![] bcast_S_S1024x512 main_cst_14
  let main_v41 : IVec S1024x512 1 := cmpf .olt main_v39 main_v40
  let main_c_15 : IVec S_ 1 := constantI S_ 1 1#1
  let main_v42 : IVec S_ 1 := (fun x v => Host.reduce IntOp.andi x v reducesTo_S1024x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x1 .f32 := Host.absf main_arg10
  let main_cst_18 : FVec F S_ .f32 := constant S_ .f32 0x7F800000#32
  let main_v50 : FVec F S512x1 .f32 := broadcastInDim S512x1 ![] bcast_S_S512x1 main_cst_18
  fn_part3 (F := F) main_arg11 main_v48 main_v49 main_v50

def fn_part1 {F : FTy → Type} [FloatOps F] (main_arg4 : FVec F S10x256x256 .f32) (main_arg5 : FVec F S10x256 .f32) (main_arg6 : FVec F S256x1024 .f32) (main_arg7 : FVec F S1024 .f32) (main_arg8 : FVec F S1024x512 .f32) (main_arg9 : FVec F S512 .f32) (main_arg10 : FVec F S512x1 .f32) (main_arg11 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S10x256x256 .f32 := Host.absf main_arg4
  let main_cst_6 : FVec F S_ .f32 := constant S_ .f32 0x7F800000#32
  let main_v20 : FVec F S10x256x256 .f32 := broadcastInDim S10x256x256 ![] bcast_S_S10x256x256 main_cst_6
  let main_v21 : IVec S10x256x256 1 := cmpf .olt main_v19 main_v20
  let main_c_7 : IVec S_ 1 := constantI S_ 1 1#1
  let main_v22 : IVec S_ 1 := (fun x v => Host.reduce IntOp.andi x v reducesTo_S10x256x256_S_d0_1_2 h_S_) main_v21 main_c_7
  let main_v23 : IVec S_ 1 := andi main_v18 main_v22
  let main_v24 : FVec F S10x256 .f32 := Host.absf main_arg5
  let main_cst_8 : FVec F S_ .f32 := constant S_ .f32 0x7F800000#32
  let main_v25 : FVec F S10x256 .f32 := broadcastInDim S10x256 ![] bcast_S_S10x256 main_cst_8
  let main_v26 : IVec S10x256 1 := cmpf .olt main_v24 main_v25
  let main_c_9 : IVec S_ 1 := constantI S_ 1 1#1
  let main_v27 : IVec S_ 1 := (fun x v => Host.reduce IntOp.andi x v reducesTo_S10x256_S_d0_1 h_S_) main_v26 main_c_9
  let main_v28 : IVec S_ 1 := andi main_v23 main_v27
  let main_v29 : FVec F S256x1024 .f32 := Host.absf main_arg6
  let main_cst_10 : FVec F S_ .f32 := constant S_ .f32 0x7F800000#32
  let main_v30 : FVec F S256x1024 .f32 := broadcastInDim S256x1024 ![] bcast_S_S256x1024 main_cst_10
  let main_v31 : IVec S256x1024 1 := cmpf .olt main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S20000x74 .f32) (main_arg1 : FVec F S64x0 .f32) (main_arg2 : FVec F S74x256 .f32) (main_arg3 : FVec F S256 .f32) (main_arg4 : FVec F S10x256x256 .f32) (main_arg5 : FVec F S10x256 .f32) (main_arg6 : FVec F S256x1024 .f32) (main_arg7 : FVec F S1024 .f32) (main_arg8 : FVec F S1024x512 .f32) (main_arg9 : FVec F S512 .f32) (main_arg10 : FVec F S512x1 .f32) (main_arg11 : FVec F S1 .f32) (main_arg12 : IVec S320000 32) (main_arg13 : IVec S320000 32) (main_arg14 : IVec S20000 32) : IVec S_ 1 :=
  let main_v0 : FVec F S20000x74 .f32 := Host.absf main_arg0
  let main_cst : FVec F S_ .f32 := constant S_ .f32 0x7F800000#32
  let main_v1 : FVec F S20000x74 .f32 := broadcastInDim S20000x74 ![] bcast_S_S20000x74 main_cst
  let main_v2 : IVec S20000x74 1 := cmpf .olt main_v0 main_v1
  let main_c : IVec S_ 1 := constantI S_ 1 1#1
  let main_v3 : IVec S_ 1 := (fun x v => Host.reduce IntOp.andi x v reducesTo_S20000x74_S_d0_1 h_S_) main_v2 main_c
  let main_v4 : FVec F S64x0 .f32 := Host.absf main_arg1
  let main_cst_0 : FVec F S_ .f32 := constant S_ .f32 0x7F800000#32
  let main_v5 : FVec F S64x0 .f32 := broadcastInDim S64x0 ![] bcast_S_S64x0 main_cst_0
  let main_v6 : IVec S64x0 1 := cmpf .olt main_v4 main_v5
  let main_c_1 : IVec S_ 1 := constantI S_ 1 1#1
  let main_v7 : IVec S_ 1 := (fun x v => Host.reduce IntOp.andi x v reducesTo_S64x0_S_d0_1 h_S_) main_v6 main_c_1
  let main_v8 : IVec S_ 1 := andi main_v3 main_v7
  let main_v9 : FVec F S74x256 .f32 := Host.absf main_arg2
  let main_cst_2 : FVec F S_ .f32 := constant S_ .f32 0x7F800000#32
  let main_v10 : FVec F S74x256 .f32 := broadcastInDim S74x256 ![] bcast_S_S74x256 main_cst_2
  let main_v11 : IVec S74x256 1 := cmpf .olt main_v9 main_v10
  let main_c_3 : IVec S_ 1 := constantI S_ 1 1#1
  let main_v12 : IVec S_ 1 := (fun x v => Host.reduce IntOp.andi x v reducesTo_S74x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S20000x74 : Shape := ⟨2, ![20000, 74]⟩
abbrev S64x0 : Shape := ⟨2, ![64, 0]⟩
abbrev S74x256 : Shape := ⟨2, ![74, 256]⟩
abbrev S256 : Shape := ⟨1, ![256]⟩
abbrev S10x256x256 : Shape := ⟨3, ![10, 256, 256]⟩
abbrev S10x256 : Shape := ⟨2, ![10, 256]⟩
abbrev S256x1024 : Shape := ⟨2, ![256, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S320000 : Shape := ⟨1, ![320000]⟩
abbrev S20000 : Shape := ⟨1, ![20000]⟩
abbrev S_ : Shape := ⟨0, ![]⟩
abbrev S320000x1 : Shape := ⟨2, ![320000, 1]⟩
abbrev S20000x1 : Shape := ⟨2, ![20000, 1]⟩
abbrev S320000x74 : Shape := ⟨2, ![320000, 74]⟩
abbrev S20000x256 : Shape := ⟨2, ![20000, 256]⟩
abbrev S2000x74 : Shape := ⟨2, ![2000, 74]⟩
abbrev S2000x1 : Shape := ⟨2, ![2000, 1]⟩
abbrev S2000x256 : Shape := ⟨2, ![2000, 256]⟩
abbrev S1x256 : Shape := ⟨2, ![1, 256]⟩
abbrev S320000x256 : Shape := ⟨2, ![320000, 256]⟩
abbrev S1x256x256 : Shape := ⟨3, ![1, 256, 256]⟩
abbrev S256x256 : Shape := ⟨2, ![256, 256]⟩
abbrev S64x256 : Shape := ⟨2, ![64, 256]⟩
abbrev S64 : Shape := ⟨1, ![64]⟩
abbrev S64x1 : Shape := ⟨2, ![64, 1]⟩
abbrev S64x1024 : Shape := ⟨2, ![64, 1024]⟩
abbrev S1x1024 : Shape := ⟨2, ![1, 1024]⟩
abbrev S64x512 : Shape := ⟨2, ![64, 512]⟩
abbrev S1x512 : Shape := ⟨2, ![1, 512]⟩
abbrev S1x1 : Shape := ⟨2, ![1, 1]⟩

abbrev nBuf : Space → Nat
  | .hbm => 269
  | .vmem => 136
  | .smem => 0
  | _ => 0

abbrev hbmTy0_0 (i : Nat) : BufTy := match i % 128 with
  | 0 => ⟨S20000x74, .f32⟩
  | 1 => ⟨S64x0, .f32⟩
  | 2 => ⟨S74x256, .f32⟩
  | 3 => ⟨S256, .f32⟩
  | 4 => ⟨S10x256x256, .f32⟩
  | 5 => ⟨S10x256, .f32⟩
  | 6 => ⟨S256x1024, .f32⟩
  | 7 => ⟨S1024, .f32⟩
  | 8 => ⟨S1024x512, .f32⟩
  | 9 => ⟨S512, .f32⟩
  | 10 => ⟨S512x1, .f32⟩
  | 11 => ⟨S1, .f32⟩
  | 12 => ⟨S320000, .i32⟩
  | 13 => ⟨S320000, .i32⟩
  | 14 => ⟨S20000, .i32⟩
  | 15 => ⟨S_, .f32⟩
  | 16 => ⟨S320000, .f32⟩
  | 17 => ⟨S_, .f32⟩
  | 18 => ⟨S20000, .f32⟩
  | 19 => ⟨S320000x1, .i32⟩
  | 20 => ⟨S20000, .f32⟩
  | 21 => ⟨S_, .f32⟩
  | 22 => ⟨S20000, .f32⟩
  | 23 => ⟨S20000, .f32⟩
  | 24 => ⟨S_, .f32⟩
  | 25 => ⟨S20000, .f32⟩
  | 26 => ⟨S320000x1, .i32⟩
  | 27 => ⟨S20000, .f32⟩
  | 28 => ⟨S_, .f32⟩
  | 29 => ⟨S20000, .f32⟩
  | 30 => ⟨S20000, .f32⟩
  | 31 => ⟨S_, .f32⟩
  | 32 => ⟨S20000, .f32⟩
  | 33 => ⟨S20000, .f32⟩
  | 34 => ⟨S20000x1, .f32⟩
  | 35 => ⟨S_, .f32⟩
  | 36 => ⟨S20000, .f32⟩
  | 37 => ⟨S20000, .f32⟩
  | 38 => ⟨S20000x1, .f32⟩
  | 39 => ⟨S74x256, .bf16⟩
  | 40 => ⟨S10x256x256, .bf16⟩
  | 41 => ⟨S20000x74, .f32⟩
  | 42 => ⟨S20000x74, .f32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S320000x74, .f32⟩
  | 52 => ⟨S_, .f32⟩
  | 53 => ⟨S20000x74, .f32⟩
  | 54 => ⟨S320000x1, .i32⟩
  | 55 => ⟨S20000x74, .f32⟩
  | 56 => ⟨S20000x256, .f32⟩
  | 57 => ⟨S20000x256, .f32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S320000x256, .f32⟩
  | 67 => ⟨S_, .f32⟩
  | 68 => ⟨S20000x256, .f32⟩
  | 69 => ⟨S320000x1, .i32⟩
  | 70 => ⟨S20000x256, .f32⟩
  | 71 => ⟨S1x256x256, .bf16⟩
  | 72 => ⟨S256x256, .bf16⟩
  | 73 => ⟨S1x256, .f32⟩
  | 74 => ⟨S256, .f32⟩
  | 75 => ⟨S20000x256, .f32⟩
  | 76 => ⟨S20000x256, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S320000x256, .f32⟩
  | 86 => ⟨S_, .f32⟩
  | 87 => ⟨S20000x256, .f32⟩
  | 88 => ⟨S320000x1, .i32⟩
  | 89 => ⟨S20000x256, .f32⟩
  | 90 => ⟨S1x256x256, .bf16⟩
  | 91 => ⟨S256x256, .bf16⟩
  | 92 => ⟨S1x256, .f32⟩
  | 93 => ⟨S256, .f32⟩
  | 94 => ⟨S20000x256, .f32⟩
  | 95 => ⟨S20000x256, .f32⟩
  | 96 => ⟨S_, .i32⟩
  | 97 => ⟨S320000, .i32⟩
  | 98 => ⟨S320000, .i1⟩
  | 99 => ⟨S_, .i32⟩
  | 100 => ⟨S320000, .i32⟩
  | 101 => ⟨S320000, .i32⟩
  | 102 => ⟨S320000, .i32⟩
  | 103 => ⟨S320000x1, .i32⟩
  | 104 => ⟨S320000x256, .f32⟩
  | 105 => ⟨S_, .f32⟩
  | 106 => ⟨S20000x256, .f32⟩
  | 107 => ⟨S320000x1, .i32⟩
  | 108 => ⟨S20000x256, .f32⟩
  | 109 => ⟨S1x256x256, .bf16⟩
  | 110 => ⟨S256x256, .bf16⟩
  | 111 => ⟨S1x256, .f32⟩
  | 112 => ⟨S256, .f32⟩
  | 113 => ⟨S20000x256, .f32⟩
  | 114 => ⟨S20000x256, .f32⟩
  | 115 => ⟨S_, .i32⟩
  | 116 => ⟨S320000, .i32⟩
  | 117 => ⟨S320000, .i1⟩
  | 118 => ⟨S_, .i32⟩
  | 119 => ⟨S320000, .i32⟩
  | 120 => ⟨S320000, .i32⟩
  | 121 => ⟨S320000, .i32⟩
  | 122 => ⟨S320000x1, .i32⟩
  | 123 => ⟨S320000x256, .f32⟩
  | 124 => ⟨S_, .f32⟩
  | 125 => ⟨S20000x256, .f32⟩
  | 126 => ⟨S320000x1, .i32⟩
  | 127 => ⟨S20000x256, .f32⟩
  | _ => ⟨S20000x74, .f32⟩

abbrev hbmTy0_1 (i : Nat) : BufTy := match i % 128 with
  | 0 => ⟨S1x256x256, .bf16⟩
  | 1 => ⟨S256x256, .bf16⟩
  | 2 => ⟨S1x256, .f32⟩
  | 3 => ⟨S256, .f32⟩
  | 4 => ⟨S20000x256, .f32⟩
  | 5 => ⟨S20000x256, .f32⟩
  | 6 => ⟨S_, .i32⟩
  | 7 => ⟨S320000, .i32⟩
  | 8 => ⟨S320000, .i1⟩
  | 9 => ⟨S_, .i32⟩
  | 10 => ⟨S320000, .i32⟩
  | 11 => ⟨S320000, .i32⟩
  | 12 => ⟨S320000, .i32⟩
  | 13 => ⟨S320000x1, .i32⟩
  | 14 => ⟨S320000x256, .f32⟩
  | 15 => ⟨S_, .f32⟩
  | 16 => ⟨S20000x256, .f32⟩
  | 17 => ⟨S320000x1, .i32⟩
  | 18 => ⟨S20000x256, .f32⟩
  | 19 => ⟨S1x256x256, .bf16⟩
  | 20 => ⟨S256x256, .bf16⟩
  | 21 => ⟨S1x256, .f32⟩
  | 22 => ⟨S256, .f32⟩
  | 23 => ⟨S20000x256, .f32⟩
  | 24 => ⟨S20000x256, .f32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S320000x256, .f32⟩
  | 34 => ⟨S_, .f32⟩
  | 35 => ⟨S20000x256, .f32⟩
  | 36 => ⟨S320000x1, .i32⟩
  | 37 => ⟨S20000x256, .f32⟩
  | 38 => ⟨S1x256x256, .bf16⟩
  | 39 => ⟨S256x256, .bf16⟩
  | 40 => ⟨S1x256, .f32⟩
  | 41 => ⟨S256, .f32⟩
  | 42 => ⟨S20000x256, .f32⟩
  | 43 => ⟨S20000x256, .f32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S320000x256, .f32⟩
  | 53 => ⟨S_, .f32⟩
  | 54 => ⟨S20000x256, .f32⟩
  | 55 => ⟨S320000x1, .i32⟩
  | 56 => ⟨S20000x256, .f32⟩
  | 57 => ⟨S1x256x256, .bf16⟩
  | 58 => ⟨S256x256, .bf16⟩
  | 59 => ⟨S1x256, .f32⟩
  | 60 => ⟨S256, .f32⟩
  | 61 => ⟨S20000x256, .f32⟩
  | 62 => ⟨S20000x256, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000x256, .f32⟩
  | 72 => ⟨S_, .f32⟩
  | 73 => ⟨S20000x256, .f32⟩
  | 74 => ⟨S320000x1, .i32⟩
  | 75 => ⟨S20000x256, .f32⟩
  | 76 => ⟨S1x256x256, .bf16⟩
  | 77 => ⟨S256x256, .bf16⟩
  | 78 => ⟨S1x256, .f32⟩
  | 79 => ⟨S256, .f32⟩
  | 80 => ⟨S20000x256, .f32⟩
  | 81 => ⟨S20000x256, .f32⟩
  | 82 => ⟨S_, .i32⟩
  | 83 => ⟨S320000, .i32⟩
  | 84 => ⟨S320000, .i1⟩
  | 85 => ⟨S_, .i32⟩
  | 86 => ⟨S320000, .i32⟩
  | 87 => ⟨S320000, .i32⟩
  | 88 => ⟨S320000, .i32⟩
  | 89 => ⟨S320000x1, .i32⟩
  | 90 => ⟨S320000x256, .f32⟩
  | 91 => ⟨S_, .f32⟩
  | 92 => ⟨S20000x256, .f32⟩
  | 93 => ⟨S320000x1, .i32⟩
  | 94 => ⟨S20000x256, .f32⟩
  | 95 => ⟨S1x256x256, .bf16⟩
  | 96 => ⟨S256x256, .bf16⟩
  | 97 => ⟨S1x256, .f32⟩
  | 98 => ⟨S256, .f32⟩
  | 99 => ⟨S20000x256, .f32⟩
  | 100 => ⟨S20000x256, .f32⟩
  | 101 => ⟨S_, .i32⟩
  | 102 => ⟨S320000, .i32⟩
  | 103 => ⟨S320000, .i1⟩
  | 104 => ⟨S_, .i32⟩
  | 105 => ⟨S320000, .i32⟩
  | 106 => ⟨S320000, .i32⟩
  | 107 => ⟨S320000, .i32⟩
  | 108 => ⟨S320000x1, .i32⟩
  | 109 => ⟨S320000x256, .f32⟩
  | 110 => ⟨S_, .f32⟩
  | 111 => ⟨S20000x256, .f32⟩
  | 112 => ⟨S320000x1, .i32⟩
  | 113 => ⟨S20000x256, .f32⟩
  | 114 => ⟨S1x256x256, .bf16⟩
  | 115 => ⟨S256x256, .bf16⟩
  | 116 => ⟨S1x256, .f32⟩
  | 117 => ⟨S256, .f32⟩
  | 118 => ⟨S20000x256, .f32⟩
  | 119 => ⟨S_, .f32⟩
  | 120 => ⟨S64x256, .f32⟩
  | 121 => ⟨S20000x1, .i32⟩
  | 122 => ⟨S64x256, .f32⟩
  | 123 => ⟨S_, .f32⟩
  | 124 => ⟨S20000, .f32⟩
  | 125 => ⟨S_, .f32⟩
  | 126 => ⟨S64, .f32⟩
  | 127 => ⟨S20000x1, .i32⟩
  | _ => ⟨S20000x74, .f32⟩

abbrev hbmTy0_2 (i : Nat) : BufTy := match i % 128 with
  | 0 => ⟨S64, .f32⟩
  | 1 => ⟨S_, .f32⟩
  | 2 => ⟨S64, .f32⟩
  | 3 => ⟨S64, .f32⟩
  | 4 => ⟨S64x1, .f32⟩
  | 5 => ⟨S64x256, .f32⟩
  | 6 => ⟨S64x256, .f32⟩
  | 7 => ⟨S64x256, .f32⟩
  | 8 => ⟨S256x1024, .bf16⟩
  | 9 => ⟨S1024x512, .bf16⟩
  | 10 => ⟨S512x1, .bf16⟩
  | 11 => ⟨S64x1, .f32⟩
  | 12 => ⟨S64, .f32⟩
  | _ => ⟨S20000x74, .f32⟩

abbrev hbmTy (i : Nat) : BufTy := match i / 128 with
  | 0 => hbmTy0_0 i
  | 1 => hbmTy0_1 i
  | 2 => hbmTy0_2 i
  | _ => ⟨S20000x74, .f32⟩

abbrev vmemTy0_0 (i : Nat) : BufTy := match i % 128 with
  | 0 => ⟨S2000x74, .f32⟩
  | 1 => ⟨S2000x74, .f32⟩
  | 2 => ⟨S2000x1, .f32⟩
  | 3 => ⟨S2000x1, .f32⟩
  | 4 => ⟨S2000x1, .f32⟩
  | 5 => ⟨S2000x1, .f32⟩
  | 6 => ⟨S74x256, .bf16⟩
  | 7 => ⟨S256, .f32⟩
  | 8 => ⟨S2000x256, .f32⟩
  | 9 => ⟨S2000x256, .f32⟩
  | 10 => ⟨S2000x256, .f32⟩
  | 11 => ⟨S2000x256, .f32⟩
  | 12 => ⟨S2000x256, .f32⟩
  | 13 => ⟨S2000x256, .f32⟩
  | 14 => ⟨S2000x1, .f32⟩
  | 15 => ⟨S2000x1, .f32⟩
  | 16 => ⟨S2000x1, .f32⟩
  | 17 => ⟨S2000x1, .f32⟩
  | 18 => ⟨S256x256, .bf16⟩
  | 19 => ⟨S256, .f32⟩
  | 20 => ⟨S2000x256, .f32⟩
  | 21 => ⟨S2000x256, .f32⟩
  | 22 => ⟨S2000x256, .f32⟩
  | 23 => ⟨S2000x256, .f32⟩
  | 24 => ⟨S2000x256, .f32⟩
  | 25 => ⟨S2000x256, .f32⟩
  | 26 => ⟨S2000x1, .f32⟩
  | 27 => ⟨S2000x1, .f32⟩
  | 28 => ⟨S2000x1, .f32⟩
  | 29 => ⟨S2000x1, .f32⟩
  | 30 => ⟨S256x256, .bf16⟩
  | 31 => ⟨S256, .f32⟩
  | 32 => ⟨S2000x256, .f32⟩
  | 33 => ⟨S2000x256, .f32⟩
  | 34 => ⟨S2000x256, .f32⟩
  | 35 => ⟨S2000x256, .f32⟩
  | 36 => ⟨S2000x256, .f32⟩
  | 37 => ⟨S2000x256, .f32⟩
  | 38 => ⟨S2000x1, .f32⟩
  | 39 => ⟨S2000x1, .f32⟩
  | 40 => ⟨S2000x1, .f32⟩
  | 41 => ⟨S2000x1, .f32⟩
  | 42 => ⟨S256x256, .bf16⟩
  | 43 => ⟨S256, .f32⟩
  | 44 => ⟨S2000x256, .f32⟩
  | 45 => ⟨S2000x256, .f32⟩
  | 46 => ⟨S2000x256, .f32⟩
  | 47 => ⟨S2000x256, .f32⟩
  | 48 => ⟨S2000x256, .f32⟩
  | 49 => ⟨S2000x256, .f32⟩
  | 50 => ⟨S2000x1, .f32⟩
  | 51 => ⟨S2000x1, .f32⟩
  | 52 => ⟨S2000x1, .f32⟩
  | 53 => ⟨S2000x1, .f32⟩
  | 54 => ⟨S256x256, .bf16⟩
  | 55 => ⟨S256, .f32⟩
  | 56 => ⟨S2000x256, .f32⟩
  | 57 => ⟨S2000x256, .f32⟩
  | 58 => ⟨S2000x256, .f32⟩
  | 59 => ⟨S2000x256, .f32⟩
  | 60 => ⟨S2000x256, .f32⟩
  | 61 => ⟨S2000x256, .f32⟩
  | 62 => ⟨S2000x1, .f32⟩
  | 63 => ⟨S2000x1, .f32⟩
  | 64 => ⟨S2000x1, .f32⟩
  | 65 => ⟨S2000x1, .f32⟩
  | 66 => ⟨S256x256, .bf16⟩
  | 67 => ⟨S256, .f32⟩
  | 68 => ⟨S2000x256, .f32⟩
  | 69 => ⟨S2000x256, .f32⟩
  | 70 => ⟨S2000x256, .f32⟩
  | 71 => ⟨S2000x256, .f32⟩
  | 72 => ⟨S2000x256, .f32⟩
  | 73 => ⟨S2000x256, .f32⟩
  | 74 => ⟨S2000x1, .f32⟩
  | 75 => ⟨S2000x1, .f32⟩
  | 76 => ⟨S2000x1, .f32⟩
  | 77 => ⟨S2000x1, .f32⟩
  | 78 => ⟨S256x256, .bf16⟩
  | 79 => ⟨S256, .f32⟩
  | 80 => ⟨S2000x256, .f32⟩
  | 81 => ⟨S2000x256, .f32⟩
  | 82 => ⟨S2000x256, .f32⟩
  | 83 => ⟨S2000x256, .f32⟩
  | 84 => ⟨S2000x256, .f32⟩
  | 85 => ⟨S2000x256, .f32⟩
  | 86 => ⟨S2000x1, .f32⟩
  | 87 => ⟨S2000x1, .f32⟩
  | 88 => ⟨S2000x1, .f32⟩
  | 89 => ⟨S2000x1, .f32⟩
  | 90 => ⟨S256x256, .bf16⟩
  | 91 => ⟨S256, .f32⟩
  | 92 => ⟨S2000x256, .f32⟩
  | 93 => ⟨S2000x256, .f32⟩
  | 94 => ⟨S2000x256, .f32⟩
  | 95 => ⟨S2000x256, .f32⟩
  | 96 => ⟨S2000x256, .f32⟩
  | 97 => ⟨S2000x256, .f32⟩
  | 98 => ⟨S2000x1, .f32⟩
  | 99 => ⟨S2000x1, .f32⟩
  | 100 => ⟨S2000x1, .f32⟩
  | 101 => ⟨S2000x1, .f32⟩
  | 102 => ⟨S256x256, .bf16⟩
  | 103 => ⟨S256, .f32⟩
  | 104 => ⟨S2000x256, .f32⟩
  | 105 => ⟨S2000x256, .f32⟩
  | 106 => ⟨S2000x256, .f32⟩
  | 107 => ⟨S2000x256, .f32⟩
  | 108 => ⟨S2000x256, .f32⟩
  | 109 => ⟨S2000x256, .f32⟩
  | 110 => ⟨S2000x1, .f32⟩
  | 111 => ⟨S2000x1, .f32⟩
  | 112 => ⟨S2000x1, .f32⟩
  | 113 => ⟨S2000x1, .f32⟩
  | 114 => ⟨S256x256, .bf16⟩
  | 115 => ⟨S256, .f32⟩
  | 116 => ⟨S2000x256, .f32⟩
  | 117 => ⟨S2000x256, .f32⟩
  | 118 => ⟨S2000x256, .f32⟩
  | 119 => ⟨S2000x256, .f32⟩
  | 120 => ⟨S2000x256, .f32⟩
  | 121 => ⟨S2000x256, .f32⟩
  | 122 => ⟨S2000x1, .f32⟩
  | 123 => ⟨S2000x1, .f32⟩
  | 124 => ⟨S256x256, .bf16⟩
  | 125 => ⟨S256, .f32⟩
  | 126 => ⟨S2000x256, .f32⟩
  | 127 => ⟨S2000x256, .f32⟩
  | _ => ⟨S20000x74, .f32⟩

abbrev vmemTy0_1 (i : Nat) : BufTy := match i % 128 with
  | 0 => ⟨S64x256, .f32⟩
  | 1 => ⟨S256x1024, .bf16⟩
  | 2 => ⟨S1024, .f32⟩
  | 3 => ⟨S1024x512, .bf16⟩
  | 4 => ⟨S512, .f32⟩
  | 5 => ⟨S512x1, .bf16⟩
  | 6 => ⟨S1, .f32⟩
  | 7 => ⟨S64x1, .f32⟩
  | _ => ⟨S20000x74, .f32⟩

abbrev vmemTy (i : Nat) : BufTy := match i / 128 with
  | 0 => vmemTy0_0 i
  | 1 => vmemTy0_1 i
  | _ => ⟨S20000x74, .f32⟩

abbrev bufTy : (tb : Table) → Fin (tcTables nBuf tb) → BufTy
  | .hbm, ⟨i, _⟩ => hbmTy i
  | .local _ .vmem, ⟨i, _⟩ => vmemTy i
  | _, _ => ⟨S20000x74, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 136 → Bool
  | ⟨i, _⟩ => dmaSemScopedAt i

abbrev sig : RefSig :=
  ofTc nBuf bufTy 0 136 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_cst_4 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_5 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_7 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31_0 : Ref sig .tc := ⟨.hbm, 56, rfl⟩
abbrev main_v31_1 : Ref sig .tc := ⟨.hbm, 57, rfl⟩
abbrev main_c_8 : Ref sig .tc := ⟨.hbm, 58, rfl⟩
abbrev main_v32 : Ref sig .tc := ⟨.hbm, 59, rfl⟩
abbrev main_v33 : Ref sig .tc := ⟨.hbm, 60, rfl⟩
abbrev main_c_9 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_10 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46_0 : Ref sig .tc := ⟨.hbm, 75, rfl⟩
abbrev main_v46_1 : Ref sig .tc := ⟨.hbm, 76, rfl⟩
abbrev main_c_11 : Ref sig .tc := ⟨.hbm, 77, rfl⟩
abbrev main_v47 : Ref sig .tc := ⟨.hbm, 78, rfl⟩
abbrev main_v48 : Ref sig .tc := ⟨.hbm, 79, rfl⟩
abbrev main_c_12 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_13 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61_0 : Ref sig .tc := ⟨.hbm, 94, rfl⟩
abbrev main_v61_1 : Ref sig .tc := ⟨.hbm, 95, rfl⟩
abbrev main_c_14 : Ref sig .tc := ⟨.hbm, 96, rfl⟩
abbrev main_v62 : Ref sig .tc := ⟨.hbm, 97, rfl⟩
abbrev main_v63 : Ref sig .tc := ⟨.hbm, 98, rfl⟩
abbrev main_c_15 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_16 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76_0 : Ref sig .tc := ⟨.hbm, 113, rfl⟩
abbrev main_v76_1 : Ref sig .tc := ⟨.hbm, 114, rfl⟩
abbrev main_c_17 : Ref sig .tc := ⟨.hbm, 115, rfl⟩
abbrev main_v77 : Ref sig .tc := ⟨.hbm, 116, rfl⟩
abbrev main_v78 : Ref sig .tc := ⟨.hbm, 117, rfl⟩
abbrev main_c_18 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_19 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91_0 : Ref sig .tc := ⟨.hbm, 132, rfl⟩
abbrev main_v91_1 : Ref sig .tc := ⟨.hbm, 133, rfl⟩
abbrev main_c_20 : Ref sig .tc := ⟨.hbm, 134, rfl⟩
abbrev main_v92 : Ref sig .tc := ⟨.hbm, 135, rfl⟩
abbrev main_v93 : Ref sig .tc := ⟨.hbm, 136, rfl⟩
abbrev main_c_21 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_22 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106_0 : Ref sig .tc := ⟨.hbm, 151, rfl⟩
abbrev main_v106_1 : Ref sig .tc := ⟨.hbm, 152, rfl⟩
abbrev main_c_23 : Ref sig .tc := ⟨.hbm, 153, rfl⟩
abbrev main_v107 : Ref sig .tc := ⟨.hbm, 154, rfl⟩
abbrev main_v108 : Ref sig .tc := ⟨.hbm, 155, rfl⟩
abbrev main_c_24 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_25 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121_0 : Ref sig .tc := ⟨.hbm, 170, rfl⟩
abbrev main_v121_1 : Ref sig .tc := ⟨.hbm, 171, rfl⟩
abbrev main_c_26 : Ref sig .tc := ⟨.hbm, 172, rfl⟩
abbrev main_v122 : Ref sig .tc := ⟨.hbm, 173, rfl⟩
abbrev main_v123 : Ref sig .tc := ⟨.hbm, 174, rfl⟩
abbrev main_c_27 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_28 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136_0 : Ref sig .tc := ⟨.hbm, 189, rfl⟩
abbrev main_v136_1 : Ref sig .tc := ⟨.hbm, 190, rfl⟩
abbrev main_c_29 : Ref sig .tc := ⟨.hbm, 191, rfl⟩
abbrev main_v137 : Ref sig .tc := ⟨.hbm, 192, rfl⟩
abbrev main_v138 : Ref sig .tc := ⟨.hbm, 193, rfl⟩
abbrev main_c_30 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_cst_31 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151_0 : Ref sig .tc := ⟨.hbm, 208, rfl⟩
abbrev main_v151_1 : Ref sig .tc := ⟨.hbm, 209, rfl⟩
abbrev main_c_32 : Ref sig .tc := ⟨.hbm, 210, rfl⟩
abbrev main_v152 : Ref sig .tc := ⟨.hbm, 211, rfl⟩
abbrev main_v153 : Ref sig .tc := ⟨.hbm, 212, rfl⟩
abbrev main_c_33 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_cst_34 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166_0 : Ref sig .tc := ⟨.hbm, 227, rfl⟩
abbrev main_v166_1 : Ref sig .tc := ⟨.hbm, 228, rfl⟩
abbrev main_c_35 : Ref sig .tc := ⟨.hbm, 229, rfl⟩
abbrev main_v167 : Ref sig .tc := ⟨.hbm, 230, rfl⟩
abbrev main_v168 : Ref sig .tc := ⟨.hbm, 231, rfl⟩
abbrev main_c_36 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_cst_37 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_cst_38 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_cst_39 : Ref sig .tc := ⟨.hbm, 251, rfl⟩
abbrev main_v185 : Ref sig .tc := ⟨.hbm, 252, rfl⟩
abbrev main_cst_40 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_cst_41 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg5_0 : Ref sig .tc := ⟨.vmem, 56, rfl⟩
abbrev cc4_stg5_1 : Ref sig .tc := ⟨.vmem, 57, rfl⟩
abbrev cc4_stg6_0 : Ref sig .tc := ⟨.vmem, 58, rfl⟩
abbrev cc4_stg6_1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg1_1 : Ref sig .tc := ⟨.vmem, 63, rfl⟩
abbrev cc5_stg2_0 : Ref sig .tc := ⟨.vmem, 64, rfl⟩
abbrev cc5_stg2_1 : Ref sig .tc := ⟨.vmem, 65, rfl⟩
abbrev cc5_stg3_0 : Ref sig .tc := ⟨.vmem, 66, rfl⟩
abbrev cc5_stg4_0 : Ref sig .tc := ⟨.vmem, 67, rfl⟩
abbrev cc5_stg5_0 : Ref sig .tc := ⟨.vmem, 68, rfl⟩
abbrev cc5_stg5_1 : Ref sig .tc := ⟨.vmem, 69, rfl⟩
abbrev cc5_stg6_0 : Ref sig .tc := ⟨.vmem, 70, rfl⟩
abbrev cc5_stg6_1 : Ref sig .tc := ⟨.vmem, 71, rfl⟩
abbrev cc6_stg0_0 : Ref sig .tc := ⟨.vmem, 72, rfl⟩
abbrev cc6_stg0_1 : Ref sig .tc := ⟨.vmem, 73, rfl⟩
abbrev cc6_stg1_0 : Ref sig .tc := ⟨.vmem, 74, rfl⟩
abbrev cc6_stg1_1 : Ref sig .tc := ⟨.vmem, 75, rfl⟩
abbrev cc6_stg2_0 : Ref sig .tc := ⟨.vmem, 76, rfl⟩
abbrev cc6_stg2_1 : Ref sig .tc := ⟨.vmem, 77, rfl⟩
abbrev cc6_stg3_0 : Ref sig .tc := ⟨.vmem, 78, rfl⟩
abbrev cc6_stg4_0 : Ref sig .tc := ⟨.vmem, 79, rfl⟩
abbrev cc6_stg5_0 : Ref sig .tc := ⟨.vmem, 80, rfl⟩
abbrev cc6_stg5_1 : Ref sig .tc := ⟨.vmem, 81, rfl⟩
abbrev cc6_stg6_0 : Ref sig .tc := ⟨.vmem, 82, rfl⟩
abbrev cc6_stg6_1 : Ref sig .tc := ⟨.vmem, 83, rfl⟩
abbrev cc7_stg0_0 : Ref sig .tc := ⟨.vmem, 84, rfl⟩
abbrev cc7_stg0_1 : Ref sig .tc := ⟨.vmem, 85, rfl⟩
abbrev cc7_stg1_0 : Ref sig .tc := ⟨.vmem, 86, rfl⟩
abbrev cc7_stg1_1 : Ref sig .tc := ⟨.vmem, 87, rfl⟩
abbrev cc7_stg2_0 : Ref sig .tc := ⟨.vmem, 88, rfl⟩
abbrev cc7_stg2_1 : Ref sig .tc := ⟨.vmem, 89, rfl⟩
abbrev cc7_stg3_0 : Ref sig .tc := ⟨.vmem, 90, rfl⟩
abbrev cc7_stg4_0 : Ref sig .tc := ⟨.vmem, 91, rfl⟩
abbrev cc7_stg5_0 : Ref sig .tc := ⟨.vmem, 92, rfl⟩
abbrev cc7_stg5_1 : Ref sig .tc := ⟨.vmem, 93, rfl⟩
abbrev cc7_stg6_0 : Ref sig .tc := ⟨.vmem, 94, rfl⟩
abbrev cc7_stg6_1 : Ref sig .tc := ⟨.vmem, 95, rfl⟩
abbrev cc8_stg0_0 : Ref sig .tc := ⟨.vmem, 96, rfl⟩
abbrev cc8_stg0_1 : Ref sig .tc := ⟨.vmem, 97, rfl⟩
abbrev cc8_stg1_0 : Ref sig .tc := ⟨.vmem, 98, rfl⟩
abbrev cc8_stg1_1 : Ref sig .tc := ⟨.vmem, 99, rfl⟩
abbrev cc8_stg2_0 : Ref sig .tc := ⟨.vmem, 100, rfl⟩
abbrev cc8_stg2_1 : Ref sig .tc := ⟨.vmem, 101, rfl⟩
abbrev cc8_stg3_0 : Ref sig .tc := ⟨.vmem, 102, rfl⟩
abbrev cc8_stg4_0 : Ref sig .tc := ⟨.vmem, 103, rfl⟩
abbrev cc8_stg5_0 : Ref sig .tc := ⟨.vmem, 104, rfl⟩
abbrev cc8_stg5_1 : Ref sig .tc := ⟨.vmem, 105, rfl⟩
abbrev cc8_stg6_0 : Ref sig .tc := ⟨.vmem, 106, rfl⟩
abbrev cc8_stg6_1 : Ref sig .tc := ⟨.vmem, 107, rfl⟩
abbrev cc9_stg0_0 : Ref sig .tc := ⟨.vmem, 108, rfl⟩
abbrev cc9_stg0_1 : Ref sig .tc := ⟨.vmem, 109, rfl⟩
abbrev cc9_stg1_0 : Ref sig .tc := ⟨.vmem, 110, rfl⟩
abbrev cc9_stg1_1 : Ref sig .tc := ⟨.vmem, 111, rfl⟩
abbrev cc9_stg2_0 : Ref sig .tc := ⟨.vmem, 112, rfl⟩
abbrev cc9_stg2_1 : Ref sig .tc := ⟨.vmem, 113, rfl⟩
abbrev cc9_stg3_0 : Ref sig .tc := ⟨.vmem, 114, rfl⟩
abbrev cc9_stg4_0 : Ref sig .tc := ⟨.vmem, 115, rfl⟩
abbrev cc9_stg5_0 : Ref sig .tc := ⟨.vmem, 116, rfl⟩
abbrev cc9_stg5_1 : Ref sig .tc := ⟨.vmem, 117, rfl⟩
abbrev cc9_stg6_0 : Ref sig .tc := ⟨.vmem, 118, rfl⟩
abbrev cc9_stg6_1 : Ref sig .tc := ⟨.vmem, 119, rfl⟩
abbrev cc10_stg0_0 : Ref sig .tc := ⟨.vmem, 120, rfl⟩
abbrev cc10_stg0_1 : Ref sig .tc := ⟨.vmem, 121, rfl⟩
abbrev cc10_stg1_0 : Ref sig .tc := ⟨.vmem, 122, rfl⟩
abbrev cc10_stg1_1 : Ref sig .tc := ⟨.vmem, 123, rfl⟩
abbrev cc10_stg2_0 : Ref sig .tc := ⟨.vmem, 124, rfl⟩
abbrev cc10_stg3_0 : Ref sig .tc := ⟨.vmem, 125, rfl⟩
abbrev cc10_stg4_0 : Ref sig .tc := ⟨.vmem, 126, rfl⟩
abbrev cc10_stg4_1 : Ref sig .tc := ⟨.vmem, 127, rfl⟩
abbrev cc11_stg0_0 : Ref sig .tc := ⟨.vmem, 128, rfl⟩
abbrev cc11_stg1_0 : Ref sig .tc := ⟨.vmem, 129, rfl⟩
abbrev cc11_stg2_0 : Ref sig .tc := ⟨.vmem, 130, rfl⟩
abbrev cc11_stg3_0 : Ref sig .tc := ⟨.vmem, 131, rfl⟩
abbrev cc11_stg4_0 : Ref sig .tc := ⟨.vmem, 132, rfl⟩
abbrev cc11_stg5_0 : Ref sig .tc := ⟨.vmem, 133, rfl⟩
abbrev cc11_stg6_0 : Ref sig .tc := ⟨.vmem, 134, rfl⟩
abbrev cc11_stg7_0 : Ref sig .tc := ⟨.vmem, 135, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem5_1 : DmaSem sig := 45
abbrev cc3_sem6_0 : DmaSem sig := 46
abbrev cc3_sem6_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem4_0 : DmaSem sig := 55
abbrev cc4_sem5_0 : DmaSem sig := 56
abbrev cc4_sem5_1 : DmaSem sig := 57
abbrev cc4_sem6_0 : DmaSem sig := 58
abbrev cc4_sem6_1 : DmaSem sig := 59
abbrev cc5_sem0_0 : DmaSem sig := 60
abbrev cc5_sem0_1 : DmaSem sig := 61
abbrev cc5_sem1_0 : DmaSem sig := 62
abbrev cc5_sem1_1 : DmaSem sig := 63
abbrev cc5_sem2_0 : DmaSem sig := 64
abbrev cc5_sem2_1 : DmaSem sig := 65
abbrev cc5_sem3_0 : DmaSem sig := 66
abbrev cc5_sem4_0 : DmaSem sig := 67
abbrev cc5_sem5_0 : DmaSem sig := 68
abbrev cc5_sem5_1 : DmaSem sig := 69
abbrev cc5_sem6_0 : DmaSem sig := 70
abbrev cc5_sem6_1 : DmaSem sig := 71
abbrev cc6_sem0_0 : DmaSem sig := 72
abbrev cc6_sem0_1 : DmaSem sig := 73
abbrev cc6_sem1_0 : DmaSem sig := 74
abbrev cc6_sem1_1 : DmaSem sig := 75
abbrev cc6_sem2_0 : DmaSem sig := 76
abbrev cc6_sem2_1 : DmaSem sig := 77
abbrev cc6_sem3_0 : DmaSem sig := 78
abbrev cc6_sem4_0 : DmaSem sig := 79
abbrev cc6_sem5_0 : DmaSem sig := 80
abbrev cc6_sem5_1 : DmaSem sig := 81
abbrev cc6_sem6_0 : DmaSem sig := 82
abbrev cc6_sem6_1 : DmaSem sig := 83
abbrev cc7_sem0_0 : DmaSem sig := 84
abbrev cc7_sem0_1 : DmaSem sig := 85
abbrev cc7_sem1_0 : DmaSem sig := 86
abbrev cc7_sem1_1 : DmaSem sig := 87
abbrev cc7_sem2_0 : DmaSem sig := 88
abbrev cc7_sem2_1 : DmaSem sig := 89
abbrev cc7_sem3_0 : DmaSem sig := 90
abbrev cc7_sem4_0 : DmaSem sig := 91
abbrev cc7_sem5_0 : DmaSem sig := 92
abbrev cc7_sem5_1 : DmaSem sig := 93
abbrev cc7_sem6_0 : DmaSem sig := 94
abbrev cc7_sem6_1 : DmaSem sig := 95
abbrev cc8_sem0_0 : DmaSem sig := 96
abbrev cc8_sem0_1 : DmaSem sig := 97
abbrev cc8_sem1_0 : DmaSem sig := 98
abbrev cc8_sem1_1 : DmaSem sig := 99
abbrev cc8_sem2_0 : DmaSem sig := 100
abbrev cc8_sem2_1 : DmaSem sig := 101
abbrev cc8_sem3_0 : DmaSem sig := 102
abbrev cc8_sem4_0 : DmaSem sig := 103
abbrev cc8_sem5_0 : DmaSem sig := 104
abbrev cc8_sem5_1 : DmaSem sig := 105
abbrev cc8_sem6_0 : DmaSem sig := 106
abbrev cc8_sem6_1 : DmaSem sig := 107
abbrev cc9_sem0_0 : DmaSem sig := 108
abbrev cc9_sem0_1 : DmaSem sig := 109
abbrev cc9_sem1_0 : DmaSem sig := 110
abbrev cc9_sem1_1 : DmaSem sig := 111
abbrev cc9_sem2_0 : DmaSem sig := 112
abbrev cc9_sem2_1 : DmaSem sig := 113
abbrev cc9_sem3_0 : DmaSem sig := 114
abbrev cc9_sem4_0 : DmaSem sig := 115
abbrev cc9_sem5_0 : DmaSem sig := 116
abbrev cc9_sem5_1 : DmaSem sig := 117
abbrev cc9_sem6_0 : DmaSem sig := 118
abbrev cc9_sem6_1 : DmaSem sig := 119
abbrev cc10_sem0_0 : DmaSem sig := 120
abbrev cc10_sem0_1 : DmaSem sig := 121
abbrev cc10_sem1_0 : DmaSem sig := 122
abbrev cc10_sem1_1 : DmaSem sig := 123
abbrev cc10_sem2_0 : DmaSem sig := 124
abbrev cc10_sem3_0 : DmaSem sig := 125
abbrev cc10_sem4_0 : DmaSem sig := 126
abbrev cc10_sem4_1 : DmaSem sig := 127
abbrev cc11_sem0_0 : DmaSem sig := 128
abbrev cc11_sem1_0 : DmaSem sig := 129
abbrev cc11_sem2_0 : DmaSem sig := 130
abbrev cc11_sem3_0 : DmaSem sig := 131
abbrev cc11_sem4_0 : DmaSem sig := 132
abbrev cc11_sem5_0 : DmaSem sig := 133
abbrev cc11_sem6_0 : DmaSem sig := 134
abbrev cc11_sem7_0 : DmaSem sig := 135

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x74 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S74x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x256 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2000x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x256 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S2000x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S256x256 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S2000x256 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S256x256 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S2000x256 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S256x256 .bf16 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S2000x256 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S256x256 .bf16 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x256 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S2000x256 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S256x256 .bf16 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S2000x256 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 1 → Memref sig .tc .vmem S64x256 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false]

abbrev stage11_1 : Fin 1 → Memref sig .tc .vmem S256x1024 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1024 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1024x512 .bf16 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S512 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S512x1 .bf16 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S64x1 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

class Facts₀ : Prop where
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  shapeCasts_S20000_S20000x1 : S20000.ShapeCasts S20000x1
  bitsLt_bf16_f32 : FTy.bits .bf16 < FTy.bits .f32
  bcast_S20000x1_S20000x74_0_1 : S20000x1.BroadcastsInDim S20000x74 (![0, 1] : Fin 2 → Fin S20000x74.rank)
  bcast_S_S20000x74 : S_.BroadcastsInDim S20000x74 (![] : Fin 0 → Fin S20000x74.rank)
  inb_S2000x74_S2000x74_0_0 : ∀ a, (![0, 0] : Fin 2 → Nat) a + S2000x74.size a ≤ S2000x74.size a
  h_S2000x74 : 0 < S2000x74.numel
  shapeCasts_S2000x74_S2000x74 : S2000x74.ShapeCasts S2000x74
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x74 : S2000x1.Broadcasts S2000x74
  inb_S74x256_S74x256_0_0 : ∀ a, (![0, 0] : Fin 2 → Nat) a + S74x256.size a ≤ S74x256.size a
  h_S74x256 : 0 < S74x256.numel
  shapeCasts_S74x256_S74x256 : S74x256.ShapeCasts S74x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  broadcasts_S2000x1_S2000x256 : S2000x1.Broadcasts S2000x256
  bcast_S_S20000x256 : S_.BroadcastsInDim S20000x256 (![] : Fin 0 → Fin S20000x256.rank)
  slices_S10x256x256_S1x256x256_0_0_0 : S10x256x256.Slices ![0, 0, 0] S1x256x256
  shapeCasts_S1x256x256_S256x256 : S1x256x256.ShapeCasts S256x256
  slices_S10x256_S1x256_0_0 : S10x256.Slices ![0, 0] S1x256
  shapeCasts_S1x256_S256 : S1x256.ShapeCasts S256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256_S256 : S256.ShapeCasts S256
  slices_S10x256x256_S1x256x256_1_0_0 : S10x256x256.Slices ![1, 0, 0] S1x256x256
  slices_S10x256_S1x256_1_0 : S10x256.Slices ![1, 0] S1x256
  slices_S10x256x256_S1x256x256_2_0_0 : S10x256x256.Slices ![2, 0, 0] S1x256x256
  slices_S10x256_S1x256_2_0 : S10x256.Slices ![2, 0] S1x256
  slices_S10x256x256_S1x256x256_3_0_0 : S10x256x256.Slices ![3, 0, 0] S1x256x256
  slices_S10x256_S1x256_3_0 : S10x256.Slices ![3, 0] S1x256
  slices_S10x256x256_S1x256x256_4_0_0 : S10x256x256.Slices ![4, 0, 0] S1x256x256
  slices_S10x256_S1x256_4_0 : S10x256.Slices ![4, 0] S1x256
  slices_S10x256x256_S1x256x256_5_0_0 : S10x256x256.Slices ![5, 0, 0] S1x256x256
  slices_S10x256_S1x256_5_0 : S10x256.Slices ![5, 0] S1x256
  slices_S10x256x256_S1x256x256_6_0_0 : S10x256x256.Slices ![6, 0, 0] S1x256x256
  slices_S10x256_S1x256_6_0 : S10x256.Slices ![6, 0] S1x256
  slices_S10x256x256_S1x256x256_7_0_0 : S10x256x256.Slices ![7, 0, 0] S1x256x256
  slices_S10x256_S1x256_7_0 : S10x256.Slices ![7, 0] S1x256
  slices_S10x256x256_S1x256x256_8_0_0 : S10x256x256.Slices ![8, 0, 0] S1x256x256
  slices_S10x256_S1x256_8_0 : S10x256.Slices ![8, 0] S1x256
  slices_S10x256x256_S1x256x256_9_0_0 : S10x256x256.Slices ![9, 0, 0] S1x256x256
  slices_S10x256_S1x256_9_0 : S10x256.Slices ![9, 0] S1x256
  bcast_S_S64x256 : S_.BroadcastsInDim S64x256 (![] : Fin 0 → Fin S64x256.rank)
  bcast_S20000_S20000x1_0 : S20000.BroadcastsInDim S20000x1 (![0] : Fin 1 → Fin S20000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  concatenates_S64x256_S64x0_S64x256_d1 : Shape.Concatenates [S64x256, S64x0] S64x256 1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S64x1024 : S1x1024.Broadcasts S64x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1_S1_0 : ∀ a, (![0] : Fin 1 → Nat) a + S1.size a ≤ S1.size a
  h_S1 : 0 < S1.numel
  shapeCasts_S1_S1x1 : S1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  shapeCasts_S64x1_S64 : S64x1.ShapeCasts S64
  scatter_S20000_S320000x1_S320000_n_0_0_1_wf : ScatterDims.WF S20000 S320000x1 S320000 [] [0] [0] 1
  gather_S20000x74_S320000x1_S320000x74_1_0_n_n_0_1_174_wf : GatherDims.WF S20000x74 S320000x1 S320000x74 [1] [0] [] [0] [] 1 ![1, 74]
  scatter_S20000x74_S320000x1_S320000x74_1_0_0_1_wf : ScatterDims.WF S20000x74 S320000x1 S320000x74 [1] [0] [0] 1
  dot_S2000x74_S74x256_S2000x256_1_0_0_1_n_n_wf : DotDims.WF S2000x74 S74x256 S2000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S2000x256_S256x256_S2000x256_1_0_0_1_n_n_wf : DotDims.WF S2000x256 S256x256 S2000x256 [1] [0] [0] [1] [] []
  scatter_S64x256_S20000x1_S20000x256_1_0_0_1_wf : ScatterDims.WF S64x256 S20000x1 S20000x256 [1] [0] [0] 1
  scatter_S64_S20000x1_S20000_n_0_0_1_wf : ScatterDims.WF S64 S20000x1 S20000 [] [0] [0] 1
  dot_S64x256_S256x1024_S64x1024_1_0_0_1_n_n_wf : DotDims.WF S64x256 S256x1024 S64x1024 [1] [0] [0] [1] [] []
  dot_S64x1024_S1024x512_S64x512_1_0_0_1_n_n_wf : DotDims.WF S64x1024 S1024x512 S64x512 [1] [0] [0] [1] [] []
  dot_S64x512_S512x1_S64x1_1_0_0_1_n_n_wf : DotDims.WF S64x512 S512x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x74.size a ≤ S20000x74.size a
  hwx0_0 : ∀ i : grid0.Coords, EltTy.bits .f32 = 32 ∨ (Rect.block (s := S20000x74) S2000x74.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S20000x1.size a
  hwx0_1 : ∀ i : grid0.Coords, EltTy.bits .f32 = 32 ∨ (Rect.block (s := S20000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S20000x1.size a
  hwx0_2 : ∀ i : grid0.Coords, EltTy.bits .f32 = 32 ∨ (Rect.block (s := S20000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S74x256.size a ≤ S74x256.size a
  hwx0_3 : ∀ i : grid0.Coords, EltTy.bits .bf16 = 32 ∨ (Rect.block (s := S74x256) S74x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S20000x256.size a
  hwx0_5 : ∀ i : grid0.Coords, EltTy.bits .f32 = 32 ∨ (Rect.block (s := S20000x256) S2000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S20000x256.size a
  hwx0_6 : ∀ i : grid0.Coords, EltTy.bits .f32 = 32 ∨ (Rect.block (s := S20000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S20000x1.size a
  hwx1_1 : ∀ i : grid1.Coords, EltTy.bits .f32 = 32 ∨ (Rect.block (s := S20000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S20000x1.size a
  hwx1_2 : ∀ i : grid1.Coords, EltTy.bits .f32 = 32 ∨ (Rect.block (s := S20000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S20000x256.size a
  hwx1_5 : ∀ i : grid1.Coords, EltTy.bits .f32 = 32 ∨ (Rect.block (s := S20000x256) S2000x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S20000x256.size a
  hwx1_6 : ∀ i : grid1.Coords, EltTy.bits .f32 = 32 ∨ (Rect.block (s := S20000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S20000x1.size a
  hwx2_1 : ∀ i : grid2.Coords, EltTy.bits .f32 = 32 ∨ (Rect.block (s := S20000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S20000x1.size a
  hwx2_2 : ∀ i : grid2.Coords, EltTy.bits .f32 = 32 ∨ (Rect.block (s := S20000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S20000x256.size a
  hwx2_5 : ∀ i : grid2.Coords, EltTy.bits .f32 = 32 ∨ (Rect.block (s := S20000x256) S2000x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S20000x256.size a
  hwx2_6 : ∀ i : grid2.Coords, EltTy.bits .f32 = 32 ∨ (Rect.block (s := S20000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S20000x1.size a
  hwx3_1 : ∀ i : grid3.Coords, EltTy.bits .f32 = 32 ∨ (Rect.block (s := S20000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S20000x1.size a
  hwx3_2 : ∀ i : grid3.Coords, EltTy.bits .f32 = 32 ∨ (Rect.block (s := S20000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .bf16 = 32 ∨ (Rect.block (s := S256x256) S256x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S20000x256.size a
  hwx3_5 : ∀ i : grid3.Coords, EltTy.bits .f32 = 32 ∨ (Rect.block (s := S20000x256) S2000x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S20000x256.size a
  hwx3_6 : ∀ i : grid3.Coords, EltTy.bits .f32 = 32 ∨ (Rect.block (s := S20000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S20000x1.size a
  hwx4_1 : ∀ i : grid4.Coords, EltTy.bits .f32 = 32 ∨ (Rect.block (s := S20000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S20000x1.size a
  hwx4_2 : ∀ i : grid4.Coords, EltTy.bits .f32 = 32 ∨ (Rect.block (s := S20000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .bf16 = 32 ∨ (Rect.block (s := S256x256) S256x256.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256.size a ≤ S256.size a
  hwx4_4 : ∀ i : grid4.Coords, EltTy.bits .f32 = 32 ∨ (Rect.block (s := S256) S256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S20000x256.size a
  hwx4_5 : ∀ i : grid4.Coords, EltTy.bits .f32 = 32 ∨ (Rect.block (s := S20000x256) S2000x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x256.size a ≤ S20000x256.size a
  hwx4_6 : ∀ i : grid4.Coords, EltTy.bits .f32 = 32 ∨ (Rect.block (s := S20000x256) S2000x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S20000x256.size a
  hwx5_0 : ∀ i : grid5.Coords, EltTy.bits .f32 = 32 ∨ (Rect.block (s := S20000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S20000x1.size a
  hwx5_1 : ∀ i : grid5.Coords, EltTy.bits .f32 = 32 ∨ (Rect.block (s := S20000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S20000x1.size a
  hwx5_2 : ∀ i : grid5.Coords, EltTy.bits .f32 = 32 ∨ (Rect.block (s := S20000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .bf16 = 32 ∨ (Rect.block (s := S256x256) S256x256.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256.size a ≤ S256.size a
  hwx5_4 : ∀ i : grid5.Coords, EltTy.bits .f32 = 32 ∨ (Rect.block (s := S256) S256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S20000x256.size a
  hwx5_5 : ∀ i : grid5.Coords, EltTy.bits .f32 = 32 ∨ (Rect.block (s := S20000x256) S2000x256.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x256.size a ≤ S20000x256.size a
  hwx5_6 : ∀ i : grid5.Coords, EltTy.bits .f32 = 32 ∨ (Rect.block (s := S20000x256) S2000x256.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S20000x256.size a
  hwx6_0 : ∀ i : grid6.Coords, EltTy.bits .f32 = 32 ∨ (Rect.block (s := S20000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S20000x1.size a
  hwx6_1 : ∀ i : grid6.Coords, EltTy.bits .f32 = 32 ∨ (Rect.block (s := S20000x1) S2000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S20000x1.size a
  hwx6_2 : ∀ i : grid6.Coords, EltTy.bits .f32 = 32 ∨ (Rect.block (s := S20000x1) S2000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .bf16 = 32 ∨ (Rect.block (s := S256x256) S256x256.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256.size a ≤ S256.size a
  hwx6_4 : ∀ i : grid6.Coords, EltTy.bits .f32 = 32 ∨ (Rect.block (s := S256) S256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x256.size a ≤ S20000x256.size a
  hwx6_5 : ∀ i : grid6.Coords, EltTy.bits .f32 = 32 ∨ (Rect.block (s := S20000x256) S2000x256.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x256.size a ≤ S20000x256.size a
  hwx6_6 : ∀ i : grid6.Coords, EltTy.bits .f32 = 32 ∨ (Rect.block (s := S20000x256) S2000x256.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S20000x256.size a
  hwx7_0 : ∀ i : grid7.Coords, EltTy.bits .f32 = 32 ∨ (Rect.block (s := S20000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S20000x1.size a
  hwx7_1 : ∀ i : grid7.Coords, EltTy.bits .f32 = 32 ∨ (Rect.block (s := S20000x1) S2000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S20000x1.size a
  hwx7_2 : ∀ i : grid7.Coords, EltTy.bits .f32 = 32 ∨ (Rect.block (s := S20000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x256.size a ≤ S256x256.size a
  hwx7_3 : ∀ i : grid7.Coords, EltTy.bits .bf16 = 32 ∨ (Rect.block (s := S256x256) S256x256.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S256.size a ≤ S256.size a
  hwx7_4 : ∀ i : grid7.Coords, EltTy.bits .f32 = 32 ∨ (Rect.block (s := S256) S256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x256.size a ≤ S20000x256.size a
  hwx7_5 : ∀ i : grid7.Coords, EltTy.bits .f32 = 32 ∨ (Rect.block (s := S20000x256) S2000x256.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x256.size a ≤ S20000x256.size a
  hwx7_6 : ∀ i : grid7.Coords, EltTy.bits .f32 = 32 ∨ (Rect.block (s := S20000x256) S2000x256.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x256.size a ≤ S20000x256.size a
  hwx8_0 : ∀ i : grid8.Coords, EltTy.bits .f32 = 32 ∨ (Rect.block (s := S20000x256) S2000x256.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x1.size a ≤ S20000x1.size a
  hwx8_1 : ∀ i : grid8.Coords, EltTy.bits .f32 = 32 ∨ (Rect.block (s := S20000x1) S2000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x1.size a ≤ S20000x1.size a
  hwx8_2 : ∀ i : grid8.Coords, EltTy.bits .f32 = 32 ∨ (Rect.block (s := S20000x1) S2000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x256.size a ≤ S256x256.size a
  hwx8_3 : ∀ i : grid8.Coords, EltTy.bits .bf16 = 32 ∨ (Rect.block (s := S256x256) S256x256.size (cc8_transform_3 i) (hinb8_3 i)).WholeWords (EltTy.packing .bf16)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S256.size a ≤ S256.size a
  hwx8_4 : ∀ i : grid8.Coords, EltTy.bits .f32 = 32 ∨ (Rect.block (s := S256) S256.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x256.size a ≤ S20000x256.size a
  hwx8_5 : ∀ i : grid8.Coords, EltTy.bits .f32 = 32 ∨ (Rect.block (s := S20000x256) S2000x256.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S2000x256.size a ≤ S20000x256.size a
  hwx8_6 : ∀ i : grid8.Coords, EltTy.bits .f32 = 32 ∨ (Rect.block (s := S20000x256) S2000x256.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x256.size a ≤ S20000x256.size a
  hwx9_0 : ∀ i : grid9.Coords, EltTy.bits .f32 = 32 ∨ (Rect.block (s := S20000x256) S2000x256.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x1.size a ≤ S20000x1.size a
  hwx9_1 : ∀ i : grid9.Coords, EltTy.bits .f32 = 32 ∨ (Rect.block (s := S20000x1) S2000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x1.size a ≤ S20000x1.size a
  hwx9_2 : ∀ i : grid9.Coords, EltTy.bits .f32 = 32 ∨ (Rect.block (s := S20000x1) S2000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S256x256.size a ≤ S256x256.size a
  hwx9_3 : ∀ i : grid9.Coords, EltTy.bits .bf16 = 32 ∨ (Rect.block (s := S256x256) S256x256.size (cc9_transform_3 i) (hinb9_3 i)).WholeWords (EltTy.packing .bf16)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S256.size a ≤ S256.size a
  hwx9_4 : ∀ i : grid9.Coords, EltTy.bits .f32 = 32 ∨ (Rect.block (s := S256) S256.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x256.size a ≤ S20000x256.size a
  hwx9_5 : ∀ i : grid9.Coords, EltTy.bits .f32 = 32 ∨ (Rect.block (s := S20000x256) S2000x256.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S2000x256.size a ≤ S20000x256.size a
  hwx9_6 : ∀ i : grid9.Coords, EltTy.bits .f32 = 32 ∨ (Rect.block (s := S20000x256) S2000x256.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x256.size a ≤ S20000x256.size a
  hwx10_0 : ∀ i : grid10.Coords, EltTy.bits .f32 = 32 ∨ (Rect.block (s := S20000x256) S2000x256.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x1.size a ≤ S20000x1.size a
  hwx10_1 : ∀ i : grid10.Coords, EltTy.bits .f32 = 32 ∨ (Rect.block (s := S20000x1) S2000x1.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S256x256.size a ≤ S256x256.size a
  hwx10_2 : ∀ i : grid10.Coords, EltTy.bits .bf16 = 32 ∨ (Rect.block (s := S256x256) S256x256.size (cc10_transform_2 i) (hinb10_2 i)).WholeWords (EltTy.packing .bf16)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S256.size a ≤ S256.size a
  hwx10_3 : ∀ i : grid10.Coords, EltTy.bits .f32 = 32 ∨ (Rect.block (s := S256) S256.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S2000x256.size a ≤ S20000x256.size a
  hwx10_4 : ∀ i : grid10.Coords, EltTy.bits .f32 = 32 ∨ (Rect.block (s := S20000x256) S2000x256.size (cc10_transform_4 i) (hinb10_4 i)).WholeWords (EltTy.packing .f32)
  hrank11 : 0 < grid11.rank
  hstage11_0 : ∀ j, (stage11_0 j).IsWhole
  nbuf11_0 : grid11.bufCount reads11_0 true = 1
  hreads11_0 : ∀ i i' : grid11.Coords, (∀ a, reads11_0 a = true → i a = i' a) → cc11_transform_0 i = cc11_transform_0 i'
  hinb11_0 : ∀ (i : grid11.Coords) a, (cc11_transform_0 i a + 1) * S64x256.size a ≤ S64x256.size a
  hwx11_0 : ∀ i : grid11.Coords, EltTy.bits .f32 = 32 ∨ (Rect.block (s := S64x256) S64x256.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S256x1024.size a ≤ S256x1024.size a
  hwx11_1 : ∀ i : grid11.Coords, EltTy.bits .bf16 = 32 ∨ (Rect.block (s := S256x1024) S256x1024.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1024.size a ≤ S1024.size a
  hwx11_2 : ∀ i : grid11.Coords, EltTy.bits .f32 = 32 ∨ (Rect.block (s := S1024) S1024.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1024x512.size a ≤ S1024x512.size a
  hwx11_3 : ∀ i : grid11.Coords, EltTy.bits .bf16 = 32 ∨ (Rect.block (s := S1024x512) S1024x512.size (cc11_transform_3 i) (hinb11_3 i)).WholeWords (EltTy.packing .bf16)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S512.size a ≤ S512.size a
  hwx11_4 : ∀ i : grid11.Coords, EltTy.bits .f32 = 32 ∨ (Rect.block (s := S512) S512.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S512x1.size a ≤ S512x1.size a
  hwx11_5 : ∀ i : grid11.Coords, EltTy.bits .bf16 = 32 ∨ (Rect.block (s := S512x1) S512x1.size (cc11_transform_5 i) (hinb11_5 i)).WholeWords (EltTy.packing .bf16)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1.size a ≤ S1.size a
  hwx11_6 : ∀ i : grid11.Coords, EltTy.bits .f32 = 32 ∨ (Rect.block (s := S1) S1.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S64x1.size a ≤ S64x1.size a
  hwx11_7 : ∀ i : grid11.Coords, EltTy.bits .f32 = 32 ∨ (Rect.block (s := S64x1) S64x1.size (cc11_transform_7 i) (hinb11_7 i)).WholeWords (EltTy.packing .f32)

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000x74_S320000x1_S320000x74_1_0_n_n_0_1_174 : GatherDims S20000x74 S320000x1 S320000x74 where
  offsetDims := [1]
  collapsedSliceDims := [0]
  operandBatchingDims := []
  startIndicesBatchingDims := []
  startIndexMap := [0]
  indexVectorDim := 1
  sliceSizes := ![1, 74]
  wf := gather_S20000x74_S320000x1_S320000x74_1_0_n_n_0_1_174_wf
def scatter_S20000x74_S320000x1_S320000x74_1_0_0_1 : ScatterDims S20000x74 S320000x1 S320000x74 where
  updateWindowDims := [1]
  insertedWindowDims := [0]
  scatterDimsToOperandDims := [0]
  indexVectorDim := 1
  wf := scatter_S20000x74_S320000x1_S320000x74_1_0_0_1_wf
def dot_S2000x74_S74x256_S2000x256_1_0_0_1_n_n : DotDims S2000x74 S74x256 S2000x256 where
  lhsContracting := [1]
  rhsContracting := [0]
  lhsNonContracting := [0]
  rhsNonContracting := [1]
  lhsBatch := []
  rhsBatch := []
  wf := dot_S2000x74_S74x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S64x256_S20000x1_S20000x256_1_0_0_1 : ScatterDims S64x256 S20000x1 S20000x256 where
  updateWindowDims := [1]
  insertedWindowDims := [0]
  scatterDimsToOperandDims := [0]
  indexVectorDim := 1
  wf := scatter_S64x256_S20000x1_S20000x256_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def dot_S64x256_S256x1024_S64x1024_1_0_0_1_n_n : DotDims S64x256 S256x1024 S64x1024 where
  lhsContracting := [1]
  rhsContracting := [0]
  lhsNonContracting := [0]
  rhsNonContracting := [1]
  lhsBatch := []
  rhsBatch := []
  wf := dot_S64x256_S256x1024_S64x1024_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S64x512_S512x1_S64x1_1_0_0_1_n_n : DotDims S64x512 S512x1 S64x1 where
  lhsContracting := [1]
  rhsContracting := [0]
  lhsNonContracting := [0]
  rhsNonContracting := [1]
  lhsBatch := []
  rhsBatch := []
  wf := dot_S64x512_S512x1_S64x1_1_0_0_1_n_n_wf

abbrev win0_0 : Pipeline.Window sig grid0 :=
  Pipeline.Window.ofSpec (Memref.whole main_v30) S2000x74.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S74x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v31_1) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v41) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46_0) S2000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v46_1) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v56) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v58) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61_0) S2000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v61_1) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v71) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76_0) S2000x256.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v76_1) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v86) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v88) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v91_0) S2000x256.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v91_1) S2000x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v101) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v16) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v13) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v103) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v105) S256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v106_0) S2000x256.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v106_1) S2000x256.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v116) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v16) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v13) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v118) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v120) S256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v121_0) S2000x256.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v121_1) S2000x256.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v131) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v16) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v13) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v133) S256x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v135) S256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v136_0) S2000x256.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v136_1) S2000x256.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v146) S2000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v16) S2000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v13) S2000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v148) S256x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v150) S256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v151_0) S2000x256.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v151_1) S2000x256.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v161) S2000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v16) S2000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v13) S2000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v163) S256x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v165) S256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v166_0) S2000x256.size cc9_transform_5 reads9_5 true false 2 stage9_5 sem9_5
    hrank9 hreads9_5 hinb9_5 nbuf9_5 (Memref.isWhole_whole _) hwx9_5 hstage9_5

abbrev win9_6 : Pipeline.Window sig grid9 :=
  Pipeline.Window.ofSpec (Memref.whole main_v166_1) S2000x256.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v176) S2000x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v16) S2000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v178) S256x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v180) S256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v181) S2000x256.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v194) S64x256.size cc11_transform_0 reads11_0 false true 1 stage11_0 sem11_0
    hrank11 hreads11_0 hinb11_0 nbuf11_0 (Memref.isWhole_whole _) hwx11_0 hstage11_0

abbrev win11_1 : Pipeline.Window sig grid11 :=
  Pipeline.Window.ofSpec (Memref.whole main_v195) S256x1024.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_arg7) S1024.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v196) S1024x512.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_arg9) S512.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v197) S512x1.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_arg11) S1.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v198) S64x1.size cc11_transform_7 reads11_7 true true 1 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

class Facts : Prop extends Facts₀ where

variable [Facts]
-- ==== ReferenceIdeal.lean ====
abbrev S20000x74 : Shape := ⟨2, ![20000, 74]⟩
abbrev S64x0 : Shape := ⟨2, ![64, 0]⟩
abbrev S74x256 : Shape := ⟨2, ![74, 256]⟩
abbrev S256 : Shape := ⟨1, ![256]⟩
abbrev S10x256x256 : Shape := ⟨3, ![10, 256, 256]⟩
abbrev S10x256 : Shape := ⟨2, ![10, 256]⟩
abbrev S256x1024 : Shape := ⟨2, ![256, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S320000 : Shape := ⟨1, ![320000]⟩
abbrev S20000 : Shape := ⟨1, ![20000]⟩
abbrev S_ : Shape := ⟨0, ![]⟩
abbrev S320000x1 : Shape := ⟨2, ![320000, 1]⟩
abbrev S20000x1 : Shape := ⟨2, ![20000, 1]⟩
abbrev S320000x74 : Shape := ⟨2, ![320000, 74]⟩
abbrev S20000x256 : Shape := ⟨2, ![20000, 256]⟩
abbrev S1x256 : Shape := ⟨2, ![1, 256]⟩
abbrev S1x256x256 : Shape := ⟨3, ![1, 256, 256]⟩
abbrev S256x256 : Shape := ⟨2, ![256, 256]⟩
abbrev S320000x256 : Shape := ⟨2, ![320000, 256]⟩
abbrev S64x256 : Shape := ⟨2, ![64, 256]⟩
abbrev S64 : Shape := ⟨1, ![64]⟩
abbrev S64x1 : Shape := ⟨2, ![64, 1]⟩
abbrev S64x1024 : Shape := ⟨2, ![64, 1024]⟩
abbrev S1x1024 : Shape := ⟨2, ![1, 1024]⟩
abbrev S64x512 : Shape := ⟨2, ![64, 512]⟩
abbrev S1x512 : Shape := ⟨2, ![1, 512]⟩
abbrev S1x1 : Shape := ⟨2, ![1, 1]⟩

abbrev nBuf : Space → Nat
  | .hbm => 404
  | .vmem => 0
  | .smem => 0
  | _ => 0

abbrev hbmTy0_0 (i : Nat) : BufTy := match i % 128 with
  | 0 => ⟨S20000x74, .f32⟩
  | 1 => ⟨S64x0, .f32⟩
  | 2 => ⟨S74x256, .f32⟩
  | 3 => ⟨S256, .f32⟩
  | 4 => ⟨S10x256x256, .f32⟩
  | 5 => ⟨S10x256, .f32⟩
  | 6 => ⟨S256x1024, .f32⟩
  | 7 => ⟨S1024, .f32⟩
  | 8 => ⟨S1024x512, .f32⟩
  | 9 => ⟨S512, .f32⟩
  | 10 => ⟨S512x1, .f32⟩
  | 11 => ⟨S1, .f32⟩
  | 12 => ⟨S320000, .i32⟩
  | 13 => ⟨S320000, .i32⟩
  | 14 => ⟨S20000, .i32⟩
  | 15 => ⟨S_, .f32⟩
  | 16 => ⟨S320000, .f32⟩
  | 17 => ⟨S_, .f32⟩
  | 18 => ⟨S20000, .f32⟩
  | 19 => ⟨S320000x1, .i32⟩
  | 20 => ⟨S20000, .f32⟩
  | 21 => ⟨S_, .f32⟩
  | 22 => ⟨S20000, .f32⟩
  | 23 => ⟨S20000, .f32⟩
  | 24 => ⟨S_, .f32⟩
  | 25 => ⟨S20000, .f32⟩
  | 26 => ⟨S320000x1, .i32⟩
  | 27 => ⟨S20000, .f32⟩
  | 28 => ⟨S_, .f32⟩
  | 29 => ⟨S20000, .f32⟩
  | 30 => ⟨S20000, .f32⟩
  | 31 => ⟨S_, .f32⟩
  | 32 => ⟨S20000, .f32⟩
  | 33 => ⟨S20000, .f32⟩
  | 34 => ⟨S_, .f32⟩
  | 35 => ⟨S20000, .f32⟩
  | 36 => ⟨S20000, .f32⟩
  | 37 => ⟨S20000x1, .f32⟩
  | 38 => ⟨S20000x74, .f32⟩
  | 39 => ⟨S20000x74, .f32⟩
  | 40 => ⟨S_, .i32⟩
  | 41 => ⟨S320000, .i32⟩
  | 42 => ⟨S320000, .i1⟩
  | 43 => ⟨S_, .i32⟩
  | 44 => ⟨S320000, .i32⟩
  | 45 => ⟨S320000, .i32⟩
  | 46 => ⟨S320000, .i32⟩
  | 47 => ⟨S320000x1, .i32⟩
  | 48 => ⟨S320000x74, .f32⟩
  | 49 => ⟨S_, .f32⟩
  | 50 => ⟨S20000x74, .f32⟩
  | 51 => ⟨S320000x1, .i32⟩
  | 52 => ⟨S20000x74, .f32⟩
  | 53 => ⟨S20000x1, .f32⟩
  | 54 => ⟨S20000x74, .f32⟩
  | 55 => ⟨S20000x74, .f32⟩
  | 56 => ⟨S20000x256, .f32⟩
  | 57 => ⟨S1x256, .f32⟩
  | 58 => ⟨S20000x256, .f32⟩
  | 59 => ⟨S20000x256, .f32⟩
  | 60 => ⟨S1x256x256, .f32⟩
  | 61 => ⟨S256x256, .f32⟩
  | 62 => ⟨S1x256, .f32⟩
  | 63 => ⟨S256, .f32⟩
  | 64 => ⟨S20000x1, .f32⟩
  | 65 => ⟨S20000x256, .f32⟩
  | 66 => ⟨S20000x256, .f32⟩
  | 67 => ⟨S_, .i32⟩
  | 68 => ⟨S320000, .i32⟩
  | 69 => ⟨S320000, .i1⟩
  | 70 => ⟨S_, .i32⟩
  | 71 => ⟨S320000, .i32⟩
  | 72 => ⟨S320000, .i32⟩
  | 73 => ⟨S320000, .i32⟩
  | 74 => ⟨S320000x1, .i32⟩
  | 75 => ⟨S320000x256, .f32⟩
  | 76 => ⟨S_, .f32⟩
  | 77 => ⟨S20000x256, .f32⟩
  | 78 => ⟨S320000x1, .i32⟩
  | 79 => ⟨S20000x256, .f32⟩
  | 80 => ⟨S20000x1, .f32⟩
  | 81 => ⟨S20000x256, .f32⟩
  | 82 => ⟨S20000x256, .f32⟩
  | 83 => ⟨S20000x256, .f32⟩
  | 84 => ⟨S1x256, .f32⟩
  | 85 => ⟨S20000x256, .f32⟩
  | 86 => ⟨S20000x256, .f32⟩
  | 87 => ⟨S_, .f32⟩
  | 88 => ⟨S20000x256, .f32⟩
  | 89 => ⟨S20000x256, .f32⟩
  | 90 => ⟨S1x256x256, .f32⟩
  | 91 => ⟨S256x256, .f32⟩
  | 92 => ⟨S1x256, .f32⟩
  | 93 => ⟨S256, .f32⟩
  | 94 => ⟨S20000x1, .f32⟩
  | 95 => ⟨S20000x256, .f32⟩
  | 96 => ⟨S20000x256, .f32⟩
  | 97 => ⟨S_, .i32⟩
  | 98 => ⟨S320000, .i32⟩
  | 99 => ⟨S320000, .i1⟩
  | 100 => ⟨S_, .i32⟩
  | 101 => ⟨S320000, .i32⟩
  | 102 => ⟨S320000, .i32⟩
  | 103 => ⟨S320000, .i32⟩
  | 104 => ⟨S320000x1, .i32⟩
  | 105 => ⟨S320000x256, .f32⟩
  | 106 => ⟨S_, .f32⟩
  | 107 => ⟨S20000x256, .f32⟩
  | 108 => ⟨S320000x1, .i32⟩
  | 109 => ⟨S20000x256, .f32⟩
  | 110 => ⟨S20000x1, .f32⟩
  | 111 => ⟨S20000x256, .f32⟩
  | 112 => ⟨S20000x256, .f32⟩
  | 113 => ⟨S20000x256, .f32⟩
  | 114 => ⟨S1x256, .f32⟩
  | 115 => ⟨S20000x256, .f32⟩
  | 116 => ⟨S20000x256, .f32⟩
  | 117 => ⟨S_, .f32⟩
  | 118 => ⟨S20000x256, .f32⟩
  | 119 => ⟨S20000x256, .f32⟩
  | 120 => ⟨S1x256x256, .f32⟩
  | 121 => ⟨S256x256, .f32⟩
  | 122 => ⟨S1x256, .f32⟩
  | 123 => ⟨S256, .f32⟩
  | 124 => ⟨S20000x1, .f32⟩
  | 125 => ⟨S20000x256, .f32⟩
  | 126 => ⟨S20000x256, .f32⟩
  | 127 => ⟨S_, .i32⟩
  | _ => ⟨S20000x74, .f32⟩

abbrev hbmTy0_1 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S320000x1, .i32⟩
  | 7 => ⟨S320000x256, .f32⟩
  | 8 => ⟨S_, .f32⟩
  | 9 => ⟨S20000x256, .f32⟩
  | 10 => ⟨S320000x1, .i32⟩
  | 11 => ⟨S20000x256, .f32⟩
  | 12 => ⟨S20000x1, .f32⟩
  | 13 => ⟨S20000x256, .f32⟩
  | 14 => ⟨S20000x256, .f32⟩
  | 15 => ⟨S20000x256, .f32⟩
  | 16 => ⟨S1x256, .f32⟩
  | 17 => ⟨S20000x256, .f32⟩
  | 18 => ⟨S20000x256, .f32⟩
  | 19 => ⟨S_, .f32⟩
  | 20 => ⟨S20000x256, .f32⟩
  | 21 => ⟨S20000x256, .f32⟩
  | 22 => ⟨S1x256x256, .f32⟩
  | 23 => ⟨S256x256, .f32⟩
  | 24 => ⟨S1x256, .f32⟩
  | 25 => ⟨S256, .f32⟩
  | 26 => ⟨S20000x1, .f32⟩
  | 27 => ⟨S20000x256, .f32⟩
  | 28 => ⟨S20000x256, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000x256, .f32⟩
  | 38 => ⟨S_, .f32⟩
  | 39 => ⟨S20000x256, .f32⟩
  | 40 => ⟨S320000x1, .i32⟩
  | 41 => ⟨S20000x256, .f32⟩
  | 42 => ⟨S20000x1, .f32⟩
  | 43 => ⟨S20000x256, .f32⟩
  | 44 => ⟨S20000x256, .f32⟩
  | 45 => ⟨S20000x256, .f32⟩
  | 46 => ⟨S1x256, .f32⟩
  | 47 => ⟨S20000x256, .f32⟩
  | 48 => ⟨S20000x256, .f32⟩
  | 49 => ⟨S_, .f32⟩
  | 50 => ⟨S20000x256, .f32⟩
  | 51 => ⟨S20000x256, .f32⟩
  | 52 => ⟨S1x256x256, .f32⟩
  | 53 => ⟨S256x256, .f32⟩
  | 54 => ⟨S1x256, .f32⟩
  | 55 => ⟨S256, .f32⟩
  | 56 => ⟨S20000x1, .f32⟩
  | 57 => ⟨S20000x256, .f32⟩
  | 58 => ⟨S20000x256, .f32⟩
  | 59 => ⟨S_, .i32⟩
  | 60 => ⟨S320000, .i32⟩
  | 61 => ⟨S320000, .i1⟩
  | 62 => ⟨S_, .i32⟩
  | 63 => ⟨S320000, .i32⟩
  | 64 => ⟨S320000, .i32⟩
  | 65 => ⟨S320000, .i32⟩
  | 66 => ⟨S320000x1, .i32⟩
  | 67 => ⟨S320000x256, .f32⟩
  | 68 => ⟨S_, .f32⟩
  | 69 => ⟨S20000x256, .f32⟩
  | 70 => ⟨S320000x1, .i32⟩
  | 71 => ⟨S20000x256, .f32⟩
  | 72 => ⟨S20000x1, .f32⟩
  | 73 => ⟨S20000x256, .f32⟩
  | 74 => ⟨S20000x256, .f32⟩
  | 75 => ⟨S20000x256, .f32⟩
  | 76 => ⟨S1x256, .f32⟩
  | 77 => ⟨S20000x256, .f32⟩
  | 78 => ⟨S20000x256, .f32⟩
  | 79 => ⟨S_, .f32⟩
  | 80 => ⟨S20000x256, .f32⟩
  | 81 => ⟨S20000x256, .f32⟩
  | 82 => ⟨S1x256x256, .f32⟩
  | 83 => ⟨S256x256, .f32⟩
  | 84 => ⟨S1x256, .f32⟩
  | 85 => ⟨S256, .f32⟩
  | 86 => ⟨S20000x1, .f32⟩
  | 87 => ⟨S20000x256, .f32⟩
  | 88 => ⟨S20000x256, .f32⟩
  | 89 => ⟨S_, .i32⟩
  | 90 => ⟨S320000, .i32⟩
  | 91 => ⟨S320000, .i1⟩
  | 92 => ⟨S_, .i32⟩
  | 93 => ⟨S320000, .i32⟩
  | 94 => ⟨S320000, .i32⟩
  | 95 => ⟨S320000, .i32⟩
  | 96 => ⟨S320000x1, .i32⟩
  | 97 => ⟨S320000x256, .f32⟩
  | 98 => ⟨S_, .f32⟩
  | 99 => ⟨S20000x256, .f32⟩
  | 100 => ⟨S320000x1, .i32⟩
  | 101 => ⟨S20000x256, .f32⟩
  | 102 => ⟨S20000x1, .f32⟩
  | 103 => ⟨S20000x256, .f32⟩
  | 104 => ⟨S20000x256, .f32⟩
  | 105 => ⟨S20000x256, .f32⟩
  | 106 => ⟨S1x256, .f32⟩
  | 107 => ⟨S20000x256, .f32⟩
  | 108 => ⟨S20000x256, .f32⟩
  | 109 => ⟨S_, .f32⟩
  | 110 => ⟨S20000x256, .f32⟩
  | 111 => ⟨S20000x256, .f32⟩
  | 112 => ⟨S1x256x256, .f32⟩
  | 113 => ⟨S256x256, .f32⟩
  | 114 => ⟨S1x256, .f32⟩
  | 115 => ⟨S256, .f32⟩
  | 116 => ⟨S20000x1, .f32⟩
  | 117 => ⟨S20000x256, .f32⟩
  | 118 => ⟨S20000x256, .f32⟩
  | 119 => ⟨S_, .i32⟩
  | 120 => ⟨S320000, .i32⟩
  | 121 => ⟨S320000, .i1⟩
  | 122 => ⟨S_, .i32⟩
  | 123 => ⟨S320000, .i32⟩
  | 124 => ⟨S320000, .i32⟩
  | 125 => ⟨S320000, .i32⟩
  | 126 => ⟨S320000x1, .i32⟩
  | 127 => ⟨S320000x256, .f32⟩
  | _ => ⟨S20000x74, .f32⟩

abbrev hbmTy0_2 (i : Nat) : BufTy := match i % 128 with
  | 0 => ⟨S_, .f32⟩
  | 1 => ⟨S20000x256, .f32⟩
  | 2 => ⟨S320000x1, .i32⟩
  | 3 => ⟨S20000x256, .f32⟩
  | 4 => ⟨S20000x1, .f32⟩
  | 5 => ⟨S20000x256, .f32⟩
  | 6 => ⟨S20000x256, .f32⟩
  | 7 => ⟨S20000x256, .f32⟩
  | 8 => ⟨S1x256, .f32⟩
  | 9 => ⟨S20000x256, .f32⟩
  | 10 => ⟨S20000x256, .f32⟩
  | 11 => ⟨S_, .f32⟩
  | 12 => ⟨S20000x256, .f32⟩
  | 13 => ⟨S20000x256, .f32⟩
  | 14 => ⟨S1x256x256, .f32⟩
  | 15 => ⟨S256x256, .f32⟩
  | 16 => ⟨S1x256, .f32⟩
  | 17 => ⟨S256, .f32⟩
  | 18 => ⟨S20000x1, .f32⟩
  | 19 => ⟨S20000x256, .f32⟩
  | 20 => ⟨S20000x256, .f32⟩
  | 21 => ⟨S_, .i32⟩
  | 22 => ⟨S320000, .i32⟩
  | 23 => ⟨S320000, .i1⟩
  | 24 => ⟨S_, .i32⟩
  | 25 => ⟨S320000, .i32⟩
  | 26 => ⟨S320000, .i32⟩
  | 27 => ⟨S320000, .i32⟩
  | 28 => ⟨S320000x1, .i32⟩
  | 29 => ⟨S320000x256, .f32⟩
  | 30 => ⟨S_, .f32⟩
  | 31 => ⟨S20000x256, .f32⟩
  | 32 => ⟨S320000x1, .i32⟩
  | 33 => ⟨S20000x256, .f32⟩
  | 34 => ⟨S20000x1, .f32⟩
  | 35 => ⟨S20000x256, .f32⟩
  | 36 => ⟨S20000x256, .f32⟩
  | 37 => ⟨S20000x256, .f32⟩
  | 38 => ⟨S1x256, .f32⟩
  | 39 => ⟨S20000x256, .f32⟩
  | 40 => ⟨S20000x256, .f32⟩
  | 41 => ⟨S_, .f32⟩
  | 42 => ⟨S20000x256, .f32⟩
  | 43 => ⟨S20000x256, .f32⟩
  | 44 => ⟨S1x256x256, .f32⟩
  | 45 => ⟨S256x256, .f32⟩
  | 46 => ⟨S1x256, .f32⟩
  | 47 => ⟨S256, .f32⟩
  | 48 => ⟨S20000x1, .f32⟩
  | 49 => ⟨S20000x256, .f32⟩
  | 50 => ⟨S20000x256, .f32⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S320000x256, .f32⟩
  | 60 => ⟨S_, .f32⟩
  | 61 => ⟨S20000x256, .f32⟩
  | 62 => ⟨S320000x1, .i32⟩
  | 63 => ⟨S20000x256, .f32⟩
  | 64 => ⟨S20000x1, .f32⟩
  | 65 => ⟨S20000x256, .f32⟩
  | 66 => ⟨S20000x256, .f32⟩
  | 67 => ⟨S20000x256, .f32⟩
  | 68 => ⟨S1x256, .f32⟩
  | 69 => ⟨S20000x256, .f32⟩
  | 70 => ⟨S20000x256, .f32⟩
  | 71 => ⟨S_, .f32⟩
  | 72 => ⟨S20000x256, .f32⟩
  | 73 => ⟨S20000x256, .f32⟩
  | 74 => ⟨S1x256x256, .f32⟩
  | 75 => ⟨S256x256, .f32⟩
  | 76 => ⟨S1x256, .f32⟩
  | 77 => ⟨S256, .f32⟩
  | 78 => ⟨S20000x1, .f32⟩
  | 79 => ⟨S20000x256, .f32⟩
  | 80 => ⟨S20000x256, .f32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S320000x256, .f32⟩
  | 90 => ⟨S_, .f32⟩
  | 91 => ⟨S20000x256, .f32⟩
  | 92 => ⟨S320000x1, .i32⟩
  | 93 => ⟨S20000x256, .f32⟩
  | 94 => ⟨S20000x1, .f32⟩
  | 95 => ⟨S20000x256, .f32⟩
  | 96 => ⟨S20000x256, .f32⟩
  | 97 => ⟨S20000x256, .f32⟩
  | 98 => ⟨S1x256, .f32⟩
  | 99 => ⟨S20000x256, .f32⟩
  | 100 => ⟨S20000x256, .f32⟩
  | 101 => ⟨S_, .f32⟩
  | 102 => ⟨S20000x256, .f32⟩
  | 103 => ⟨S20000x256, .f32⟩
  | 104 => ⟨S_, .f32⟩
  | 105 => ⟨S64x256, .f32⟩
  | 106 => ⟨S20000x1, .i32⟩
  | 107 => ⟨S64x256, .f32⟩
  | 108 => ⟨S_, .f32⟩
  | 109 => ⟨S20000, .f32⟩
  | 110 => ⟨S_, .f32⟩
  | 111 => ⟨S64, .f32⟩
  | 112 => ⟨S20000x1, .i32⟩
  | 113 => ⟨S64, .f32⟩
  | 114 => ⟨S_, .f32⟩
  | 115 => ⟨S64, .f32⟩
  | 116 => ⟨S64, .f32⟩
  | 117 => ⟨S64x1, .f32⟩
  | 118 => ⟨S64x256, .f32⟩
  | 119 => ⟨S64x256, .f32⟩
  | 120 => ⟨S64x256, .f32⟩
  | 121 => ⟨S64x1024, .f32⟩
  | 122 => ⟨S1x1024, .f32⟩
  | 123 => ⟨S64x1024, .f32⟩
  | 124 => ⟨S64x1024, .f32⟩
  | 125 => ⟨S_, .f32⟩
  | 126 => ⟨S64x1024, .f32⟩
  | 127 => ⟨S64x1024, .i1⟩
  | _ => ⟨S20000x74, .f32⟩

abbrev hbmTy0_3 (i : Nat) : BufTy := match i % 128 with
  | 0 => ⟨S_, .f32⟩
  | 1 => ⟨S64x1024, .f32⟩
  | 2 => ⟨S64x1024, .f32⟩
  | 3 => ⟨S64x1024, .f32⟩
  | 4 => ⟨S64x512, .f32⟩
  | 5 => ⟨S1x512, .f32⟩
  | 6 => ⟨S64x512, .f32⟩
  | 7 => ⟨S64x512, .f32⟩
  | 8 => ⟨S_, .f32⟩
  | 9 => ⟨S64x512, .f32⟩
  | 10 => ⟨S64x512, .i1⟩
  | 11 => ⟨S_, .f32⟩
  | 12 => ⟨S64x512, .f32⟩
  | 13 => ⟨S64x512, .f32⟩
  | 14 => ⟨S64x512, .f32⟩
  | 15 => ⟨S64x1, .f32⟩
  | 16 => ⟨S1x1, .f32⟩
  | 17 => ⟨S64x1, .f32⟩
  | 18 => ⟨S64x1, .f32⟩
  | 19 => ⟨S64, .f32⟩
  | _ => ⟨S20000x74, .f32⟩

abbrev hbmTy (i : Nat) : BufTy := match i / 128 with
  | 0 => hbmTy0_0 i
  | 1 => hbmTy0_1 i
  | 2 => hbmTy0_2 i
  | 3 => hbmTy0_3 i
  | _ => ⟨S20000x74, .f32⟩

abbrev bufTy : (tb : Table) → Fin (tcTables nBuf tb) → BufTy
  | .hbm, ⟨i, _⟩ => hbmTy i
  | _, _ => ⟨S20000x74, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_cst_4 : Ref sig .tc := ⟨.hbm, 31, rfl⟩
abbrev main_v11 : Ref sig .tc := ⟨.hbm, 32, rfl⟩
abbrev main_v12 : Ref sig .tc := ⟨.hbm, 33, rfl⟩
abbrev main_cst_5 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_6 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_7 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_8 : Ref sig .tc := ⟨.hbm, 67, rfl⟩
abbrev main_v42 : Ref sig .tc := ⟨.hbm, 68, rfl⟩
abbrev main_v43 : Ref sig .tc := ⟨.hbm, 69, rfl⟩
abbrev main_c_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call0_cst : Ref sig .tc := ⟨.hbm, 87, rfl⟩
abbrev main_call0_v0 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_11 : Ref sig .tc := ⟨.hbm, 97, rfl⟩
abbrev main_v67 : Ref sig .tc := ⟨.hbm, 98, rfl⟩
abbrev main_v68 : Ref sig .tc := ⟨.hbm, 99, rfl⟩
abbrev main_c_12 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_13 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call1_cst : Ref sig .tc := ⟨.hbm, 117, rfl⟩
abbrev main_call1_v0 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_c_14 : Ref sig .tc := ⟨.hbm, 127, rfl⟩
abbrev main_v92 : Ref sig .tc := ⟨.hbm, 128, rfl⟩
abbrev main_v93 : Ref sig .tc := ⟨.hbm, 129, rfl⟩
abbrev main_c_15 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_16 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_call2_cst : Ref sig .tc := ⟨.hbm, 147, rfl⟩
abbrev main_call2_v0 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_c_17 : Ref sig .tc := ⟨.hbm, 157, rfl⟩
abbrev main_v117 : Ref sig .tc := ⟨.hbm, 158, rfl⟩
abbrev main_v118 : Ref sig .tc := ⟨.hbm, 159, rfl⟩
abbrev main_c_18 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_19 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_call3_cst : Ref sig .tc := ⟨.hbm, 177, rfl⟩
abbrev main_call3_v0 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_c_20 : Ref sig .tc := ⟨.hbm, 187, rfl⟩
abbrev main_v142 : Ref sig .tc := ⟨.hbm, 188, rfl⟩
abbrev main_v143 : Ref sig .tc := ⟨.hbm, 189, rfl⟩
abbrev main_c_21 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_22 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_call4_cst : Ref sig .tc := ⟨.hbm, 207, rfl⟩
abbrev main_call4_v0 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_c_23 : Ref sig .tc := ⟨.hbm, 217, rfl⟩
abbrev main_v167 : Ref sig .tc := ⟨.hbm, 218, rfl⟩
abbrev main_v168 : Ref sig .tc := ⟨.hbm, 219, rfl⟩
abbrev main_c_24 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_cst_25 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_call5_cst : Ref sig .tc := ⟨.hbm, 237, rfl⟩
abbrev main_call5_v0 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_c_26 : Ref sig .tc := ⟨.hbm, 247, rfl⟩
abbrev main_v192 : Ref sig .tc := ⟨.hbm, 248, rfl⟩
abbrev main_v193 : Ref sig .tc := ⟨.hbm, 249, rfl⟩
abbrev main_c_27 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_cst_28 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_call6_cst : Ref sig .tc := ⟨.hbm, 267, rfl⟩
abbrev main_call6_v0 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_c_29 : Ref sig .tc := ⟨.hbm, 277, rfl⟩
abbrev main_v217 : Ref sig .tc := ⟨.hbm, 278, rfl⟩
abbrev main_v218 : Ref sig .tc := ⟨.hbm, 279, rfl⟩
abbrev main_c_30 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_cst_31 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_call7_cst : Ref sig .tc := ⟨.hbm, 297, rfl⟩
abbrev main_call7_v0 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_c_32 : Ref sig .tc := ⟨.hbm, 307, rfl⟩
abbrev main_v242 : Ref sig .tc := ⟨.hbm, 308, rfl⟩
abbrev main_v243 : Ref sig .tc := ⟨.hbm, 309, rfl⟩
abbrev main_c_33 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_cst_34 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_v252 : Ref sig .tc := ⟨.hbm, 320, rfl⟩
abbrev main_v253 : Ref sig .tc := ⟨.hbm, 321, rfl⟩
abbrev main_v254 : Ref sig .tc := ⟨.hbm, 322, rfl⟩
abbrev main_v255 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_call8_cst : Ref sig .tc := ⟨.hbm, 327, rfl⟩
abbrev main_call8_v0 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_v266 : Ref sig .tc := ⟨.hbm, 336, rfl⟩
abbrev main_c_35 : Ref sig .tc := ⟨.hbm, 337, rfl⟩
abbrev main_v267 : Ref sig .tc := ⟨.hbm, 338, rfl⟩
abbrev main_v268 : Ref sig .tc := ⟨.hbm, 339, rfl⟩
abbrev main_c_36 : Ref sig .tc := ⟨.hbm, 340, rfl⟩
abbrev main_v269 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_cst_37 : Ref sig .tc := ⟨.hbm, 346, rfl⟩
abbrev main_v274 : Ref sig .tc := ⟨.hbm, 347, rfl⟩
abbrev main_v275 : Ref sig .tc := ⟨.hbm, 348, rfl⟩
abbrev main_v276 : Ref sig .tc := ⟨.hbm, 349, rfl⟩
abbrev main_v277 : Ref sig .tc := ⟨.hbm, 350, rfl⟩
abbrev main_v278 : Ref sig .tc := ⟨.hbm, 351, rfl⟩
abbrev main_v279 : Ref sig .tc := ⟨.hbm, 352, rfl⟩
abbrev main_v280 : Ref sig .tc := ⟨.hbm, 353, rfl⟩
abbrev main_v281 : Ref sig .tc := ⟨.hbm, 354, rfl⟩
abbrev main_v282 : Ref sig .tc := ⟨.hbm, 355, rfl⟩
abbrev main_v283 : Ref sig .tc := ⟨.hbm, 356, rfl⟩
abbrev main_call9_cst : Ref sig .tc := ⟨.hbm, 357, rfl⟩
abbrev main_call9_v0 : Ref sig .tc := ⟨.hbm, 358, rfl⟩
abbrev main_v284 : Ref sig .tc := ⟨.hbm, 359, rfl⟩
abbrev main_cst_38 : Ref sig .tc := ⟨.hbm, 360, rfl⟩
abbrev main_v285 : Ref sig .tc := ⟨.hbm, 361, rfl⟩
abbrev main_v286 : Ref sig .tc := ⟨.hbm, 362, rfl⟩
abbrev main_v287 : Ref sig .tc := ⟨.hbm, 363, rfl⟩
abbrev main_cst_39 : Ref sig .tc := ⟨.hbm, 364, rfl⟩
abbrev main_v288 : Ref sig .tc := ⟨.hbm, 365, rfl⟩
abbrev main_cst_40 : Ref sig .tc := ⟨.hbm, 366, rfl⟩
abbrev main_v289 : Ref sig .tc := ⟨.hbm, 367, rfl⟩
abbrev main_v290 : Ref sig .tc := ⟨.hbm, 368, rfl⟩
abbrev main_v291 : Ref sig .tc := ⟨.hbm, 369, rfl⟩
abbrev main_cst_41 : Ref sig .tc := ⟨.hbm, 370, rfl⟩
abbrev main_v292 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩
abbrev main_v296 : Ref sig .tc := ⟨.hbm, 375, rfl⟩
abbrev main_v297 : Ref sig .tc := ⟨.hbm, 376, rfl⟩
abbrev main_v298 : Ref sig .tc := ⟨.hbm, 377, rfl⟩
abbrev main_v299 : Ref sig .tc := ⟨.hbm, 378, rfl⟩
abbrev main_v300 : Ref sig .tc := ⟨.hbm, 379, rfl⟩
abbrev main_v301 : Ref sig .tc := ⟨.hbm, 380, rfl⟩
abbrev main_call10_cst : Ref sig .tc := ⟨.hbm, 381, rfl⟩
abbrev main_call10_v0 : Ref sig .tc := ⟨.hbm, 382, rfl⟩
abbrev main_call10_v1 : Ref sig .tc := ⟨.hbm, 383, rfl⟩
abbrev main_call10_cst_0 : Ref sig .tc := ⟨.hbm, 384, rfl⟩
abbrev main_call10_v2 : Ref sig .tc := ⟨.hbm, 385, rfl⟩
abbrev main_call10_v3 : Ref sig .tc := ⟨.hbm, 386, rfl⟩
abbrev main_v302 : Ref sig .tc := ⟨.hbm, 387, rfl⟩
abbrev main_v303 : Ref sig .tc := ⟨.hbm, 388, rfl⟩
abbrev main_v304 : Ref sig .tc := ⟨.hbm, 389, rfl⟩
abbrev main_v305 : Ref sig .tc := ⟨.hbm, 390, rfl⟩
abbrev main_v306 : Ref sig .tc := ⟨.hbm, 391, rfl⟩
abbrev main_call11_cst : Ref sig .tc := ⟨.hbm, 392, rfl⟩
abbrev main_call11_v0 : Ref sig .tc := ⟨.hbm, 393, rfl⟩
abbrev main_call11_v1 : Ref sig .tc := ⟨.hbm, 394, rfl⟩
abbrev main_call11_cst_0 : Ref sig .tc := ⟨.hbm, 395, rfl⟩
abbrev main_call11_v2 : Ref sig .tc := ⟨.hbm, 396, rfl⟩
abbrev main_call11_v3 : Ref sig .tc := ⟨.hbm, 397, rfl⟩
abbrev main_v307 : Ref sig .tc := ⟨.hbm, 398, rfl⟩
abbrev main_v308 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  bcast_S20000_S20000x1_0 : S20000.BroadcastsInDim S20000x1 (![0] : Fin 1 → Fin S20000x1.rank)
  bcast_S20000x1_S20000x74_0_1 : S20000x1.BroadcastsInDim S20000x74 (![0, 1] : Fin 2 → Fin S20000x74.rank)
  bcast_S_S20000x74 : S_.BroadcastsInDim S20000x74 (![] : Fin 0 → Fin S20000x74.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  slices_S10x256x256_S1x256x256_0_0_0 : S10x256x256.Slices ![0, 0, 0] S1x256x256
  shapeCasts_S1x256x256_S256x256 : S1x256x256.ShapeCasts S256x256
  slices_S10x256_S1x256_0_0 : S10x256.Slices ![0, 0] S1x256
  shapeCasts_S1x256_S256 : S1x256.ShapeCasts S256
  bcast_S20000x1_S20000x256_0_1 : S20000x1.BroadcastsInDim S20000x256 (![0, 1] : Fin 2 → Fin S20000x256.rank)
  bcast_S_S20000x256 : S_.BroadcastsInDim S20000x256 (![] : Fin 0 → Fin S20000x256.rank)
  slices_S10x256x256_S1x256x256_1_0_0 : S10x256x256.Slices ![1, 0, 0] S1x256x256
  slices_S10x256_S1x256_1_0 : S10x256.Slices ![1, 0] S1x256
  slices_S10x256x256_S1x256x256_2_0_0 : S10x256x256.Slices ![2, 0, 0] S1x256x256
  slices_S10x256_S1x256_2_0 : S10x256.Slices ![2, 0] S1x256
  slices_S10x256x256_S1x256x256_3_0_0 : S10x256x256.Slices ![3, 0, 0] S1x256x256
  slices_S10x256_S1x256_3_0 : S10x256.Slices ![3, 0] S1x256
  slices_S10x256x256_S1x256x256_4_0_0 : S10x256x256.Slices ![4, 0, 0] S1x256x256
  slices_S10x256_S1x256_4_0 : S10x256.Slices ![4, 0] S1x256
  slices_S10x256x256_S1x256x256_5_0_0 : S10x256x256.Slices ![5, 0, 0] S1x256x256
  slices_S10x256_S1x256_5_0 : S10x256.Slices ![5, 0] S1x256
  slices_S10x256x256_S1x256x256_6_0_0 : S10x256x256.Slices ![6, 0, 0] S1x256x256
  slices_S10x256_S1x256_6_0 : S10x256.Slices ![6, 0] S1x256
  slices_S10x256x256_S1x256x256_7_0_0 : S10x256x256.Slices ![7, 0, 0] S1x256x256
  slices_S10x256_S1x256_7_0 : S10x256.Slices ![7, 0] S1x256
  slices_S10x256x256_S1x256x256_8_0_0 : S10x256x256.Slices ![8, 0, 0] S1x256x256
  slices_S10x256_S1x256_8_0 : S10x256.Slices ![8, 0] S1x256
  slices_S10x256x256_S1x256x256_9_0_0 : S10x256x256.Slices ![9, 0, 0] S1x256x256
  slices_S10x256_S1x256_9_0 : S10x256.Slices ![9, 0] S1x256
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  concatenates_S64x256_S64x0_S64x256_d1 : Shape.Concatenates [S64x256, S64x0] S64x256 1
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S20000_S320000x1_S320000_n_0_0_1_wf : ScatterDims.WF S20000 S320000x1 S320000 [] [0] [0] 1
  gather_S20000x74_S320000x1_S320000x74_1_0_n_n_0_1_174_wf : GatherDims.WF S20000x74 S320000x1 S320000x74 [1] [0] [] [0] [] 1 ![1, 74]
  scatter_S20000x74_S320000x1_S320000x74_1_0_0_1_wf : ScatterDims.WF S20000x74 S320000x1 S320000x74 [1] [0] [0] 1
  dot_S20000x74_S74x256_S20000x256_1_0_0_1_n_n_wf : DotDims.WF S20000x74 S74x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x256_S20000x256_1_0_0_1_n_n_wf : DotDims.WF S20000x256 S256x256 S20000x256 [1] [0] [0] [1] [] []
  scatter_S64x256_S20000x1_S20000x256_1_0_0_1_wf : ScatterDims.WF S64x256 S20000x1 S20000x256 [1] [0] [0] 1
  scatter_S64_S20000x1_S20000_n_0_0_1_wf : ScatterDims.WF S64 S20000x1 S20000 [] [0] [0] 1
  dot_S64x256_S256x1024_S64x1024_1_0_0_1_n_n_wf : DotDims.WF S64x256 S256x1024 S64x1024 [1] [0] [0] [1] [] []
  dot_S64x1024_S1024x512_S64x512_1_0_0_1_n_n_wf : DotDims.WF S64x1024 S1024x512 S64x512 [1] [0] [0] [1] [] []
  dot_S64x512_S512x1_S64x1_1_0_0_1_n_n_wf : DotDims.WF S64x512 S512x1 S64x1 [1] [0] [0] [1] [] []

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000x74_S320000x1_S320000x74_1_0_n_n_0_1_174 : GatherDims S20000x74 S320000x1 S320000x74 where
  offsetDims := [1]
  collapsedSliceDims := [0]
  operandBatchingDims := []
  startIndicesBatchingDims := []
  startIndexMap := [0]
  indexVectorDim := 1
  sliceSizes := ![1, 74]
  wf := gather_S20000x74_S320000x1_S320000x74_1_0_n_n_0_1_174_wf
def scatter_S20000x74_S320000x1_S320000x74_1_0_0_1 : ScatterDims S20000x74 S320000x1 S320000x74 where
  updateWindowDims := [1]
  insertedWindowDims := [0]
  scatterDimsToOperandDims := [0]
  indexVectorDim := 1
  wf := scatter_S20000x74_S320000x1_S320000x74_1_0_0_1_wf
def dot_S20000x74_S74x256_S20000x256_1_0_0_1_n_n : DotDims S20000x74 S74x256 S20000x256 where
  lhsContracting := [1]
  rhsContracting := [0]
  lhsNonContracting := [0]
  rhsNonContracting := [1]
  lhsBatch := []
  rhsBatch := []
  wf := dot_S20000x74_S74x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def scatter_S64x256_S20000x1_S20000x256_1_0_0_1 : ScatterDims S64x256 S20000x1 S20000x256 where
  updateWindowDims := [1]
  insertedWindowDims := [0]
  scatterDimsToOperandDims := [0]
  indexVectorDim := 1
  wf := scatter_S64x256_S20000x1_S20000x256_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def dot_S64x256_S256x1024_S64x1024_1_0_0_1_n_n : DotDims S64x256 S256x1024 S64x1024 where
  lhsContracting := [1]
  rhsContracting := [0]
  lhsNonContracting := [0]
  rhsNonContracting := [1]
  lhsBatch := []
  rhsBatch := []
  wf := dot_S64x256_S256x1024_S64x1024_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S64x512_S512x1_S64x1_1_0_0_1_n_n : DotDims S64x512 S512x1 S64x1 where
  lhsContracting := [1]
  rhsContracting := [0]
  lhsNonContracting := [0]
  rhsNonContracting := [1]
  lhsBatch := []
  rhsBatch := []
  wf := dot_S64x512_S512x1_S64x1_1_0_0_1_n_n_wf

class Facts : Prop extends Facts₀ where

variable [Facts]
-- ==== Proof.Spec.lean ====
/-
  The function both programs compute, written once over whole arrays with the host operations a jnp program is
  made of (broadcasts, products, a row gather followed by a scatter-add, dot_general, maximum, power, select).

  A graph network: dOut, dIn are the clamped out- and in-degree of every node raised to the power -1/2. One
  convolution sends node features h to ((S (h · dOut)) · dIn) W + b, where S gathers the rows of its argument at the
  edges' sources and adds them into the rows of the edges' targets. The network is one convolution without activation,
  ten with max(·, 0), a per-graph mean of the node features, and a three-layer head with a leaky rectifier.
-/
import proofs.«126634_j63780264346183_1_alg».proof.Proof.Gen.ReferenceIdeal

noncomputable section

namespace Cert.Spec

open Idealize.ShloMosaic Cert.ReferenceIdeal
open Cert.ReferenceIdeal.Facts₀

variable {F : FTy → Type} [FloatOps F]

/-- The zero and one splats. -/
def zeros (s : Shape) (h : S_.BroadcastsInDim s (![] : Fin 0 → Fin s.rank)) : FVec F s .f32 :=
  broadcastInDim s ![] h (constant S_ .f32 0x00000000#32)
def ones (s : Shape) (h : S_.BroadcastsInDim s (![] : Fin 0 → Fin s.rank)) : FVec F s .f32 :=
  broadcastInDim s ![] h (constant S_ .f32 0x3F800000#32)

/-- An edge-index vector as the one-column table a gather or scatter reads. -/
def col (idx : IVec S320000 32) : IVec S320000x1 32 := broadcastInDim S320000x1 ![0] bcast_S320000_S320000x1_0 idx

/-- jnp's indexing of a negative index from the end: idx < 0 ? idx + 20000 : idx. -/
def wrap (idx : IVec S320000 32) : IVec S320000 32 :=
  select (cmpi .slt idx (broadcastInDim S320000 ![] bcast_S_S320000 (constantI S_ 32 0#32)))
    (addi idx (broadcastInDim S320000 ![] bcast_S_S320000 (constantI S_ 32 20000#32))) idx

/-- The clamped degree to the power -1/2: the number of edges whose end idx is the node, at least 1. -/
def degNorm (idx : IVec S320000 32) : FVec F S20000 .f32 :=
  Host.powf
    (maximumf (Host.scatterAdd scatter_S20000_S320000x1_S320000_n_0_0_1 (zeros S20000 bcast_S_S20000) (col idx) (ones S320000 bcast_S_S320000))
      (ones S20000 bcast_S_S20000))
    (broadcastInDim S20000 ![] bcast_S_S20000 (constant S_ .f32 0xBF000000#32))

/-- A per-node factor as a column, then along 74 or 256 features. -/
def nodeCol (d : FVec F S20000 .f32) : FVec F S20000x1 .f32 := broadcastInDim S20000x1 ![0] bcast_S20000_S20000x1_0 d
def along74 (d1 : FVec F S20000x1 .f32) : FVec F S20000x74 .f32 := broadcastInDim S20000x74 ![0, 1] bcast_S20000x1_S20000x74_0_1 d1
def along256 (d1 : FVec F S20000x1 .f32) : FVec F S20000x256 .f32 := broadcastInDim S20000x256 ![0, 1] bcast_S20000x1_S20000x256_0_1 d1

/-- Gather rows at the sources, add them into the rows of the targets. -/
def spread74 (src dst : IVec S320000 32) (h : FVec F S20000x74 .f32) : FVec F S20000x74 .f32 :=
  Host.scatterAdd scatter_S20000x74_S320000x1_S320000x74_1_0_0_1 (zeros S20000x74 bcast_S_S20000x74) (col dst)
    (Host.gather gather_S20000x74_S320000x1_S320000x74_1_0_n_n_0_1_174 h (col (wrap src)))
def spread256 (src dst : IVec S320000 32) (h : FVec F S20000x256 .f32) : FVec F S20000x256 .f32 :=
  Host.scatterAdd scatter_S20000x256_S320000x1_S320000x256_1_0_0_1 (zeros S20000x256 bcast_S_S20000x256) (col dst)
    (Host.gather gather_S20000x256_S320000x1_S320000x256_1_0_n_n_0_1_1256 h (col (wrap src)))

/-- A bias along the rows. -/
def bias256 (b : FVec F S256 .f32) : FVec F S20000x256 .f32 :=
  broadcastInDim S20000x256 ![0, 1] bcast_S1x256_S20000x256_0_1 (broadcastInDim S1x256 ![1] bcast_S256_S1x256_1 b)

/-- The linear part of a convolution on aggregated features a with the target-side factor as a column d1. -/
def lin74 (a : FVec F S20000x74 .f32) (d1 : FVec F S20000x1 .f32) (w : FVec F S74x256 .f32) (b : FVec F S256 .f32) : FVec F S20000x256 .f32 :=
  addf (Host.dotGeneral dot_S20000x74_S74x256_S20000x256_1_0_0_1_n_n none (mulf a (along74 d1)) w) (bias256 b)
def lin256 (a : FVec F S20000x256 .f32) (d1 : FVec F S20000x1 .f32) (w : FVec F S256x256 .f32) (b : FVec F S256 .f32) : FVec F S20000x256 .f32 :=
  addf (Host.dotGeneral dot_S20000x256_S256x256_S20000x256_1_0_0_1_n_n none (mulf a (along256 d1)) w) (bias256 b)
def relu256 (x : FVec F S20000x256 .f32) : FVec F S20000x256 .f32 := maximumf x (zeros S20000x256 bcast_S_S20000x256)

/-- Layer k's weights and bias out of the stacked arrays, by a slice and a reshape; hs, hb say the slice is in range. -/
def sliceW (g : FVec F S10x256x256 .f32) (k : Nat) (hs : S10x256x256.Slices ![k, 0, 0] S1x256x256) : FVec F S256x256 .f32 :=
  shapeCast S256x256 (extractStridedSlice S1x256x256 ![k, 0, 0] g hs) shapeCasts_S1x256x256_S256x256
def sliceB (g : FVec F S10x256 .f32) (k : Nat) (hb : S10x256.Slices ![k, 0] S1x256) : FVec F S256 .f32 :=
  shapeCast S256 (extractStridedSlice S1x256 ![k, 0] g hb) shapeCasts_S1x256_S256

/-- The first convolution (no activation). -/
def conv0 (x : FVec F S20000x74 .f32) (dOut dIn : FVec F S20000 .f32) (w0 : FVec F S74x256 .f32) (b0 : FVec F S256 .f32)
    (src dst : IVec S320000 32) : FVec F S20000x256 .f32 :=
  lin74 (spread74 src dst (mulf x (along74 (nodeCol dOut)))) (nodeCol dIn) w0 b0
/-- A later convolution, with its rectifier. -/
def conv (h : FVec F S20000x256 .f32) (dOut dIn : FVec F S20000 .f32) (w : FVec F S256x256 .f32) (b : FVec F S256 .f32)
    (src dst : IVec S320000 32) : FVec F S20000x256 .f32 :=
  relu256 (lin256 (spread256 src dst (mulf h (along256 (nodeCol dOut)))) (nodeCol dIn) w b)

/-- The per-graph mean of node features, then the empty extra features appended. -/
def pool (h : FVec F S20000x256 .f32) (gid : IVec S20000 32) (extra : FVec F S64x0 .f32) : FVec F S64x256 .f32 :=
  concatenate S64x256 1
    [⟨S64x256, Host.divf
        (Host.scatterAdd scatter_S64x256_S20000x1_S20000x256_1_0_0_1 (zeros S64x256 bcast_S_S64x256)
          (broadcastInDim S20000x1 ![0] bcast_S20000_S20000x1_0 gid) h)
        (broadcastInDim S64x256 ![0, 1] bcast_S64x1_S64x256_0_1 (broadcastInDim S64x1 ![0] bcast_S64_S64x1_0
          (maximumf (Host.scatterAdd scatter_S64_S20000x1_S20000_n_0_0_1 (zeros S64 bcast_S_S64)
              (broadcastInDim S20000x1 ![0] bcast_S20000_S20000x1_0 gid) (ones S20000 bcast_S_S20000))
            (ones S64 bcast_S_S64))))⟩,
     ⟨S64x0, extra⟩] concatenates_S64x256_S64x0_S64x256_d1

/-- jax's leaky rectifier: x ≥ 0 ? x : c · x with c the f32 nearest 0.01 (the same literal in both programs). -/
def leaky1024 (x : FVec F S64x1024 .f32) : FVec F S64x1024 .f32 :=
  select (cmpf .oge x (zeros S64x1024 bcast_S_S64x1024)) x
    (mulf (broadcastInDim S64x1024 ![] bcast_S_S64x1024 (constant S_ .f32 0x3C23D70A#32)) x)
def leaky512 (x : FVec F S64x512 .f32) : FVec F S64x512 .f32 :=
  select (cmpf .oge x (zeros S64x512 bcast_S_S64x512)) x
    (mulf (broadcastInDim S64x512 ![] bcast_S_S64x512 (constant S_ .f32 0x3C23D70A#32)) x)

/-- The head: 256 → 1024 → 512 → 1. -/
def head (p : FVec F S64x256 .f32) (w1 : FVec F S256x1024 .f32) (b1 : FVec F S1024 .f32) (w2 : FVec F S1024x512 .f32)
    (b2 : FVec F S512 .f32) (w3 : FVec F S512x1 .f32) (b3 : FVec F S1 .f32) : FVec F S64x1 .f32 :=
  addf (Host.dotGeneral dot_S64x512_S512x1_S64x1_1_0_0_1_n_n none
      (leaky512 (addf (Host.dotGeneral dot_S64x1024_S1024x512_S64x512_1_0_0_1_n_n none
          (leaky1024 (addf (Host.dotGeneral dot_S64x256_S256x1024_S64x1024_1_0_0_1_n_n none p w1)
            (broadcastInDim S64x1024 ![0, 1] bcast_S1x1024_S64x1024_0_1 (broadcastInDim S1x1024 ![1] bcast_S1024_S1x1024_1 b1)))) w2)
        (broadcastInDim S64x512 ![0, 1] bcast_S1x512_S64x512_0_1 (broadcastInDim S1x512 ![1] bcast_S512_S1x512_1 b2)))) w3)
    (broadcastInDim S64x1 ![0, 1] bcast_S1x1_S64x1_0_1 (broadcastInDim S1x1 ![1] bcast_S1_S1x1_1 b3))

/-- One later convolution with layer k's parameters. -/
def convK (gw : FVec F S10x256x256 .f32) (gb : FVec F S10x256 .f32) (src dst : IVec S320000 32) (k : Nat)
    (hs : S10x256x256.Slices ![k, 0, 0] S1x256x256) (hb : S10x256.Slices ![k, 0] S1x256) (h : FVec F S20000x256 .f32) :
    FVec F S20000x256 .f32 :=
  conv h (degNorm src) (degNorm dst) (sliceW gw k hs) (sliceB gb k hb) src dst

/-- The node features after all eleven convolutions. -/
def feat (x : FVec F S20000x74 .f32) (w0 : FVec F S74x256 .f32) (b0 : FVec F S256 .f32) (gw : FVec F S10x256x256 .f32)
    (gb : FVec F S10x256 .f32) (src dst : IVec S320000 32) : FVec F S20000x256 .f32 :=
  convK gw gb src dst 9 slices_S10x256x256_S1x256x256_9_0_0 slices_S10x256_S1x256_9_0 <|
  convK gw gb src dst 8 slices_S10x256x256_S1x256x256_8_0_0 slices_S10x256_S1x256_8_0 <|
  convK gw gb src dst 7 slices_S10x256x256_S1x256x256_7_0_0 slices_S10x256_S1x256_7_0 <|
  convK gw gb src dst 6 slices_S10x256x256_S1x256x256_6_0_0 slices_S10x256_S1x256_6_0 <|
  convK gw gb src dst 5 slices_S10x256x256_S1x256x256_5_0_0 slices_S10x256_S1x256_5_0 <|
  convK gw gb src dst 4 slices_S10x256x256_S1x256x256_4_0_0 slices_S10x256_S1x256_4_0 <|
  convK gw gb src dst 3 slices_S10x256x256_S1x256x256_3_0_0 slices_S10x256_S1x256_3_0 <|
  convK gw gb src dst 2 slices_S10x256x256_S1x256x256_2_0_0 slices_S10x256_S1x256_2_0 <|
  convK gw gb src dst 1 slices_S10x256x256_S1x256x256_1_0_0 slices_S10x256_S1x256_1_0 <|
  convK gw gb src dst 0 slices_S10x256x256_S1x256x256_0_0_0 slices_S10x256_S1x256_0_0 <|
  conv0 x (degNorm src) (degNorm dst) w0 b0 src dst

/-- The whole network: one number per graph. -/
def out (x : FVec F S20000x74 .f32) (extra : FVec F S64x0 .f32) (w0 : FVec F S74x256 .f32) (b0 : FVec F S256 .f32)
    (gw : FVec F S10x256x256 .f32) (gb : FVec F S10x256 .f32) (w1 : FVec F S256x1024 .f32) (b1 : FVec F S1024 .f32)
    (w2 : FVec F S1024x512 .f32) (b2 : FVec F S512 .f32) (w3 : FVec F S512x1 .f32) (b3 : FVec F S1 .f32)
    (src dst : IVec S320000 32) (gid : IVec S20000 32) : FVec F S64 .f32 :=
  shapeCast S64 (head (pool (feat x w0 b0 gw gb src dst) gid extra) w1 b1 w2 b2 w3 b3) shapeCasts_S64x1_S64

end Cert.Spec

end
-- ==== Proof.KStretch.lean ====
/- What each stretch of host operations between two kernel launches leaves in the buffers read later, as the specification's
   array functions of the buffers it reads, from ANY contents X at its start; and the buffers a stretch does not write. -/
import proofs.«126634_j63780264346183_1_alg».proof.Proof.Gen.KernelIdeal.Launch
import proofs.«126634_j63780264346183_1_alg».proof.Proof.Spec
import Idealize.ShloMosaic.Lib.StableHlo.Run

noncomputable section

namespace Cert.KernelIdeal.KVal

open Idealize.ShloMosaic Idealize.ShloMosaic.TcCoe Idealize.SL.Sem Idealize.ShloMosaic.StableHlo Cert.KernelIdeal Cert.KernelIdeal.Gen

variable {F : FTy → Type} [FloatOps F]

/-! ## Stretch 0: the degree factors, the bf16 copies of the weights, the first aggregation -/

set_option maxHeartbeats 4000000 in
/-- The source-side factor as a column. -/
theorem v13_0 (X : Valuation τ sig (Elt F)) :
    after hostOps0 X (Proc.devRef .tc main_v13)
      = (shapeCast S20000x1 (Cert.Spec.degNorm (X (Proc.devRef .tc main_arg12))) shapeCasts_S20000_S20000x1) := by
  after_results_simp
  try rfl

set_option maxHeartbeats 4000000 in
/-- The target-side factor as a column. -/
theorem v16_0 (X : Valuation τ sig (Elt F)) :
    after hostOps0 X (Proc.devRef .tc main_v16)
      = (shapeCast S20000x1 (Cert.Spec.degNorm (X (Proc.devRef .tc main_arg13))) shapeCasts_S20000_S20000x1) := by
  after_results_simp
  try rfl

set_option maxHeartbeats 4000000 in
/-- The first layer's weights in bf16. -/
theorem v17_0 (X : Valuation τ sig (Elt F)) :
    after hostOps0 X (Proc.devRef .tc main_v17)
      = truncf .bf16 (X (Proc.devRef .tc main_arg2)) bitsLt_bf16_f32 := by
  after_results_simp
  try rfl

set_option maxHeartbeats 4000000 in
/-- The stacked weights in bf16. -/
theorem v18_0 (X : Valuation τ sig (Elt F)) :
    after hostOps0 X (Proc.devRef .tc main_v18)
      = truncf .bf16 (X (Proc.devRef .tc main_arg4)) bitsLt_bf16_f32 := by
  after_results_simp
  try rfl

set_option maxHeartbeats 4000000 in
/-- The first aggregation: the scaled inputs gathered at the sources and added into the targets. -/
theorem v30_0 (X : Valuation τ sig (Elt F)) :
    after hostOps0 X (Proc.devRef .tc main_v30)
      = Cert.Spec.spread74 (X (Proc.devRef .tc main_arg12)) (X (Proc.devRef .tc main_arg13)) (mulf (X (Proc.devRef .tc main_arg0)) (broadcastInDim S20000x74 ![0, 1] bcast_S20000x1_S20000x74_0_1 (shapeCast S20000x1 (Cert.Spec.degNorm (X (Proc.devRef .tc main_arg12))) shapeCasts_S20000_S20000x1))) := by
  after_results_simp
  try rfl

/-- Every buffer stretch 0 writes, listed. -/
theorem hostOps0_writes : (hostOps0 : List (HloOp τ sig (Elt F))).Forall fun op => op.writes ⊆
    (([main_cst, main_v0, main_cst_0, main_v1, main_v2, main_v3, main_cst_1, main_v4, main_v5, main_cst_2, main_v6, main_v7, main_v8, main_cst_3, main_v9, main_v10, main_cst_4, main_v11, main_v12, main_v13, main_cst_5, main_v14, main_v15, main_v16, main_v17, main_v18, main_v19, main_v20, main_c, main_v21, main_v22, main_c_6, main_v23, main_v24, main_v25, main_v26, main_v27, main_cst_7, main_v28, main_v29, main_v30] : List (Ref sig .tc)).map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

theorem keepH0_main_arg0 (X : Valuation τ sig (Elt F)) : after hostOps0 X (Proc.devRef .tc main_arg0) = X (Proc.devRef .tc main_arg0) :=
  after_of_writes_sub hostOps0 X hostOps0_writes (by decide)
theorem keepH0_main_arg1 (X : Valuation τ sig (Elt F)) : after hostOps0 X (Proc.devRef .tc main_arg1) = X (Proc.devRef .tc main_arg1) :=
  after_of_writes_sub hostOps0 X hostOps0_writes (by decide)
theorem keepH0_main_arg2 (X : Valuation τ sig (Elt F)) : after hostOps0 X (Proc.devRef .tc main_arg2) = X (Proc.devRef .tc main_arg2) :=
  after_of_writes_sub hostOps0 X hostOps0_writes (by decide)
theorem keepH0_main_arg3 (X : Valuation τ sig (Elt F)) : after hostOps0 X (Proc.devRef .tc main_arg3) = X (Proc.devRef .tc main_arg3) :=
  after_of_writes_sub hostOps0 X hostOps0_writes (by decide)
theorem keepH0_main_arg4 (X : Valuation τ sig (Elt F)) : after hostOps0 X (Proc.devRef .tc main_arg4) = X (Proc.devRef .tc main_arg4) :=
  after_of_writes_sub hostOps0 X hostOps0_writes (by decide)
theorem keepH0_main_arg5 (X : Valuation τ sig (Elt F)) : after hostOps0 X (Proc.devRef .tc main_arg5) = X (Proc.devRef .tc main_arg5) :=
  after_of_writes_sub hostOps0 X hostOps0_writes (by decide)
theorem keepH0_main_arg6 (X : Valuation τ sig (Elt F)) : after hostOps0 X (Proc.devRef .tc main_arg6) = X (Proc.devRef .tc main_arg6) :=
  after_of_writes_sub hostOps0 X hostOps0_writes (by decide)
theorem keepH0_main_arg7 (X : Valuation τ sig (Elt F)) : after hostOps0 X (Proc.devRef .tc main_arg7) = X (Proc.devRef .tc main_arg7) :=
  after_of_writes_sub hostOps0 X hostOps0_writes (by decide)
theorem keepH0_main_arg8 (X : Valuation τ sig (Elt F)) : after hostOps0 X (Proc.devRef .tc main_arg8) = X (Proc.devRef .tc main_arg8) :=
  after_of_writes_sub hostOps0 X hostOps0_writes (by decide)
theorem keepH0_main_arg9 (X : Valuation τ sig (Elt F)) : after hostOps0 X (Proc.devRef .tc main_arg9) = X (Proc.devRef .tc main_arg9) :=
  after_of_writes_sub hostOps0 X hostOps0_writes (by decide)
theorem keepH0_main_arg10 (X : Valuation τ sig (Elt F)) : after hostOps0 X (Proc.devRef .tc main_arg10) = X (Proc.devRef .tc main_arg10) :=
  after_of_writes_sub hostOps0 X hostOps0_writes (by decide)
theorem keepH0_main_arg11 (X : Valuation τ sig (Elt F)) : after hostOps0 X (Proc.devRef .tc main_arg11) = X (Proc.devRef .tc main_arg11) :=
  after_of_writes_sub hostOps0 X hostOps0_writes (by decide)
theorem keepH0_main_arg12 (X : Valuation τ sig (Elt F)) : after hostOps0 X (Proc.devRef .tc main_arg12) = X (Proc.devRef .tc main_arg12) :=
  after_of_writes_sub hostOps0 X hostOps0_writes (by decide)
theorem keepH0_main_arg13 (X : Valuation τ sig (Elt F)) : after hostOps0 X (Proc.devRef .tc main_arg13) = X (Proc.devRef .tc main_arg13) :=
  after_of_writes_sub hostOps0 X hostOps0_writes (by decide)
theorem keepH0_main_arg14 (X : Valuation τ sig (Elt F)) : after hostOps0 X (Proc.devRef .tc main_arg14) = X (Proc.devRef .tc main_arg14) :=
  after_of_writes_sub hostOps0 X hostOps0_writes (by decide)

/-! ## Stretch 1: the aggregation before convolution 1, and that layer's parameters sliced out -/

set_option maxHeartbeats 4000000 in
/-- Rows gathered at the sources, added into the targets. -/
theorem agg1 (X : Valuation τ sig (Elt F)) :
    after hostOps1 X (Proc.devRef .tc main_v41)
      = Cert.Spec.spread256 (X (Proc.devRef .tc main_arg12)) (X (Proc.devRef .tc main_arg13)) (X (Proc.devRef .tc main_v31_1)) := by
  after_results_simp
  try rfl

set_option maxHeartbeats 4000000 in
/-- Layer 0's weights (bf16) out of the stack. -/
theorem wsl1 (X : Valuation τ sig (Elt F)) :
    after hostOps1 X (Proc.devRef .tc main_v43)
      = shapeCast S256x256 (extractStridedSlice S1x256x256 ![0, 0, 0] (X (Proc.devRef .tc main_v18)) slices_S10x256x256_S1x256x256_0_0_0) shapeCasts_S1x256x256_S256x256 := by
  after_results_simp
  try rfl

set_option maxHeartbeats 4000000 in
/-- Layer 0's bias out of the stack. -/
theorem bsl1 (X : Valuation τ sig (Elt F)) :
    after hostOps1 X (Proc.devRef .tc main_v45)
      = Cert.Spec.sliceB (X (Proc.devRef .tc main_arg5)) 0 Cert.ReferenceIdeal.Facts₀.slices_S10x256_S1x256_0_0 := by
  after_results_simp
  try rfl

/-- Every buffer stretch 1 writes, listed. -/
theorem hostOps1_writes : (hostOps1 : List (HloOp τ sig (Elt F))).Forall fun op => op.writes ⊆
    (([main_c_8, main_v32, main_v33, main_c_9, main_v34, main_v35, main_v36, main_v37, main_v38, main_cst_10, main_v39, main_v40, main_v41, main_v42, main_v43, main_v44, main_v45] : List (Ref sig .tc)).map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

theorem keepH1_main_v13 (X : Valuation τ sig (Elt F)) : after hostOps1 X (Proc.devRef .tc main_v13) = X (Proc.devRef .tc main_v13) :=
  after_of_writes_sub hostOps1 X hostOps1_writes (by decide)
theorem keepH1_main_v16 (X : Valuation τ sig (Elt F)) : after hostOps1 X (Proc.devRef .tc main_v16) = X (Proc.devRef .tc main_v16) :=
  after_of_writes_sub hostOps1 X hostOps1_writes (by decide)
theorem keepH1_main_v18 (X : Valuation τ sig (Elt F)) : after hostOps1 X (Proc.devRef .tc main_v18) = X (Proc.devRef .tc main_v18) :=
  after_of_writes_sub hostOps1 X hostOps1_writes (by decide)
theorem keepH1_main_arg1 (X : Valuation τ sig (Elt F)) : after hostOps1 X (Proc.devRef .tc main_arg1) = X (Proc.devRef .tc main_arg1) :=
  after_of_writes_sub hostOps1 X hostOps1_writes (by decide)
theorem keepH1_main_arg5 (X : Valuation τ sig (Elt F)) : after hostOps1 X (Proc.devRef .tc main_arg5) = X (Proc.devRef .tc main_arg5) :=
  after_of_writes_sub hostOps1 X hostOps1_writes (by decide)
theorem keepH1_main_arg6 (X : Valuation τ sig (Elt F)) : after hostOps1 X (Proc.devRef .tc main_arg6) = X (Proc.devRef .tc main_arg6) :=
  after_of_writes_sub hostOps1 X hostOps1_writes (by decide)
theorem keepH1_main_arg7 (X : Valuation τ sig (Elt F)) : after hostOps1 X (Proc.devRef .tc main_arg7) = X (Proc.devRef .tc main_arg7) :=
  after_of_writes_sub hostOps1 X hostOps1_writes (by decide)
theorem keepH1_main_arg8 (X : Valuation τ sig (Elt F)) : after hostOps1 X (Proc.devRef .tc main_arg8) = X (Proc.devRef .tc main_arg8) :=
  after_of_writes_sub hostOps1 X hostOps1_writes (by decide)
theorem keepH1_main_arg9 (X : Valuation τ sig (Elt F)) : after hostOps1 X (Proc.devRef .tc main_arg9) = X (Proc.devRef .tc main_arg9) :=
  after_of_writes_sub hostOps1 X hostOps1_writes (by decide)
theorem keepH1_main_arg10 (X : Valuation τ sig (Elt F)) : after hostOps1 X (Proc.devRef .tc main_arg10) = X (Proc.devRef .tc main_arg10) :=
  after_of_writes_sub hostOps1 X hostOps1_writes (by decide)
theorem keepH1_main_arg11 (X : Valuation τ sig (Elt F)) : after hostOps1 X (Proc.devRef .tc main_arg11) = X (Proc.devRef .tc main_arg11) :=
  after_of_writes_sub hostOps1 X hostOps1_writes (by decide)
theorem keepH1_main_arg12 (X : Valuation τ sig (Elt F)) : after hostOps1 X (Proc.devRef .tc main_arg12) = X (Proc.devRef .tc main_arg12) :=
  after_of_writes_sub hostOps1 X hostOps1_writes (by decide)
theorem keepH1_main_arg13 (X : Valuation τ sig (Elt F)) : after hostOps1 X (Proc.devRef .tc main_arg13) = X (Proc.devRef .tc main_arg13) :=
  after_of_writes_sub hostOps1 X hostOps1_writes (by decide)
theorem keepH1_main_arg14 (X : Valuation τ sig (Elt F)) : after hostOps1 X (Proc.devRef .tc main_arg14) = X (Proc.devRef .tc main_arg14) :=
  after_of_writes_sub hostOps1 X hostOps1_writes (by decide)

/-! ## Stretch 2: the aggregation before convolution 2, and that layer's parameters sliced out -/

set_option maxHeartbeats 4000000 in
/-- Rows gathered at the sources, added into the targets. -/
theorem agg2 (X : Valuation τ sig (Elt F)) :
    after hostOps2 X (Proc.devRef .tc main_v56)
      = Cert.Spec.spread256 (X (Proc.devRef .tc main_arg12)) (X (Proc.devRef .tc main_arg13)) (X (Proc.devRef .tc main_v46_1)) := by
  after_results_simp
  try rfl

set_option maxHeartbeats 4000000 in
/-- Layer 1's weights (bf16) out of the stack. -/
theorem wsl2 (X : Valuation τ sig (Elt F)) :
    after hostOps2 X (Proc.devRef .tc main_v58)
      = shapeCast S256x256 (extractStridedSlice S1x256x256 ![1, 0, 0] (X (Proc.devRef .tc main_v18)) slices_S10x256x256_S1x256x256_1_0_0) shapeCasts_S1x256x256_S256x256 := by
  after_results_simp
  try rfl

set_option maxHeartbeats 4000000 in
/-- Layer 1's bias out of the stack. -/
theorem bsl2 (X : Valuation τ sig (Elt F)) :
    after hostOps2 X (Proc.devRef .tc main_v60)
      = Cert.Spec.sliceB (X (Proc.devRef .tc main_arg5)) 1 Cert.ReferenceIdeal.Facts₀.slices_S10x256_S1x256_1_0 := by
  after_results_simp
  try rfl

/-- Every buffer stretch 2 writes, listed. -/
theorem hostOps2_writes : (hostOps2 : List (HloOp τ sig (Elt F))).Forall fun op => op.writes ⊆
    (([main_c_11, main_v47, main_v48, main_c_12, main_v49, main_v50, main_v51, main_v52, main_v53, main_cst_13, main_v54, main_v55, main_v56, main_v57, main_v58, main_v59, main_v60] : List (Ref sig .tc)).map (Proc.devRef (τ := τ) .tc)).toFinset := by
  simp only [hostOps2, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

theorem keepH2_main_v13 (X : Valuation τ sig (Elt F)) : after hostOps2 X (Proc.devRef .tc main_v13) = X (Proc.devRef .tc main_v13) :=
  after_of_writes_sub hostOps2 X hostOps2_writes (by decide)
theorem keepH2_main_v16 (X : Valuation τ sig (Elt F)) : after hostOps2 X (Proc.devRef .tc main_v16) = X (Proc.devRef .tc main_v16) :=
  after_of_writes_sub hostOps2 X hostOps2_writes (by decide)
theorem keepH2_main_v18 (X : Valuation τ sig (Elt F)) : after hostOps2 X (Proc.devRef .tc main_v18) = X (Proc.devRef .tc main_v18) :=
  after_of_writes_sub hostOps2 X hostOps2_writes (by decide)
theorem keepH2_main_arg1 (X : Valuation τ sig (Elt F)) : after hostOps2 X (Proc.devRef .tc main_arg1) = X (Proc.devRef .tc main_arg1) :=
  after_of_writes_sub hostOps2 X hostOps2_writes (by decide)
theorem keepH2_main_arg5 (X : Valuation τ sig (Elt F)) : after hostOps2 X (Proc.devRef .tc main_arg5) = X (Proc.devRef .tc main_arg5) :=
  after_of_writes_sub hostOps2 X hostOps2_writes (by decide)
theorem keepH2_main_arg6 (X : Valuation τ sig (Elt F)) : after hostOps2 X (Proc.devRef .tc main_arg6) = X (Proc.devRef .tc main_arg6) :=
  after_of_writes_sub hostOps2 X hostOps2_writes (by decide)
theorem keepH2_main_arg7 (X : Valuation τ sig (Elt F)) : after hostOps2 X (Proc.devRef .tc main_arg7) = X (Proc.devRef .tc main_arg7) :=
  after_of_writes_sub hostOps2 X hostOps2_writes (by decide)
theorem keepH2_main_arg8 (X : Valuation τ sig (Elt F)) : after hostOps2 X (Proc.devRef .tc main_arg8) = X (Proc.devRef .tc main_arg8) :=
  after_of_writes_sub hostOps2 X hostOps2_writes (by decide)
theorem keepH2_main_arg9 (X : Valuation τ sig (Elt F)) : after hostOps2 X (Proc.devRef .tc main_arg9) = X (Proc.devRef .tc main_arg9) :=
  after_of_writes_sub hostOps2 X hostOps2_writes (by decide)
theorem keepH2_main_arg10 (X : Valuation τ sig (Elt F)) : after hostOps2 X (Proc.devRef .tc main_arg10) = X (Proc.devRef .tc main_arg10) :=
  after_of_writes_sub hostOps2 X hostOps2_writes (by decide)
theorem keepH2_main_arg11 (X : Valuation τ sig (Elt F)) : after hostOps2 X (Proc.devRef .tc main_arg11) = X (Proc.devRef .tc main_arg11) :=
  after_of_writes_sub hostOps2 X hostOps2_writes (by decide)
theorem keepH2_main_arg12 (X : Valuation τ sig (Elt F)) : after hostOps2 X (Proc.devRef .tc main_arg12) = X (Proc.devRef .tc main_arg12) :=
  after_of_writes_sub hostOps2 X hostOps2_writes (by decide)
theorem keepH2_main_arg13 (X : Valuation τ sig (Elt F)) : after hostOps2 X (Proc.devRef .tc main_arg13) = X (Proc.devRef .tc main_arg13) :=
  after_of_writes_sub hostOps2 X hostOps2_writes (by decide)
theorem keepH2_main_arg14 (X : Valuation τ sig (Elt F)) : after hostOps2 X (Proc.devRef .tc main_arg14) = X (Proc.devRef .tc main_arg14) :=
  after_of_writes_sub hostOps2 X hostOps2_writes (by decide)

/-! ## Stretch 3: the aggregation before convolution 3, and that layer's parameters sliced out -/

set_option maxHeartbeats 4000000 in
/-- Rows gathered at the sources, added into the targets. -/
theorem agg3 (X : Valuation τ sig (Elt F)) :
    after hostOps3 X (Proc.devRef .tc main_v71)
      = Cert.Spec.spread256 (X (Proc.devRef .tc main_arg12)) (X (Proc.devRef .tc main_arg13)) (X (Proc.devRef .tc main_v61_1)) := by
  after_results_simp
  try rfl

set_option maxHeartbeats 4000000 in
/-- Layer 2's weights (bf16) out of the stack. -/
theorem wsl3 (X : Valuation τ sig (Elt F)) :
    after hostOps3 X (Proc.devRef .tc main_v73)
      = shapeCast S256x256 (extractStridedSlice S1x256x256 ![2, 0, 0] (X (Proc.devRef .tc main_v18)) slices_S10x256x256_S1x256x256_2_0_0) shapeCasts_S1x256x256_S256x256 := by
  after_results_simp
  try rfl

set_option maxHeartbeats 4000000 in
/-- Layer 2's bias out of the stack. -/
theorem bsl3 (X : Valuation τ sig (Elt F)) :
    after hostOps3 X (Proc.devRef .tc main_v75)
      = Cert.Spec.sliceB (X (Proc.devRef .tc main_arg5)) 2 Cert.ReferenceIdeal.Facts₀.slices_S10x256_S1x256_2_0 := by
  after_results_simp
  try rfl

/-- Every buffer stretch 3 writes, listed. -/
theorem hostOps3_writes : (hostOps3 : List (HloOp τ sig (Elt F))).Forall fun op => op.writes ⊆
    (([main_c_14, main_v62, main_v63, main_c_15, main_v64, main_v65, main_v66, main_v67, main_v68, main_cst_16, main_v69, main_v70, main_v71, main_v72, main_v73, main_v74, main_v75] : List (Ref sig .tc)).map (Proc.devRef (τ := τ) .tc)).toFinset := by
  simp only [hostOps3, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

theorem keepH3_main_v13 (X : Valuation τ sig (Elt F)) : after hostOps3 X (Proc.devRef .tc main_v13) = X (Proc.devRef .tc main_v13) :=
  after_of_writes_sub hostOps3 X hostOps3_writes (by decide)
theorem keepH3_main_v16 (X : Valuation τ sig (Elt F)) : after hostOps3 X (Proc.devRef .tc main_v16) = X (Proc.devRef .tc main_v16) :=
  after_of_writes_sub hostOps3 X hostOps3_writes (by decide)
theorem keepH3_main_v18 (X : Valuation τ sig (Elt F)) : after hostOps3 X (Proc.devRef .tc main_v18) = X (Proc.devRef .tc main_v18) :=
  after_of_writes_sub hostOps3 X hostOps3_writes (by decide)
theorem keepH3_main_arg1 (X : Valuation τ sig (Elt F)) : after hostOps3 X (Proc.devRef .tc main_arg1) = X (Proc.devRef .tc main_arg1) :=
  after_of_writes_sub hostOps3 X hostOps3_writes (by decide)
theorem keepH3_main_arg5 (X : Valuation τ sig (Elt F)) : after hostOps3 X (Proc.devRef .tc main_arg5) = X (Proc.devRef .tc main_arg5) :=
  after_of_writes_sub hostOps3 X hostOps3_writes (by decide)
theorem keepH3_main_arg6 (X : Valuation τ sig (Elt F)) : after hostOps3 X (Proc.devRef .tc main_arg6) = X (Proc.devRef .tc main_arg6) :=
  after_of_writes_sub hostOps3 X hostOps3_writes (by decide)
theorem keepH3_main_arg7 (X : Valuation τ sig (Elt F)) : after hostOps3 X (Proc.devRef .tc main_arg7) = X (Proc.devRef .tc main_arg7) :=
  after_of_writes_sub hostOps3 X hostOps3_writes (by decide)
theorem keepH3_main_arg8 (X : Valuation τ sig (Elt F)) : after hostOps3 X (Proc.devRef .tc main_arg8) = X (Proc.devRef .tc main_arg8) :=
  after_of_writes_sub hostOps3 X hostOps3_writes (by decide)
theorem keepH3_main_arg9 (X : Valuation τ sig (Elt F)) : after hostOps3 X (Proc.devRef .tc main_arg9) = X (Proc.devRef .tc main_arg9) :=
  after_of_writes_sub hostOps3 X hostOps3_writes (by decide)
theorem keepH3_main_arg10 (X : Valuation τ sig (Elt F)) : after hostOps3 X (Proc.devRef .tc main_arg10) = X (Proc.devRef .tc main_arg10) :=
  after_of_writes_sub hostOps3 X hostOps3_writes (by decide)
theorem keepH3_main_arg11 (X : Valuation τ sig (Elt F)) : after hostOps3 X (Proc.devRef .tc main_arg11) = X (Proc.devRef .tc main_arg11) :=
  after_of_writes_sub hostOps3 X hostOps3_writes (by decide)
theorem keepH3_main_arg12 (X : Valuation τ sig (Elt F)) : after hostOps3 X (Proc.devRef .tc main_arg12) = X (Proc.devRef .tc main_arg12) :=
  after_of_writes_sub hostOps3 X hostOps3_writes (by decide)
theorem keepH3_main_arg13 (X : Valuation τ sig (Elt F)) : after hostOps3 X (Proc.devRef .tc main_arg13) = X (Proc.devRef .tc main_arg13) :=
  after_of_writes_sub hostOps3 X hostOps3_writes (by decide)
theorem keepH3_main_arg14 (X : Valuation τ sig (Elt F)) : after hostOps3 X (Proc.devRef .tc main_arg14) = X (Proc.devRef .tc main_arg14) :=
  after_of_writes_sub hostOps3 X hostOps3_writes (by decide)

/-! ## Stretch 4: the aggregation before convolution 4, and that layer's parameters sliced out -/

set_option maxHeartbeats 4000000 in
/-- Rows gathered at the sources, added into the targets. -/
theorem agg4 (X : Valuation τ sig (Elt F)) :
    after hostOps4 X (Proc.devRef .tc main_v86)
      = Cert.Spec.spread256 (X (Proc.devRef .tc main_arg12)) (X (Proc.devRef .tc main_arg13)) (X (Proc.devRef .tc main_v76_1)) := by
  after_results_simp
  try rfl

set_option maxHeartbeats 4000000 in
/-- Layer 3's weights (bf16) out of the stack. -/
theorem wsl4 (X : Valuation τ sig (Elt F)) :
    after hostOps4 X (Proc.devRef .tc main_v88)
      = shapeCast S256x256 (extractStridedSlice S1x256x256 ![3, 0, 0] (X (Proc.devRef .tc main_v18)) slices_S10x256x256_S1x256x256_3_0_0) shapeCasts_S1x256x256_S256x256 := by
  after_results_simp
  try rfl

set_option maxHeartbeats 4000000 in
/-- Layer 3's bias out of the stack. -/
theorem bsl4 (X : Valuation τ sig (Elt F)) :
    after hostOps4 X (Proc.devRef .tc main_v90)
      = Cert.Spec.sliceB (X (Proc.devRef .tc main_arg5)) 3 Cert.ReferenceIdeal.Facts₀.slices_S10x256_S1x256_3_0 := by
  after_results_simp
  try rfl

/-- Every buffer stretch 4 writes, listed. -/
theorem hostOps4_writes : (hostOps4 : List (HloOp τ sig (Elt F))).Forall fun op => op.writes ⊆
    (([main_c_17, main_v77, main_v78, main_c_18, main_v79, main_v80, main_v81, main_v82, main_v83, main_cst_19, main_v84, main_v85, main_v86, main_v87, main_v88, main_v89, main_v90] : List (Ref sig .tc)).map (Proc.devRef (τ := τ) .tc)).toFinset := by
  simp only [hostOps4, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

theorem keepH4_main_v13 (X : Valuation τ sig (Elt F)) : after hostOps4 X (Proc.devRef .tc main_v13) = X (Proc.devRef .tc main_v13) :=
  after_of_writes_sub hostOps4 X hostOps4_writes (by decide)
theorem keepH4_main_v16 (X : Valuation τ sig (Elt F)) : after hostOps4 X (Proc.devRef .tc main_v16) = X (Proc.devRef .tc main_v16) :=
  after_of_writes_sub hostOps4 X hostOps4_writes (by decide)
theorem keepH4_main_v18 (X : Valuation τ sig (Elt F)) : after hostOps4 X (Proc.devRef .tc main_v18) = X (Proc.devRef .tc main_v18) :=
  after_of_writes_sub hostOps4 X hostOps4_writes (by decide)
theorem keepH4_main_arg1 (X : Valuation τ sig (Elt F)) : after hostOps4 X (Proc.devRef .tc main_arg1) = X (Proc.devRef .tc main_arg1) :=
  after_of_writes_sub hostOps4 X hostOps4_writes (by decide)
theorem keepH4_main_arg5 (X : Valuation τ sig (Elt F)) : after hostOps4 X (Proc.devRef .tc main_arg5) = X (Proc.devRef .tc main_arg5) :=
  after_of_writes_sub hostOps4 X hostOps4_writes (by decide)
theorem keepH4_main_arg6 (X : Valuation τ sig (Elt F)) : after hostOps4 X (Proc.devRef .tc main_arg6) = X (Proc.devRef .tc main_arg6) :=
  after_of_writes_sub hostOps4 X hostOps4_writes (by decide)
theorem keepH4_main_arg7 (X : Valuation τ sig (Elt F)) : after hostOps4 X (Proc.devRef .tc main_arg7) = X (Proc.devRef .tc main_arg7) :=
  after_of_writes_sub hostOps4 X hostOps4_writes (by decide)
theorem keepH4_main_arg8 (X : Valuation τ sig (Elt F)) : after hostOps4 X (Proc.devRef .tc main_arg8) = X (Proc.devRef .tc main_arg8) :=
  after_of_writes_sub hostOps4 X hostOps4_writes (by decide)
theorem keepH4_main_arg9 (X : Valuation τ sig (Elt F)) : after hostOps4 X (Proc.devRef .tc main_arg9) = X (Proc.devRef .tc main_arg9) :=
  after_of_writes_sub hostOps4 X hostOps4_writes (by decide)
theorem keepH4_main_arg10 (X : Valuation τ sig (Elt F)) : after hostOps4 X (Proc.devRef .tc main_arg10) = X (Proc.devRef .tc main_arg10) :=
  after_of_writes_sub hostOps4 X hostOps4_writes (by decide)
theorem keepH4_main_arg11 (X : Valuation τ sig (Elt F)) : after hostOps4 X (Proc.devRef .tc main_arg11) = X (Proc.devRef .tc main_arg11) :=
  after_of_writes_sub hostOps4 X hostOps4_writes (by decide)
theorem keepH4_main_arg12 (X : Valuation τ sig (Elt F)) : after hostOps4 X (Proc.devRef .tc main_arg12) = X (Proc.devRef .tc main_arg12) :=
  after_of_writes_sub hostOps4 X hostOps4_writes (by decide)
theorem keepH4_main_arg13 (X : Valuation τ sig (Elt F)) : after hostOps4 X (Proc.devRef .tc main_arg13) = X (Proc.devRef .tc main_arg13) :=
  after_of_writes_sub hostOps4 X hostOps4_writes (by decide)
theorem keepH4_main_arg14 (X : Valuation τ sig (Elt F)) : after hostOps4 X (Proc.devRef .tc main_arg14) = X (Proc.devRef .tc main_arg14) :=
  after_of_writes_sub hostOps4 X hostOps4_writes (by decide)

/-! ## Stretch 5: the aggregation before convolution 5, and that layer's parameters sliced out -/

set_option maxHeartbeats 4000000 in
/-- Rows gathered at the sources, added into the targets. -/
theorem agg5 (X : Valuation τ sig (Elt F)) :
    after hostOps5 X (Proc.devRef .tc main_v101)
      = Cert.Spec.spread256 (X (Proc.devRef .tc main_arg12)) (X (Proc.devRef .tc main_arg13)) (X (Proc.devRef .tc main_v91_1)) := by
  after_results_simp
  try rfl

set_option maxHeartbeats 4000000 in
/-- Layer 4's weights (bf16) out of the stack. -/
theorem wsl5 (X : Valuation τ sig (Elt F)) :
    after hostOps5 X (Proc.devRef .tc main_v103)
      = shapeCast S256x256 (extractStridedSlice S1x256x256 ![4, 0, 0] (X (Proc.devRef .tc main_v18)) slices_S10x256x256_S1x256x256_4_0_0) shapeCasts_S1x256x256_S256x256 := by
  after_results_simp
  try rfl

set_option maxHeartbeats 4000000 in
/-- Layer 4's bias out of the stack. -/
theorem bsl5 (X : Valuation τ sig (Elt F)) :
    after hostOps5 X (Proc.devRef .tc main_v105)
      = Cert.Spec.sliceB (X (Proc.devRef .tc main_arg5)) 4 Cert.ReferenceIdeal.Facts₀.slices_S10x256_S1x256_4_0 := by
  after_results_simp
  try rfl

/-- Every buffer stretch 5 writes, listed. -/
theorem hostOps5_writes : (hostOps5 : List (HloOp τ sig (Elt F))).Forall fun op => op.writes ⊆
    (([main_c_20, main_v92, main_v93, main_c_21, main_v94, main_v95, main_v96, main_v97, main_v98, main_cst_22, main_v99, main_v100, main_v101, main_v102, main_v103, main_v104, main_v105] : List (Ref sig .tc)).map (Proc.devRef (τ := τ) .tc)).toFinset := by
  simp only [hostOps5, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

theorem keepH5_main_v13 (X : Valuation τ sig (Elt F)) : after hostOps5 X (Proc.devRef .tc main_v13) = X (Proc.devRef .tc main_v13) :=
  after_of_writes_sub hostOps5 X hostOps5_writes (by decide)
theorem keepH5_main_v16 (X : Valuation τ sig (Elt F)) : after hostOps5 X (Proc.devRef .tc main_v16) = X (Proc.devRef .tc main_v16) :=
  after_of_writes_sub hostOps5 X hostOps5_writes (by decide)
theorem keepH5_main_v18 (X : Valuation τ sig (Elt F)) : after hostOps5 X (Proc.devRef .tc main_v18) = X (Proc.devRef .tc main_v18) :=
  after_of_writes_sub hostOps5 X hostOps5_writes (by decide)
theorem keepH5_main_arg1 (X : Valuation τ sig (Elt F)) : after hostOps5 X (Proc.devRef .tc main_arg1) = X (Proc.devRef .tc main_arg1) :=
  after_of_writes_sub hostOps5 X hostOps5_writes (by decide)
theorem keepH5_main_arg5 (X : Valuation τ sig (Elt F)) : after hostOps5 X (Proc.devRef .tc main_arg5) = X (Proc.devRef .tc main_arg5) :=
  after_of_writes_sub hostOps5 X hostOps5_writes (by decide)
theorem keepH5_main_arg6 (X : Valuation τ sig (Elt F)) : after hostOps5 X (Proc.devRef .tc main_arg6) = X (Proc.devRef .tc main_arg6) :=
  after_of_writes_sub hostOps5 X hostOps5_writes (by decide)
theorem keepH5_main_arg7 (X : Valuation τ sig (Elt F)) : after hostOps5 X (Proc.devRef .tc main_arg7) = X (Proc.devRef .tc main_arg7) :=
  after_of_writes_sub hostOps5 X hostOps5_writes (by decide)
theorem keepH5_main_arg8 (X : Valuation τ sig (Elt F)) : after hostOps5 X (Proc.devRef .tc main_arg8) = X (Proc.devRef .tc main_arg8) :=
  after_of_writes_sub hostOps5 X hostOps5_writes (by decide)
theorem keepH5_main_arg9 (X : Valuation τ sig (Elt F)) : after hostOps5 X (Proc.devRef .tc main_arg9) = X (Proc.devRef .tc main_arg9) :=
  after_of_writes_sub hostOps5 X hostOps5_writes (by decide)
theorem keepH5_main_arg10 (X : Valuation τ sig (Elt F)) : after hostOps5 X (Proc.devRef .tc main_arg10) = X (Proc.devRef .tc main_arg10) :=
  after_of_writes_sub hostOps5 X hostOps5_writes (by decide)
theorem keepH5_main_arg11 (X : Valuation τ sig (Elt F)) : after hostOps5 X (Proc.devRef .tc main_arg11) = X (Proc.devRef .tc main_arg11) :=
  after_of_writes_sub hostOps5 X hostOps5_writes (by decide)
theorem keepH5_main_arg12 (X : Valuation τ sig (Elt F)) : after hostOps5 X (Proc.devRef .tc main_arg12) = X (Proc.devRef .tc main_arg12) :=
  after_of_writes_sub hostOps5 X hostOps5_writes (by decide)
theorem keepH5_main_arg13 (X : Valuation τ sig (Elt F)) : after hostOps5 X (Proc.devRef .tc main_arg13) = X (Proc.devRef .tc main_arg13) :=
  after_of_writes_sub hostOps5 X hostOps5_writes (by decide)
theorem keepH5_main_arg14 (X : Valuation τ sig (Elt F)) : after hostOps5 X (Proc.devRef .tc main_arg14) = X (Proc.devRef .tc main_arg14) :=
  after_of_writes_sub hostOps5 X hostOps5_writes (by decide)

/-! ## Stretch 6: the aggregation before convolution 6, and that layer's parameters sliced out -/

set_option maxHeartbeats 4000000 in
/-- Rows gathered at the sources, added into the targets. -/
theorem agg6 (X : Valuation τ sig (Elt F)) :
    after hostOps6 X (Proc.devRef .tc main_v116)
      = Cert.Spec.spread256 (X (Proc.devRef .tc main_arg12)) (X (Proc.devRef .tc main_arg13)) (X (Proc.devRef .tc main_v106_1)) := by
  after_results_simp
  try rfl

set_option maxHeartbeats 4000000 in
/-- Layer 5's weights (bf16) out of the stack. -/
theorem wsl6 (X : Valuation τ sig (Elt F)) :
    after hostOps6 X (Proc.devRef .tc main_v118)
      = shapeCast S256x256 (extractStridedSlice S1x256x256 ![5, 0, 0] (X (Proc.devRef .tc main_v18)) slices_S10x256x256_S1x256x256_5_0_0) shapeCasts_S1x256x256_S256x256 := by
  after_results_simp
  try rfl

set_option maxHeartbeats 4000000 in
/-- Layer 5's bias out of the stack. -/
theorem bsl6 (X : Valuation τ sig (Elt F)) :
    after hostOps6 X (Proc.devRef .tc main_v120)
      = Cert.Spec.sliceB (X (Proc.devRef .tc main_arg5)) 5 Cert.ReferenceIdeal.Facts₀.slices_S10x256_S1x256_5_0 := by
  after_results_simp
  try rfl

/-- Every buffer stretch 6 writes, listed. -/
theorem hostOps6_writes : (hostOps6 : List (HloOp τ sig (Elt F))).Forall fun op => op.writes ⊆
    (([main_c_23, main_v107, main_v108, main_c_24, main_v109, main_v110, main_v111, main_v112, main_v113, main_cst_25, main_v114, main_v115, main_v116, main_v117, main_v118, main_v119, main_v120] : List (Ref sig .tc)).map (Proc.devRef (τ := τ) .tc)).toFinset := by
  simp only [hostOps6, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

theorem keepH6_main_v13 (X : Valuation τ sig (Elt F)) : after hostOps6 X (Proc.devRef .tc main_v13) = X (Proc.devRef .tc main_v13) :=
  after_of_writes_sub hostOps6 X hostOps6_writes (by decide)
theorem keepH6_main_v16 (X : Valuation τ sig (Elt F)) : after hostOps6 X (Proc.devRef .tc main_v16) = X (Proc.devRef .tc main_v16) :=
  after_of_writes_sub hostOps6 X hostOps6_writes (by decide)
theorem keepH6_main_v18 (X : Valuation τ sig (Elt F)) : after hostOps6 X (Proc.devRef .tc main_v18) = X (Proc.devRef .tc main_v18) :=
  after_of_writes_sub hostOps6 X hostOps6_writes (by decide)
theorem keepH6_main_arg1 (X : Valuation τ sig (Elt F)) : after hostOps6 X (Proc.devRef .tc main_arg1) = X (Proc.devRef .tc main_arg1) :=
  after_of_writes_sub hostOps6 X hostOps6_writes (by decide)
theorem keepH6_main_arg5 (X : Valuation τ sig (Elt F)) : after hostOps6 X (Proc.devRef .tc main_arg5) = X (Proc.devRef .tc main_arg5) :=
  after_of_writes_sub hostOps6 X hostOps6_writes (by decide)
theorem keepH6_main_arg6 (X : Valuation τ sig (Elt F)) : after hostOps6 X (Proc.devRef .tc main_arg6) = X (Proc.devRef .tc main_arg6) :=
  after_of_writes_sub hostOps6 X hostOps6_writes (by decide)
theorem keepH6_main_arg7 (X : Valuation τ sig (Elt F)) : after hostOps6 X (Proc.devRef .tc main_arg7) = X (Proc.devRef .tc main_arg7) :=
  after_of_writes_sub hostOps6 X hostOps6_writes (by decide)
theorem keepH6_main_arg8 (X : Valuation τ sig (Elt F)) : after hostOps6 X (Proc.devRef .tc main_arg8) = X (Proc.devRef .tc main_arg8) :=
  after_of_writes_sub hostOps6 X hostOps6_writes (by decide)
theorem keepH6_main_arg9 (X : Valuation τ sig (Elt F)) : after hostOps6 X (Proc.devRef .tc main_arg9) = X (Proc.devRef .tc main_arg9) :=
  after_of_writes_sub hostOps6 X hostOps6_writes (by decide)
theorem keepH6_main_arg10 (X : Valuation τ sig (Elt F)) : after hostOps6 X (Proc.devRef .tc main_arg10) = X (Proc.devRef .tc main_arg10) :=
  after_of_writes_sub hostOps6 X hostOps6_writes (by decide)
theorem keepH6_main_arg11 (X : Valuation τ sig (Elt F)) : after hostOps6 X (Proc.devRef .tc main_arg11) = X (Proc.devRef .tc main_arg11) :=
  after_of_writes_sub hostOps6 X hostOps6_writes (by decide)
theorem keepH6_main_arg12 (X : Valuation τ sig (Elt F)) : after hostOps6 X (Proc.devRef .tc main_arg12) = X (Proc.devRef .tc main_arg12) :=
  after_of_writes_sub hostOps6 X hostOps6_writes (by decide)
theorem keepH6_main_arg13 (X : Valuation τ sig (Elt F)) : after hostOps6 X (Proc.devRef .tc main_arg13) = X (Proc.devRef .tc main_arg13) :=
  after_of_writes_sub hostOps6 X hostOps6_writes (by decide)
theorem keepH6_main_arg14 (X : Valuation τ sig (Elt F)) : after hostOps6 X (Proc.devRef .tc main_arg14) = X (Proc.devRef .tc main_arg14) :=
  after_of_writes_sub hostOps6 X hostOps6_writes (by decide)

/-! ## Stretch 7: the aggregation before convolution 7, and that layer's parameters sliced out -/

set_option maxHeartbeats 4000000 in
/-- Rows gathered at the sources, added into the targets. -/
theorem agg7 (X : Valuation τ sig (Elt F)) :
    after hostOps7 X (Proc.devRef .tc main_v131)
      = Cert.Spec.spread256 (X (Proc.devRef .tc main_arg12)) (X (Proc.devRef .tc main_arg13)) (X (Proc.devRef .tc main_v121_1)) := by
  after_results_simp
  try rfl

set_option maxHeartbeats 4000000 in
/-- Layer 6's weights (bf16) out of the stack. -/
theorem wsl7 (X : Valuation τ sig (Elt F)) :
    after hostOps7 X (Proc.devRef .tc main_v133)
      = shapeCast S256x256 (extractStridedSlice S1x256x256 ![6, 0, 0] (X (Proc.devRef .tc main_v18)) slices_S10x256x256_S1x256x256_6_0_0) shapeCasts_S1x256x256_S256x256 := by
  after_results_simp
  try rfl

set_option maxHeartbeats 4000000 in
/-- Layer 6's bias out of the stack. -/
theorem bsl7 (X : Valuation τ sig (Elt F)) :
    after hostOps7 X (Proc.devRef .tc main_v135)
      = Cert.Spec.sliceB (X (Proc.devRef .tc main_arg5)) 6 Cert.ReferenceIdeal.Facts₀.slices_S10x256_S1x256_6_0 := by
  after_results_simp
  try rfl

/-- Every buffer stretch 7 writes, listed. -/
theorem hostOps7_writes : (hostOps7 : List (HloOp τ sig (Elt F))).Forall fun op => op.writes ⊆
    (([main_c_26, main_v122, main_v123, main_c_27, main_v124, main_v125, main_v126, main_v127, main_v128, main_cst_28, main_v129, main_v130, main_v131, main_v132, main_v133, main_v134, main_v135] : List (Ref sig .tc)).map (Proc.devRef (τ := τ) .tc)).toFinset := by
  simp only [hostOps7, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

theorem keepH7_main_v13 (X : Valuation τ sig (Elt F)) : after hostOps7 X (Proc.devRef .tc main_v13) = X (Proc.devRef .tc main_v13) :=
  after_of_writes_sub hostOps7 X hostOps7_writes (by decide)
theorem keepH7_main_v16 (X : Valuation τ sig (Elt F)) : after hostOps7 X (Proc.devRef .tc main_v16) = X (Proc.devRef .tc main_v16) :=
  after_of_writes_sub hostOps7 X hostOps7_writes (by decide)
theorem keepH7_main_v18 (X : Valuation τ sig (Elt F)) : after hostOps7 X (Proc.devRef .tc main_v18) = X (Proc.devRef .tc main_v18) :=
  after_of_writes_sub hostOps7 X hostOps7_writes (by decide)
theorem keepH7_main_arg1 (X : Valuation τ sig (Elt F)) : after hostOps7 X (Proc.devRef .tc main_arg1) = X (Proc.devRef .tc main_arg1) :=
  after_of_writes_sub hostOps7 X hostOps7_writes (by decide)
theorem keepH7_main_arg5 (X : Valuation τ sig (Elt F)) : after hostOps7 X (Proc.devRef .tc main_arg5) = X (Proc.devRef .tc main_arg5) :=
  after_of_writes_sub hostOps7 X hostOps7_writes (by decide)
theorem keepH7_main_arg6 (X : Valuation τ sig (Elt F)) : after hostOps7 X (Proc.devRef .tc main_arg6) = X (Proc.devRef .tc main_arg6) :=
  after_of_writes_sub hostOps7 X hostOps7_writes (by decide)
theorem keepH7_main_arg7 (X : Valuation τ sig (Elt F)) : after hostOps7 X (Proc.devRef .tc main_arg7) = X (Proc.devRef .tc main_arg7) :=
  after_of_writes_sub hostOps7 X hostOps7_writes (by decide)
theorem keepH7_main_arg8 (X : Valuation τ sig (Elt F)) : after hostOps7 X (Proc.devRef .tc main_arg8) = X (Proc.devRef .tc main_arg8) :=
  after_of_writes_sub hostOps7 X hostOps7_writes (by decide)
theorem keepH7_main_arg9 (X : Valuation τ sig (Elt F)) : after hostOps7 X (Proc.devRef .tc main_arg9) = X (Proc.devRef .tc main_arg9) :=
  after_of_writes_sub hostOps7 X hostOps7_writes (by decide)
theorem keepH7_main_arg10 (X : Valuation τ sig (Elt F)) : after hostOps7 X (Proc.devRef .tc main_arg10) = X (Proc.devRef .tc main_arg10) :=
  after_of_writes_sub hostOps7 X hostOps7_writes (by decide)
theorem keepH7_main_arg11 (X : Valuation τ sig (Elt F)) : after hostOps7 X (Proc.devRef .tc main_arg11) = X (Proc.devRef .tc main_arg11) :=
  after_of_writes_sub hostOps7 X hostOps7_writes (by decide)
theorem keepH7_main_arg12 (X : Valuation τ sig (Elt F)) : after hostOps7 X (Proc.devRef .tc main_arg12) = X (Proc.devRef .tc main_arg12) :=
  after_of_writes_sub hostOps7 X hostOps7_writes (by decide)
theorem keepH7_main_arg13 (X : Valuation τ sig (Elt F)) : after hostOps7 X (Proc.devRef .tc main_arg13) = X (Proc.devRef .tc main_arg13) :=
  after_of_writes_sub hostOps7 X hostOps7_writes (by decide)
theorem keepH7_main_arg14 (X : Valuation τ sig (Elt F)) : after hostOps7 X (Proc.devRef .tc main_arg14) = X (Proc.devRef .tc main_arg14) :=
  after_of_writes_sub hostOps7 X hostOps7_writes (by decide)

/-! ## Stretch 8: the aggregation before convolution 8, and that layer's parameters sliced out -/

set_option maxHeartbeats 4000000 in
/-- Rows gathered at the sources, added into the targets. -/
theorem agg8 (X : Valuation τ sig (Elt F)) :
    after hostOps8 X (Proc.devRef .tc main_v146)
      = Cert.Spec.spread256 (X (Proc.devRef .tc main_arg12)) (X (Proc.devRef .tc main_arg13)) (X (Proc.devRef .tc main_v136_1)) := by
  after_results_simp
  try rfl

set_option maxHeartbeats 4000000 in
/-- Layer 7's weights (bf16) out of the stack. -/
theorem wsl8 (X : Valuation τ sig (Elt F)) :
    after hostOps8 X (Proc.devRef .tc main_v148)
      = shapeCast S256x256 (extractStridedSlice S1x256x256 ![7, 0, 0] (X (Proc.devRef .tc main_v18)) slices_S10x256x256_S1x256x256_7_0_0) shapeCasts_S1x256x256_S256x256 := by
  after_results_simp
  try rfl

set_option maxHeartbeats 4000000 in
/-- Layer 7's bias out of the stack. -/
theorem bsl8 (X : Valuation τ sig (Elt F)) :
    after hostOps8 X (Proc.devRef .tc main_v150)
      = Cert.Spec.sliceB (X (Proc.devRef .tc main_arg5)) 7 Cert.ReferenceIdeal.Facts₀.slices_S10x256_S1x256_7_0 := by
  after_results_simp
  try rfl

/-- Every buffer stretch 8 writes, listed. -/
theorem hostOps8_writes : (hostOps8 : List (HloOp τ sig (Elt F))).Forall fun op => op.writes ⊆
    (([main_c_29, main_v137, main_v138, main_c_30, main_v139, main_v140, main_v141, main_v142, main_v143, main_cst_31, main_v144, main_v145, main_v146, main_v147, main_v148, main_v149, main_v150] : List (Ref sig .tc)).map (Proc.devRef (τ := τ) .tc)).toFinset := by
  simp only [hostOps8, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

theorem keepH8_main_v13 (X : Valuation τ sig (Elt F)) : after hostOps8 X (Proc.devRef .tc main_v13) = X (Proc.devRef .tc main_v13) :=
  after_of_writes_sub hostOps8 X hostOps8_writes (by decide)
theorem keepH8_main_v16 (X : Valuation τ sig (Elt F)) : after hostOps8 X (Proc.devRef .tc main_v16) = X (Proc.devRef .tc main_v16) :=
  after_of_writes_sub hostOps8 X hostOps8_writes (by decide)
theorem keepH8_main_v18 (X : Valuation τ sig (Elt F)) : after hostOps8 X (Proc.devRef .tc main_v18) = X (Proc.devRef .tc main_v18) :=
  after_of_writes_sub hostOps8 X hostOps8_writes (by decide)
theorem keepH8_main_arg1 (X : Valuation τ sig (Elt F)) : after hostOps8 X (Proc.devRef .tc main_arg1) = X (Proc.devRef .tc main_arg1) :=
  after_of_writes_sub hostOps8 X hostOps8_writes (by decide)
theorem keepH8_main_arg5 (X : Valuation τ sig (Elt F)) : after hostOps8 X (Proc.devRef .tc main_arg5) = X (Proc.devRef .tc main_arg5) :=
  after_of_writes_sub hostOps8 X hostOps8_writes (by decide)
theorem keepH8_main_arg6 (X : Valuation τ sig (Elt F)) : after hostOps8 X (Proc.devRef .tc main_arg6) = X (Proc.devRef .tc main_arg6) :=
  after_of_writes_sub hostOps8 X hostOps8_writes (by decide)
theorem keepH8_main_arg7 (X : Valuation τ sig (Elt F)) : after hostOps8 X (Proc.devRef .tc main_arg7) = X (Proc.devRef .tc main_arg7) :=
  after_of_writes_sub hostOps8 X hostOps8_writes (by decide)
theorem keepH8_main_arg8 (X : Valuation τ sig (Elt F)) : after hostOps8 X (Proc.devRef .tc main_arg8) = X (Proc.devRef .tc main_arg8) :=
  after_of_writes_sub hostOps8 X hostOps8_writes (by decide)
theorem keepH8_main_arg9 (X : Valuation τ sig (Elt F)) : after hostOps8 X (Proc.devRef .tc main_arg9) = X (Proc.devRef .tc main_arg9) :=
  after_of_writes_sub hostOps8 X hostOps8_writes (by decide)
theorem keepH8_main_arg10 (X : Valuation τ sig (Elt F)) : after hostOps8 X (Proc.devRef .tc main_arg10) = X (Proc.devRef .tc main_arg10) :=
  after_of_writes_sub hostOps8 X hostOps8_writes (by decide)
theorem keepH8_main_arg11 (X : Valuation τ sig (Elt F)) : after hostOps8 X (Proc.devRef .tc main_arg11) = X (Proc.devRef .tc main_arg11) :=
  after_of_writes_sub hostOps8 X hostOps8_writes (by decide)
theorem keepH8_main_arg12 (X : Valuation τ sig (Elt F)) : after hostOps8 X (Proc.devRef .tc main_arg12) = X (Proc.devRef .tc main_arg12) :=
  after_of_writes_sub hostOps8 X hostOps8_writes (by decide)
theorem keepH8_main_arg13 (X : Valuation τ sig (Elt F)) : after hostOps8 X (Proc.devRef .tc main_arg13) = X (Proc.devRef .tc main_arg13) :=
  after_of_writes_sub hostOps8 X hostOps8_writes (by decide)
theorem keepH8_main_arg14 (X : Valuation τ sig (Elt F)) : after hostOps8 X (Proc.devRef .tc main_arg14) = X (Proc.devRef .tc main_arg14) :=
  after_of_writes_sub hostOps8 X hostOps8_writes (by decide)

/-! ## Stretch 9: the aggregation before convolution 9, and that layer's parameters sliced out -/

set_option maxHeartbeats 4000000 in
/-- Rows gathered at the sources, added into the targets. -/
theorem agg9 (X : Valuation τ sig (Elt F)) :
    after hostOps9 X (Proc.devRef .tc main_v161)
      = Cert.Spec.spread256 (X (Proc.devRef .tc main_arg12)) (X (Proc.devRef .tc main_arg13)) (X (Proc.devRef .tc main_v151_1)) := by
  after_results_simp
  try rfl

set_option maxHeartbeats 4000000 in
/-- Layer 8's weights (bf16) out of the stack. -/
theorem wsl9 (X : Valuation τ sig (Elt F)) :
    after hostOps9 X (Proc.devRef .tc main_v163)
      = shapeCast S256x256 (extractStridedSlice S1x256x256 ![8, 0, 0] (X (Proc.devRef .tc main_v18)) slices_S10x256x256_S1x256x256_8_0_0) shapeCasts_S1x256x256_S256x256 := by
  after_results_simp
  try rfl

set_option maxHeartbeats 4000000 in
/-- Layer 8's bias out of the stack. -/
theorem bsl9 (X : Valuation τ sig (Elt F)) :
    after hostOps9 X (Proc.devRef .tc main_v165)
      = Cert.Spec.sliceB (X (Proc.devRef .tc main_arg5)) 8 Cert.ReferenceIdeal.Facts₀.slices_S10x256_S1x256_8_0 := by
  after_results_simp
  try rfl

/-- Every buffer stretch 9 writes, listed. -/
theorem hostOps9_writes : (hostOps9 : List (HloOp τ sig (Elt F))).Forall fun op => op.writes ⊆
    (([main_c_32, main_v152, main_v153, main_c_33, main_v154, main_v155, main_v156, main_v157, main_v158, main_cst_34, main_v159, main_v160, main_v161, main_v162, main_v163, main_v164, main_v165] : List (Ref sig .tc)).map (Proc.devRef (τ := τ) .tc)).toFinset := by
  simp only [hostOps9, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

theorem keepH9_main_v13 (X : Valuation τ sig (Elt F)) : after hostOps9 X (Proc.devRef .tc main_v13) = X (Proc.devRef .tc main_v13) :=
  after_of_writes_sub hostOps9 X hostOps9_writes (by decide)
theorem keepH9_main_v16 (X : Valuation τ sig (Elt F)) : after hostOps9 X (Proc.devRef .tc main_v16) = X (Proc.devRef .tc main_v16) :=
  after_of_writes_sub hostOps9 X hostOps9_writes (by decide)
theorem keepH9_main_v18 (X : Valuation τ sig (Elt F)) : after hostOps9 X (Proc.devRef .tc main_v18) = X (Proc.devRef .tc main_v18) :=
  after_of_writes_sub hostOps9 X hostOps9_writes (by decide)
theorem keepH9_main_arg1 (X : Valuation τ sig (Elt F)) : after hostOps9 X (Proc.devRef .tc main_arg1) = X (Proc.devRef .tc main_arg1) :=
  after_of_writes_sub hostOps9 X hostOps9_writes (by decide)
theorem keepH9_main_arg5 (X : Valuation τ sig (Elt F)) : after hostOps9 X (Proc.devRef .tc main_arg5) = X (Proc.devRef .tc main_arg5) :=
  after_of_writes_sub hostOps9 X hostOps9_writes (by decide)
theorem keepH9_main_arg6 (X : Valuation τ sig (Elt F)) : after hostOps9 X (Proc.devRef .tc main_arg6) = X (Proc.devRef .tc main_arg6) :=
  after_of_writes_sub hostOps9 X hostOps9_writes (by decide)
theorem keepH9_main_arg7 (X : Valuation τ sig (Elt F)) : after hostOps9 X (Proc.devRef .tc main_arg7) = X (Proc.devRef .tc main_arg7) :=
  after_of_writes_sub hostOps9 X hostOps9_writes (by decide)
theorem keepH9_main_arg8 (X : Valuation τ sig (Elt F)) : after hostOps9 X (Proc.devRef .tc main_arg8) = X (Proc.devRef .tc main_arg8) :=
  after_of_writes_sub hostOps9 X hostOps9_writes (by decide)
theorem keepH9_main_arg9 (X : Valuation τ sig (Elt F)) : after hostOps9 X (Proc.devRef .tc main_arg9) = X (Proc.devRef .tc main_arg9) :=
  after_of_writes_sub hostOps9 X hostOps9_writes (by decide)
theorem keepH9_main_arg10 (X : Valuation τ sig (Elt F)) : after hostOps9 X (Proc.devRef .tc main_arg10) = X (Proc.devRef .tc main_arg10) :=
  after_of_writes_sub hostOps9 X hostOps9_writes (by decide)
theorem keepH9_main_arg11 (X : Valuation τ sig (Elt F)) : after hostOps9 X (Proc.devRef .tc main_arg11) = X (Proc.devRef .tc main_arg11) :=
  after_of_writes_sub hostOps9 X hostOps9_writes (by decide)
theorem keepH9_main_arg12 (X : Valuation τ sig (Elt F)) : after hostOps9 X (Proc.devRef .tc main_arg12) = X (Proc.devRef .tc main_arg12) :=
  after_of_writes_sub hostOps9 X hostOps9_writes (by decide)
theorem keepH9_main_arg13 (X : Valuation τ sig (Elt F)) : after hostOps9 X (Proc.devRef .tc main_arg13) = X (Proc.devRef .tc main_arg13) :=
  after_of_writes_sub hostOps9 X hostOps9_writes (by decide)
theorem keepH9_main_arg14 (X : Valuation τ sig (Elt F)) : after hostOps9 X (Proc.devRef .tc main_arg14) = X (Proc.devRef .tc main_arg14) :=
  after_of_writes_sub hostOps9 X hostOps9_writes (by decide)

/-! ## Stretch 10: the aggregation before convolution 10, and that layer's parameters sliced out -/

set_option maxHeartbeats 4000000 in
/-- Rows gathered at the sources, added into the targets. -/
theorem agg10 (X : Valuation τ sig (Elt F)) :
    after hostOps10 X (Proc.devRef .tc main_v176)
      = Cert.Spec.spread256 (X (Proc.devRef .tc main_arg12)) (X (Proc.devRef .tc main_arg13)) (X (Proc.devRef .tc main_v166_1)) := by
  after_results_simp
  try rfl

set_option maxHeartbeats 4000000 in
/-- Layer 9's weights (bf16) out of the stack. -/
theorem wsl10 (X : Valuation τ sig (Elt F)) :
    after hostOps10 X (Proc.devRef .tc main_v178)
      = shapeCast S256x256 (extractStridedSlice S1x256x256 ![9, 0, 0] (X (Proc.devRef .tc main_v18)) slices_S10x256x256_S1x256x256_9_0_0) shapeCasts_S1x256x256_S256x256 := by
  after_results_simp
  try rfl

set_option maxHeartbeats 4000000 in
/-- Layer 9's bias out of the stack. -/
theorem bsl10 (X : Valuation τ sig (Elt F)) :
    after hostOps10 X (Proc.devRef .tc main_v180)
      = Cert.Spec.sliceB (X (Proc.devRef .tc main_arg5)) 9 Cert.ReferenceIdeal.Facts₀.slices_S10x256_S1x256_9_0 := by
  after_results_simp
  try rfl

/-- Every buffer stretch 10 writes, listed. -/
theorem hostOps10_writes : (hostOps10 : List (HloOp τ sig (Elt F))).Forall fun op => op.writes ⊆
    (([main_c_35, main_v167, main_v168, main_c_36, main_v169, main_v170, main_v171, main_v172, main_v173, main_cst_37, main_v174, main_v175, main_v176, main_v177, main_v178, main_v179, main_v180] : List (Ref sig .tc)).map (Proc.devRef (τ := τ) .tc)).toFinset := by
  simp only [hostOps10, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

theorem keepH10_main_v13 (X : Valuation τ sig (Elt F)) : after hostOps10 X (Proc.devRef .tc main_v13) = X (Proc.devRef .tc main_v13) :=
  after_of_writes_sub hostOps10 X hostOps10_writes (by decide)
theorem keepH10_main_v16 (X : Valuation τ sig (Elt F)) : after hostOps10 X (Proc.devRef .tc main_v16) = X (Proc.devRef .tc main_v16) :=
  after_of_writes_sub hostOps10 X hostOps10_writes (by decide)
theorem keepH10_main_v18 (X : Valuation τ sig (Elt F)) : after hostOps10 X (Proc.devRef .tc main_v18) = X (Proc.devRef .tc main_v18) :=
  after_of_writes_sub hostOps10 X hostOps10_writes (by decide)
theorem keepH10_main_arg1 (X : Valuation τ sig (Elt F)) : after hostOps10 X (Proc.devRef .tc main_arg1) = X (Proc.devRef .tc main_arg1) :=
  after_of_writes_sub hostOps10 X hostOps10_writes (by decide)
theorem keepH10_main_arg5 (X : Valuation τ sig (Elt F)) : after hostOps10 X (Proc.devRef .tc main_arg5) = X (Proc.devRef .tc main_arg5) :=
  after_of_writes_sub hostOps10 X hostOps10_writes (by decide)
theorem keepH10_main_arg6 (X : Valuation τ sig (Elt F)) : after hostOps10 X (Proc.devRef .tc main_arg6) = X (Proc.devRef .tc main_arg6) :=
  after_of_writes_sub hostOps10 X hostOps10_writes (by decide)
theorem keepH10_main_arg7 (X : Valuation τ sig (Elt F)) : after hostOps10 X (Proc.devRef .tc main_arg7) = X (Proc.devRef .tc main_arg7) :=
  after_of_writes_sub hostOps10 X hostOps10_writes (by decide)
theorem keepH10_main_arg8 (X : Valuation τ sig (Elt F)) : after hostOps10 X (Proc.devRef .tc main_arg8) = X (Proc.devRef .tc main_arg8) :=
  after_of_writes_sub hostOps10 X hostOps10_writes (by decide)
theorem keepH10_main_arg9 (X : Valuation τ sig (Elt F)) : after hostOps10 X (Proc.devRef .tc main_arg9) = X (Proc.devRef .tc main_arg9) :=
  after_of_writes_sub hostOps10 X hostOps10_writes (by decide)
theorem keepH10_main_arg10 (X : Valuation τ sig (Elt F)) : after hostOps10 X (Proc.devRef .tc main_arg10) = X (Proc.devRef .tc main_arg10) :=
  after_of_writes_sub hostOps10 X hostOps10_writes (by decide)
theorem keepH10_main_arg11 (X : Valuation τ sig (Elt F)) : after hostOps10 X (Proc.devRef .tc main_arg11) = X (Proc.devRef .tc main_arg11) :=
  after_of_writes_sub hostOps10 X hostOps10_writes (by decide)
theorem keepH10_main_arg12 (X : Valuation τ sig (Elt F)) : after hostOps10 X (Proc.devRef .tc main_arg12) = X (Proc.devRef .tc main_arg12) :=
  after_of_writes_sub hostOps10 X hostOps10_writes (by decide)
theorem keepH10_main_arg13 (X : Valuation τ sig (Elt F)) : after hostOps10 X (Proc.devRef .tc main_arg13) = X (Proc.devRef .tc main_arg13) :=
  after_of_writes_sub hostOps10 X hostOps10_writes (by decide)
theorem keepH10_main_arg14 (X : Valuation τ sig (Elt F)) : after hostOps10 X (Proc.devRef .tc main_arg14) = X (Proc.devRef .tc main_arg14) :=
  after_of_writes_sub hostOps10 X hostOps10_writes (by decide)

/-! ## Stretch 11: the per-graph mean and the head's weights in bf16 -/

set_option maxHeartbeats 4000000 in
/-- The per-graph mean of the last features, the empty extra features appended. -/
theorem v194_11 (X : Valuation τ sig (Elt F)) :
    after hostOps11 X (Proc.devRef .tc main_v194)
      = Cert.Spec.pool (X (Proc.devRef .tc main_v181)) (X (Proc.devRef .tc main_arg14)) (X (Proc.devRef .tc main_arg1)) := by
  after_results_simp
  try rfl

set_option maxHeartbeats 4000000 in
/-- The head's first weights in bf16. -/
theorem v195_11 (X : Valuation τ sig (Elt F)) :
    after hostOps11 X (Proc.devRef .tc main_v195)
      = truncf .bf16 (X (Proc.devRef .tc main_arg6)) bitsLt_bf16_f32 := by
  after_results_simp
  try rfl

set_option maxHeartbeats 4000000 in
/-- The head's second weights in bf16. -/
theorem v196_11 (X : Valuation τ sig (Elt F)) :
    after hostOps11 X (Proc.devRef .tc main_v196)
      = truncf .bf16 (X (Proc.devRef .tc main_arg8)) bitsLt_bf16_f32 := by
  after_results_simp
  try rfl

set_option maxHeartbeats 4000000 in
/-- The head's third weights in bf16. -/
theorem v197_11 (X : Valuation τ sig (Elt F)) :
    after hostOps11 X (Proc.devRef .tc main_v197)
      = truncf .bf16 (X (Proc.devRef .tc main_arg10)) bitsLt_bf16_f32 := by
  after_results_simp
  try rfl

/-- Every buffer stretch 11 writes, listed. -/
theorem hostOps11_writes : (hostOps11 : List (HloOp τ sig (Elt F))).Forall fun op => op.writes ⊆
    (([main_cst_38, main_v182, main_v183, main_v184, main_cst_39, main_v185, main_cst_40, main_v186, main_v187, main_v188, main_cst_41, main_v189, main_v190, main_v191, main_v192, main_v193, main_v194, main_v195, main_v196, main_v197] : List (Ref sig .tc)).map (Proc.devRef (τ := τ) .tc)).toFinset := by
  simp only [hostOps11, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

theorem keepH11_main_arg7 (X : Valuation τ sig (Elt F)) : after hostOps11 X (Proc.devRef .tc main_arg7) = X (Proc.devRef .tc main_arg7) :=
  after_of_writes_sub hostOps11 X hostOps11_writes (by decide)
theorem keepH11_main_arg9 (X : Valuation τ sig (Elt F)) : after hostOps11 X (Proc.devRef .tc main_arg9) = X (Proc.devRef .tc main_arg9) :=
  after_of_writes_sub hostOps11 X hostOps11_writes (by decide)
theorem keepH11_main_arg11 (X : Valuation τ sig (Elt F)) : after hostOps11 X (Proc.devRef .tc main_arg11) = X (Proc.devRef .tc main_arg11) :=
  after_of_writes_sub hostOps11 X hostOps11_writes (by decide)

/-! ## Stretch 12: the last axis dropped -/

set_option maxHeartbeats 4000000 in
/-- The result with its unit axis dropped. -/
theorem v199_12 (X : Valuation τ sig (Elt F)) :
    after hostOps12 X (Proc.devRef .tc main_v199)
      = shapeCast S64 (X (Proc.devRef .tc main_v198)) shapeCasts_S64x1_S64 := by
  after_results_simp
  try rfl

end Cert.KernelIdeal.KVal

end
-- ==== Proof.KAt.lean ====
/- The degree columns, the bf16 copy of the stacked weights and the arguments read after the first stretch keep their first
   values at every later boundary of the idealized kernel's @main: no stretch of host operations writes them, and a kernel
   launch leaves its input windows' arrays and every buffer that is no window of it as it found them. -/
import proofs.«126634_j63780264346183_1_alg».proof.Proof.Gen.KernelIdeal.Frame
import proofs.«126634_j63780264346183_1_alg».proof.Proof.KStretch

set_option maxRecDepth 16384

noncomputable section

namespace Cert.KernelIdeal.KVal

open Idealize.ShloMosaic Idealize.ShloMosaic.TcCoe Idealize.SL.Sem Idealize.ShloMosaic.StableHlo Cert.KernelIdeal Cert.KernelIdeal.Gen

variable {F : FTy → Type} [FloatOps F]
variable (m : (ℓ : Loc nD τ sig) → Buf (Elt F) ℓ) (ρ : Dev nD → PrngReg) (c : Dev nD)

/-! ## Boundary 1: after the first stretch -/

theorem at1_main_v13 : W1 m ρ c (Proc.devRef .tc main_v13) = shapeCast S20000x1 (Cert.Spec.degNorm (m ((c : Thread nD τ).loc main_arg12))) shapeCasts_S20000_S20000x1 :=
  v13_0 (W0 m ρ c)
theorem at1_main_v16 : W1 m ρ c (Proc.devRef .tc main_v16) = shapeCast S20000x1 (Cert.Spec.degNorm (m ((c : Thread nD τ).loc main_arg13))) shapeCasts_S20000_S20000x1 :=
  v16_0 (W0 m ρ c)
theorem at1_main_v18 : W1 m ρ c (Proc.devRef .tc main_v18) = truncf .bf16 (m ((c : Thread nD τ).loc main_arg4)) bitsLt_bf16_f32 :=
  v18_0 (W0 m ρ c)
theorem at1_main_arg1 : W1 m ρ c (Proc.devRef .tc main_arg1) = m ((c : Thread nD τ).loc main_arg1) :=
  keepH0_main_arg1 (W0 m ρ c)
theorem at1_main_arg5 : W1 m ρ c (Proc.devRef .tc main_arg5) = m ((c : Thread nD τ).loc main_arg5) :=
  keepH0_main_arg5 (W0 m ρ c)
theorem at1_main_arg6 : W1 m ρ c (Proc.devRef .tc main_arg6) = m ((c : Thread nD τ).loc main_arg6) :=
  keepH0_main_arg6 (W0 m ρ c)
theorem at1_main_arg7 : W1 m ρ c (Proc.devRef .tc main_arg7) = m ((c : Thread nD τ).loc main_arg7) :=
  keepH0_main_arg7 (W0 m ρ c)
theorem at1_main_arg8 : W1 m ρ c (Proc.devRef .tc main_arg8) = m ((c : Thread nD τ).loc main_arg8) :=
  keepH0_main_arg8 (W0 m ρ c)
theorem at1_main_arg9 : W1 m ρ c (Proc.devRef .tc main_arg9) = m ((c : Thread nD τ).loc main_arg9) :=
  keepH0_main_arg9 (W0 m ρ c)
theorem at1_main_arg10 : W1 m ρ c (Proc.devRef .tc main_arg10) = m ((c : Thread nD τ).loc main_arg10) :=
  keepH0_main_arg10 (W0 m ρ c)
theorem at1_main_arg11 : W1 m ρ c (Proc.devRef .tc main_arg11) = m ((c : Thread nD τ).loc main_arg11) :=
  keepH0_main_arg11 (W0 m ρ c)
theorem at1_main_arg12 : W1 m ρ c (Proc.devRef .tc main_arg12) = m ((c : Thread nD τ).loc main_arg12) :=
  keepH0_main_arg12 (W0 m ρ c)
theorem at1_main_arg13 : W1 m ρ c (Proc.devRef .tc main_arg13) = m ((c : Thread nD τ).loc main_arg13) :=
  keepH0_main_arg13 (W0 m ρ c)
theorem at1_main_arg14 : W1 m ρ c (Proc.devRef .tc main_arg14) = m ((c : Thread nD τ).loc main_arg14) :=
  keepH0_main_arg14 (W0 m ρ c)

/-! ## Boundary 2: after launch 0 -/

theorem at2_main_v13 : W2 m ρ c (Proc.devRef .tc main_v13) = shapeCast S20000x1 (Cert.Spec.degNorm (m ((c : Thread nD τ).loc main_arg12))) shapeCasts_S20000_S20000x1 :=
  ((W2_arr m ρ c 2).trans (((dat0 (V1 m ρ) c).arrAt_in 2 rfl _).trans (A_eq0 (V1 m ρ) c 2))).trans (at1_main_v13 m ρ c)
theorem at2_main_v16 : W2 m ρ c (Proc.devRef .tc main_v16) = shapeCast S20000x1 (Cert.Spec.degNorm (m ((c : Thread nD τ).loc main_arg13))) shapeCasts_S20000_S20000x1 :=
  ((W2_arr m ρ c 1).trans (((dat0 (V1 m ρ) c).arrAt_in 1 rfl _).trans (A_eq0 (V1 m ρ) c 1))).trans (at1_main_v16 m ρ c)
theorem at2_main_v18 : W2 m ρ c (Proc.devRef .tc main_v18) = truncf .bf16 (m ((c : Thread nD τ).loc main_arg4)) bitsLt_bf16_f32 :=
  (W2_of_ne m ρ c main_v18 (by decide)).trans (at1_main_v18 m ρ c)
theorem at2_main_arg1 : W2 m ρ c (Proc.devRef .tc main_arg1) = m ((c : Thread nD τ).loc main_arg1) :=
  (W2_of_ne m ρ c main_arg1 (by decide)).trans (at1_main_arg1 m ρ c)
theorem at2_main_arg5 : W2 m ρ c (Proc.devRef .tc main_arg5) = m ((c : Thread nD τ).loc main_arg5) :=
  (W2_of_ne m ρ c main_arg5 (by decide)).trans (at1_main_arg5 m ρ c)
theorem at2_main_arg6 : W2 m ρ c (Proc.devRef .tc main_arg6) = m ((c : Thread nD τ).loc main_arg6) :=
  (W2_of_ne m ρ c main_arg6 (by decide)).trans (at1_main_arg6 m ρ c)
theorem at2_main_arg7 : W2 m ρ c (Proc.devRef .tc main_arg7) = m ((c : Thread nD τ).loc main_arg7) :=
  (W2_of_ne m ρ c main_arg7 (by decide)).trans (at1_main_arg7 m ρ c)
theorem at2_main_arg8 : W2 m ρ c (Proc.devRef .tc main_arg8) = m ((c : Thread nD τ).loc main_arg8) :=
  (W2_of_ne m ρ c main_arg8 (by decide)).trans (at1_main_arg8 m ρ c)
theorem at2_main_arg9 : W2 m ρ c (Proc.devRef .tc main_arg9) = m ((c : Thread nD τ).loc main_arg9) :=
  (W2_of_ne m ρ c main_arg9 (by decide)).trans (at1_main_arg9 m ρ c)
theorem at2_main_arg10 : W2 m ρ c (Proc.devRef .tc main_arg10) = m ((c : Thread nD τ).loc main_arg10) :=
  (W2_of_ne m ρ c main_arg10 (by decide)).trans (at1_main_arg10 m ρ c)
theorem at2_main_arg11 : W2 m ρ c (Proc.devRef .tc main_arg11) = m ((c : Thread nD τ).loc main_arg11) :=
  (W2_of_ne m ρ c main_arg11 (by decide)).trans (at1_main_arg11 m ρ c)
theorem at2_main_arg12 : W2 m ρ c (Proc.devRef .tc main_arg12) = m ((c : Thread nD τ).loc main_arg12) :=
  (W2_of_ne m ρ c main_arg12 (by decide)).trans (at1_main_arg12 m ρ c)
theorem at2_main_arg13 : W2 m ρ c (Proc.devRef .tc main_arg13) = m ((c : Thread nD τ).loc main_arg13) :=
  (W2_of_ne m ρ c main_arg13 (by decide)).trans (at1_main_arg13 m ρ c)
theorem at2_main_arg14 : W2 m ρ c (Proc.devRef .tc main_arg14) = m ((c : Thread nD τ).loc main_arg14) :=
  (W2_of_ne m ρ c main_arg14 (by decide)).trans (at1_main_arg14 m ρ c)

/-! ## Boundary 3: after stretch 1 -/

theorem at3_main_v13 : W3 m ρ c (Proc.devRef .tc main_v13) = shapeCast S20000x1 (Cert.Spec.degNorm (m ((c : Thread nD τ).loc main_arg12))) shapeCasts_S20000_S20000x1 :=
  (keepH1_main_v13 (W2 m ρ c)).trans (at2_main_v13 m ρ c)
theorem at3_main_v16 : W3 m ρ c (Proc.devRef .tc main_v16) = shapeCast S20000x1 (Cert.Spec.degNorm (m ((c : Thread nD τ).loc main_arg13))) shapeCasts_S20000_S20000x1 :=
  (keepH1_main_v16 (W2 m ρ c)).trans (at2_main_v16 m ρ c)
theorem at3_main_v18 : W3 m ρ c (Proc.devRef .tc main_v18) = truncf .bf16 (m ((c : Thread nD τ).loc main_arg4)) bitsLt_bf16_f32 :=
  (keepH1_main_v18 (W2 m ρ c)).trans (at2_main_v18 m ρ c)
theorem at3_main_arg1 : W3 m ρ c (Proc.devRef .tc main_arg1) = m ((c : Thread nD τ).loc main_arg1) :=
  (keepH1_main_arg1 (W2 m ρ c)).trans (at2_main_arg1 m ρ c)
theorem at3_main_arg5 : W3 m ρ c (Proc.devRef .tc main_arg5) = m ((c : Thread nD τ).loc main_arg5) :=
  (keepH1_main_arg5 (W2 m ρ c)).trans (at2_main_arg5 m ρ c)
theorem at3_main_arg6 : W3 m ρ c (Proc.devRef .tc main_arg6) = m ((c : Thread nD τ).loc main_arg6) :=
  (keepH1_main_arg6 (W2 m ρ c)).trans (at2_main_arg6 m ρ c)
theorem at3_main_arg7 : W3 m ρ c (Proc.devRef .tc main_arg7) = m ((c : Thread nD τ).loc main_arg7) :=
  (keepH1_main_arg7 (W2 m ρ c)).trans (at2_main_arg7 m ρ c)
theorem at3_main_arg8 : W3 m ρ c (Proc.devRef .tc main_arg8) = m ((c : Thread nD τ).loc main_arg8) :=
  (keepH1_main_arg8 (W2 m ρ c)).trans (at2_main_arg8 m ρ c)
theorem at3_main_arg9 : W3 m ρ c (Proc.devRef .tc main_arg9) = m ((c : Thread nD τ).loc main_arg9) :=
  (keepH1_main_arg9 (W2 m ρ c)).trans (at2_main_arg9 m ρ c)
theorem at3_main_arg10 : W3 m ρ c (Proc.devRef .tc main_arg10) = m ((c : Thread nD τ).loc main_arg10) :=
  (keepH1_main_arg10 (W2 m ρ c)).trans (at2_main_arg10 m ρ c)
theorem at3_main_arg11 : W3 m ρ c (Proc.devRef .tc main_arg11) = m ((c : Thread nD τ).loc main_arg11) :=
  (keepH1_main_arg11 (W2 m ρ c)).trans (at2_main_arg11 m ρ c)
theorem at3_main_arg12 : W3 m ρ c (Proc.devRef .tc main_arg12) = m ((c : Thread nD τ).loc main_arg12) :=
  (keepH1_main_arg12 (W2 m ρ c)).trans (at2_main_arg12 m ρ c)
theorem at3_main_arg13 : W3 m ρ c (Proc.devRef .tc main_arg13) = m ((c : Thread nD τ).loc main_arg13) :=
  (keepH1_main_arg13 (W2 m ρ c)).trans (at2_main_arg13 m ρ c)
theorem at3_main_arg14 : W3 m ρ c (Proc.devRef .tc main_arg14) = m ((c : Thread nD τ).loc main_arg14) :=
  (keepH1_main_arg14 (W2 m ρ c)).trans (at2_main_arg14 m ρ c)

/-! ## Boundary 4: after launch 1 -/

theorem at4_main_v13 : W4 m ρ c (Proc.devRef .tc main_v13) = shapeCast S20000x1 (Cert.Spec.degNorm (m ((c : Thread nD τ).loc main_arg12))) shapeCasts_S20000_S20000x1 :=
  ((W4_arr m ρ c 2).trans (((dat1 (V3 m ρ) c).arrAt_in 2 rfl _).trans (A_eq1 (V3 m ρ) c 2))).trans (at3_main_v13 m ρ c)
theorem at4_main_v16 : W4 m ρ c (Proc.devRef .tc main_v16) = shapeCast S20000x1 (Cert.Spec.degNorm (m ((c : Thread nD τ).loc main_arg13))) shapeCasts_S20000_S20000x1 :=
  ((W4_arr m ρ c 1).trans (((dat1 (V3 m ρ) c).arrAt_in 1 rfl _).trans (A_eq1 (V3 m ρ) c 1))).trans (at3_main_v16 m ρ c)
theorem at4_main_v18 : W4 m ρ c (Proc.devRef .tc main_v18) = truncf .bf16 (m ((c : Thread nD τ).loc main_arg4)) bitsLt_bf16_f32 :=
  (W4_of_ne m ρ c main_v18 (by decide)).trans (at3_main_v18 m ρ c)
theorem at4_main_arg1 : W4 m ρ c (Proc.devRef .tc main_arg1) = m ((c : Thread nD τ).loc main_arg1) :=
  (W4_of_ne m ρ c main_arg1 (by decide)).trans (at3_main_arg1 m ρ c)
theorem at4_main_arg5 : W4 m ρ c (Proc.devRef .tc main_arg5) = m ((c : Thread nD τ).loc main_arg5) :=
  (W4_of_ne m ρ c main_arg5 (by decide)).trans (at3_main_arg5 m ρ c)
theorem at4_main_arg6 : W4 m ρ c (Proc.devRef .tc main_arg6) = m ((c : Thread nD τ).loc main_arg6) :=
  (W4_of_ne m ρ c main_arg6 (by decide)).trans (at3_main_arg6 m ρ c)
theorem at4_main_arg7 : W4 m ρ c (Proc.devRef .tc main_arg7) = m ((c : Thread nD τ).loc main_arg7) :=
  (W4_of_ne m ρ c main_arg7 (by decide)).trans (at3_main_arg7 m ρ c)
theorem at4_main_arg8 : W4 m ρ c (Proc.devRef .tc main_arg8) = m ((c : Thread nD τ).loc main_arg8) :=
  (W4_of_ne m ρ c main_arg8 (by decide)).trans (at3_main_arg8 m ρ c)
theorem at4_main_arg9 : W4 m ρ c (Proc.devRef .tc main_arg9) = m ((c : Thread nD τ).loc main_arg9) :=
  (W4_of_ne m ρ c main_arg9 (by decide)).trans (at3_main_arg9 m ρ c)
theorem at4_main_arg10 : W4 m ρ c (Proc.devRef .tc main_arg10) = m ((c : Thread nD τ).loc main_arg10) :=
  (W4_of_ne m ρ c main_arg10 (by decide)).trans (at3_main_arg10 m ρ c)
theorem at4_main_arg11 : W4 m ρ c (Proc.devRef .tc main_arg11) = m ((c : Thread nD τ).loc main_arg11) :=
  (W4_of_ne m ρ c main_arg11 (by decide)).trans (at3_main_arg11 m ρ c)
theorem at4_main_arg12 : W4 m ρ c (Proc.devRef .tc main_arg12) = m ((c : Thread nD τ).loc main_arg12) :=
  (W4_of_ne m ρ c main_arg12 (by decide)).trans (at3_main_arg12 m ρ c)
theorem at4_main_arg13 : W4 m ρ c (Proc.devRef .tc main_arg13) = m ((c : Thread nD τ).loc main_arg13) :=
  (W4_of_ne m ρ c main_arg13 (by decide)).trans (at3_main_arg13 m ρ c)
theorem at4_main_arg14 : W4 m ρ c (Proc.devRef .tc main_arg14) = m ((c : Thread nD τ).loc main_arg14) :=
  (W4_of_ne m ρ c main_arg14 (by decide)).trans (at3_main_arg14 m ρ c)

/-! ## Boundary 5: after stretch 2 -/

theorem at5_main_v13 : W5 m ρ c (Proc.devRef .tc main_v13) = shapeCast S20000x1 (Cert.Spec.degNorm (m ((c : Thread nD τ).loc main_arg12))) shapeCasts_S20000_S20000x1 :=
  (keepH2_main_v13 (W4 m ρ c)).trans (at4_main_v13 m ρ c)
theorem at5_main_v16 : W5 m ρ c (Proc.devRef .tc main_v16) = shapeCast S20000x1 (Cert.Spec.degNorm (m ((c : Thread nD τ).loc main_arg13))) shapeCasts_S20000_S20000x1 :=
  (keepH2_main_v16 (W4 m ρ c)).trans (at4_main_v16 m ρ c)
theorem at5_main_v18 : W5 m ρ c (Proc.devRef .tc main_v18) = truncf .bf16 (m ((c : Thread nD τ).loc main_arg4)) bitsLt_bf16_f32 :=
  (keepH2_main_v18 (W4 m ρ c)).trans (at4_main_v18 m ρ c)
theorem at5_main_arg1 : W5 m ρ c (Proc.devRef .tc main_arg1) = m ((c : Thread nD τ).loc main_arg1) :=
  (keepH2_main_arg1 (W4 m ρ c)).trans (at4_main_arg1 m ρ c)
theorem at5_main_arg5 : W5 m ρ c (Proc.devRef .tc main_arg5) = m ((c : Thread nD τ).loc main_arg5) :=
  (keepH2_main_arg5 (W4 m ρ c)).trans (at4_main_arg5 m ρ c)
theorem at5_main_arg6 : W5 m ρ c (Proc.devRef .tc main_arg6) = m ((c : Thread nD τ).loc main_arg6) :=
  (keepH2_main_arg6 (W4 m ρ c)).trans (at4_main_arg6 m ρ c)
theorem at5_main_arg7 : W5 m ρ c (Proc.devRef .tc main_arg7) = m ((c : Thread nD τ).loc main_arg7) :=
  (keepH2_main_arg7 (W4 m ρ c)).trans (at4_main_arg7 m ρ c)
theorem at5_main_arg8 : W5 m ρ c (Proc.devRef .tc main_arg8) = m ((c : Thread nD τ).loc main_arg8) :=
  (keepH2_main_arg8 (W4 m ρ c)).trans (at4_main_arg8 m ρ c)
theorem at5_main_arg9 : W5 m ρ c (Proc.devRef .tc main_arg9) = m ((c : Thread nD τ).loc main_arg9) :=
  (keepH2_main_arg9 (W4 m ρ c)).trans (at4_main_arg9 m ρ c)
theorem at5_main_arg10 : W5 m ρ c (Proc.devRef .tc main_arg10) = m ((c : Thread nD τ).loc main_arg10) :=
  (keepH2_main_arg10 (W4 m ρ c)).trans (at4_main_arg10 m ρ c)
theorem at5_main_arg11 : W5 m ρ c (Proc.devRef .tc main_arg11) = m ((c : Thread nD τ).loc main_arg11) :=
  (keepH2_main_arg11 (W4 m ρ c)).trans (at4_main_arg11 m ρ c)
theorem at5_main_arg12 : W5 m ρ c (Proc.devRef .tc main_arg12) = m ((c : Thread nD τ).loc main_arg12) :=
  (keepH2_main_arg12 (W4 m ρ c)).trans (at4_main_arg12 m ρ c)
theorem at5_main_arg13 : W5 m ρ c (Proc.devRef .tc main_arg13) = m ((c : Thread nD τ).loc main_arg13) :=
  (keepH2_main_arg13 (W4 m ρ c)).trans (at4_main_arg13 m ρ c)
theorem at5_main_arg14 : W5 m ρ c (Proc.devRef .tc main_arg14) = m ((c : Thread nD τ).loc main_arg14) :=
  (keepH2_main_arg14 (W4 m ρ c)).trans (at4_main_arg14 m ρ c)

/-! ## Boundary 6: after launch 2 -/

theorem at6_main_v13 : W6 m ρ c (Proc.devRef .tc main_v13) = shapeCast S20000x1 (Cert.Spec.degNorm (m ((c : Thread nD τ).loc main_arg12))) shapeCasts_S20000_S20000x1 :=
  ((W6_arr m ρ c 2).trans (((dat2 (V5 m ρ) c).arrAt_in 2 rfl _).trans (A_eq2 (V5 m ρ) c 2))).trans (at5_main_v13 m ρ c)
theorem at6_main_v16 : W6 m ρ c (Proc.devRef .tc main_v16) = shapeCast S20000x1 (Cert.Spec.degNorm (m ((c : Thread nD τ).loc main_arg13))) shapeCasts_S20000_S20000x1 :=
  ((W6_arr m ρ c 1).trans (((dat2 (V5 m ρ) c).arrAt_in 1 rfl _).trans (A_eq2 (V5 m ρ) c 1))).trans (at5_main_v16 m ρ c)
theorem at6_main_v18 : W6 m ρ c (Proc.devRef .tc main_v18) = truncf .bf16 (m ((c : Thread nD τ).loc main_arg4)) bitsLt_bf16_f32 :=
  (W6_of_ne m ρ c main_v18 (by decide)).trans (at5_main_v18 m ρ c)
theorem at6_main_arg1 : W6 m ρ c (Proc.devRef .tc main_arg1) = m ((c : Thread nD τ).loc main_arg1) :=
  (W6_of_ne m ρ c main_arg1 (by decide)).trans (at5_main_arg1 m ρ c)
theorem at6_main_arg5 : W6 m ρ c (Proc.devRef .tc main_arg5) = m ((c : Thread nD τ).loc main_arg5) :=
  (W6_of_ne m ρ c main_arg5 (by decide)).trans (at5_main_arg5 m ρ c)
theorem at6_main_arg6 : W6 m ρ c (Proc.devRef .tc main_arg6) = m ((c : Thread nD τ).loc main_arg6) :=
  (W6_of_ne m ρ c main_arg6 (by decide)).trans (at5_main_arg6 m ρ c)
theorem at6_main_arg7 : W6 m ρ c (Proc.devRef .tc main_arg7) = m ((c : Thread nD τ).loc main_arg7) :=
  (W6_of_ne m ρ c main_arg7 (by decide)).trans (at5_main_arg7 m ρ c)
theorem at6_main_arg8 : W6 m ρ c (Proc.devRef .tc main_arg8) = m ((c : Thread nD τ).loc main_arg8) :=
  (W6_of_ne m ρ c main_arg8 (by decide)).trans (at5_main_arg8 m ρ c)
theorem at6_main_arg9 : W6 m ρ c (Proc.devRef .tc main_arg9) = m ((c : Thread nD τ).loc main_arg9) :=
  (W6_of_ne m ρ c main_arg9 (by decide)).trans (at5_main_arg9 m ρ c)
theorem at6_main_arg10 : W6 m ρ c (Proc.devRef .tc main_arg10) = m ((c : Thread nD τ).loc main_arg10) :=
  (W6_of_ne m ρ c main_arg10 (by decide)).trans (at5_main_arg10 m ρ c)
theorem at6_main_arg11 : W6 m ρ c (Proc.devRef .tc main_arg11) = m ((c : Thread nD τ).loc main_arg11) :=
  (W6_of_ne m ρ c main_arg11 (by decide)).trans (at5_main_arg11 m ρ c)
theorem at6_main_arg12 : W6 m ρ c (Proc.devRef .tc main_arg12) = m ((c : Thread nD τ).loc main_arg12) :=
  (W6_of_ne m ρ c main_arg12 (by decide)).trans (at5_main_arg12 m ρ c)
theorem at6_main_arg13 : W6 m ρ c (Proc.devRef .tc main_arg13) = m ((c : Thread nD τ).loc main_arg13) :=
  (W6_of_ne m ρ c main_arg13 (by decide)).trans (at5_main_arg13 m ρ c)
theorem at6_main_arg14 : W6 m ρ c (Proc.devRef .tc main_arg14) = m ((c : Thread nD τ).loc main_arg14) :=
  (W6_of_ne m ρ c main_arg14 (by decide)).trans (at5_main_arg14 m ρ c)

/-! ## Boundary 7: after stretch 3 -/

theorem at7_main_v13 : W7 m ρ c (Proc.devRef .tc main_v13) = shapeCast S20000x1 (Cert.Spec.degNorm (m ((c : Thread nD τ).loc main_arg12))) shapeCasts_S20000_S20000x1 :=
  (keepH3_main_v13 (W6 m ρ c)).trans (at6_main_v13 m ρ c)
theorem at7_main_v16 : W7 m ρ c (Proc.devRef .tc main_v16) = shapeCast S20000x1 (Cert.Spec.degNorm (m ((c : Thread nD τ).loc main_arg13))) shapeCasts_S20000_S20000x1 :=
  (keepH3_main_v16 (W6 m ρ c)).trans (at6_main_v16 m ρ c)
theorem at7_main_v18 : W7 m ρ c (Proc.devRef .tc main_v18) = truncf .bf16 (m ((c : Thread nD τ).loc main_arg4)) bitsLt_bf16_f32 :=
  (keepH3_main_v18 (W6 m ρ c)).trans (at6_main_v18 m ρ c)
theorem at7_main_arg1 : W7 m ρ c (Proc.devRef .tc main_arg1) = m ((c : Thread nD τ).loc main_arg1) :=
  (keepH3_main_arg1 (W6 m ρ c)).trans (at6_main_arg1 m ρ c)
theorem at7_main_arg5 : W7 m ρ c (Proc.devRef .tc main_arg5) = m ((c : Thread nD τ).loc main_arg5) :=
  (keepH3_main_arg5 (W6 m ρ c)).trans (at6_main_arg5 m ρ c)
theorem at7_main_arg6 : W7 m ρ c (Proc.devRef .tc main_arg6) = m ((c : Thread nD τ).loc main_arg6) :=
  (keepH3_main_arg6 (W6 m ρ c)).trans (at6_main_arg6 m ρ c)
theorem at7_main_arg7 : W7 m ρ c (Proc.devRef .tc main_arg7) = m ((c : Thread nD τ).loc main_arg7) :=
  (keepH3_main_arg7 (W6 m ρ c)).trans (at6_main_arg7 m ρ c)
theorem at7_main_arg8 : W7 m ρ c (Proc.devRef .tc main_arg8) = m ((c : Thread nD τ).loc main_arg8) :=
  (keepH3_main_arg8 (W6 m ρ c)).trans (at6_main_arg8 m ρ c)
theorem at7_main_arg9 : W7 m ρ c (Proc.devRef .tc main_arg9) = m ((c : Thread nD τ).loc main_arg9) :=
  (keepH3_main_arg9 (W6 m ρ c)).trans (at6_main_arg9 m ρ c)
theorem at7_main_arg10 : W7 m ρ c (Proc.devRef .tc main_arg10) = m ((c : Thread nD τ).loc main_arg10) :=
  (keepH3_main_arg10 (W6 m ρ c)).trans (at6_main_arg10 m ρ c)
theorem at7_main_arg11 : W7 m ρ c (Proc.devRef .tc main_arg11) = m ((c : Thread nD τ).loc main_arg11) :=
  (keepH3_main_arg11 (W6 m ρ c)).trans (at6_main_arg11 m ρ c)
theorem at7_main_arg12 : W7 m ρ c (Proc.devRef .tc main_arg12) = m ((c : Thread nD τ).loc main_arg12) :=
  (keepH3_main_arg12 (W6 m ρ c)).trans (at6_main_arg12 m ρ c)
theorem at7_main_arg13 : W7 m ρ c (Proc.devRef .tc main_arg13) = m ((c : Thread nD τ).loc main_arg13) :=
  (keepH3_main_arg13 (W6 m ρ c)).trans (at6_main_arg13 m ρ c)
theorem at7_main_arg14 : W7 m ρ c (Proc.devRef .tc main_arg14) = m ((c : Thread nD τ).loc main_arg14) :=
  (keepH3_main_arg14 (W6 m ρ c)).trans (at6_main_arg14 m ρ c)

/-! ## Boundary 8: after launch 3 -/

theorem at8_main_v13 : W8 m ρ c (Proc.devRef .tc main_v13) = shapeCast S20000x1 (Cert.Spec.degNorm (m ((c : Thread nD τ).loc main_arg12))) shapeCasts_S20000_S20000x1 :=
  ((W8_arr m ρ c 2).trans (((dat3 (V7 m ρ) c).arrAt_in 2 rfl _).trans (A_eq3 (V7 m ρ) c 2))).trans (at7_main_v13 m ρ c)
theorem at8_main_v16 : W8 m ρ c (Proc.devRef .tc main_v16) = shapeCast S20000x1 (Cert.Spec.degNorm (m ((c : Thread nD τ).loc main_arg13))) shapeCasts_S20000_S20000x1 :=
  ((W8_arr m ρ c 1).trans (((dat3 (V7 m ρ) c).arrAt_in 1 rfl _).trans (A_eq3 (V7 m ρ) c 1))).trans (at7_main_v16 m ρ c)
theorem at8_main_v18 : W8 m ρ c (Proc.devRef .tc main_v18) = truncf .bf16 (m ((c : Thread nD τ).loc main_arg4)) bitsLt_bf16_f32 :=
  (W8_of_ne m ρ c main_v18 (by decide)).trans (at7_main_v18 m ρ c)
theorem at8_main_arg1 : W8 m ρ c (Proc.devRef .tc main_arg1) = m ((c : Thread nD τ).loc main_arg1) :=
  (W8_of_ne m ρ c main_arg1 (by decide)).trans (at7_main_arg1 m ρ c)
theorem at8_main_arg5 : W8 m ρ c (Proc.devRef .tc main_arg5) = m ((c : Thread nD τ).loc main_arg5) :=
  (W8_of_ne m ρ c main_arg5 (by decide)).trans (at7_main_arg5 m ρ c)
theorem at8_main_arg6 : W8 m ρ c (Proc.devRef .tc main_arg6) = m ((c : Thread nD τ).loc main_arg6) :=
  (W8_of_ne m ρ c main_arg6 (by decide)).trans (at7_main_arg6 m ρ c)
theorem at8_main_arg7 : W8 m ρ c (Proc.devRef .tc main_arg7) = m ((c : Thread nD τ).loc main_arg7) :=
  (W8_of_ne m ρ c main_arg7 (by decide)).trans (at7_main_arg7 m ρ c)
theorem at8_main_arg8 : W8 m ρ c (Proc.devRef .tc main_arg8) = m ((c : Thread nD τ).loc main_arg8) :=
  (W8_of_ne m ρ c main_arg8 (by decide)).trans (at7_main_arg8 m ρ c)
theorem at8_main_arg9 : W8 m ρ c (Proc.devRef .tc main_arg9) = m ((c : Thread nD τ).loc main_arg9) :=
  (W8_of_ne m ρ c main_arg9 (by decide)).trans (at7_main_arg9 m ρ c)
theorem at8_main_arg10 : W8 m ρ c (Proc.devRef .tc main_arg10) = m ((c : Thread nD τ).loc main_arg10) :=
  (W8_of_ne m ρ c main_arg10 (by decide)).trans (at7_main_arg10 m ρ c)
theorem at8_main_arg11 : W8 m ρ c (Proc.devRef .tc main_arg11) = m ((c : Thread nD τ).loc main_arg11) :=
  (W8_of_ne m ρ c main_arg11 (by decide)).trans (at7_main_arg11 m ρ c)
theorem at8_main_arg12 : W8 m ρ c (Proc.devRef .tc main_arg12) = m ((c : Thread nD τ).loc main_arg12) :=
  (W8_of_ne m ρ c main_arg12 (by decide)).trans (at7_main_arg12 m ρ c)
theorem at8_main_arg13 : W8 m ρ c (Proc.devRef .tc main_arg13) = m ((c : Thread nD τ).loc main_arg13) :=
  (W8_of_ne m ρ c main_arg13 (by decide)).trans (at7_main_arg13 m ρ c)
theorem at8_main_arg14 : W8 m ρ c (Proc.devRef .tc main_arg14) = m ((c : Thread nD τ).loc main_arg14) :=
  (W8_of_ne m ρ c main_arg14 (by decide)).trans (at7_main_arg14 m ρ c)

/-! ## Boundary 9: after stretch 4 -/

theorem at9_main_v13 : W9 m ρ c (Proc.devRef .tc main_v13) = shapeCast S20000x1 (Cert.Spec.degNorm (m ((c : Thread nD τ).loc main_arg12))) shapeCasts_S20000_S20000x1 :=
  (keepH4_main_v13 (W8 m ρ c)).trans (at8_main_v13 m ρ c)
theorem at9_main_v16 : W9 m ρ c (Proc.devRef .tc main_v16) = shapeCast S20000x1 (Cert.Spec.degNorm (m ((c : Thread nD τ).loc main_arg13))) shapeCasts_S20000_S20000x1 :=
  (keepH4_main_v16 (W8 m ρ c)).trans (at8_main_v16 m ρ c)
theorem at9_main_v18 : W9 m ρ c (Proc.devRef .tc main_v18) = truncf .bf16 (m ((c : Thread nD τ).loc main_arg4)) bitsLt_bf16_f32 :=
  (keepH4_main_v18 (W8 m ρ c)).trans (at8_main_v18 m ρ c)
theorem at9_main_arg1 : W9 m ρ c (Proc.devRef .tc main_arg1) = m ((c : Thread nD τ).loc main_arg1) :=
  (keepH4_main_arg1 (W8 m ρ c)).trans (at8_main_arg1 m ρ c)
theorem at9_main_arg5 : W9 m ρ c (Proc.devRef .tc main_arg5) = m ((c : Thread nD τ).loc main_arg5) :=
  (keepH4_main_arg5 (W8 m ρ c)).trans (at8_main_arg5 m ρ c)
theorem at9_main_arg6 : W9 m ρ c (Proc.devRef .tc main_arg6) = m ((c : Thread nD τ).loc main_arg6) :=
  (keepH4_main_arg6 (W8 m ρ c)).trans (at8_main_arg6 m ρ c)
theorem at9_main_arg7 : W9 m ρ c (Proc.devRef .tc main_arg7) = m ((c : Thread nD τ).loc main_arg7) :=
  (keepH4_main_arg7 (W8 m ρ c)).trans (at8_main_arg7 m ρ c)
theorem at9_main_arg8 : W9 m ρ c (Proc.devRef .tc main_arg8) = m ((c : Thread nD τ).loc main_arg8) :=
  (keepH4_main_arg8 (W8 m ρ c)).trans (at8_main_arg8 m ρ c)
theorem at9_main_arg9 : W9 m ρ c (Proc.devRef .tc main_arg9) = m ((c : Thread nD τ).loc main_arg9) :=
  (keepH4_main_arg9 (W8 m ρ c)).trans (at8_main_arg9 m ρ c)
theorem at9_main_arg10 : W9 m ρ c (Proc.devRef .tc main_arg10) = m ((c : Thread nD τ).loc main_arg10) :=
  (keepH4_main_arg10 (W8 m ρ c)).trans (at8_main_arg10 m ρ c)
theorem at9_main_arg11 : W9 m ρ c (Proc.devRef .tc main_arg11) = m ((c : Thread nD τ).loc main_arg11) :=
  (keepH4_main_arg11 (W8 m ρ c)).trans (at8_main_arg11 m ρ c)
theorem at9_main_arg12 : W9 m ρ c (Proc.devRef .tc main_arg12) = m ((c : Thread nD τ).loc main_arg12) :=
  (keepH4_main_arg12 (W8 m ρ c)).trans (at8_main_arg12 m ρ c)
theorem at9_main_arg13 : W9 m ρ c (Proc.devRef .tc main_arg13) = m ((c : Thread nD τ).loc main_arg13) :=
  (keepH4_main_arg13 (W8 m ρ c)).trans (at8_main_arg13 m ρ c)
theorem at9_main_arg14 : W9 m ρ c (Proc.devRef .tc main_arg14) = m ((c : Thread nD τ).loc main_arg14) :=
  (keepH4_main_arg14 (W8 m ρ c)).trans (at8_main_arg14 m ρ c)

/-! ## Boundary 10: after launch 4 -/

theorem at10_main_v13 : W10 m ρ c (Proc.devRef .tc main_v13) = shapeCast S20000x1 (Cert.Spec.degNorm (m ((c : Thread nD τ).loc main_arg12))) shapeCasts_S20000_S20000x1 :=
  ((W10_arr m ρ c 2).trans (((dat4 (V9 m ρ) c).arrAt_in 2 rfl _).trans (A_eq4 (V9 m ρ) c 2))).trans (at9_main_v13 m ρ c)
theorem at10_main_v16 : W10 m ρ c (Proc.devRef .tc main_v16) = shapeCast S20000x1 (Cert.Spec.degNorm (m ((c : Thread nD τ).loc main_arg13))) shapeCasts_S20000_S20000x1 :=
  ((W10_arr m ρ c 1).trans (((dat4 (V9 m ρ) c).arrAt_in 1 rfl _).trans (A_eq4 (V9 m ρ) c 1))).trans (at9_main_v16 m ρ c)
theorem at10_main_v18 : W10 m ρ c (Proc.devRef .tc main_v18) = truncf .bf16 (m ((c : Thread nD τ).loc main_arg4)) bitsLt_bf16_f32 :=
  (W10_of_ne m ρ c main_v18 (by decide)).trans (at9_main_v18 m ρ c)
theorem at10_main_arg1 : W10 m ρ c (Proc.devRef .tc main_arg1) = m ((c : Thread nD τ).loc main_arg1) :=
  (W10_of_ne m ρ c main_arg1 (by decide)).trans (at9_main_arg1 m ρ c)
theorem at10_main_arg5 : W10 m ρ c (Proc.devRef .tc main_arg5) = m ((c : Thread nD τ).loc main_arg5) :=
  (W10_of_ne m ρ c main_arg5 (by decide)).trans (at9_main_arg5 m ρ c)
theorem at10_main_arg6 : W10 m ρ c (Proc.devRef .tc main_arg6) = m ((c : Thread nD τ).loc main_arg6) :=
  (W10_of_ne m ρ c main_arg6 (by decide)).trans (at9_main_arg6 m ρ c)
theorem at10_main_arg7 : W10 m ρ c (Proc.devRef .tc main_arg7) = m ((c : Thread nD τ).loc main_arg7) :=
  (W10_of_ne m ρ c main_arg7 (by decide)).trans (at9_main_arg7 m ρ c)
theorem at10_main_arg8 : W10 m ρ c (Proc.devRef .tc main_arg8) = m ((c : Thread nD τ).loc main_arg8) :=
  (W10_of_ne m ρ c main_arg8 (by decide)).trans (at9_main_arg8 m ρ c)
theorem at10_main_arg9 : W10 m ρ c (Proc.devRef .tc main_arg9) = m ((c : Thread nD τ).loc main_arg9) :=
  (W10_of_ne m ρ c main_arg9 (by decide)).trans (at9_main_arg9 m ρ c)
theorem at10_main_arg10 : W10 m ρ c (Proc.devRef .tc main_arg10) = m ((c : Thread nD τ).loc main_arg10) :=
  (W10_of_ne m ρ c main_arg10 (by decide)).trans (at9_main_arg10 m ρ c)
theorem at10_main_arg11 : W10 m ρ c (Proc.devRef .tc main_arg11) = m ((c : Thread nD τ).loc main_arg11) :=
  (W10_of_ne m ρ c main_arg11 (by decide)).trans (at9_main_arg11 m ρ c)
theorem at10_main_arg12 : W10 m ρ c (Proc.devRef .tc main_arg12) = m ((c : Thread nD τ).loc main_arg12) :=
  (W10_of_ne m ρ c main_arg12 (by decide)).trans (at9_main_arg12 m ρ c)
theorem at10_main_arg13 : W10 m ρ c (Proc.devRef .tc main_arg13) = m ((c : Thread nD τ).loc main_arg13) :=
  (W10_of_ne m ρ c main_arg13 (by decide)).trans (at9_main_arg13 m ρ c)
theorem at10_main_arg14 : W10 m ρ c (Proc.devRef .tc main_arg14) = m ((c : Thread nD τ).loc main_arg14) :=
  (W10_of_ne m ρ c main_arg14 (by decide)).trans (at9_main_arg14 m ρ c)

/-! ## Boundary 11: after stretch 5 -/

theorem at11_main_v13 : W11 m ρ c (Proc.devRef .tc main_v13) = shapeCast S20000x1 (Cert.Spec.degNorm (m ((c : Thread nD τ).loc main_arg12))) shapeCasts_S20000_S20000x1 :=
  (keepH5_main_v13 (W10 m ρ c)).trans (at10_main_v13 m ρ c)
theorem at11_main_v16 : W11 m ρ c (Proc.devRef .tc main_v16) = shapeCast S20000x1 (Cert.Spec.degNorm (m ((c : Thread nD τ).loc main_arg13))) shapeCasts_S20000_S20000x1 :=
  (keepH5_main_v16 (W10 m ρ c)).trans (at10_main_v16 m ρ c)
theorem at11_main_v18 : W11 m ρ c (Proc.devRef .tc main_v18) = truncf .bf16 (m ((c : Thread nD τ).loc main_arg4)) bitsLt_bf16_f32 :=
  (keepH5_main_v18 (W10 m ρ c)).trans (at10_main_v18 m ρ c)
theorem at11_main_arg1 : W11 m ρ c (Proc.devRef .tc main_arg1) = m ((c : Thread nD τ).loc main_arg1) :=
  (keepH5_main_arg1 (W10 m ρ c)).trans (at10_main_arg1 m ρ c)
theorem at11_main_arg5 : W11 m ρ c (Proc.devRef .tc main_arg5) = m ((c : Thread nD τ).loc main_arg5) :=
  (keepH5_main_arg5 (W10 m ρ c)).trans (at10_main_arg5 m ρ c)
theorem at11_main_arg6 : W11 m ρ c (Proc.devRef .tc main_arg6) = m ((c : Thread nD τ).loc main_arg6) :=
  (keepH5_main_arg6 (W10 m ρ c)).trans (at10_main_arg6 m ρ c)
theorem at11_main_arg7 : W11 m ρ c (Proc.devRef .tc main_arg7) = m ((c : Thread nD τ).loc main_arg7) :=
  (keepH5_main_arg7 (W10 m ρ c)).trans (at10_main_arg7 m ρ c)
theorem at11_main_arg8 : W11 m ρ c (Proc.devRef .tc main_arg8) = m ((c : Thread nD τ).loc main_arg8) :=
  (keepH5_main_arg8 (W10 m ρ c)).trans (at10_main_arg8 m ρ c)
theorem at11_main_arg9 : W11 m ρ c (Proc.devRef .tc main_arg9) = m ((c : Thread nD τ).loc main_arg9) :=
  (keepH5_main_arg9 (W10 m ρ c)).trans (at10_main_arg9 m ρ c)
theorem at11_main_arg10 : W11 m ρ c (Proc.devRef .tc main_arg10) = m ((c : Thread nD τ).loc main_arg10) :=
  (keepH5_main_arg10 (W10 m ρ c)).trans (at10_main_arg10 m ρ c)
theorem at11_main_arg11 : W11 m ρ c (Proc.devRef .tc main_arg11) = m ((c : Thread nD τ).loc main_arg11) :=
  (keepH5_main_arg11 (W10 m ρ c)).trans (at10_main_arg11 m ρ c)
theorem at11_main_arg12 : W11 m ρ c (Proc.devRef .tc main_arg12) = m ((c : Thread nD τ).loc main_arg12) :=
  (keepH5_main_arg12 (W10 m ρ c)).trans (at10_main_arg12 m ρ c)
theorem at11_main_arg13 : W11 m ρ c (Proc.devRef .tc main_arg13) = m ((c : Thread nD τ).loc main_arg13) :=
  (keepH5_main_arg13 (W10 m ρ c)).trans (at10_main_arg13 m ρ c)
theorem at11_main_arg14 : W11 m ρ c (Proc.devRef .tc main_arg14) = m ((c : Thread nD τ).loc main_arg14) :=
  (keepH5_main_arg14 (W10 m ρ c)).trans (at10_main_arg14 m ρ c)

/-! ## Boundary 12: after launch 5 -/

theorem at12_main_v13 : W12 m ρ c (Proc.devRef .tc main_v13) = shapeCast S20000x1 (Cert.Spec.degNorm (m ((c : Thread nD τ).loc main_arg12))) shapeCasts_S20000_S20000x1 :=
  ((W12_arr m ρ c 2).trans (((dat5 (V11 m ρ) c).arrAt_in 2 rfl _).trans (A_eq5 (V11 m ρ) c 2))).trans (at11_main_v13 m ρ c)
theorem at12_main_v16 : W12 m ρ c (Proc.devRef .tc main_v16) = shapeCast S20000x1 (Cert.Spec.degNorm (m ((c : Thread nD τ).loc main_arg13))) shapeCasts_S20000_S20000x1 :=
  ((W12_arr m ρ c 1).trans (((dat5 (V11 m ρ) c).arrAt_in 1 rfl _).trans (A_eq5 (V11 m ρ) c 1))).trans (at11_main_v16 m ρ c)
theorem at12_main_v18 : W12 m ρ c (Proc.devRef .tc main_v18) = truncf .bf16 (m ((c : Thread nD τ).loc main_arg4)) bitsLt_bf16_f32 :=
  (W12_of_ne m ρ c main_v18 (by decide)).trans (at11_main_v18 m ρ c)
theorem at12_main_arg1 : W12 m ρ c (Proc.devRef .tc main_arg1) = m ((c : Thread nD τ).loc main_arg1) :=
  (W12_of_ne m ρ c main_arg1 (by decide)).trans (at11_main_arg1 m ρ c)
theorem at12_main_arg5 : W12 m ρ c (Proc.devRef .tc main_arg5) = m ((c : Thread nD τ).loc main_arg5) :=
  (W12_of_ne m ρ c main_arg5 (by decide)).trans (at11_main_arg5 m ρ c)
theorem at12_main_arg6 : W12 m ρ c (Proc.devRef .tc main_arg6) = m ((c : Thread nD τ).loc main_arg6) :=
  (W12_of_ne m ρ c main_arg6 (by decide)).trans (at11_main_arg6 m ρ c)
theorem at12_main_arg7 : W12 m ρ c (Proc.devRef .tc main_arg7) = m ((c : Thread nD τ).loc main_arg7) :=
  (W12_of_ne m ρ c main_arg7 (by decide)).trans (at11_main_arg7 m ρ c)
theorem at12_main_arg8 : W12 m ρ c (Proc.devRef .tc main_arg8) = m ((c : Thread nD τ).loc main_arg8) :=
  (W12_of_ne m ρ c main_arg8 (by decide)).trans (at11_main_arg8 m ρ c)
theorem at12_main_arg9 : W12 m ρ c (Proc.devRef .tc main_arg9) = m ((c : Thread nD τ).loc main_arg9) :=
  (W12_of_ne m ρ c main_arg9 (by decide)).trans (at11_main_arg9 m ρ c)
theorem at12_main_arg10 : W12 m ρ c (Proc.devRef .tc main_arg10) = m ((c : Thread nD τ).loc main_arg10) :=
  (W12_of_ne m ρ c main_arg10 (by decide)).trans (at11_main_arg10 m ρ c)
theorem at12_main_arg11 : W12 m ρ c (Proc.devRef .tc main_arg11) = m ((c : Thread nD τ).loc main_arg11) :=
  (W12_of_ne m ρ c main_arg11 (by decide)).trans (at11_main_arg11 m ρ c)
theorem at12_main_arg12 : W12 m ρ c (Proc.devRef .tc main_arg12) = m ((c : Thread nD τ).loc main_arg12) :=
  (W12_of_ne m ρ c main_arg12 (by decide)).trans (at11_main_arg12 m ρ c)
theorem at12_main_arg13 : W12 m ρ c (Proc.devRef .tc main_arg13) = m ((c : Thread nD τ).loc main_arg13) :=
  (W12_of_ne m ρ c main_arg13 (by decide)).trans (at11_main_arg13 m ρ c)
theorem at12_main_arg14 : W12 m ρ c (Proc.devRef .tc main_arg14) = m ((c : Thread nD τ).loc main_arg14) :=
  (W12_of_ne m ρ c main_arg14 (by decide)).trans (at11_main_arg14 m ρ c)

/-! ## Boundary 13: after stretch 6 -/

theorem at13_main_v13 : W13 m ρ c (Proc.devRef .tc main_v13) = shapeCast S20000x1 (Cert.Spec.degNorm (m ((c : Thread nD τ).loc main_arg12))) shapeCasts_S20000_S20000x1 :=
  (keepH6_main_v13 (W12 m ρ c)).trans (at12_main_v13 m ρ c)
theorem at13_main_v16 : W13 m ρ c (Proc.devRef .tc main_v16) = shapeCast S20000x1 (Cert.Spec.degNorm (m ((c : Thread nD τ).loc main_arg13))) shapeCasts_S20000_S20000x1 :=
  (keepH6_main_v16 (W12 m ρ c)).trans (at12_main_v16 m ρ c)
theorem at13_main_v18 : W13 m ρ c (Proc.devRef .tc main_v18) = truncf .bf16 (m ((c : Thread nD τ).loc main_arg4)) bitsLt_bf16_f32 :=
  (keepH6_main_v18 (W12 m ρ c)).trans (at12_main_v18 m ρ c)
theorem at13_main_arg1 : W13 m ρ c (Proc.devRef .tc main_arg1) = m ((c : Thread nD τ).loc main_arg1) :=
  (keepH6_main_arg1 (W12 m ρ c)).trans (at12_main_arg1 m ρ c)
theorem at13_main_arg5 : W13 m ρ c (Proc.devRef .tc main_arg5) = m ((c : Thread nD τ).loc main_arg5) :=
  (keepH6_main_arg5 (W12 m ρ c)).trans (at12_main_arg5 m ρ c)
theorem at13_main_arg6 : W13 m ρ c (Proc.devRef .tc main_arg6) = m ((c : Thread nD τ).loc main_arg6) :=
  (keepH6_main_arg6 (W12 m ρ c)).trans (at12_main_arg6 m ρ c)
theorem at13_main_arg7 : W13 m ρ c (Proc.devRef .tc main_arg7) = m ((c : Thread nD τ).loc main_arg7) :=
  (keepH6_main_arg7 (W12 m ρ c)).trans (at12_main_arg7 m ρ c)
theorem at13_main_arg8 : W13 m ρ c (Proc.devRef .tc main_arg8) = m ((c : Thread nD τ).loc main_arg8) :=
  (keepH6_main_arg8 (W12 m ρ c)).trans (at12_main_arg8 m ρ c)
theorem at13_main_arg9 : W13 m ρ c (Proc.devRef .tc main_arg9) = m ((c : Thread nD τ).loc main_arg9) :=
  (keepH6_main_arg9 (W12 m ρ c)).trans (at12_main_arg9 m ρ c)
theorem at13_main_arg10 : W13 m ρ c (Proc.devRef .tc main_arg10) = m ((c : Thread nD τ).loc main_arg10) :=
  (keepH6_main_arg10 (W12 m ρ c)).trans (at12_main_arg10 m ρ c)
theorem at13_main_arg11 : W13 m ρ c (Proc.devRef .tc main_arg11) = m ((c : Thread nD τ).loc main_arg11) :=
  (keepH6_main_arg11 (W12 m ρ c)).trans (at12_main_arg11 m ρ c)
theorem at13_main_arg12 : W13 m ρ c (Proc.devRef .tc main_arg12) = m ((c : Thread nD τ).loc main_arg12) :=
  (keepH6_main_arg12 (W12 m ρ c)).trans (at12_main_arg12 m ρ c)
theorem at13_main_arg13 : W13 m ρ c (Proc.devRef .tc main_arg13) = m ((c : Thread nD τ).loc main_arg13) :=
  (keepH6_main_arg13 (W12 m ρ c)).trans (at12_main_arg13 m ρ c)
theorem at13_main_arg14 : W13 m ρ c (Proc.devRef .tc main_arg14) = m ((c : Thread nD τ).loc main_arg14) :=
  (keepH6_main_arg14 (W12 m ρ c)).trans (at12_main_arg14 m ρ c)

/-! ## Boundary 14: after launch 6 -/

theorem at14_main_v13 : W14 m ρ c (Proc.devRef .tc main_v13) = shapeCast S20000x1 (Cert.Spec.degNorm (m ((c : Thread nD τ).loc main_arg12))) shapeCasts_S20000_S20000x1 :=
  ((W14_arr m ρ c 2).trans (((dat6 (V13 m ρ) c).arrAt_in 2 rfl _).trans (A_eq6 (V13 m ρ) c 2))).trans (at13_main_v13 m ρ c)
theorem at14_main_v16 : W14 m ρ c (Proc.devRef .tc main_v16) = shapeCast S20000x1 (Cert.Spec.degNorm (m ((c : Thread nD τ).loc main_arg13))) shapeCasts_S20000_S20000x1 :=
  ((W14_arr m ρ c 1).trans (((dat6 (V13 m ρ) c).arrAt_in 1 rfl _).trans (A_eq6 (V13 m ρ) c 1))).trans (at13_main_v16 m ρ c)
theorem at14_main_v18 : W14 m ρ c (Proc.devRef .tc main_v18) = truncf .bf16 (m ((c : Thread nD τ).loc main_arg4)) bitsLt_bf16_f32 :=
  (W14_of_ne m ρ c main_v18 (by decide)).trans (at13_main_v18 m ρ c)
theorem at14_main_arg1 : W14 m ρ c (Proc.devRef .tc main_arg1) = m ((c : Thread nD τ).loc main_arg1) :=
  (W14_of_ne m ρ c main_arg1 (by decide)).trans (at13_main_arg1 m ρ c)
theorem at14_main_arg5 : W14 m ρ c (Proc.devRef .tc main_arg5) = m ((c : Thread nD τ).loc main_arg5) :=
  (W14_of_ne m ρ c main_arg5 (by decide)).trans (at13_main_arg5 m ρ c)
theorem at14_main_arg6 : W14 m ρ c (Proc.devRef .tc main_arg6) = m ((c : Thread nD τ).loc main_arg6) :=
  (W14_of_ne m ρ c main_arg6 (by decide)).trans (at13_main_arg6 m ρ c)
theorem at14_main_arg7 : W14 m ρ c (Proc.devRef .tc main_arg7) = m ((c : Thread nD τ).loc main_arg7) :=
  (W14_of_ne m ρ c main_arg7 (by decide)).trans (at13_main_arg7 m ρ c)
theorem at14_main_arg8 : W14 m ρ c (Proc.devRef .tc main_arg8) = m ((c : Thread nD τ).loc main_arg8) :=
  (W14_of_ne m ρ c main_arg8 (by decide)).trans (at13_main_arg8 m ρ c)
theorem at14_main_arg9 : W14 m ρ c (Proc.devRef .tc main_arg9) = m ((c : Thread nD τ).loc main_arg9) :=
  (W14_of_ne m ρ c main_arg9 (by decide)).trans (at13_main_arg9 m ρ c)
theorem at14_main_arg10 : W14 m ρ c (Proc.devRef .tc main_arg10) = m ((c : Thread nD τ).loc main_arg10) :=
  (W14_of_ne m ρ c main_arg10 (by decide)).trans (at13_main_arg10 m ρ c)
theorem at14_main_arg11 : W14 m ρ c (Proc.devRef .tc main_arg11) = m ((c : Thread nD τ).loc main_arg11) :=
  (W14_of_ne m ρ c main_arg11 (by decide)).trans (at13_main_arg11 m ρ c)
theorem at14_main_arg12 : W14 m ρ c (Proc.devRef .tc main_arg12) = m ((c : Thread nD τ).loc main_arg12) :=
  (W14_of_ne m ρ c main_arg12 (by decide)).trans (at13_main_arg12 m ρ c)
theorem at14_main_arg13 : W14 m ρ c (Proc.devRef .tc main_arg13) = m ((c : Thread nD τ).loc main_arg13) :=
  (W14_of_ne m ρ c main_arg13 (by decide)).trans (at13_main_arg13 m ρ c)
theorem at14_main_arg14 : W14 m ρ c (Proc.devRef .tc main_arg14) = m ((c : Thread nD τ).loc main_arg14) :=
  (W14_of_ne m ρ c main_arg14 (by decide)).trans (at13_main_arg14 m ρ c)

/-! ## Boundary 15: after stretch 7 -/

theorem at15_main_v13 : W15 m ρ c (Proc.devRef .tc main_v13) = shapeCast S20000x1 (Cert.Spec.degNorm (m ((c : Thread nD τ).loc main_arg12))) shapeCasts_S20000_S20000x1 :=
  (keepH7_main_v13 (W14 m ρ c)).trans (at14_main_v13 m ρ c)
theorem at15_main_v16 : W15 m ρ c (Proc.devRef .tc main_v16) = shapeCast S20000x1 (Cert.Spec.degNorm (m ((c : Thread nD τ).loc main_arg13))) shapeCasts_S20000_S20000x1 :=
  (keepH7_main_v16 (W14 m ρ c)).trans (at14_main_v16 m ρ c)
theorem at15_main_v18 : W15 m ρ c (Proc.devRef .tc main_v18) = truncf .bf16 (m ((c : Thread nD τ).loc main_arg4)) bitsLt_bf16_f32 :=
  (keepH7_main_v18 (W14 m ρ c)).trans (at14_main_v18 m ρ c)
theorem at15_main_arg1 : W15 m ρ c (Proc.devRef .tc main_arg1) = m ((c : Thread nD τ).loc main_arg1) :=
  (keepH7_main_arg1 (W14 m ρ c)).trans (at14_main_arg1 m ρ c)
theorem at15_main_arg5 : W15 m ρ c (Proc.devRef .tc main_arg5) = m ((c : Thread nD τ).loc main_arg5) :=
  (keepH7_main_arg5 (W14 m ρ c)).trans (at14_main_arg5 m ρ c)
theorem at15_main_arg6 : W15 m ρ c (Proc.devRef .tc main_arg6) = m ((c : Thread nD τ).loc main_arg6) :=
  (keepH7_main_arg6 (W14 m ρ c)).trans (at14_main_arg6 m ρ c)
theorem at15_main_arg7 : W15 m ρ c (Proc.devRef .tc main_arg7) = m ((c : Thread nD τ).loc main_arg7) :=
  (keepH7_main_arg7 (W14 m ρ c)).trans (at14_main_arg7 m ρ c)
theorem at15_main_arg8 : W15 m ρ c (Proc.devRef .tc main_arg8) = m ((c : Thread nD τ).loc main_arg8) :=
  (keepH7_main_arg8 (W14 m ρ c)).trans (at14_main_arg8 m ρ c)
theorem at15_main_arg9 : W15 m ρ c (Proc.devRef .tc main_arg9) = m ((c : Thread nD τ).loc main_arg9) :=
  (keepH7_main_arg9 (W14 m ρ c)).trans (at14_main_arg9 m ρ c)
theorem at15_main_arg10 : W15 m ρ c (Proc.devRef .tc main_arg10) = m ((c : Thread nD τ).loc main_arg10) :=
  (keepH7_main_arg10 (W14 m ρ c)).trans (at14_main_arg10 m ρ c)
theorem at15_main_arg11 : W15 m ρ c (Proc.devRef .tc main_arg11) = m ((c : Thread nD τ).loc main_arg11) :=
  (keepH7_main_arg11 (W14 m ρ c)).trans (at14_main_arg11 m ρ c)
theorem at15_main_arg12 : W15 m ρ c (Proc.devRef .tc main_arg12) = m ((c : Thread nD τ).loc main_arg12) :=
  (keepH7_main_arg12 (W14 m ρ c)).trans (at14_main_arg12 m ρ c)
theorem at15_main_arg13 : W15 m ρ c (Proc.devRef .tc main_arg13) = m ((c : Thread nD τ).loc main_arg13) :=
  (keepH7_main_arg13 (W14 m ρ c)).trans (at14_main_arg13 m ρ c)
theorem at15_main_arg14 : W15 m ρ c (Proc.devRef .tc main_arg14) = m ((c : Thread nD τ).loc main_arg14) :=
  (keepH7_main_arg14 (W14 m ρ c)).trans (at14_main_arg14 m ρ c)

/-! ## Boundary 16: after launch 7 -/

theorem at16_main_v13 : W16 m ρ c (Proc.devRef .tc main_v13) = shapeCast S20000x1 (Cert.Spec.degNorm (m ((c : Thread nD τ).loc main_arg12))) shapeCasts_S20000_S20000x1 :=
  ((W16_arr m ρ c 2).trans (((dat7 (V15 m ρ) c).arrAt_in 2 rfl _).trans (A_eq7 (V15 m ρ) c 2))).trans (at15_main_v13 m ρ c)
theorem at16_main_v16 : W16 m ρ c (Proc.devRef .tc main_v16) = shapeCast S20000x1 (Cert.Spec.degNorm (m ((c : Thread nD τ).loc main_arg13))) shapeCasts_S20000_S20000x1 :=
  ((W16_arr m ρ c 1).trans (((dat7 (V15 m ρ) c).arrAt_in 1 rfl _).trans (A_eq7 (V15 m ρ) c 1))).trans (at15_main_v16 m ρ c)
theorem at16_main_v18 : W16 m ρ c (Proc.devRef .tc main_v18) = truncf .bf16 (m ((c : Thread nD τ).loc main_arg4)) bitsLt_bf16_f32 :=
  (W16_of_ne m ρ c main_v18 (by decide)).trans (at15_main_v18 m ρ c)
theorem at16_main_arg1 : W16 m ρ c (Proc.devRef .tc main_arg1) = m ((c : Thread nD τ).loc main_arg1) :=
  (W16_of_ne m ρ c main_arg1 (by decide)).trans (at15_main_arg1 m ρ c)
theorem at16_main_arg5 : W16 m ρ c (Proc.devRef .tc main_arg5) = m ((c : Thread nD τ).loc main_arg5) :=
  (W16_of_ne m ρ c main_arg5 (by decide)).trans (at15_main_arg5 m ρ c)
theorem at16_main_arg6 : W16 m ρ c (Proc.devRef .tc main_arg6) = m ((c : Thread nD τ).loc main_arg6) :=
  (W16_of_ne m ρ c main_arg6 (by decide)).trans (at15_main_arg6 m ρ c)
theorem at16_main_arg7 : W16 m ρ c (Proc.devRef .tc main_arg7) = m ((c : Thread nD τ).loc main_arg7) :=
  (W16_of_ne m ρ c main_arg7 (by decide)).trans (at15_main_arg7 m ρ c)
theorem at16_main_arg8 : W16 m ρ c (Proc.devRef .tc main_arg8) = m ((c : Thread nD τ).loc main_arg8) :=
  (W16_of_ne m ρ c main_arg8 (by decide)).trans (at15_main_arg8 m ρ c)
theorem at16_main_arg9 : W16 m ρ c (Proc.devRef .tc main_arg9) = m ((c : Thread nD τ).loc main_arg9) :=
  (W16_of_ne m ρ c main_arg9 (by decide)).trans (at15_main_arg9 m ρ c)
theorem at16_main_arg10 : W16 m ρ c (Proc.devRef .tc main_arg10) = m ((c : Thread nD τ).loc main_arg10) :=
  (W16_of_ne m ρ c main_arg10 (by decide)).trans (at15_main_arg10 m ρ c)
theorem at16_main_arg11 : W16 m ρ c (Proc.devRef .tc main_arg11) = m ((c : Thread nD τ).loc main_arg11) :=
  (W16_of_ne m ρ c main_arg11 (by decide)).trans (at15_main_arg11 m ρ c)
theorem at16_main_arg12 : W16 m ρ c (Proc.devRef .tc main_arg12) = m ((c : Thread nD τ).loc main_arg12) :=
  (W16_of_ne m ρ c main_arg12 (by decide)).trans (at15_main_arg12 m ρ c)
theorem at16_main_arg13 : W16 m ρ c (Proc.devRef .tc main_arg13) = m ((c : Thread nD τ).loc main_arg13) :=
  (W16_of_ne m ρ c main_arg13 (by decide)).trans (at15_main_arg13 m ρ c)
theorem at16_main_arg14 : W16 m ρ c (Proc.devRef .tc main_arg14) = m ((c : Thread nD τ).loc main_arg14) :=
  (W16_of_ne m ρ c main_arg14 (by decide)).trans (at15_main_arg14 m ρ c)

/-! ## Boundary 17: after stretch 8 -/

theorem at17_main_v13 : W17 m ρ c (Proc.devRef .tc main_v13) = shapeCast S20000x1 (Cert.Spec.degNorm (m ((c : Thread nD τ).loc main_arg12))) shapeCasts_S20000_S20000x1 :=
  (keepH8_main_v13 (W16 m ρ c)).trans (at16_main_v13 m ρ c)
theorem at17_main_v16 : W17 m ρ c (Proc.devRef .tc main_v16) = shapeCast S20000x1 (Cert.Spec.degNorm (m ((c : Thread nD τ).loc main_arg13))) shapeCasts_S20000_S20000x1 :=
  (keepH8_main_v16 (W16 m ρ c)).trans (at16_main_v16 m ρ c)
theorem at17_main_v18 : W17 m ρ c (Proc.devRef .tc main_v18) = truncf .bf16 (m ((c : Thread nD τ).loc main_arg4)) bitsLt_bf16_f32 :=
  (keepH8_main_v18 (W16 m ρ c)).trans (at16_main_v18 m ρ c)
theorem at17_main_arg1 : W17 m ρ c (Proc.devRef .tc main_arg1) = m ((c : Thread nD τ).loc main_arg1) :=
  (keepH8_main_arg1 (W16 m ρ c)).trans (at16_main_arg1 m ρ c)
theorem at17_main_arg5 : W17 m ρ c (Proc.devRef .tc main_arg5) = m ((c : Thread nD τ).loc main_arg5) :=
  (keepH8_main_arg5 (W16 m ρ c)).trans (at16_main_arg5 m ρ c)
theorem at17_main_arg6 : W17 m ρ c (Proc.devRef .tc main_arg6) = m ((c : Thread nD τ).loc main_arg6) :=
  (keepH8_main_arg6 (W16 m ρ c)).trans (at16_main_arg6 m ρ c)
theorem at17_main_arg7 : W17 m ρ c (Proc.devRef .tc main_arg7) = m ((c : Thread nD τ).loc main_arg7) :=
  (keepH8_main_arg7 (W16 m ρ c)).trans (at16_main_arg7 m ρ c)
theorem at17_main_arg8 : W17 m ρ c (Proc.devRef .tc main_arg8) = m ((c : Thread nD τ).loc main_arg8) :=
  (keepH8_main_arg8 (W16 m ρ c)).trans (at16_main_arg8 m ρ c)
theorem at17_main_arg9 : W17 m ρ c (Proc.devRef .tc main_arg9) = m ((c : Thread nD τ).loc main_arg9) :=
  (keepH8_main_arg9 (W16 m ρ c)).trans (at16_main_arg9 m ρ c)
theorem at17_main_arg10 : W17 m ρ c (Proc.devRef .tc main_arg10) = m ((c : Thread nD τ).loc main_arg10) :=
  (keepH8_main_arg10 (W16 m ρ c)).trans (at16_main_arg10 m ρ c)
theorem at17_main_arg11 : W17 m ρ c (Proc.devRef .tc main_arg11) = m ((c : Thread nD τ).loc main_arg11) :=
  (keepH8_main_arg11 (W16 m ρ c)).trans (at16_main_arg11 m ρ c)
theorem at17_main_arg12 : W17 m ρ c (Proc.devRef .tc main_arg12) = m ((c : Thread nD τ).loc main_arg12) :=
  (keepH8_main_arg12 (W16 m ρ c)).trans (at16_main_arg12 m ρ c)
theorem at17_main_arg13 : W17 m ρ c (Proc.devRef .tc main_arg13) = m ((c : Thread nD τ).loc main_arg13) :=
  (keepH8_main_arg13 (W16 m ρ c)).trans (at16_main_arg13 m ρ c)
theorem at17_main_arg14 : W17 m ρ c (Proc.devRef .tc main_arg14) = m ((c : Thread nD τ).loc main_arg14) :=
  (keepH8_main_arg14 (W16 m ρ c)).trans (at16_main_arg14 m ρ c)

/-! ## Boundary 18: after launch 8 -/

theorem at18_main_v13 : W18 m ρ c (Proc.devRef .tc main_v13) = shapeCast S20000x1 (Cert.Spec.degNorm (m ((c : Thread nD τ).loc main_arg12))) shapeCasts_S20000_S20000x1 :=
  ((W18_arr m ρ c 2).trans (((dat8 (V17 m ρ) c).arrAt_in 2 rfl _).trans (A_eq8 (V17 m ρ) c 2))).trans (at17_main_v13 m ρ c)
theorem at18_main_v16 : W18 m ρ c (Proc.devRef .tc main_v16) = shapeCast S20000x1 (Cert.Spec.degNorm (m ((c : Thread nD τ).loc main_arg13))) shapeCasts_S20000_S20000x1 :=
  ((W18_arr m ρ c 1).trans (((dat8 (V17 m ρ) c).arrAt_in 1 rfl _).trans (A_eq8 (V17 m ρ) c 1))).trans (at17_main_v16 m ρ c)
theorem at18_main_v18 : W18 m ρ c (Proc.devRef .tc main_v18) = truncf .bf16 (m ((c : Thread nD τ).loc main_arg4)) bitsLt_bf16_f32 :=
  (W18_of_ne m ρ c main_v18 (by decide)).trans (at17_main_v18 m ρ c)
theorem at18_main_arg1 : W18 m ρ c (Proc.devRef .tc main_arg1) = m ((c : Thread nD τ).loc main_arg1) :=
  (W18_of_ne m ρ c main_arg1 (by decide)).trans (at17_main_arg1 m ρ c)
theorem at18_main_arg5 : W18 m ρ c (Proc.devRef .tc main_arg5) = m ((c : Thread nD τ).loc main_arg5) :=
  (W18_of_ne m ρ c main_arg5 (by decide)).trans (at17_main_arg5 m ρ c)
theorem at18_main_arg6 : W18 m ρ c (Proc.devRef .tc main_arg6) = m ((c : Thread nD τ).loc main_arg6) :=
  (W18_of_ne m ρ c main_arg6 (by decide)).trans (at17_main_arg6 m ρ c)
theorem at18_main_arg7 : W18 m ρ c (Proc.devRef .tc main_arg7) = m ((c : Thread nD τ).loc main_arg7) :=
  (W18_of_ne m ρ c main_arg7 (by decide)).trans (at17_main_arg7 m ρ c)
theorem at18_main_arg8 : W18 m ρ c (Proc.devRef .tc main_arg8) = m ((c : Thread nD τ).loc main_arg8) :=
  (W18_of_ne m ρ c main_arg8 (by decide)).trans (at17_main_arg8 m ρ c)
theorem at18_main_arg9 : W18 m ρ c (Proc.devRef .tc main_arg9) = m ((c : Thread nD τ).loc main_arg9) :=
  (W18_of_ne m ρ c main_arg9 (by decide)).trans (at17_main_arg9 m ρ c)
theorem at18_main_arg10 : W18 m ρ c (Proc.devRef .tc main_arg10) = m ((c : Thread nD τ).loc main_arg10) :=
  (W18_of_ne m ρ c main_arg10 (by decide)).trans (at17_main_arg10 m ρ c)
theorem at18_main_arg11 : W18 m ρ c (Proc.devRef .tc main_arg11) = m ((c : Thread nD τ).loc main_arg11) :=
  (W18_of_ne m ρ c main_arg11 (by decide)).trans (at17_main_arg11 m ρ c)
theorem at18_main_arg12 : W18 m ρ c (Proc.devRef .tc main_arg12) = m ((c : Thread nD τ).loc main_arg12) :=
  (W18_of_ne m ρ c main_arg12 (by decide)).trans (at17_main_arg12 m ρ c)
theorem at18_main_arg13 : W18 m ρ c (Proc.devRef .tc main_arg13) = m ((c : Thread nD τ).loc main_arg13) :=
  (W18_of_ne m ρ c main_arg13 (by decide)).trans (at17_main_arg13 m ρ c)
theorem at18_main_arg14 : W18 m ρ c (Proc.devRef .tc main_arg14) = m ((c : Thread nD τ).loc main_arg14) :=
  (W18_of_ne m ρ c main_arg14 (by decide)).trans (at17_main_arg14 m ρ c)

/-! ## Boundary 19: after stretch 9 -/

theorem at19_main_v13 : W19 m ρ c (Proc.devRef .tc main_v13) = shapeCast S20000x1 (Cert.Spec.degNorm (m ((c : Thread nD τ).loc main_arg12))) shapeCasts_S20000_S20000x1 :=
  (keepH9_main_v13 (W18 m ρ c)).trans (at18_main_v13 m ρ c)
theorem at19_main_v16 : W19 m ρ c (Proc.devRef .tc main_v16) = shapeCast S20000x1 (Cert.Spec.degNorm (m ((c : Thread nD τ).loc main_arg13))) shapeCasts_S20000_S20000x1 :=
  (keepH9_main_v16 (W18 m ρ c)).trans (at18_main_v16 m ρ c)
theorem at19_main_v18 : W19 m ρ c (Proc.devRef .tc main_v18) = truncf .bf16 (m ((c : Thread nD τ).loc main_arg4)) bitsLt_bf16_f32 :=
  (keepH9_main_v18 (W18 m ρ c)).trans (at18_main_v18 m ρ c)
theorem at19_main_arg1 : W19 m ρ c (Proc.devRef .tc main_arg1) = m ((c : Thread nD τ).loc main_arg1) :=
  (keepH9_main_arg1 (W18 m ρ c)).trans (at18_main_arg1 m ρ c)
theorem at19_main_arg5 : W19 m ρ c (Proc.devRef .tc main_arg5) = m ((c : Thread nD τ).loc main_arg5) :=
  (keepH9_main_arg5 (W18 m ρ c)).trans (at18_main_arg5 m ρ c)
theorem at19_main_arg6 : W19 m ρ c (Proc.devRef .tc main_arg6) = m ((c : Thread nD τ).loc main_arg6) :=
  (keepH9_main_arg6 (W18 m ρ c)).trans (at18_main_arg6 m ρ c)
theorem at19_main_arg7 : W19 m ρ c (Proc.devRef .tc main_arg7) = m ((c : Thread nD τ).loc main_arg7) :=
  (keepH9_main_arg7 (W18 m ρ c)).trans (at18_main_arg7 m ρ c)
theorem at19_main_arg8 : W19 m ρ c (Proc.devRef .tc main_arg8) = m ((c : Thread nD τ).loc main_arg8) :=
  (keepH9_main_arg8 (W18 m ρ c)).trans (at18_main_arg8 m ρ c)
theorem at19_main_arg9 : W19 m ρ c (Proc.devRef .tc main_arg9) = m ((c : Thread nD τ).loc main_arg9) :=
  (keepH9_main_arg9 (W18 m ρ c)).trans (at18_main_arg9 m ρ c)
theorem at19_main_arg10 : W19 m ρ c (Proc.devRef .tc main_arg10) = m ((c : Thread nD τ).loc main_arg10) :=
  (keepH9_main_arg10 (W18 m ρ c)).trans (at18_main_arg10 m ρ c)
theorem at19_main_arg11 : W19 m ρ c (Proc.devRef .tc main_arg11) = m ((c : Thread nD τ).loc main_arg11) :=
  (keepH9_main_arg11 (W18 m ρ c)).trans (at18_main_arg11 m ρ c)
theorem at19_main_arg12 : W19 m ρ c (Proc.devRef .tc main_arg12) = m ((c : Thread nD τ).loc main_arg12) :=
  (keepH9_main_arg12 (W18 m ρ c)).trans (at18_main_arg12 m ρ c)
theorem at19_main_arg13 : W19 m ρ c (Proc.devRef .tc main_arg13) = m ((c : Thread nD τ).loc main_arg13) :=
  (keepH9_main_arg13 (W18 m ρ c)).trans (at18_main_arg13 m ρ c)
theorem at19_main_arg14 : W19 m ρ c (Proc.devRef .tc main_arg14) = m ((c : Thread nD τ).loc main_arg14) :=
  (keepH9_main_arg14 (W18 m ρ c)).trans (at18_main_arg14 m ρ c)

/-! ## Boundary 20: after launch 9 -/

theorem at20_main_v13 : W20 m ρ c (Proc.devRef .tc main_v13) = shapeCast S20000x1 (Cert.Spec.degNorm (m ((c : Thread nD τ).loc main_arg12))) shapeCasts_S20000_S20000x1 :=
  ((W20_arr m ρ c 2).trans (((dat9 (V19 m ρ) c).arrAt_in 2 rfl _).trans (A_eq9 (V19 m ρ) c 2))).trans (at19_main_v13 m ρ c)
theorem at20_main_v16 : W20 m ρ c (Proc.devRef .tc main_v16) = shapeCast S20000x1 (Cert.Spec.degNorm (m ((c : Thread nD τ).loc main_arg13))) shapeCasts_S20000_S20000x1 :=
  ((W20_arr m ρ c 1).trans (((dat9 (V19 m ρ) c).arrAt_in 1 rfl _).trans (A_eq9 (V19 m ρ) c 1))).trans (at19_main_v16 m ρ c)
theorem at20_main_v18 : W20 m ρ c (Proc.devRef .tc main_v18) = truncf .bf16 (m ((c : Thread nD τ).loc main_arg4)) bitsLt_bf16_f32 :=
  (W20_of_ne m ρ c main_v18 (by decide)).trans (at19_main_v18 m ρ c)
theorem at20_main_arg1 : W20 m ρ c (Proc.devRef .tc main_arg1) = m ((c : Thread nD τ).loc main_arg1) :=
  (W20_of_ne m ρ c main_arg1 (by decide)).trans (at19_main_arg1 m ρ c)
theorem at20_main_arg5 : W20 m ρ c (Proc.devRef .tc main_arg5) = m ((c : Thread nD τ).loc main_arg5) :=
  (W20_of_ne m ρ c main_arg5 (by decide)).trans (at19_main_arg5 m ρ c)
theorem at20_main_arg6 : W20 m ρ c (Proc.devRef .tc main_arg6) = m ((c : Thread nD τ).loc main_arg6) :=
  (W20_of_ne m ρ c main_arg6 (by decide)).trans (at19_main_arg6 m ρ c)
theorem at20_main_arg7 : W20 m ρ c (Proc.devRef .tc main_arg7) = m ((c : Thread nD τ).loc main_arg7) :=
  (W20_of_ne m ρ c main_arg7 (by decide)).trans (at19_main_arg7 m ρ c)
theorem at20_main_arg8 : W20 m ρ c (Proc.devRef .tc main_arg8) = m ((c : Thread nD τ).loc main_arg8) :=
  (W20_of_ne m ρ c main_arg8 (by decide)).trans (at19_main_arg8 m ρ c)
theorem at20_main_arg9 : W20 m ρ c (Proc.devRef .tc main_arg9) = m ((c : Thread nD τ).loc main_arg9) :=
  (W20_of_ne m ρ c main_arg9 (by decide)).trans (at19_main_arg9 m ρ c)
theorem at20_main_arg10 : W20 m ρ c (Proc.devRef .tc main_arg10) = m ((c : Thread nD τ).loc main_arg10) :=
  (W20_of_ne m ρ c main_arg10 (by decide)).trans (at19_main_arg10 m ρ c)
theorem at20_main_arg11 : W20 m ρ c (Proc.devRef .tc main_arg11) = m ((c : Thread nD τ).loc main_arg11) :=
  (W20_of_ne m ρ c main_arg11 (by decide)).trans (at19_main_arg11 m ρ c)
theorem at20_main_arg12 : W20 m ρ c (Proc.devRef .tc main_arg12) = m ((c : Thread nD τ).loc main_arg12) :=
  (W20_of_ne m ρ c main_arg12 (by decide)).trans (at19_main_arg12 m ρ c)
theorem at20_main_arg13 : W20 m ρ c (Proc.devRef .tc main_arg13) = m ((c : Thread nD τ).loc main_arg13) :=
  (W20_of_ne m ρ c main_arg13 (by decide)).trans (at19_main_arg13 m ρ c)
theorem at20_main_arg14 : W20 m ρ c (Proc.devRef .tc main_arg14) = m ((c : Thread nD τ).loc main_arg14) :=
  (W20_of_ne m ρ c main_arg14 (by decide)).trans (at19_main_arg14 m ρ c)

/-! ## Boundary 21: after stretch 10 -/

theorem at21_main_v13 : W21 m ρ c (Proc.devRef .tc main_v13) = shapeCast S20000x1 (Cert.Spec.degNorm (m ((c : Thread nD τ).loc main_arg12))) shapeCasts_S20000_S20000x1 :=
  (keepH10_main_v13 (W20 m ρ c)).trans (at20_main_v13 m ρ c)
theorem at21_main_v16 : W21 m ρ c (Proc.devRef .tc main_v16) = shapeCast S20000x1 (Cert.Spec.degNorm (m ((c : Thread nD τ).loc main_arg13))) shapeCasts_S20000_S20000x1 :=
  (keepH10_main_v16 (W20 m ρ c)).trans (at20_main_v16 m ρ c)
theorem at21_main_v18 : W21 m ρ c (Proc.devRef .tc main_v18) = truncf .bf16 (m ((c : Thread nD τ).loc main_arg4)) bitsLt_bf16_f32 :=
  (keepH10_main_v18 (W20 m ρ c)).trans (at20_main_v18 m ρ c)
theorem at21_main_arg1 : W21 m ρ c (Proc.devRef .tc main_arg1) = m ((c : Thread nD τ).loc main_arg1) :=
  (keepH10_main_arg1 (W20 m ρ c)).trans (at20_main_arg1 m ρ c)
theorem at21_main_arg5 : W21 m ρ c (Proc.devRef .tc main_arg5) = m ((c : Thread nD τ).loc main_arg5) :=
  (keepH10_main_arg5 (W20 m ρ c)).trans (at20_main_arg5 m ρ c)
theorem at21_main_arg6 : W21 m ρ c (Proc.devRef .tc main_arg6) = m ((c : Thread nD τ).loc main_arg6) :=
  (keepH10_main_arg6 (W20 m ρ c)).trans (at20_main_arg6 m ρ c)
theorem at21_main_arg7 : W21 m ρ c (Proc.devRef .tc main_arg7) = m ((c : Thread nD τ).loc main_arg7) :=
  (keepH10_main_arg7 (W20 m ρ c)).trans (at20_main_arg7 m ρ c)
theorem at21_main_arg8 : W21 m ρ c (Proc.devRef .tc main_arg8) = m ((c : Thread nD τ).loc main_arg8) :=
  (keepH10_main_arg8 (W20 m ρ c)).trans (at20_main_arg8 m ρ c)
theorem at21_main_arg9 : W21 m ρ c (Proc.devRef .tc main_arg9) = m ((c : Thread nD τ).loc main_arg9) :=
  (keepH10_main_arg9 (W20 m ρ c)).trans (at20_main_arg9 m ρ c)
theorem at21_main_arg10 : W21 m ρ c (Proc.devRef .tc main_arg10) = m ((c : Thread nD τ).loc main_arg10) :=
  (keepH10_main_arg10 (W20 m ρ c)).trans (at20_main_arg10 m ρ c)
theorem at21_main_arg11 : W21 m ρ c (Proc.devRef .tc main_arg11) = m ((c : Thread nD τ).loc main_arg11) :=
  (keepH10_main_arg11 (W20 m ρ c)).trans (at20_main_arg11 m ρ c)
theorem at21_main_arg12 : W21 m ρ c (Proc.devRef .tc main_arg12) = m ((c : Thread nD τ).loc main_arg12) :=
  (keepH10_main_arg12 (W20 m ρ c)).trans (at20_main_arg12 m ρ c)
theorem at21_main_arg13 : W21 m ρ c (Proc.devRef .tc main_arg13) = m ((c : Thread nD τ).loc main_arg13) :=
  (keepH10_main_arg13 (W20 m ρ c)).trans (at20_main_arg13 m ρ c)
theorem at21_main_arg14 : W21 m ρ c (Proc.devRef .tc main_arg14) = m ((c : Thread nD τ).loc main_arg14) :=
  (keepH10_main_arg14 (W20 m ρ c)).trans (at20_main_arg14 m ρ c)

/-! ## Boundary 22: after launch 10 -/

theorem at22_main_v13 : W22 m ρ c (Proc.devRef .tc main_v13) = shapeCast S20000x1 (Cert.Spec.degNorm (m ((c : Thread nD τ).loc main_arg12))) shapeCasts_S20000_S20000x1 :=
  (W22_of_ne m ρ c main_v13 (by decide)).trans (at21_main_v13 m ρ c)
theorem at22_main_v16 : W22 m ρ c (Proc.devRef .tc main_v16) = shapeCast S20000x1 (Cert.Spec.degNorm (m ((c : Thread nD τ).loc main_arg13))) shapeCasts_S20000_S20000x1 :=
  ((W22_arr m ρ c 1).trans (((dat10 (V21 m ρ) c).arrAt_in 1 rfl _).trans (A_eq10 (V21 m ρ) c 1))).trans (at21_main_v16 m ρ c)
theorem at22_main_v18 : W22 m ρ c (Proc.devRef .tc main_v18) = truncf .bf16 (m ((c : Thread nD τ).loc main_arg4)) bitsLt_bf16_f32 :=
  (W22_of_ne m ρ c main_v18 (by decide)).trans (at21_main_v18 m ρ c)
theorem at22_main_arg1 : W22 m ρ c (Proc.devRef .tc main_arg1) = m ((c : Thread nD τ).loc main_arg1) :=
  (W22_of_ne m ρ c main_arg1 (by decide)).trans (at21_main_arg1 m ρ c)
theorem at22_main_arg5 : W22 m ρ c (Proc.devRef .tc main_arg5) = m ((c : Thread nD τ).loc main_arg5) :=
  (W22_of_ne m ρ c main_arg5 (by decide)).trans (at21_main_arg5 m ρ c)
theorem at22_main_arg6 : W22 m ρ c (Proc.devRef .tc main_arg6) = m ((c : Thread nD τ).loc main_arg6) :=
  (W22_of_ne m ρ c main_arg6 (by decide)).trans (at21_main_arg6 m ρ c)
theorem at22_main_arg7 : W22 m ρ c (Proc.devRef .tc main_arg7) = m ((c : Thread nD τ).loc main_arg7) :=
  (W22_of_ne m ρ c main_arg7 (by decide)).trans (at21_main_arg7 m ρ c)
theorem at22_main_arg8 : W22 m ρ c (Proc.devRef .tc main_arg8) = m ((c : Thread nD τ).loc main_arg8) :=
  (W22_of_ne m ρ c main_arg8 (by decide)).trans (at21_main_arg8 m ρ c)
theorem at22_main_arg9 : W22 m ρ c (Proc.devRef .tc main_arg9) = m ((c : Thread nD τ).loc main_arg9) :=
  (W22_of_ne m ρ c main_arg9 (by decide)).trans (at21_main_arg9 m ρ c)
theorem at22_main_arg10 : W22 m ρ c (Proc.devRef .tc main_arg10) = m ((c : Thread nD τ).loc main_arg10) :=
  (W22_of_ne m ρ c main_arg10 (by decide)).trans (at21_main_arg10 m ρ c)
theorem at22_main_arg11 : W22 m ρ c (Proc.devRef .tc main_arg11) = m ((c : Thread nD τ).loc main_arg11) :=
  (W22_of_ne m ρ c main_arg11 (by decide)).trans (at21_main_arg11 m ρ c)
theorem at22_main_arg12 : W22 m ρ c (Proc.devRef .tc main_arg12) = m ((c : Thread nD τ).loc main_arg12) :=
  (W22_of_ne m ρ c main_arg12 (by decide)).trans (at21_main_arg12 m ρ c)
theorem at22_main_arg13 : W22 m ρ c (Proc.devRef .tc main_arg13) = m ((c : Thread nD τ).loc main_arg13) :=
  (W22_of_ne m ρ c main_arg13 (by decide)).trans (at21_main_arg13 m ρ c)
theorem at22_main_arg14 : W22 m ρ c (Proc.devRef .tc main_arg14) = m ((c : Thread nD τ).loc main_arg14) :=
  (W22_of_ne m ρ c main_arg14 (by decide)).trans (at21_main_arg14 m ρ c)

/-! ## Boundary 23: after stretch 11 -/

theorem at23_main_arg7 : W23 m ρ c (Proc.devRef .tc main_arg7) = m ((c : Thread nD τ).loc main_arg7) :=
  (keepH11_main_arg7 (W22 m ρ c)).trans (at22_main_arg7 m ρ c)
theorem at23_main_arg9 : W23 m ρ c (Proc.devRef .tc main_arg9) = m ((c : Thread nD τ).loc main_arg9) :=
  (keepH11_main_arg9 (W22 m ρ c)).trans (at22_main_arg9 m ρ c)
theorem at23_main_arg11 : W23 m ρ c (Proc.devRef .tc main_arg11) = m ((c : Thread nD τ).loc main_arg11) :=
  (keepH11_main_arg11 (W22 m ρ c)).trans (at22_main_arg11 m ρ c)

end Cert.KernelIdeal.KVal

end
-- ==== Proof.KBasics.lean ====
/-
  Two small facts about layout. A per-node vector as a column is the same array whether it is made by a reshape
  [20000] → [20000, 1] or by a broadcast along a new unit axis: both read the vector at the row. And rounding weights to
  bf16 commutes with slicing one layer out of the stack and dropping the unit axis, both being re-indexings.
-/
import proofs.«126634_j63780264346183_1_alg».proof.Proof.Spec
import Idealize.ShloMosaic.Lib.ValueIdx
import Idealize.ShloMosaic.Lib.Pipeline.Value

noncomputable section

namespace Cert.KernelIdeal.KVal

open Idealize.ShloMosaic Idealize.ShloMosaic.ValueIdx

variable {F : FTy → Type} [FloatOps F]

/-- The reshape of a per-node vector to a column is its broadcast along a new unit axis. -/
theorem col_eq {α : Type} (d : (⟨1, ![20000]⟩ : Shape).Idx → α) (h : (⟨1, ![20000]⟩ : Shape).ShapeCasts ⟨2, ![20000, 1]⟩)
    (h' : (⟨1, ![20000]⟩ : Shape).BroadcastsInDim ⟨2, ![20000, 1]⟩ (![0] : Fin 1 → Fin 2)) :
    shapeCast ⟨2, ![20000, 1]⟩ d h = broadcastInDim ⟨2, ![20000, 1]⟩ ![0] h' d := by
  funext j
  obtain ⟨p, q, rfl⟩ : ∃ (p : Fin 20000) (q : Fin 1), j = ix2 p q := ⟨j 0, j 1, eq_ix2 j⟩
  have hq : q.val = 0 := by omega
  rw [shapeCast_apply d h (ix2 p q) (ix1 p) (by
        rw [Shape.rowMajor_val_one, Shape.rowMajor_val_two]
        show p.val = p.val * 1 + q.val
        omega),
      broadcastInDim_apply ![0] h' d (ix2 p q) (ix1 p) (by
        intro a
        match a with
        | ⟨0, _⟩ => rfl)]

end Cert.KernelIdeal.KVal

end
-- ==== Proof.KFeat.lean ====
/-
  The node features after each convolution, as the specification's functions of the launch contents of the argument arrays:
  feat0 is the first convolution (no activation), feat(k+1) the convolution with layer k's slice of the stacked parameters applied
  to feat k. The source-side degree factor as a column is dOutCol.
-/
import proofs.«126634_j63780264346183_1_alg».proof.Proof.Gen.KernelIdeal
import proofs.«126634_j63780264346183_1_alg».proof.Proof.Spec

noncomputable section

namespace Cert.KernelIdeal.KVal

open Idealize.ShloMosaic Idealize.ShloMosaic.TcCoe Idealize.SL.Sem Cert.KernelIdeal

variable {F : FTy → Type} [FloatOps F]
variable (m : (ℓ : Loc nD τ sig) → Buf (Elt F) ℓ) (c : Dev nD)

/-- The degree factors of the sources and of the targets, as columns. -/
def dOutCol : FVec F S20000x1 .f32 := Cert.Spec.nodeCol (Cert.Spec.degNorm (m ((c : Thread nD τ).loc main_arg12)))
def dInCol : FVec F S20000x1 .f32 := Cert.Spec.nodeCol (Cert.Spec.degNorm (m ((c : Thread nD τ).loc main_arg13)))

def feat0 : FVec F S20000x256 .f32 :=
  Cert.Spec.conv0 (m ((c : Thread nD τ).loc main_arg0)) (Cert.Spec.degNorm (m ((c : Thread nD τ).loc main_arg12))) (Cert.Spec.degNorm (m ((c : Thread nD τ).loc main_arg13)))
    (m ((c : Thread nD τ).loc main_arg2)) (m ((c : Thread nD τ).loc main_arg3)) (m ((c : Thread nD τ).loc main_arg12)) (m ((c : Thread nD τ).loc main_arg13))
def feat1 : FVec F S20000x256 .f32 :=
  Cert.Spec.convK (m ((c : Thread nD τ).loc main_arg4)) (m ((c : Thread nD τ).loc main_arg5)) (m ((c : Thread nD τ).loc main_arg12)) (m ((c : Thread nD τ).loc main_arg13)) 0
    Cert.ReferenceIdeal.Facts₀.slices_S10x256x256_S1x256x256_0_0_0 Cert.ReferenceIdeal.Facts₀.slices_S10x256_S1x256_0_0 (feat0 m c)
def feat2 : FVec F S20000x256 .f32 :=
  Cert.Spec.convK (m ((c : Thread nD τ).loc main_arg4)) (m ((c : Thread nD τ).loc main_arg5)) (m ((c : Thread nD τ).loc main_arg12)) (m ((c : Thread nD τ).loc main_arg13)) 1
    Cert.ReferenceIdeal.Facts₀.slices_S10x256x256_S1x256x256_1_0_0 Cert.ReferenceIdeal.Facts₀.slices_S10x256_S1x256_1_0 (feat1 m c)
def feat3 : FVec F S20000x256 .f32 :=
  Cert.Spec.convK (m ((c : Thread nD τ).loc main_arg4)) (m ((c : Thread nD τ).loc main_arg5)) (m ((c : Thread nD τ).loc main_arg12)) (m ((c : Thread nD τ).loc main_arg13)) 2
    Cert.ReferenceIdeal.Facts₀.slices_S10x256x256_S1x256x256_2_0_0 Cert.ReferenceIdeal.Facts₀.slices_S10x256_S1x256_2_0 (feat2 m c)
def feat4 : FVec F S20000x256 .f32 :=
  Cert.Spec.convK (m ((c : Thread nD τ).loc main_arg4)) (m ((c : Thread nD τ).loc main_arg5)) (m ((c : Thread nD τ).loc main_arg12)) (m ((c : Thread nD τ).loc main_arg13)) 3
    Cert.ReferenceIdeal.Facts₀.slices_S10x256x256_S1x256x256_3_0_0 Cert.ReferenceIdeal.Facts₀.slices_S10x256_S1x256_3_0 (feat3 m c)
def feat5 : FVec F S20000x256 .f32 :=
  Cert.Spec.convK (m ((c : Thread nD τ).loc main_arg4)) (m ((c : Thread nD τ).loc main_arg5)) (m ((c : Thread nD τ).loc main_arg12)) (m ((c : Thread nD τ).loc main_arg13)) 4
    Cert.ReferenceIdeal.Facts₀.slices_S10x256x256_S1x256x256_4_0_0 Cert.ReferenceIdeal.Facts₀.slices_S10x256_S1x256_4_0 (feat4 m c)
def feat6 : FVec F S20000x256 .f32 :=
  Cert.Spec.convK (m ((c : Thread nD τ).loc main_arg4)) (m ((c : Thread nD τ).loc main_arg5)) (m ((c : Thread nD τ).loc main_arg12)) (m ((c : Thread nD τ).loc main_arg13)) 5
    Cert.ReferenceIdeal.Facts₀.slices_S10x256x256_S1x256x256_5_0_0 Cert.ReferenceIdeal.Facts₀.slices_S10x256_S1x256_5_0 (feat5 m c)
def feat7 : FVec F S20000x256 .f32 :=
  Cert.Spec.convK (m ((c : Thread nD τ).loc main_arg4)) (m ((c : Thread nD τ).loc main_arg5)) (m ((c : Thread nD τ).loc main_arg12)) (m ((c : Thread nD τ).loc main_arg13)) 6
    Cert.ReferenceIdeal.Facts₀.slices_S10x256x256_S1x256x256_6_0_0 Cert.ReferenceIdeal.Facts₀.slices_S10x256_S1x256_6_0 (feat6 m c)
def feat8 : FVec F S20000x256 .f32 :=
  Cert.Spec.convK (m ((c : Thread nD τ).loc main_arg4)) (m ((c : Thread nD τ).loc main_arg5)) (m ((c : Thread nD τ).loc main_arg12)) (m ((c : Thread nD τ).loc main_arg13)) 7
    Cert.ReferenceIdeal.Facts₀.slices_S10x256x256_S1x256x256_7_0_0 Cert.ReferenceIdeal.Facts₀.slices_S10x256_S1x256_7_0 (feat7 m c)
def feat9 : FVec F S20000x256 .f32 :=
  Cert.Spec.convK (m ((c : Thread nD τ).loc main_arg4)) (m ((c : Thread nD τ).loc main_arg5)) (m ((c : Thread nD τ).loc main_arg12)) (m ((c : Thread nD τ).loc main_arg13)) 8
    Cert.ReferenceIdeal.Facts₀.slices_S10x256x256_S1x256x256_8_0_0 Cert.ReferenceIdeal.Facts₀.slices_S10x256_S1x256_8_0 (feat8 m c)
def feat10 : FVec F S20000x256 .f32 :=
  Cert.Spec.convK (m ((c : Thread nD τ).loc main_arg4)) (m ((c : Thread nD τ).loc main_arg5)) (m ((c : Thread nD τ).loc main_arg12)) (m ((c : Thread nD τ).loc main_arg13)) 9
    Cert.ReferenceIdeal.Facts₀.slices_S10x256x256_S1x256x256_9_0_0 Cert.ReferenceIdeal.Facts₀.slices_S10x256_S1x256_9_0 (feat9 m c)

/-- The eleven convolutions composed are the specification's node features. -/
theorem feat10_eq : feat10 m c = Cert.Spec.feat (m ((c : Thread nD τ).loc main_arg0)) (m ((c : Thread nD τ).loc main_arg2)) (m ((c : Thread nD τ).loc main_arg3)) (m ((c : Thread nD τ).loc main_arg4)) (m ((c : Thread nD τ).loc main_arg5))
    (m ((c : Thread nD τ).loc main_arg12)) (m ((c : Thread nD τ).loc main_arg13)) := rfl

end Cert.KernelIdeal.KVal

end
-- ==== Proof.ConvTileK.lean ====
/-
  The tile mathematics, kernel side. One row tile of a convolution layer holds 2000 nodes. Its payload scales each
  node's aggregated features by the node's in-degree factor, multiplies by the layer's weights on the matrix unit into a
  zero accumulator, adds the bias along the rows, and (all layers but the first) takes the maximum with zero; the second
  payload scales the result by the out-degree factor. Read at the ideal values and at one entry (p, q) of the tile these
  are a finite sum over the contracted feature coordinate, written with the entries of the loaded blocks.
-/
import proofs.«126634_j63780264346183_1_alg».proof.Proof.Gen.KernelIdeal.Skeleton
import Idealize.ShloMosaic.Lib.ValueLayout
import Idealize.ShloMosaic.PureOps.Ideal.Laws

noncomputable section

open scoped BigOperators

namespace Cert.KernelIdeal.ConvTile

open Idealize.ShloMosaic Idealize.ShloMosaic.ValueIdx Cert.KernelIdeal Cert.KernelIdeal.Gen

/-- A column [a, 1] broadcast along b columns reads, at (p, c), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two tile products: rows of the left operand, columns of the right, one contracted axis -/

theorem kdot256_lhs0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
theorem kdot256_lhs1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem kdot256_rhs0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem kdot256_rhs1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The tile product into a zero accumulator, at (p, q): the sum over the 256 contracted coordinates. -/
theorem kdot256_apply (l : FVec Ideal S2000x256 .bf16) (r : FVec Ideal S256x256 .bf16) (p : Fin 2000) (q : Fin 256) :
    matmul dot_S2000x256_S256x256_S2000x256_1_0_0_1_n_n none l r (constant (F := Ideal) S2000x256 .f32 0x00000000#32) (ix2 p q)
      = ∑ k : Fin 256, l (ix2 p k) * r (ix2 k q) := by
  simp only [matmul]
  rw [Ideal.matmul_constant_zero_apply,
    ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k :=
    funext fun a => Fin.ext (by
      match a with
      | ⟨0, _⟩ => exact kdot256_lhs0 _ _
      | ⟨1, _⟩ => exact (kdot256_lhs1 _ _).trans hk)
  have er : dot_S2000x256_S256x256_S2000x256_1_0_0_1_n_n.rhsIdx (ix2 p q) ((contrEquiv1 dot_S2000x256_S256x256_S2000x256_1_0_0_1_n_n 256 rfl rfl).symm k) = ix2 k q :=
    funext fun a => Fin.ext (by
      match a with
      | ⟨0, _⟩ => exact (kdot256_rhs0 _ _).trans hk
      | ⟨1, _⟩ => exact kdot256_rhs1 _ _)
  rw [el, er]

theorem kdot74_lhs0 (i : S2000x256.Idx) (q : dot_S2000x74_S74x256_S2000x256_1_0_0_1_n_n.contr.Idx) :
    (dot_S2000x74_S74x256_S2000x256_1_0_0_1_n_n.lhsIdx i q 0).val = (i 0).val := by
  unfold DotDims.lhsIdx
  rw [dif_neg (show ¬(0 : Fin S2000x74.rank) ∈ dot_S2000x74_S74x256_S2000x256_1_0_0_1_n_n.lhsBatch by decide),
    dif_pos (show (0 : Fin S2000x74.rank) ∈ dot_S2000x74_S74x256_S2000x256_1_0_0_1_n_n.lhsNonContracting by decide)]
  rfl
theorem kdot74_lhs1 (i : S2000x256.Idx) (q : dot_S2000x74_S74x256_S2000x256_1_0_0_1_n_n.contr.Idx) :
    (dot_S2000x74_S74x256_S2000x256_1_0_0_1_n_n.lhsIdx i q 1).val = (q ⟨0, by decide⟩).val :=
  dot_S2000x74_S74x256_S2000x256_1_0_0_1_n_n.lhsIdx_val_of_single rfl i q
theorem kdot74_rhs0 (i : S2000x256.Idx) (q : dot_S2000x74_S74x256_S2000x256_1_0_0_1_n_n.contr.Idx) :
    (dot_S2000x74_S74x256_S2000x256_1_0_0_1_n_n.rhsIdx i q 0).val = (q ⟨0, by decide⟩).val :=
  dot_S2000x74_S74x256_S2000x256_1_0_0_1_n_n.rhsIdx_val_of_single rfl i q
theorem kdot74_rhs1 (i : S2000x256.Idx) (q : dot_S2000x74_S74x256_S2000x256_1_0_0_1_n_n.contr.Idx) :
    (dot_S2000x74_S74x256_S2000x256_1_0_0_1_n_n.rhsIdx i q 1).val = (i 1).val := by
  unfold DotDims.rhsIdx
  rw [dif_neg (show ¬(1 : Fin S74x256.rank) ∈ dot_S2000x74_S74x256_S2000x256_1_0_0_1_n_n.rhsBatch by decide),
    dif_pos (show (1 : Fin S74x256.rank) ∈ dot_S2000x74_S74x256_S2000x256_1_0_0_1_n_n.rhsNonContracting by decide)]
  rfl

/-- The tile product into a zero accumulator, at (p, q): the sum over the 74 contracted coordinates. -/
theorem kdot74_apply (l : FVec Ideal S2000x74 .bf16) (r : FVec Ideal S74x256 .bf16) (p : Fin 2000) (q : Fin 256) :
    matmul dot_S2000x74_S74x256_S2000x256_1_0_0_1_n_n none l r (constant (F := Ideal) S2000x256 .f32 0x00000000#32) (ix2 p q)
      = ∑ k : Fin 74, l (ix2 p k) * r (ix2 k q) := by
  simp only [matmul]
  rw [Ideal.matmul_constant_zero_apply,
    ← Equiv.sum_comp (contrEquiv1 dot_S2000x74_S74x256_S2000x256_1_0_0_1_n_n 74 rfl rfl).symm]
  refine Finset.sum_congr rfl fun k _ => ?_
  have hk := contrEquiv1_symm_val dot_S2000x74_S74x256_S2000x256_1_0_0_1_n_n 74 rfl rfl k
  have el : dot_S2000x74_S74x256_S2000x256_1_0_0_1_n_n.lhsIdx (ix2 p q) ((contrEquiv1 dot_S2000x74_S74x256_S2000x256_1_0_0_1_n_n 74 rfl rfl).symm k) = ix2 p k :=
    funext fun a => Fin.ext (by
      match a with
      | ⟨0, _⟩ => exact kdot74_lhs0 _ _
      | ⟨1, _⟩ => exact (kdot74_lhs1 _ _).trans hk)
  have er : dot_S2000x74_S74x256_S2000x256_1_0_0_1_n_n.rhsIdx (ix2 p q) ((contrEquiv1 dot_S2000x74_S74x256_S2000x256_1_0_0_1_n_n 74 rfl rfl).symm k) = ix2 k q :=
    funext fun a => Fin.ext (by
      match a with
      | ⟨0, _⟩ => exact (kdot74_rhs0 _ _).trans hk
      | ⟨1, _⟩ => exact kdot74_rhs1 _ _)
  rw [el, er]

/-! ## The payloads at one entry of the tile -/

/-- A later layer's first payload at (p, q): the maximum with zero of the 256-term sum of (feature × in-degree factor)
    × weight, plus the bias. -/
theorem k1_pay1_apply (x0 : Vec Ideal S2000x256 .f32) (x1 : Vec Ideal S2000x1 .f32) (x3 : Vec Ideal S256x256 .bf16)
    (x4 : Vec Ideal S256 .f32) (p : Fin 2000) (q : Fin 256) :
    Gen.k1_pay1 x0 x1 x3 x4 (ix2 p q)
      = max ((∑ k : Fin 256, (x0 (ix2 p k) * x1 (ix2 p (0 : Fin 1))) * x3 (ix2 k q)) + x4 (ix1 q)) 0 := by
  unfold Gen.k1_pay1
  simp only [shapeCast_self]
  refine (maximumf_apply _ _ _).trans (congrArg₂ max ((addf_apply _ _ _).trans (congrArg₂ (· + ·) ?_ ?_)) Ideal.ofBits_zero_f32)
  · refine (kdot256_apply _ _ p q).trans (Finset.sum_congr rfl fun k _ => ?_)
    exact congrArg (· * x3 (ix2 k q)) (congrArg (x0 (ix2 p k) * ·) (broadcastTo_a1_ab_apply x1 _ p k))
  · exact (broadcastTo_1b_ab_apply _ _ p q).trans (shapeCast_a_1a_apply x4 _ 0 q)

/-- A later layer's second payload at (p, q): the first payload times the node's out-degree factor. -/
theorem k1_pay2_apply (x0 : Vec Ideal S2000x256 .f32) (x1 : Vec Ideal S2000x1 .f32) (x3 : Vec Ideal S256x256 .bf16)
    (x4 : Vec Ideal S256 .f32) (x2 : Vec Ideal S2000x1 .f32) (p : Fin 2000) (q : Fin 256) :
    Gen.k1_pay2 x0 x1 x3 x4 x2 (ix2 p q) = Gen.k1_pay1 x0 x1 x3 x4 (ix2 p q) * x2 (ix2 p (0 : Fin 1)) := by
  unfold Gen.k1_pay2
  simp only [shapeCast_self]
  exact (mulf_apply _ _ _).trans (congrArg (Gen.k1_pay1 x0 x1 x3 x4 (ix2 p q) * ·) (broadcastTo_a1_ab_apply x2 _ p q))

/-- The first layer's first payload at (p, q): the 74-term sum plus the bias, with no maximum. -/
theorem k0_pay1_apply (x0 : Vec Ideal S2000x74 .f32) (x1 : Vec Ideal S2000x1 .f32) (x3 : Vec Ideal S74x256 .bf16)
    (x4 : Vec Ideal S256 .f32) (p : Fin 2000) (q : Fin 256) :
    Gen.k0_pay1 x0 x1 x3 x4 (ix2 p q)
      = (∑ k : Fin 74, (x0 (ix2 p k) * x1 (ix2 p (0 : Fin 1))) * x3 (ix2 k q)) + x4 (ix1 q) := by
  unfold Gen.k0_pay1
  simp only [shapeCast_self]
  refine (addf_apply _ _ _).trans (congrArg₂ (· + ·) ?_ ?_)
  · refine (kdot74_apply _ _ p q).trans (Finset.sum_congr rfl fun k _ => ?_)
    exact congrArg (· * x3 (ix2 k q)) (congrArg (x0 (ix2 p k) * ·) (broadcastTo_a1_ab_apply x1 _ p k))
  · exact (broadcastTo_1b_ab_apply _ _ p q).trans (shapeCast_a_1a_apply x4 _ 0 q)

/-- The first layer's second payload at (p, q): the first payload times the node's out-degree factor. -/
theorem k0_pay2_apply (x0 : Vec Ideal S2000x74 .f32) (x1 : Vec Ideal S2000x1 .f32) (x3 : Vec Ideal S74x256 .bf16)
    (x4 : Vec Ideal S256 .f32) (x2 : Vec Ideal S2000x1 .f32) (p : Fin 2000) (q : Fin 256) :
    Gen.k0_pay2 x0 x1 x3 x4 x2 (ix2 p q) = Gen.k0_pay1 x0 x1 x3 x4 (ix2 p q) * x2 (ix2 p (0 : Fin 1)) := by
  unfold Gen.k0_pay2
  simp only [shapeCast_self]
  exact (mulf_apply _ _ _).trans (congrArg (Gen.k0_pay1 x0 x1 x3 x4 (ix2 p q) * ·) (broadcastTo_a1_ab_apply x2 _ p q))

end Cert.KernelIdeal.ConvTile

end
-- ==== Proof.ConvTileS.lean ====
/-
  The tile mathematics, specification side. The common specification writes a convolution's linear part over whole
  arrays: the aggregated features times the in-degree factor spread along the features, a product with the weights, the
  bias spread along the rows; the rectifier is the maximum with a zero splat. Read at the ideal values and at one entry
  (r, q) of the 20000-node array these are the same finite sum over the contracted feature coordinate that the kernel's
  tile payload is at the tile's entry.
-/
import proofs.«126634_j63780264346183_1_alg».proof.Proof.Spec
import Idealize.ShloMosaic.Lib.ValueLayout
import Idealize.ShloMosaic.PureOps.Ideal.Laws

noncomputable section

open scoped BigOperators

namespace Cert.KernelIdeal.ConvTile

open Idealize.ShloMosaic Idealize.ShloMosaic.ValueIdx

/-! ## The specification's layout operations at one entry -/

/-- A column [a, 1] spread along b columns by a broadcast-in-dim on both axes reads, at (p, c), the column's entry in row p. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row [1, b] spread along a rows by a broadcast-in-dim on both axes reads, at (p, c), the row's entry in column c. -/
theorem broadcastInDim_1b_ab_apply {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector [b] laid as the row [1, b] reads, at (u, c), its entry c. -/
theorem broadcastInDim_b_1b_apply {α : Type} {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A scalar splat reads the scalar everywhere. -/
theorem broadcastInDim_scalar_apply {α : Type} {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

/-! ## The two whole-array products: rows of the left operand, columns of the right, one contracted axis -/

theorem rdot256_lhs0 (i : Cert.ReferenceIdeal.S20000x256.Idx) (q : Cert.ReferenceIdeal.dot_S20000x256_S256x256_S20000x256_1_0_0_1_n_n.contr.Idx) :
    (Cert.ReferenceIdeal.dot_S20000x256_S256x256_S20000x256_1_0_0_1_n_n.lhsIdx i q 0).val = (i 0).val := by
  unfold DotDims.lhsIdx
  rw [dif_neg (show ¬(0 : Fin Cert.ReferenceIdeal.S20000x256.rank) ∈ Cert.ReferenceIdeal.dot_S20000x256_S256x256_S20000x256_1_0_0_1_n_n.lhsBatch by decide),
    dif_pos (show (0 : Fin Cert.ReferenceIdeal.S20000x256.rank) ∈ Cert.ReferenceIdeal.dot_S20000x256_S256x256_S20000x256_1_0_0_1_n_n.lhsNonContracting by decide)]
  rfl
theorem rdot256_lhs1 (i : Cert.ReferenceIdeal.S20000x256.Idx) (q : Cert.ReferenceIdeal.dot_S20000x256_S256x256_S20000x256_1_0_0_1_n_n.contr.Idx) :
    (Cert.ReferenceIdeal.dot_S20000x256_S256x256_S20000x256_1_0_0_1_n_n.lhsIdx i q 1).val = (q ⟨0, by decide⟩).val :=
  Cert.ReferenceIdeal.dot_S20000x256_S256x256_S20000x256_1_0_0_1_n_n.lhsIdx_val_of_single rfl i q
theorem rdot256_rhs0 (i : Cert.ReferenceIdeal.S20000x256.Idx) (q : Cert.ReferenceIdeal.dot_S20000x256_S256x256_S20000x256_1_0_0_1_n_n.contr.Idx) :
    (Cert.ReferenceIdeal.dot_S20000x256_S256x256_S20000x256_1_0_0_1_n_n.rhsIdx i q 0).val = (q ⟨0, by decide⟩).val :=
  Cert.ReferenceIdeal.dot_S20000x256_S256x256_S20000x256_1_0_0_1_n_n.rhsIdx_val_of_single rfl i q
theorem rdot256_rhs1 (i : Cert.ReferenceIdeal.S20000x256.Idx) (q : Cert.ReferenceIdeal.dot_S20000x256_S256x256_S20000x256_1_0_0_1_n_n.contr.Idx) :
    (Cert.ReferenceIdeal.dot_S20000x256_S256x256_S20000x256_1_0_0_1_n_n.rhsIdx i q 1).val = (i 1).val := by
  unfold DotDims.rhsIdx
  rw [dif_neg (show ¬(1 : Fin Cert.ReferenceIdeal.S256x256.rank) ∈ Cert.ReferenceIdeal.dot_S20000x256_S256x256_S20000x256_1_0_0_1_n_n.rhsBatch by decide),
    dif_pos (show (1 : Fin Cert.ReferenceIdeal.S256x256.rank) ∈ Cert.ReferenceIdeal.dot_S20000x256_S256x256_S20000x256_1_0_0_1_n_n.rhsNonContracting by decide)]
  rfl

/-- The whole-array product at (p, q): the sum over the 256 contracted coordinates. -/
theorem rdot256_apply (l : FVec Ideal Cert.ReferenceIdeal.S20000x256 .f32) (r : FVec Ideal Cert.ReferenceIdeal.S256x256 .f32) (p : Fin 20000) (q : Fin 256) :
    Host.dotGeneral (F := Ideal) Cert.ReferenceIdeal.dot_S20000x256_S256x256_S20000x256_1_0_0_1_n_n none l r (ix2 p q)
      = ∑ k : Fin 256, l (ix2 p k) * r (ix2 k q) := by
  simp only [Host.dotGeneral]
  rw [Ideal.dotGeneral_apply,
    ← Equiv.sum_comp (contrEquiv1 Cert.ReferenceIdeal.dot_S20000x256_S256x256_S20000x256_1_0_0_1_n_n 256 rfl rfl).symm]
  refine Finset.sum_congr rfl fun k _ => ?_
  have hk := contrEquiv1_symm_val Cert.ReferenceIdeal.dot_S20000x256_S256x256_S20000x256_1_0_0_1_n_n 256 rfl rfl k
  have el : Cert.ReferenceIdeal.dot_S20000x256_S256x256_S20000x256_1_0_0_1_n_n.lhsIdx (ix2 p q) ((contrEquiv1 Cert.ReferenceIdeal.dot_S20000x256_S256x256_S20000x256_1_0_0_1_n_n 256 rfl rfl).symm k) = ix2 p k :=
    funext fun a => Fin.ext (by
      match a with
      | ⟨0, _⟩ => exact rdot256_lhs0 _ _
      | ⟨1, _⟩ => exact (rdot256_lhs1 _ _).trans hk)
  have er : Cert.ReferenceIdeal.dot_S20000x256_S256x256_S20000x256_1_0_0_1_n_n.rhsIdx (ix2 p q) ((contrEquiv1 Cert.ReferenceIdeal.dot_S20000x256_S256x256_S20000x256_1_0_0_1_n_n 256 rfl rfl).symm k) = ix2 k q :=
    funext fun a => Fin.ext (by
      match a with
      | ⟨0, _⟩ => exact (rdot256_rhs0 _ _).trans hk
      | ⟨1, _⟩ => exact rdot256_rhs1 _ _)
  rw [el, er]

theorem rdot74_lhs0 (i : Cert.ReferenceIdeal.S20000x256.Idx) (q : Cert.ReferenceIdeal.dot_S20000x74_S74x256_S20000x256_1_0_0_1_n_n.contr.Idx) :
    (Cert.ReferenceIdeal.dot_S20000x74_S74x256_S20000x256_1_0_0_1_n_n.lhsIdx i q 0).val = (i 0).val := by
  unfold DotDims.lhsIdx
  rw [dif_neg (show ¬(0 : Fin Cert.ReferenceIdeal.S20000x74.rank) ∈ Cert.ReferenceIdeal.dot_S20000x74_S74x256_S20000x256_1_0_0_1_n_n.lhsBatch by decide),
    dif_pos (show (0 : Fin Cert.ReferenceIdeal.S20000x74.rank) ∈ Cert.ReferenceIdeal.dot_S20000x74_S74x256_S20000x256_1_0_0_1_n_n.lhsNonContracting by decide)]
  rfl
theorem rdot74_lhs1 (i : Cert.ReferenceIdeal.S20000x256.Idx) (q : Cert.ReferenceIdeal.dot_S20000x74_S74x256_S20000x256_1_0_0_1_n_n.contr.Idx) :
    (Cert.ReferenceIdeal.dot_S20000x74_S74x256_S20000x256_1_0_0_1_n_n.lhsIdx i q 1).val = (q ⟨0, by decide⟩).val :=
  Cert.ReferenceIdeal.dot_S20000x74_S74x256_S20000x256_1_0_0_1_n_n.lhsIdx_val_of_single rfl i q
theorem rdot74_rhs0 (i : Cert.ReferenceIdeal.S20000x256.Idx) (q : Cert.ReferenceIdeal.dot_S20000x74_S74x256_S20000x256_1_0_0_1_n_n.contr.Idx) :
    (Cert.ReferenceIdeal.dot_S20000x74_S74x256_S20000x256_1_0_0_1_n_n.rhsIdx i q 0).val = (q ⟨0, by decide⟩).val :=
  Cert.ReferenceIdeal.dot_S20000x74_S74x256_S20000x256_1_0_0_1_n_n.rhsIdx_val_of_single rfl i q
theorem rdot74_rhs1 (i : Cert.ReferenceIdeal.S20000x256.Idx) (q : Cert.ReferenceIdeal.dot_S20000x74_S74x256_S20000x256_1_0_0_1_n_n.contr.Idx) :
    (Cert.ReferenceIdeal.dot_S20000x74_S74x256_S20000x256_1_0_0_1_n_n.rhsIdx i q 1).val = (i 1).val := by
  unfold DotDims.rhsIdx
  rw [dif_neg (show ¬(1 : Fin Cert.ReferenceIdeal.S74x256.rank) ∈ Cert.ReferenceIdeal.dot_S20000x74_S74x256_S20000x256_1_0_0_1_n_n.rhsBatch by decide),
    dif_pos (show (1 : Fin Cert.ReferenceIdeal.S74x256.rank) ∈ Cert.ReferenceIdeal.dot_S20000x74_S74x256_S20000x256_1_0_0_1_n_n.rhsNonContracting by decide)]
  rfl

/-- The whole-array product at (p, q): the sum over the 74 contracted coordinates. -/
theorem rdot74_apply (l : FVec Ideal Cert.ReferenceIdeal.S20000x74 .f32) (r : FVec Ideal Cert.ReferenceIdeal.S74x256 .f32) (p : Fin 20000) (q : Fin 256) :
    Host.dotGeneral (F := Ideal) Cert.ReferenceIdeal.dot_S20000x74_S74x256_S20000x256_1_0_0_1_n_n none l r (ix2 p q)
      = ∑ k : Fin 74, l (ix2 p k) * r (ix2 k q) := by
  simp only [Host.dotGeneral]
  rw [Ideal.dotGeneral_apply,
    ← Equiv.sum_comp (contrEquiv1 Cert.ReferenceIdeal.dot_S20000x74_S74x256_S20000x256_1_0_0_1_n_n 74 rfl rfl).symm]
  refine Finset.sum_congr rfl fun k _ => ?_
  have hk := contrEquiv1_symm_val Cert.ReferenceIdeal.dot_S20000x74_S74x256_S20000x256_1_0_0_1_n_n 74 rfl rfl k
  have el : Cert.ReferenceIdeal.dot_S20000x74_S74x256_S20000x256_1_0_0_1_n_n.lhsIdx (ix2 p q) ((contrEquiv1 Cert.ReferenceIdeal.dot_S20000x74_S74x256_S20000x256_1_0_0_1_n_n 74 rfl rfl).symm k) = ix2 p k :=
    funext fun a => Fin.ext (by
      match a with
      | ⟨0, _⟩ => exact rdot74_lhs0 _ _
      | ⟨1, _⟩ => exact (rdot74_lhs1 _ _).trans hk)
  have er : Cert.ReferenceIdeal.dot_S20000x74_S74x256_S20000x256_1_0_0_1_n_n.rhsIdx (ix2 p q) ((contrEquiv1 Cert.ReferenceIdeal.dot_S20000x74_S74x256_S20000x256_1_0_0_1_n_n 74 rfl rfl).symm k) = ix2 k q :=
    funext fun a => Fin.ext (by
      match a with
      | ⟨0, _⟩ => exact (rdot74_rhs0 _ _).trans hk
      | ⟨1, _⟩ => exact rdot74_rhs1 _ _)
  rw [el, er]

/-! ## The specification at one entry of the array -/

/-- A per-node column spread along 256 features reads, at (r, q), node r's factor. -/
theorem along256_apply (d : FVec Ideal Cert.ReferenceIdeal.S20000x1 .f32) (r : Fin 20000) (q : Fin 256) :
    Cert.Spec.along256 (F := Ideal) d (ix2 r q) = d (ix2 r (0 : Fin 1)) := by
  unfold Cert.Spec.along256
  exact broadcastInDim_a1_ab_apply d _ r q

/-- The linear part of a later layer at (r, q): the 256-term sum of (feature × in-degree factor) × weight, plus the bias. -/
theorem lin256_apply (a : FVec Ideal Cert.ReferenceIdeal.S20000x256 .f32) (d : FVec Ideal Cert.ReferenceIdeal.S20000x1 .f32)
    (w : FVec Ideal Cert.ReferenceIdeal.S256x256 .f32) (b : FVec Ideal Cert.ReferenceIdeal.S256 .f32) (r : Fin 20000) (q : Fin 256) :
    Cert.Spec.lin256 (F := Ideal) a d w b (ix2 r q)
      = (∑ k : Fin 256, (a (ix2 r k) * d (ix2 r (0 : Fin 1))) * w (ix2 k q)) + b (ix1 q) := by
  unfold Cert.Spec.lin256 Cert.Spec.bias256 Cert.Spec.along256
  refine (addf_apply _ _ _).trans (congrArg₂ (· + ·) ?_ ?_)
  · refine (rdot256_apply _ _ r q).trans (Finset.sum_congr rfl fun k _ => ?_)
    exact congrArg (· * w (ix2 k q)) (congrArg (a (ix2 r k) * ·) (broadcastInDim_a1_ab_apply d _ r k))
  · exact (broadcastInDim_1b_ab_apply _ _ r q).trans (broadcastInDim_b_1b_apply b _ 0 q)

/-- The linear part of the first layer at (r, q): the 74-term sum plus the bias. -/
theorem lin74_apply (a : FVec Ideal Cert.ReferenceIdeal.S20000x74 .f32) (d : FVec Ideal Cert.ReferenceIdeal.S20000x1 .f32)
    (w : FVec Ideal Cert.ReferenceIdeal.S74x256 .f32) (b : FVec Ideal Cert.ReferenceIdeal.S256 .f32) (r : Fin 20000) (q : Fin 256) :
    Cert.Spec.lin74 (F := Ideal) a d w b (ix2 r q)
      = (∑ k : Fin 74, (a (ix2 r k) * d (ix2 r (0 : Fin 1))) * w (ix2 k q)) + b (ix1 q) := by
  unfold Cert.Spec.lin74 Cert.Spec.bias256 Cert.Spec.along74
  refine (addf_apply _ _ _).trans (congrArg₂ (· + ·) ?_ ?_)
  · refine (rdot74_apply _ _ r q).trans (Finset.sum_congr rfl fun k _ => ?_)
    exact congrArg (· * w (ix2 k q)) (congrArg (a (ix2 r k) * ·) (broadcastInDim_a1_ab_apply d _ r k))
  · exact (broadcastInDim_1b_ab_apply _ _ r q).trans (broadcastInDim_b_1b_apply b _ 0 q)

/-- The rectifier at an entry: the maximum with zero. -/
theorem relu256_apply (x : FVec Ideal Cert.ReferenceIdeal.S20000x256 .f32) (j : Cert.ReferenceIdeal.S20000x256.Idx) :
    Cert.Spec.relu256 (F := Ideal) x j = max (x j) 0 := by
  unfold Cert.Spec.relu256 Cert.Spec.zeros
  refine (maximumf_apply _ _ _).trans (congrArg (max (x j)) ?_)
  exact (broadcastInDim_scalar_apply _ _ j).trans Ideal.ofBits_zero_f32

end Cert.KernelIdeal.ConvTile

end
-- ==== Proof.ConvTile.lean ====
/-
  The tile mathematics: a convolution layer's payload on one row tile of 2000 nodes, read at an entry of the tile, is the
  common specification's value at the corresponding entry of the 20000-node array, whenever the loaded blocks hold the
  tile's rows of the feature array and of the degree columns, the loaded weights are the specification's weights in the
  matrix unit's operand format, and the loaded bias is the specification's bias.
-/
import proofs.«126634_j63780264346183_1_alg».proof.Proof.ConvTileK
import proofs.«126634_j63780264346183_1_alg».proof.Proof.ConvTileS

noncomputable section

open scoped BigOperators

namespace Cert.KernelIdeal.ConvTile

open Idealize.ShloMosaic Idealize.ShloMosaic.ValueIdx Cert.KernelIdeal Cert.KernelIdeal.Gen

/-! ## The tile against the specification -/

/-- Row p of row tile t, as a row of the whole 20000-node array. -/
abbrev row (t : Nat) (ht : t < 10) (p : Fin 2000) : Fin 20000 := ⟨t * 2000 + p.val, by have := p.isLt; omega⟩

theorem row_val (t : Nat) (ht : t < 10) (p : Fin 2000) : (row t ht p).val = t * 2000 + p.val := rfl

/-- A later layer's first payload, at a tile row p that holds array row r: the specification's rectified linear part at (r, q).
    The contraction is the same finite sum on both sides; the narrowing of the weights and of the scaled features to the
    matrix unit's operand format is the identity on ideal values. -/
theorem pay256_relu_at (A : FVec Ideal S20000x256 .f32) (D : FVec Ideal S20000x1 .f32) (W : FVec Ideal S256x256 .f32)
    (B : FVec Ideal S256 .f32) (x0 : Vec Ideal S2000x256 .f32) (x1 : Vec Ideal S2000x1 .f32) (x3 : Vec Ideal S256x256 .bf16)
    (x4 : Vec Ideal S256 .f32) (p : Fin 2000) (r : Fin 20000)
    (h0 : ∀ k : Fin 256, x0 (ix2 p k) = A (ix2 r k)) (h1 : x1 (ix2 p (0 : Fin 1)) = D (ix2 r (0 : Fin 1)))
    (h3 : x3 = truncf .bf16 W bitsLt_bf16_f32) (h4 : x4 = B) (q : Fin 256) :
    Gen.k1_pay1 x0 x1 x3 x4 (ix2 p q) = Cert.Spec.relu256 (Cert.Spec.lin256 A D W B) (ix2 r q) := by
  subst h3 h4
  refine (k1_pay1_apply x0 x1 _ x4 p q).trans ?_
  refine Eq.trans ?_ (relu256_apply _ _).symm
  refine congrArg (max · 0) ?_
  refine Eq.trans ?_ (lin256_apply A D W x4 r q).symm
  refine congrArg (· + x4 (ix1 q)) (Finset.sum_congr rfl fun k _ => ?_)
  rw [h0 k, h1]
  rfl

/-- Its second payload there: that value times the node's out-degree factor. -/
theorem pay256_relu_scaled_at (A : FVec Ideal S20000x256 .f32) (D : FVec Ideal S20000x1 .f32) (W : FVec Ideal S256x256 .f32)
    (B : FVec Ideal S256 .f32) (x0 : Vec Ideal S2000x256 .f32) (x1 : Vec Ideal S2000x1 .f32) (x3 : Vec Ideal S256x256 .bf16)
    (x4 : Vec Ideal S256 .f32) (D2 : FVec Ideal S20000x1 .f32) (x2 : Vec Ideal S2000x1 .f32) (p : Fin 2000) (r : Fin 20000)
    (h0 : ∀ k : Fin 256, x0 (ix2 p k) = A (ix2 r k)) (h1 : x1 (ix2 p (0 : Fin 1)) = D (ix2 r (0 : Fin 1)))
    (h2 : x2 (ix2 p (0 : Fin 1)) = D2 (ix2 r (0 : Fin 1)))
    (h3 : x3 = truncf .bf16 W bitsLt_bf16_f32) (h4 : x4 = B) (q : Fin 256) :
    Gen.k1_pay2 x0 x1 x3 x4 x2 (ix2 p q)
      = mulf (Cert.Spec.relu256 (Cert.Spec.lin256 A D W B)) (Cert.Spec.along256 D2) (ix2 r q) := by
  refine (k1_pay2_apply x0 x1 x3 x4 x2 p q).trans ?_
  refine Eq.trans ?_ (mulf_apply _ _ _).symm
  rw [pay256_relu_at A D W B x0 x1 x3 x4 p r h0 h1 h3 h4 q, h2]
  exact congrArg (_ * ·) (along256_apply D2 r q).symm

/-- The first layer's first payload, at a tile row p that holds array row r: the specification's linear part at (r, q). -/
theorem pay74_at (A : FVec Ideal S20000x74 .f32) (D : FVec Ideal S20000x1 .f32) (W : FVec Ideal S74x256 .f32)
    (B : FVec Ideal S256 .f32) (x0 : Vec Ideal S2000x74 .f32) (x1 : Vec Ideal S2000x1 .f32) (x3 : Vec Ideal S74x256 .bf16)
    (x4 : Vec Ideal S256 .f32) (p : Fin 2000) (r : Fin 20000)
    (h0 : ∀ k : Fin 74, x0 (ix2 p k) = A (ix2 r k)) (h1 : x1 (ix2 p (0 : Fin 1)) = D (ix2 r (0 : Fin 1)))
    (h3 : x3 = truncf .bf16 W bitsLt_bf16_f32) (h4 : x4 = B) (q : Fin 256) :
    Gen.k0_pay1 x0 x1 x3 x4 (ix2 p q) = Cert.Spec.lin74 A D W B (ix2 r q) := by
  subst h3 h4
  refine (k0_pay1_apply x0 x1 _ x4 p q).trans ?_
  refine Eq.trans ?_ (lin74_apply A D W x4 r q).symm
  refine congrArg (· + x4 (ix1 q)) (Finset.sum_congr rfl fun k _ => ?_)
  rw [h0 k, h1]
  rfl

/-- Its second payload there: that value times the node's out-degree factor. -/
theorem pay74_scaled_at (A : FVec Ideal S20000x74 .f32) (D : FVec Ideal S20000x1 .f32) (W : FVec Ideal S74x256 .f32)
    (B : FVec Ideal S256 .f32) (x0 : Vec Ideal S2000x74 .f32) (x1 : Vec Ideal S2000x1 .f32) (x3 : Vec Ideal S74x256 .bf16)
    (x4 : Vec Ideal S256 .f32) (D2 : FVec Ideal S20000x1 .f32) (x2 : Vec Ideal S2000x1 .f32) (p : Fin 2000) (r : Fin 20000)
    (h0 : ∀ k : Fin 74, x0 (ix2 p k) = A (ix2 r k)) (h1 : x1 (ix2 p (0 : Fin 1)) = D (ix2 r (0 : Fin 1)))
    (h2 : x2 (ix2 p (0 : Fin 1)) = D2 (ix2 r (0 : Fin 1)))
    (h3 : x3 = truncf .bf16 W bitsLt_bf16_f32) (h4 : x4 = B) (q : Fin 256) :
    Gen.k0_pay2 x0 x1 x3 x4 x2 (ix2 p q) = mulf (Cert.Spec.lin74 A D W B) (Cert.Spec.along256 D2) (ix2 r q) := by
  refine (k0_pay2_apply x0 x1 x3 x4 x2 p q).trans ?_
  refine Eq.trans ?_ (mulf_apply _ _ _).symm
  rw [pay74_at A D W B x0 x1 x3 x4 p r h0 h1 h3 h4 q, h2]
  exact congrArg (_ * ·) (along256_apply D2 r q).symm

/-! ## The same four facts for row tile t of the grid: tile row p holds array row t · 2000 + p -/

theorem pay256_relu (A : FVec Ideal S20000x256 .f32) (D : FVec Ideal S20000x1 .f32) (W : FVec Ideal S256x256 .f32)
    (B : FVec Ideal S256 .f32) (x0 : Vec Ideal S2000x256 .f32) (x1 : Vec Ideal S2000x1 .f32) (x3 : Vec Ideal S256x256 .bf16)
    (x4 : Vec Ideal S256 .f32) (t : Nat) (ht : t < 10)
    (h0 : ∀ (p : Fin 2000) (k : Fin 256), x0 (ix2 p k) = A (ix2 (row t ht p) k))
    (h1 : ∀ p : Fin 2000, x1 (ix2 p (0 : Fin 1)) = D (ix2 (row t ht p) (0 : Fin 1)))
    (h3 : x3 = truncf .bf16 W bitsLt_bf16_f32) (h4 : x4 = B) (p : Fin 2000) (q : Fin 256) :
    Gen.k1_pay1 x0 x1 x3 x4 (ix2 p q) = Cert.Spec.relu256 (Cert.Spec.lin256 A D W B) (ix2 (row t ht p) q) :=
  pay256_relu_at A D W B x0 x1 x3 x4 p (row t ht p) (h0 p) (h1 p) h3 h4 q

theorem pay256_relu_scaled (A : FVec Ideal S20000x256 .f32) (D : FVec Ideal S20000x1 .f32) (W : FVec Ideal S256x256 .f32)
    (B : FVec Ideal S256 .f32) (x0 : Vec Ideal S2000x256 .f32) (x1 : Vec Ideal S2000x1 .f32) (x3 : Vec Ideal S256x256 .bf16)
    (x4 : Vec Ideal S256 .f32) (D2 : FVec Ideal S20000x1 .f32) (x2 : Vec Ideal S2000x1 .f32) (t : Nat) (ht : t < 10)
    (h0 : ∀ (p : Fin 2000) (k : Fin 256), x0 (ix2 p k) = A (ix2 (row t ht p) k))
    (h1 : ∀ p : Fin 2000, x1 (ix2 p (0 : Fin 1)) = D (ix2 (row t ht p) (0 : Fin 1)))
    (h2 : ∀ p : Fin 2000, x2 (ix2 p (0 : Fin 1)) = D2 (ix2 (row t ht p) (0 : Fin 1)))
    (h3 : x3 = truncf .bf16 W bitsLt_bf16_f32) (h4 : x4 = B) (p : Fin 2000) (q : Fin 256) :
    Gen.k1_pay2 x0 x1 x3 x4 x2 (ix2 p q)
      = mulf (Cert.Spec.relu256 (Cert.Spec.lin256 A D W B)) (Cert.Spec.along256 D2) (ix2 (row t ht p) q) :=
  pay256_relu_scaled_at A D W B x0 x1 x3 x4 D2 x2 p (row t ht p) (h0 p) (h1 p) (h2 p) h3 h4 q

theorem pay74 (A : FVec Ideal S20000x74 .f32) (D : FVec Ideal S20000x1 .f32) (W : FVec Ideal S74x256 .f32)
    (B : FVec Ideal S256 .f32) (x0 : Vec Ideal S2000x74 .f32) (x1 : Vec Ideal S2000x1 .f32) (x3 : Vec Ideal S74x256 .bf16)
    (x4 : Vec Ideal S256 .f32) (t : Nat) (ht : t < 10)
    (h0 : ∀ (p : Fin 2000) (k : Fin 74), x0 (ix2 p k) = A (ix2 (row t ht p) k))
    (h1 : ∀ p : Fin 2000, x1 (ix2 p (0 : Fin 1)) = D (ix2 (row t ht p) (0 : Fin 1)))
    (h3 : x3 = truncf .bf16 W bitsLt_bf16_f32) (h4 : x4 = B) (p : Fin 2000) (q : Fin 256) :
    Gen.k0_pay1 x0 x1 x3 x4 (ix2 p q) = Cert.Spec.lin74 A D W B (ix2 (row t ht p) q) :=
  pay74_at A D W B x0 x1 x3 x4 p (row t ht p) (h0 p) (h1 p) h3 h4 q

theorem pay74_scaled (A : FVec Ideal S20000x74 .f32) (D : FVec Ideal S20000x1 .f32) (W : FVec Ideal S74x256 .f32)
    (B : FVec Ideal S256 .f32) (x0 : Vec Ideal S2000x74 .f32) (x1 : Vec Ideal S2000x1 .f32) (x3 : Vec Ideal S74x256 .bf16)
    (x4 : Vec Ideal S256 .f32) (D2 : FVec Ideal S20000x1 .f32) (x2 : Vec Ideal S2000x1 .f32) (t : Nat) (ht : t < 10)
    (h0 : ∀ (p : Fin 2000) (k : Fin 74), x0 (ix2 p k) = A (ix2 (row t ht p) k))
    (h1 : ∀ p : Fin 2000, x1 (ix2 p (0 : Fin 1)) = D (ix2 (row t ht p) (0 : Fin 1)))
    (h2 : ∀ p : Fin 2000, x2 (ix2 p (0 : Fin 1)) = D2 (ix2 (row t ht p) (0 : Fin 1)))
    (h3 : x3 = truncf .bf16 W bitsLt_bf16_f32) (h4 : x4 = B) (p : Fin 2000) (q : Fin 256) :
    Gen.k0_pay2 x0 x1 x3 x4 x2 (ix2 p q) = mulf (Cert.Spec.lin74 A D W B) (Cert.Spec.along256 D2) (ix2 (row t ht p) q) :=
  pay74_scaled_at A D W B x0 x1 x3 x4 D2 x2 p (row t ht p) (h0 p) (h1 p) (h2 p) h3 h4 q

end Cert.KernelIdeal.ConvTile

end
-- ==== Proof.Conv0Blocks.lean ====
/-
  Region 0 of the network (a convolution's dense part over 10 row tiles of 2000 nodes): where each window's block sits
  in its array. Tile t of a per-node array is rows 2000 t … 2000 t + 1999 with all columns; the weights and the bias have one
  block, the whole array. An index of an output array lies in the block of tile (row / 2000), so the ten blocks cover it.
-/
import proofs.«126634_j63780264346183_1_alg».proof.Proof.Gen.KernelIdeal.Points
import proofs.«126634_j63780264346183_1_alg».proof.Proof.Gen.KernelIdeal.Launch
import Idealize.ShloMosaic.Lib.Pipeline.Value
import Idealize.ShloMosaic.Lib.ValueIdx

noncomputable section

namespace Cert.KernelIdeal.ConvVal

open Cert.KernelIdeal Cert.KernelIdeal.Gen Idealize.ShloMosaic Idealize.ShloMosaic.TcCoe Idealize.SL.Sem
open Idealize.ShloMosaic.ValueIdx

/-- The grid of region 0 has ten points. -/
theorem lt0 (t : Fin cfg0.N) : t.val < 10 := by
  have h := t.isLt
  have hN : cfg0.N = 10 := N_0
  omega

/-- The block index of every window at tile t: (t, 0) for the per-node arrays, zero for the weights and the bias. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Tile t of the aggregated features: its row p is row 2000 t + p of the array. -/
theorem read0_0 (X : FVec Ideal S20000x74 .f32) (t : Fin cfg0.N) (p : Fin 2000) (k : Fin 74) (r : Fin 20000)
    (hr : r.val = t.val * 2000 + p.val) :
    (((cfg0.win 0).blk t).view.read (Elt Ideal) X : Vec Ideal S2000x74 .f32) (ix2 p k) = X (ix2 r k) := by
  show X (((cfg0.win 0).blk t).view.emb (ix2 p k)) = X _
  refine congrArg X ?_
  funext a; apply Fin.ext
  match a with
  | ⟨0, _⟩ => show win0_0.index t (0 : Fin 2) * 2000 + 1 * p.val = r.val; rw [(idx0 t).1, hr]; omega
  | ⟨1, _⟩ => show win0_0.index t (1 : Fin 2) * 74 + 1 * k.val = k.val; rw [(idx0 t).2.1]; omega

/-- Tile t of the target-side factor, a column. -/
theorem read0_1 (X : FVec Ideal S20000x1 .f32) (t : Fin cfg0.N) (p : Fin 2000) (r : Fin 20000)
    (hr : r.val = t.val * 2000 + p.val) :
    (((cfg0.win 1).blk t).view.read (Elt Ideal) X : Vec Ideal S2000x1 .f32) (ix2 p 0) = X (ix2 r 0) := by
  show X (((cfg0.win 1).blk t).view.emb (ix2 p 0)) = X _
  refine congrArg X ?_
  funext a; apply Fin.ext
  match a with
  | ⟨0, _⟩ => show win0_1.index t (0 : Fin 2) * 2000 + 1 * p.val = r.val; rw [(idx0 t).2.2.1, hr]; omega
  | ⟨1, _⟩ => show win0_1.index t (1 : Fin 2) * 1 + 1 * 0 = 0; rw [(idx0 t).2.2.2.1]

/-- Tile t of the source-side factor, a column. -/
theorem read0_2 (X : FVec Ideal S20000x1 .f32) (t : Fin cfg0.N) (p : Fin 2000) (r : Fin 20000)
    (hr : r.val = t.val * 2000 + p.val) :
    (((cfg0.win 2).blk t).view.read (Elt Ideal) X : Vec Ideal S2000x1 .f32) (ix2 p 0) = X (ix2 r 0) := by
  show X (((cfg0.win 2).blk t).view.emb (ix2 p 0)) = X _
  refine congrArg X ?_
  funext a; apply Fin.ext
  match a with
  | ⟨0, _⟩ => show win0_2.index t (0 : Fin 2) * 2000 + 1 * p.val = r.val; rw [(idx0 t).2.2.2.2.1, hr]; omega
  | ⟨1, _⟩ => show win0_2.index t (1 : Fin 2) * 1 + 1 * 0 = 0; rw [(idx0 t).2.2.2.2.2.1]

/-- The weights' one block is the whole array. -/
theorem read0_3 (X : FVec Ideal S74x256 .bf16) (t : Fin cfg0.N) :
    (((cfg0.win 3).blk t).view.read (Elt Ideal) X : Vec Ideal S74x256 .bf16) = X := by
  funext y
  show X (((cfg0.win 3).blk t).view.emb y) = X y
  refine congrArg X ?_
  funext a; apply Fin.ext
  match a with
  | ⟨0, _⟩ => show win0_3.index t (0 : Fin 2) * 74 + 1 * (y 0).val = (y 0).val; rw [(idx0 t).2.2.2.2.2.2.1]; omega
  | ⟨1, _⟩ => show win0_3.index t (1 : Fin 2) * 256 + 1 * (y 1).val = (y 1).val; rw [(idx0 t).2.2.2.2.2.2.2.1]; omega

/-- The bias's one block is the whole array. -/
theorem read0_4 (X : FVec Ideal S256 .f32) (t : Fin cfg0.N) :
    (((cfg0.win 4).blk t).view.read (Elt Ideal) X : Vec Ideal S256 .f32) = X := by
  funext y
  show X (((cfg0.win 4).blk t).view.emb y) = X y
  refine congrArg X ?_
  funext a; apply Fin.ext
  match a with
  | ⟨0, _⟩ => show win0_4.index t (0 : Fin 1) * 256 + 1 * (y 0).val = (y 0).val; rw [(idx0 t).2.2.2.2.2.2.2.2.1]; omega

/-- Tile t of the first output: its row p is row 2000 t + p of the array. -/
theorem read0_5 (X : FVec Ideal S20000x256 .f32) (t : Fin cfg0.N) (p : Fin 2000) (k : Fin 256) (r : Fin 20000)
    (hr : r.val = t.val * 2000 + p.val) :
    (((cfg0.win 5).blk t).view.read (Elt Ideal) X : Vec Ideal S2000x256 .f32) (ix2 p k) = X (ix2 r k) := by
  show X (((cfg0.win 5).blk t).view.emb (ix2 p k)) = X _
  refine congrArg X ?_
  funext a; apply Fin.ext
  match a with
  | ⟨0, _⟩ => show win0_5.index t (0 : Fin 2) * 2000 + 1 * p.val = r.val; rw [(idx0 t).2.2.2.2.2.2.2.2.2.1, hr]; omega
  | ⟨1, _⟩ => show win0_5.index t (1 : Fin 2) * 256 + 1 * k.val = k.val; rw [(idx0 t).2.2.2.2.2.2.2.2.2.2.1]; omega

/-- Tile t of the second output. -/
theorem read0_6 (X : FVec Ideal S20000x256 .f32) (t : Fin cfg0.N) (p : Fin 2000) (k : Fin 256) (r : Fin 20000)
    (hr : r.val = t.val * 2000 + p.val) :
    (((cfg0.win 6).blk t).view.read (Elt Ideal) X : Vec Ideal S2000x256 .f32) (ix2 p k) = X (ix2 r k) := by
  show X (((cfg0.win 6).blk t).view.emb (ix2 p k)) = X _
  refine congrArg X ?_
  funext a; apply Fin.ext
  match a with
  | ⟨0, _⟩ => show win0_6.index t (0 : Fin 2) * 2000 + 1 * p.val = r.val; rw [(idx0 t).2.2.2.2.2.2.2.2.2.2.2.1, hr]; omega
  | ⟨1, _⟩ => show win0_6.index t (1 : Fin 2) * 256 + 1 * k.val = k.val; rw [(idx0 t).2.2.2.2.2.2.2.2.2.2.2.2]; omega

/-- An index of the first output array is in tile t's block iff each coordinate is in the block's range on its axis. -/
theorem mem_blk0_5 (t : Fin cfg0.N) (i : S20000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v31_0).slice (win0_5.rect t)).set ↔ _
  rw [View.set_slice_whole, Rect.mem_set_unit]
  exact Iff.rfl

/-- The same for the second output array. -/
theorem mem_blk0_6 (t : Fin cfg0.N) (i : S20000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v31_1).slice (win0_6.rect t)).set ↔ _
  rw [View.set_slice_whole, Rect.mem_set_unit]
  exact Iff.rfl

/-- Row r of the first output lies in the block of tile r / 2000, which is written back. -/
theorem cover0_5 (i : S20000x256.Idx) : ∃ t : Fin cfg0.N, (cfg0.win 5).flush t = true ∧ i ∈ ((cfg0.win 5).blk t).view.set := by
  have hi0 : (i 0).val < 20000 := (i 0).isLt
  have hi1 : (i 1).val < 256 := (i 1).isLt
  have hN : cfg0.N = 10 := N_0
  refine ⟨⟨(i 0).val / 2000, by omega⟩, flush0_5 _, ?_⟩
  rw [mem_blk0_5]
  intro a
  have e := idx0 ⟨(i 0).val / 2000, by omega⟩
  match a with
  | ⟨0, _⟩ => show win0_5.index _ (0 : Fin 2) * 2000 ≤ (i 0).val ∧ (i 0).val < win0_5.index _ (0 : Fin 2) * 2000 + 2000
              rw [e.2.2.2.2.2.2.2.2.2.1]; show (i 0).val / 2000 * 2000 ≤ (i 0).val ∧ (i 0).val < (i 0).val / 2000 * 2000 + 2000; omega
  | ⟨1, _⟩ => show win0_5.index _ (1 : Fin 2) * 256 ≤ (i 1).val ∧ (i 1).val < win0_5.index _ (1 : Fin 2) * 256 + 256
              rw [e.2.2.2.2.2.2.2.2.2.2.1]; omega

/-- The same for the second output. -/
theorem cover0_6 (i : S20000x256.Idx) : ∃ t : Fin cfg0.N, (cfg0.win 6).flush t = true ∧ i ∈ ((cfg0.win 6).blk t).view.set := by
  have hi0 : (i 0).val < 20000 := (i 0).isLt
  have hi1 : (i 1).val < 256 := (i 1).isLt
  have hN : cfg0.N = 10 := N_0
  refine ⟨⟨(i 0).val / 2000, by omega⟩, flush0_6 _, ?_⟩
  rw [mem_blk0_6]
  intro a
  have e := idx0 ⟨(i 0).val / 2000, by omega⟩
  match a with
  | ⟨0, _⟩ => show win0_6.index _ (0 : Fin 2) * 2000 ≤ (i 0).val ∧ (i 0).val < win0_6.index _ (0 : Fin 2) * 2000 + 2000
              rw [e.2.2.2.2.2.2.2.2.2.2.2.1]; show (i 0).val / 2000 * 2000 ≤ (i 0).val ∧ (i 0).val < (i 0).val / 2000 * 2000 + 2000; omega
  | ⟨1, _⟩ => show win0_6.index _ (1 : Fin 2) * 256 ≤ (i 1).val ∧ (i 1).val < win0_6.index _ (1 : Fin 2) * 256 + 256
              rw [e.2.2.2.2.2.2.2.2.2.2.2.2]; omega

end Cert.KernelIdeal.ConvVal

end
-- ==== Proof.Conv0.lean ====
/-
  Region 0 of the network: the two output arrays after its ten row tiles. Each tile's write-back is the tile's rows of one
  whole-array function of the arrays the region finds — the linear part of the convolution (the aggregated features times
  the target-side factor, times the weights, plus the bias), and that times the source-side factor — because a tile's
  row p reads row 2000 t + p of every per-node array and all of the weights and the bias. The ten tiles cover the array, so
  the arrays end holding those functions.
-/
import proofs.«126634_j63780264346183_1_alg».proof.Proof.Gen.KernelIdeal.Frame
import proofs.«126634_j63780264346183_1_alg».proof.Proof.Spec
import proofs.«126634_j63780264346183_1_alg».proof.Proof.ConvTile
import proofs.«126634_j63780264346183_1_alg».proof.Proof.Conv0Blocks

noncomputable section

namespace Cert.KernelIdeal.ConvVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

theorem hz0_2 : (![0, 0] : Fin 2 → Nat) = fun _ => 0 := funext fun a => by fin_cases a <;> rfl
theorem hz0_1 : (![0] : Fin 1 → Nat) = fun _ => 0 := funext fun a => by fin_cases a; rfl

/-- The linear part on the arrays region 0 finds, with the weights before their rounding named W. -/
abbrev G0_5 (W : FVec Ideal S74x256 .f32) : FVec Ideal S20000x256 .f32 :=
  Cert.Spec.lin74 (V c (Pipeline.arrRef spec0 0)) (V c (Pipeline.arrRef spec0 1)) W (V c (Pipeline.arrRef spec0 4))

/-- The same scaled by the source-side factor along the features. -/
abbrev G0_6 (W : FVec Ideal S74x256 .f32) : FVec Ideal S20000x256 .f32 :=
  mulf (G0_5 V c W) (Cert.Spec.along256 (V c (Pipeline.arrRef spec0 2)))

/-- What tile t writes back to the first output is tile t of the linear part. -/
theorem flushed0_5 (W : FVec Ideal S74x256 .f32) (hW : V c (Pipeline.arrRef spec0 3) = truncf .bf16 W bitsLt_bf16_f32)
    (t : Fin cfg0.N) :
    (dat0 V c).flushed 5 t = ((cfg0.win 5).blk t).view.read (Elt Ideal) (G0_5 V c W) := by
  show (cfg0.win 5).cut (grid0.coords t) ((dat0 V c).after 5 t) = _
  rw [after0_5]
  unfold out0_5
  rw [View.canon_unit_zero hz0_2]
  simp only [View.ld_unit_zero (S := S2000x74) hz0_2, View.ld_unit_zero (S := S2000x1) hz0_2,
    View.ld_unit_zero (S := S74x256) hz0_2, View.ld_unit_zero (S := S256) hz0_1]
  have key : (k0_pay1 (iblk0 V c 0 t) (iblk0 V c 1 t) (iblk0 V c 3 t) (iblk0 V c 4 t) : Vec Ideal S2000x256 .f32)
      = (((cfg0.win 5).blk t).view.read (Elt Ideal) (G0_5 V c W) : Vec Ideal S2000x256 .f32) := by
    funext j
    obtain ⟨p, q, rfl⟩ : ∃ (p : Fin 2000) (q : Fin 256), j = ix2 p q := ⟨j 0, j 1, eq_ix2 j⟩
    refine (ConvTile.pay74 (A := (V c (Pipeline.arrRef spec0 0))) (D := (V c (Pipeline.arrRef spec0 1))) (W := W) (B := (V c (Pipeline.arrRef spec0 4)))
      (x0 := iblk0 V c 0 t) (x1 := iblk0 V c 1 t) (x3 := iblk0 V c 3 t) (x4 := iblk0 V c 4 t) (t := t.val) (ht := lt0 t)
      (h0 := ?_) (h1 := ?_) (h3 := ?_) (h4 := ?_) (p := p) (q := q)).trans ?_
    · intro p k; exact read0_0 (V c (Pipeline.arrRef spec0 0)) t p k _ rfl
    · intro p; exact read0_1 (V c (Pipeline.arrRef spec0 1)) t p _ rfl
    · exact (read0_3 (V c (Pipeline.arrRef spec0 3)) t).trans hW
    · exact read0_4 (V c (Pipeline.arrRef spec0 4)) t
    · exact (read0_5 (G0_5 V c W) t p q _ rfl).symm
  exact key

/-- What tile t writes back to the second output is tile t of the scaled linear part. -/
theorem flushed0_6 (W : FVec Ideal S74x256 .f32) (hW : V c (Pipeline.arrRef spec0 3) = truncf .bf16 W bitsLt_bf16_f32)
    (t : Fin cfg0.N) :
    (dat0 V c).flushed 6 t = ((cfg0.win 6).blk t).view.read (Elt Ideal) (G0_6 V c W) := by
  show (cfg0.win 6).cut (grid0.coords t) ((dat0 V c).after 6 t) = _
  rw [after0_6]
  unfold out0_6
  rw [View.canon_unit_zero hz0_2]
  simp only [View.ld_unit_zero (S := S2000x74) hz0_2, View.ld_unit_zero (S := S2000x1) hz0_2,
    View.ld_unit_zero (S := S74x256) hz0_2, View.ld_unit_zero (S := S256) hz0_1]
  have key : (k0_pay2 (iblk0 V c 0 t) (iblk0 V c 1 t) (iblk0 V c 3 t) (iblk0 V c 4 t) (iblk0 V c 2 t) : Vec Ideal S2000x256 .f32)
      = (((cfg0.win 6).blk t).view.read (Elt Ideal) (G0_6 V c W) : Vec Ideal S2000x256 .f32) := by
    funext j
    obtain ⟨p, q, rfl⟩ : ∃ (p : Fin 2000) (q : Fin 256), j = ix2 p q := ⟨j 0, j 1, eq_ix2 j⟩
    refine (ConvTile.pay74_scaled (A := (V c (Pipeline.arrRef spec0 0))) (D := (V c (Pipeline.arrRef spec0 1))) (W := W) (B := (V c (Pipeline.arrRef spec0 4))) (D2 := (V c (Pipeline.arrRef spec0 2)))
      (x0 := iblk0 V c 0 t) (x1 := iblk0 V c 1 t) (x3 := iblk0 V c 3 t) (x4 := iblk0 V c 4 t) (x2 := iblk0 V c 2 t)
      (t := t.val) (ht := lt0 t) (h0 := ?_) (h1 := ?_) (h2 := ?_) (h3 := ?_) (h4 := ?_) (p := p) (q := q)).trans ?_
    · intro p k; exact read0_0 (V c (Pipeline.arrRef spec0 0)) t p k _ rfl
    · intro p; exact read0_1 (V c (Pipeline.arrRef spec0 1)) t p _ rfl
    · intro p; exact read0_2 (V c (Pipeline.arrRef spec0 2)) t p _ rfl
    · exact (read0_3 (V c (Pipeline.arrRef spec0 3)) t).trans hW
    · exact read0_4 (V c (Pipeline.arrRef spec0 4)) t
    · exact (read0_6 (G0_6 V c W) t p q _ rfl).symm
  exact key

/-- The first output array after the region: the linear part of the arrays the region finds. -/
theorem arr0_5 (W : FVec Ideal S74x256 .f32) (hW : V c (Pipeline.arrRef spec0 3) = truncf .bf16 W bitsLt_bf16_f32) :
    (dat0 V c).arrAt 5 cfg0.N = Cert.Spec.lin74 (V c (Pipeline.arrRef spec0 0)) (V c (Pipeline.arrRef spec0 1)) W (V c (Pipeline.arrRef spec0 4)) :=
  (dat0 V c).arrAt_eq_of_cover 5 (G0_5 V c W) (fun t _ => flushed0_5 V c W hW t) cover0_5

/-- The second output array after the region: the same times the source-side factor. -/
theorem arr0_6 (W : FVec Ideal S74x256 .f32) (hW : V c (Pipeline.arrRef spec0 3) = truncf .bf16 W bitsLt_bf16_f32) :
    (dat0 V c).arrAt 6 cfg0.N = mulf (Cert.Spec.lin74 (V c (Pipeline.arrRef spec0 0)) (V c (Pipeline.arrRef spec0 1)) W (V c (Pipeline.arrRef spec0 4))) (Cert.Spec.along256 (V c (Pipeline.arrRef spec0 2))) :=
  (dat0 V c).arrAt_eq_of_cover 6 (G0_6 V c W) (fun t _ => flushed0_6 V c W hW t) cover0_6

end Cert.KernelIdeal.ConvVal

end
-- ==== Proof.KLayer0.lean ====
/-
  The first convolution. The first stretch of host operations leaves the degree columns, the bf16 copy of the weights and the
  aggregated, source-scaled inputs in the first launch's windows; the launch writes back, row tile by row tile, the linear map
  of the target-scaled aggregate plus the bias, and the same scaled by the source-side factor for the next layer's gather.
-/
import proofs.«126634_j63780264346183_1_alg».proof.Proof.Gen.KernelIdeal.Frame
import proofs.«126634_j63780264346183_1_alg».proof.Proof.KStretch
import proofs.«126634_j63780264346183_1_alg».proof.Proof.KAt
import proofs.«126634_j63780264346183_1_alg».proof.Proof.KBasics
import proofs.«126634_j63780264346183_1_alg».proof.Proof.KFeat
import proofs.«126634_j63780264346183_1_alg».proof.Proof.Conv0

set_option maxRecDepth 16384

noncomputable section

namespace Cert.KernelIdeal.KVal

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-- After launch 0: the features of the first convolution, and those features scaled by the source-side degree column. -/
theorem layer0 :
    W2 m ρ c (Proc.devRef .tc main_v31_0) = feat0 m c
    ∧ W2 m ρ c (Proc.devRef .tc main_v31_1) = mulf (feat0 m c) (Cert.Spec.along256 (F := Ideal) (dOutCol m c)) := by
  have hdo : W1 m ρ c (Proc.devRef .tc main_v13) = dOutCol m c :=
    (at1_main_v13 m ρ c).trans (col_eq _ _ Cert.ReferenceIdeal.Facts₀.bcast_S20000_S20000x1_0)
  have hdi : W1 m ρ c (Proc.devRef .tc main_v16) = dInCol m c :=
    (at1_main_v16 m ρ c).trans (col_eq _ _ Cert.ReferenceIdeal.Facts₀.bcast_S20000_S20000x1_0)
  have hw := v17_0 (W0 m ρ c)
  have hb : W1 m ρ c (Proc.devRef .tc main_arg3) = (m ((c : Thread nD τ).loc main_arg3)) :=
    keepH0_main_arg3 (W0 m ρ c)
  have hagg : W1 m ρ c (Proc.devRef .tc main_v30)
      = Cert.Spec.spread74 (F := Ideal) (m ((c : Thread nD τ).loc main_arg12)) (m ((c : Thread nD τ).loc main_arg13)) (mulf (m ((c : Thread nD τ).loc main_arg0)) (Cert.Spec.along74 (F := Ideal) (dOutCol m c))) := by
    refine (v30_0 (W0 m ρ c)).trans ?_
    unfold dOutCol Cert.Spec.along74 Cert.Spec.nodeCol
    rw [← col_eq _ shapeCasts_S20000_S20000x1 Cert.ReferenceIdeal.Facts₀.bcast_S20000_S20000x1_0]
  refine ⟨(W2_arr m ρ c 5).trans ((ConvVal.arr0_5 (V1 m ρ) c (W0 m ρ c (Proc.devRef .tc main_arg2)) hw).trans ?_),
    (W2_arr m ρ c 6).trans ((ConvVal.arr0_6 (V1 m ρ) c (W0 m ρ c (Proc.devRef .tc main_arg2)) hw).trans ?_)⟩
  · show Cert.Spec.lin74 (F := Ideal) (W1 m ρ c (Proc.devRef .tc main_v30)) (W1 m ρ c (Proc.devRef .tc main_v16)) _ (W1 m ρ c (Proc.devRef .tc main_arg3)) = _
    rw [hagg, hdi, hb]
    rfl
  · show mulf (Cert.Spec.lin74 (F := Ideal) (W1 m ρ c (Proc.devRef .tc main_v30)) (W1 m ρ c (Proc.devRef .tc main_v16)) _ (W1 m ρ c (Proc.devRef .tc main_arg3)))
        (Cert.Spec.along256 (F := Ideal) (W1 m ρ c (Proc.devRef .tc main_v13))) = _
    rw [hagg, hdi, hb, hdo]
    rfl

end Cert.KernelIdeal.KVal

end
-- ==== Proof.Conv1Blocks.lean ====
/-
  Region 1 of the network (a convolution's dense part over 10 row tiles of 2000 nodes): where each window's block sits
  in its array. Tile t of a per-node array is rows 2000 t … 2000 t + 1999 with all columns; the weights and the bias have one
  block, the whole array. An index of an output array lies in the block of tile (row / 2000), so the ten blocks cover it.
-/
import proofs.«126634_j63780264346183_1_alg».proof.Proof.Gen.KernelIdeal.Points
import proofs.«126634_j63780264346183_1_alg».proof.Proof.Gen.KernelIdeal.Launch
import Idealize.ShloMosaic.Lib.Pipeline.Value
import Idealize.ShloMosaic.Lib.ValueIdx

noncomputable section

namespace Cert.KernelIdeal.ConvVal

open Cert.KernelIdeal Cert.KernelIdeal.Gen Idealize.ShloMosaic Idealize.ShloMosaic.TcCoe Idealize.SL.Sem
open Idealize.ShloMosaic.ValueIdx

/-- The grid of region 1 has ten points. -/
theorem lt1 (t : Fin cfg1.N) : t.val < 10 := by
  have h := t.isLt
  have hN : cfg1.N = 10 := N_1
  omega

/-- The block index of every window at tile t: (t, 0) for the per-node arrays, zero for the weights and the bias. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Tile t of the aggregated features: its row p is row 2000 t + p of the array. -/
theorem read1_0 (X : FVec Ideal S20000x256 .f32) (t : Fin cfg1.N) (p : Fin 2000) (k : Fin 256) (r : Fin 20000)
    (hr : r.val = t.val * 2000 + p.val) :
    (((cfg1.win 0).blk t).view.read (Elt Ideal) X : Vec Ideal S2000x256 .f32) (ix2 p k) = X (ix2 r k) := by
  show X (((cfg1.win 0).blk t).view.emb (ix2 p k)) = X _
  refine congrArg X ?_
  funext a; apply Fin.ext
  match a with
  | ⟨0, _⟩ => show win1_0.index t (0 : Fin 2) * 2000 + 1 * p.val = r.val; rw [(idx1 t).1, hr]; omega
  | ⟨1, _⟩ => show win1_0.index t (1 : Fin 2) * 256 + 1 * k.val = k.val; rw [(idx1 t).2.1]; omega

/-- Tile t of the target-side factor, a column. -/
theorem read1_1 (X : FVec Ideal S20000x1 .f32) (t : Fin cfg1.N) (p : Fin 2000) (r : Fin 20000)
    (hr : r.val = t.val * 2000 + p.val) :
    (((cfg1.win 1).blk t).view.read (Elt Ideal) X : Vec Ideal S2000x1 .f32) (ix2 p 0) = X (ix2 r 0) := by
  show X (((cfg1.win 1).blk t).view.emb (ix2 p 0)) = X _
  refine congrArg X ?_
  funext a; apply Fin.ext
  match a with
  | ⟨0, _⟩ => show win1_1.index t (0 : Fin 2) * 2000 + 1 * p.val = r.val; rw [(idx1 t).2.2.1, hr]; omega
  | ⟨1, _⟩ => show win1_1.index t (1 : Fin 2) * 1 + 1 * 0 = 0; rw [(idx1 t).2.2.2.1]

/-- Tile t of the source-side factor, a column. -/
theorem read1_2 (X : FVec Ideal S20000x1 .f32) (t : Fin cfg1.N) (p : Fin 2000) (r : Fin 20000)
    (hr : r.val = t.val * 2000 + p.val) :
    (((cfg1.win 2).blk t).view.read (Elt Ideal) X : Vec Ideal S2000x1 .f32) (ix2 p 0) = X (ix2 r 0) := by
  show X (((cfg1.win 2).blk t).view.emb (ix2 p 0)) = X _
  refine congrArg X ?_
  funext a; apply Fin.ext
  match a with
  | ⟨0, _⟩ => show win1_2.index t (0 : Fin 2) * 2000 + 1 * p.val = r.val; rw [(idx1 t).2.2.2.2.1, hr]; omega
  | ⟨1, _⟩ => show win1_2.index t (1 : Fin 2) * 1 + 1 * 0 = 0; rw [(idx1 t).2.2.2.2.2.1]

/-- The weights' one block is the whole array. -/
theorem read1_3 (X : FVec Ideal S256x256 .bf16) (t : Fin cfg1.N) :
    (((cfg1.win 3).blk t).view.read (Elt Ideal) X : Vec Ideal S256x256 .bf16) = X := by
  funext y
  show X (((cfg1.win 3).blk t).view.emb y) = X y
  refine congrArg X ?_
  funext a; apply Fin.ext
  match a with
  | ⟨0, _⟩ => show win1_3.index t (0 : Fin 2) * 256 + 1 * (y 0).val = (y 0).val; rw [(idx1 t).2.2.2.2.2.2.1]; omega
  | ⟨1, _⟩ => show win1_3.index t (1 : Fin 2) * 256 + 1 * (y 1).val = (y 1).val; rw [(idx1 t).2.2.2.2.2.2.2.1]; omega

/-- The bias's one block is the whole array. -/
theorem read1_4 (X : FVec Ideal S256 .f32) (t : Fin cfg1.N) :
    (((cfg1.win 4).blk t).view.read (Elt Ideal) X : Vec Ideal S256 .f32) = X := by
  funext y
  show X (((cfg1.win 4).blk t).view.emb y) = X y
  refine congrArg X ?_
  funext a; apply Fin.ext
  match a with
  | ⟨0, _⟩ => show win1_4.index t (0 : Fin 1) * 256 + 1 * (y 0).val = (y 0).val; rw [(idx1 t).2.2.2.2.2.2.2.2.1]; omega

/-- Tile t of the first output: its row p is row 2000 t + p of the array. -/
theorem read1_5 (X : FVec Ideal S20000x256 .f32) (t : Fin cfg1.N) (p : Fin 2000) (k : Fin 256) (r : Fin 20000)
    (hr : r.val = t.val * 2000 + p.val) :
    (((cfg1.win 5).blk t).view.read (Elt Ideal) X : Vec Ideal S2000x256 .f32) (ix2 p k) = X (ix2 r k) := by
  show X (((cfg1.win 5).blk t).view.emb (ix2 p k)) = X _
  refine congrArg X ?_
  funext a; apply Fin.ext
  match a with
  | ⟨0, _⟩ => show win1_5.index t (0 : Fin 2) * 2000 + 1 * p.val = r.val; rw [(idx1 t).2.2.2.2.2.2.2.2.2.1, hr]; omega
  | ⟨1, _⟩ => show win1_5.index t (1 : Fin 2) * 256 + 1 * k.val = k.val; rw [(idx1 t).2.2.2.2.2.2.2.2.2.2.1]; omega

/-- Tile t of the second output. -/
theorem read1_6 (X : FVec Ideal S20000x256 .f32) (t : Fin cfg1.N) (p : Fin 2000) (k : Fin 256) (r : Fin 20000)
    (hr : r.val = t.val * 2000 + p.val) :
    (((cfg1.win 6).blk t).view.read (Elt Ideal) X : Vec Ideal S2000x256 .f32) (ix2 p k) = X (ix2 r k) := by
  show X (((cfg1.win 6).blk t).view.emb (ix2 p k)) = X _
  refine congrArg X ?_
  funext a; apply Fin.ext
  match a with
  | ⟨0, _⟩ => show win1_6.index t (0 : Fin 2) * 2000 + 1 * p.val = r.val; rw [(idx1 t).2.2.2.2.2.2.2.2.2.2.2.1, hr]; omega
  | ⟨1, _⟩ => show win1_6.index t (1 : Fin 2) * 256 + 1 * k.val = k.val; rw [(idx1 t).2.2.2.2.2.2.2.2.2.2.2.2]; omega

/-- An index of the first output array is in tile t's block iff each coordinate is in the block's range on its axis. -/
theorem mem_blk1_5 (t : Fin cfg1.N) (i : S20000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v46_0).slice (win1_5.rect t)).set ↔ _
  rw [View.set_slice_whole, Rect.mem_set_unit]
  exact Iff.rfl

/-- The same for the second output array. -/
theorem mem_blk1_6 (t : Fin cfg1.N) (i : S20000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v46_1).slice (win1_6.rect t)).set ↔ _
  rw [View.set_slice_whole, Rect.mem_set_unit]
  exact Iff.rfl

/-- Row r of the first output lies in the block of tile r / 2000, which is written back. -/
theorem cover1_5 (i : S20000x256.Idx) : ∃ t : Fin cfg1.N, (cfg1.win 5).flush t = true ∧ i ∈ ((cfg1.win 5).blk t).view.set := by
  have hi0 : (i 0).val < 20000 := (i 0).isLt
  have hi1 : (i 1).val < 256 := (i 1).isLt
  have hN : cfg1.N = 10 := N_1
  refine ⟨⟨(i 0).val / 2000, by omega⟩, flush1_5 _, ?_⟩
  rw [mem_blk1_5]
  intro a
  have e := idx1 ⟨(i 0).val / 2000, by omega⟩
  match a with
  | ⟨0, _⟩ => show win1_5.index _ (0 : Fin 2) * 2000 ≤ (i 0).val ∧ (i 0).val < win1_5.index _ (0 : Fin 2) * 2000 + 2000
              rw [e.2.2.2.2.2.2.2.2.2.1]; show (i 0).val / 2000 * 2000 ≤ (i 0).val ∧ (i 0).val < (i 0).val / 2000 * 2000 + 2000; omega
  | ⟨1, _⟩ => show win1_5.index _ (1 : Fin 2) * 256 ≤ (i 1).val ∧ (i 1).val < win1_5.index _ (1 : Fin 2) * 256 + 256
              rw [e.2.2.2.2.2.2.2.2.2.2.1]; omega

/-- The same for the second output. -/
theorem cover1_6 (i : S20000x256.Idx) : ∃ t : Fin cfg1.N, (cfg1.win 6).flush t = true ∧ i ∈ ((cfg1.win 6).blk t).view.set := by
  have hi0 : (i 0).val < 20000 := (i 0).isLt
  have hi1 : (i 1).val < 256 := (i 1).isLt
  have hN : cfg1.N = 10 := N_1
  refine ⟨⟨(i 0).val / 2000, by omega⟩, flush1_6 _, ?_⟩
  rw [mem_blk1_6]
  intro a
  have e := idx1 ⟨(i 0).val / 2000, by omega⟩
  match a with
  | ⟨0, _⟩ => show win1_6.index _ (0 : Fin 2) * 2000 ≤ (i 0).val ∧ (i 0).val < win1_6.index _ (0 : Fin 2) * 2000 + 2000
              rw [e.2.2.2.2.2.2.2.2.2.2.2.1]; show (i 0).val / 2000 * 2000 ≤ (i 0).val ∧ (i 0).val < (i 0).val / 2000 * 2000 + 2000; omega
  | ⟨1, _⟩ => show win1_6.index _ (1 : Fin 2) * 256 ≤ (i 1).val ∧ (i 1).val < win1_6.index _ (1 : Fin 2) * 256 + 256
              rw [e.2.2.2.2.2.2.2.2.2.2.2.2]; omega

end Cert.KernelIdeal.ConvVal

end
-- ==== Proof.Conv1.lean ====
/-
  Region 1 of the network: the two output arrays after its ten row tiles. Each tile's write-back is the tile's rows of one
  whole-array function of the arrays the region finds — the rectified linear part of the convolution (the aggregated features times
  the target-side factor, times the weights, plus the bias, then max(·, 0)), and that times the source-side factor — because a tile's
  row p reads row 2000 t + p of every per-node array and all of the weights and the bias. The ten tiles cover the array, so
  the arrays end holding those functions.
-/
import proofs.«126634_j63780264346183_1_alg».proof.Proof.Gen.KernelIdeal.Frame
import proofs.«126634_j63780264346183_1_alg».proof.Proof.Spec
import proofs.«126634_j63780264346183_1_alg».proof.Proof.ConvTile
import proofs.«126634_j63780264346183_1_alg».proof.Proof.Conv1Blocks

noncomputable section

namespace Cert.KernelIdeal.ConvVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

theorem hz1_2 : (![0, 0] : Fin 2 → Nat) = fun _ => 0 := funext fun a => by fin_cases a <;> rfl
theorem hz1_1 : (![0] : Fin 1 → Nat) = fun _ => 0 := funext fun a => by fin_cases a; rfl

/-- The rectified linear part on the arrays region 1 finds, with the weights before their rounding named W. -/
abbrev G1_5 (W : FVec Ideal S256x256 .f32) : FVec Ideal S20000x256 .f32 :=
  Cert.Spec.relu256 (Cert.Spec.lin256 (V c (Pipeline.arrRef spec1 0)) (V c (Pipeline.arrRef spec1 1)) W (V c (Pipeline.arrRef spec1 4)))

/-- The same scaled by the source-side factor along the features. -/
abbrev G1_6 (W : FVec Ideal S256x256 .f32) : FVec Ideal S20000x256 .f32 :=
  mulf (G1_5 V c W) (Cert.Spec.along256 (V c (Pipeline.arrRef spec1 2)))

/-- What tile t writes back to the first output is tile t of the rectified linear part. -/
theorem flushed1_5 (W : FVec Ideal S256x256 .f32) (hW : V c (Pipeline.arrRef spec1 3) = truncf .bf16 W bitsLt_bf16_f32)
    (t : Fin cfg1.N) :
    (dat1 V c).flushed 5 t = ((cfg1.win 5).blk t).view.read (Elt Ideal) (G1_5 V c W) := by
  show (cfg1.win 5).cut (grid1.coords t) ((dat1 V c).after 5 t) = _
  rw [after1_5]
  unfold out1_5
  rw [View.canon_unit_zero hz1_2]
  simp only [View.ld_unit_zero (S := S2000x256) hz1_2, View.ld_unit_zero (S := S2000x1) hz1_2,
    View.ld_unit_zero (S := S256x256) hz1_2, View.ld_unit_zero (S := S256) hz1_1]
  have key : (k1_pay1 (iblk1 V c 0 t) (iblk1 V c 1 t) (iblk1 V c 3 t) (iblk1 V c 4 t) : Vec Ideal S2000x256 .f32)
      = (((cfg1.win 5).blk t).view.read (Elt Ideal) (G1_5 V c W) : Vec Ideal S2000x256 .f32) := by
    funext j
    obtain ⟨p, q, rfl⟩ : ∃ (p : Fin 2000) (q : Fin 256), j = ix2 p q := ⟨j 0, j 1, eq_ix2 j⟩
    refine (ConvTile.pay256_relu (A := (V c (Pipeline.arrRef spec1 0))) (D := (V c (Pipeline.arrRef spec1 1))) (W := W) (B := (V c (Pipeline.arrRef spec1 4)))
      (x0 := iblk1 V c 0 t) (x1 := iblk1 V c 1 t) (x3 := iblk1 V c 3 t) (x4 := iblk1 V c 4 t) (t := t.val) (ht := lt1 t)
      (h0 := ?_) (h1 := ?_) (h3 := ?_) (h4 := ?_) (p := p) (q := q)).trans ?_
    · intro p k; exact read1_0 (V c (Pipeline.arrRef spec1 0)) t p k _ rfl
    · intro p; exact read1_1 (V c (Pipeline.arrRef spec1 1)) t p _ rfl
    · exact (read1_3 (V c (Pipeline.arrRef spec1 3)) t).trans hW
    · exact read1_4 (V c (Pipeline.arrRef spec1 4)) t
    · exact (read1_5 (G1_5 V c W) t p q _ rfl).symm
  exact key

/-- What tile t writes back to the second output is tile t of the scaled rectified linear part. -/
theorem flushed1_6 (W : FVec Ideal S256x256 .f32) (hW : V c (Pipeline.arrRef spec1 3) = truncf .bf16 W bitsLt_bf16_f32)
    (t : Fin cfg1.N) :
    (dat1 V c).flushed 6 t = ((cfg1.win 6).blk t).view.read (Elt Ideal) (G1_6 V c W) := by
  show (cfg1.win 6).cut (grid1.coords t) ((dat1 V c).after 6 t) = _
  rw [after1_6]
  unfold out1_6
  rw [View.canon_unit_zero hz1_2]
  simp only [View.ld_unit_zero (S := S2000x256) hz1_2, View.ld_unit_zero (S := S2000x1) hz1_2,
    View.ld_unit_zero (S := S256x256) hz1_2, View.ld_unit_zero (S := S256) hz1_1]
  have key : (k1_pay2 (iblk1 V c 0 t) (iblk1 V c 1 t) (iblk1 V c 3 t) (iblk1 V c 4 t) (iblk1 V c 2 t) : Vec Ideal S2000x256 .f32)
      = (((cfg1.win 6).blk t).view.read (Elt Ideal) (G1_6 V c W) : Vec Ideal S2000x256 .f32) := by
    funext j
    obtain ⟨p, q, rfl⟩ : ∃ (p : Fin 2000) (q : Fin 256), j = ix2 p q := ⟨j 0, j 1, eq_ix2 j⟩
    refine (ConvTile.pay256_relu_scaled (A := (V c (Pipeline.arrRef spec1 0))) (D := (V c (Pipeline.arrRef spec1 1))) (W := W) (B := (V c (Pipeline.arrRef spec1 4))) (D2 := (V c (Pipeline.arrRef spec1 2)))
      (x0 := iblk1 V c 0 t) (x1 := iblk1 V c 1 t) (x3 := iblk1 V c 3 t) (x4 := iblk1 V c 4 t) (x2 := iblk1 V c 2 t)
      (t := t.val) (ht := lt1 t) (h0 := ?_) (h1 := ?_) (h2 := ?_) (h3 := ?_) (h4 := ?_) (p := p) (q := q)).trans ?_
    · intro p k; exact read1_0 (V c (Pipeline.arrRef spec1 0)) t p k _ rfl
    · intro p; exact read1_1 (V c (Pipeline.arrRef spec1 1)) t p _ rfl
    · intro p; exact read1_2 (V c (Pipeline.arrRef spec1 2)) t p _ rfl
    · exact (read1_3 (V c (Pipeline.arrRef spec1 3)) t).trans hW
    · exact read1_4 (V c (Pipeline.arrRef spec1 4)) t
    · exact (read1_6 (G1_6 V c W) t p q _ rfl).symm
  exact key

/-- The first output array after the region: the rectified linear part of the arrays the region finds. -/
theorem arr1_5 (W : FVec Ideal S256x256 .f32) (hW : V c (Pipeline.arrRef spec1 3) = truncf .bf16 W bitsLt_bf16_f32) :
    (dat1 V c).arrAt 5 cfg1.N = Cert.Spec.relu256 (Cert.Spec.lin256 (V c (Pipeline.arrRef spec1 0)) (V c (Pipeline.arrRef spec1 1)) W (V c (Pipeline.arrRef spec1 4))) :=
  (dat1 V c).arrAt_eq_of_cover 5 (G1_5 V c W) (fun t _ => flushed1_5 V c W hW t) cover1_5

/-- The second output array after the region: the same times the source-side factor. -/
theorem arr1_6 (W : FVec Ideal S256x256 .f32) (hW : V c (Pipeline.arrRef spec1 3) = truncf .bf16 W bitsLt_bf16_f32) :
    (dat1 V c).arrAt 6 cfg1.N = mulf (Cert.Spec.relu256 (Cert.Spec.lin256 (V c (Pipeline.arrRef spec1 0)) (V c (Pipeline.arrRef spec1 1)) W (V c (Pipeline.arrRef spec1 4)))) (Cert.Spec.along256 (V c (Pipeline.arrRef spec1 2))) :=
  (dat1 V c).arrAt_eq_of_cover 6 (G1_6 V c W) (fun t _ => flushed1_6 V c W hW t) cover1_6

end Cert.KernelIdeal.ConvVal

end
-- ==== Proof.KLayer1.lean ====
/-
  Convolution 1 (layer 0 of the stacked parameters). The stretch of host operations before it gathers the previous features,
  already scaled by the source-side degree column, at the edges' sources and adds them into the targets, and slices the layer's
  weights (bf16) and bias out of the stacks; the launch writes back, row tile by row tile, max(·, 0) of the linear map of the
  target-scaled aggregate plus the bias, and the same scaled by the source-side column for the next gather.
-/
import proofs.«126634_j63780264346183_1_alg».proof.Proof.Gen.KernelIdeal.Frame
import proofs.«126634_j63780264346183_1_alg».proof.Proof.KStretch
import proofs.«126634_j63780264346183_1_alg».proof.Proof.KAt
import proofs.«126634_j63780264346183_1_alg».proof.Proof.KBasics
import proofs.«126634_j63780264346183_1_alg».proof.Proof.KFeat
import proofs.«126634_j63780264346183_1_alg».proof.Proof.Conv1

set_option maxRecDepth 16384

noncomputable section

namespace Cert.KernelIdeal.KVal

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-- After launch 1: the features of convolution 1, and those features scaled by the source-side degree column. -/
theorem layer1 (ih : W2 m ρ c (Proc.devRef .tc main_v31_1) = mulf (feat0 m c) (Cert.Spec.along256 (F := Ideal) (dOutCol m c))) :
    W4 m ρ c (Proc.devRef .tc main_v46_0) = feat1 m c
    ∧ W4 m ρ c (Proc.devRef .tc main_v46_1) = mulf (feat1 m c) (Cert.Spec.along256 (F := Ideal) (dOutCol m c)) := by
  have hdo : W3 m ρ c (Proc.devRef .tc main_v13) = dOutCol m c :=
    (at3_main_v13 m ρ c).trans (col_eq _ _ Cert.ReferenceIdeal.Facts₀.bcast_S20000_S20000x1_0)
  have hdi : W3 m ρ c (Proc.devRef .tc main_v16) = dInCol m c :=
    (at3_main_v16 m ρ c).trans (col_eq _ _ Cert.ReferenceIdeal.Facts₀.bcast_S20000_S20000x1_0)
  have hw : W3 m ρ c (Proc.devRef .tc main_v43) = truncf .bf16 (Cert.Spec.sliceW (F := Ideal) (m ((c : Thread nD τ).loc main_arg4)) 0 Cert.ReferenceIdeal.Facts₀.slices_S10x256x256_S1x256x256_0_0_0) bitsLt_bf16_f32 := by
    refine (wsl1 (W2 m ρ c)).trans ?_
    rw [at2_main_v18]
    rfl
  have hb : W3 m ρ c (Proc.devRef .tc main_v45) = Cert.Spec.sliceB (F := Ideal) (m ((c : Thread nD τ).loc main_arg5)) 0 Cert.ReferenceIdeal.Facts₀.slices_S10x256_S1x256_0_0 := by
    refine (bsl1 (W2 m ρ c)).trans ?_
    rw [at2_main_arg5]
  have hagg : W3 m ρ c (Proc.devRef .tc main_v41)
      = Cert.Spec.spread256 (F := Ideal) (m ((c : Thread nD τ).loc main_arg12)) (m ((c : Thread nD τ).loc main_arg13)) (mulf (feat0 m c) (Cert.Spec.along256 (F := Ideal) (dOutCol m c))) := by
    refine (agg1 (W2 m ρ c)).trans ?_
    rw [at2_main_arg12, at2_main_arg13, ih]
  refine ⟨(W4_arr m ρ c 5).trans ((ConvVal.arr1_5 (V3 m ρ) c (Cert.Spec.sliceW (F := Ideal) (m ((c : Thread nD τ).loc main_arg4)) 0 Cert.ReferenceIdeal.Facts₀.slices_S10x256x256_S1x256x256_0_0_0) hw).trans ?_),
    (W4_arr m ρ c 6).trans ((ConvVal.arr1_6 (V3 m ρ) c (Cert.Spec.sliceW (F := Ideal) (m ((c : Thread nD τ).loc main_arg4)) 0 Cert.ReferenceIdeal.Facts₀.slices_S10x256x256_S1x256x256_0_0_0) hw).trans ?_)⟩
  · show Cert.Spec.relu256 (F := Ideal) (Cert.Spec.lin256 (F := Ideal) (W3 m ρ c (Proc.devRef .tc main_v41)) (W3 m ρ c (Proc.devRef .tc main_v16)) _ (W3 m ρ c (Proc.devRef .tc main_v45))) = _
    rw [hagg, hdi, hb]
    rfl
  · show mulf (Cert.Spec.relu256 (F := Ideal) (Cert.Spec.lin256 (F := Ideal) (W3 m ρ c (Proc.devRef .tc main_v41)) (W3 m ρ c (Proc.devRef .tc main_v16)) _ (W3 m ρ c (Proc.devRef .tc main_v45))))
        (Cert.Spec.along256 (F := Ideal) (W3 m ρ c (Proc.devRef .tc main_v13))) = _
    rw [hagg, hdi, hb, hdo]
    rfl

end Cert.KernelIdeal.KVal

end
-- ==== Proof.ConvTileSame.lean ====
/-
  The ten later convolution layers run one payload: the same operations on the same shapes. As functions of the
  loaded blocks the layers' payloads are equal, at every float instance.
-/
import proofs.«126634_j63780264346183_1_alg».proof.Proof.Gen.KernelIdeal.Skeleton

noncomputable section

namespace Cert.KernelIdeal.ConvTile

open Idealize.ShloMosaic Cert.KernelIdeal Cert.KernelIdeal.Gen

variable {F : FTy → Type} [FloatOps F]

theorem k2_pay1_eq : Gen.k2_pay1 (F := F) = Gen.k1_pay1 := rfl
theorem k2_pay2_eq : Gen.k2_pay2 (F := F) = Gen.k1_pay2 := rfl
theorem k3_pay1_eq : Gen.k3_pay1 (F := F) = Gen.k1_pay1 := rfl
theorem k3_pay2_eq : Gen.k3_pay2 (F := F) = Gen.k1_pay2 := rfl
theorem k4_pay1_eq : Gen.k4_pay1 (F := F) = Gen.k1_pay1 := rfl
theorem k4_pay2_eq : Gen.k4_pay2 (F := F) = Gen.k1_pay2 := rfl
theorem k5_pay1_eq : Gen.k5_pay1 (F := F) = Gen.k1_pay1 := rfl
theorem k5_pay2_eq : Gen.k5_pay2 (F := F) = Gen.k1_pay2 := rfl
theorem k6_pay1_eq : Gen.k6_pay1 (F := F) = Gen.k1_pay1 := rfl
theorem k6_pay2_eq : Gen.k6_pay2 (F := F) = Gen.k1_pay2 := rfl
theorem k7_pay1_eq : Gen.k7_pay1 (F := F) = Gen.k1_pay1 := rfl
theorem k7_pay2_eq : Gen.k7_pay2 (F := F) = Gen.k1_pay2 := rfl
theorem k8_pay1_eq : Gen.k8_pay1 (F := F) = Gen.k1_pay1 := rfl
theorem k8_pay2_eq : Gen.k8_pay2 (F := F) = Gen.k1_pay2 := rfl
theorem k9_pay1_eq : Gen.k9_pay1 (F := F) = Gen.k1_pay1 := rfl
theorem k9_pay2_eq : Gen.k9_pay2 (F := F) = Gen.k1_pay2 := rfl
theorem k10_pay1_eq : Gen.k10_pay1 (F := F) = Gen.k1_pay1 := rfl

end Cert.KernelIdeal.ConvTile

end
-- ==== Proof.Conv2Blocks.lean ====
/-
  Region 2 of the network (a convolution's dense part over 10 row tiles of 2000 nodes): where each window's block sits
  in its array. Tile t of a per-node array is rows 2000 t … 2000 t + 1999 with all columns; the weights and the bias have one
  block, the whole array. An index of an output array lies in the block of tile (row / 2000), so the ten blocks cover it.
-/
import proofs.«126634_j63780264346183_1_alg».proof.Proof.Gen.KernelIdeal.Points
import proofs.«126634_j63780264346183_1_alg».proof.Proof.Gen.KernelIdeal.Launch
import Idealize.ShloMosaic.Lib.Pipeline.Value
import Idealize.ShloMosaic.Lib.ValueIdx

noncomputable section

namespace Cert.KernelIdeal.ConvVal

open Cert.KernelIdeal Cert.KernelIdeal.Gen Idealize.ShloMosaic Idealize.ShloMosaic.TcCoe Idealize.SL.Sem
open Idealize.ShloMosaic.ValueIdx

/-- The grid of region 2 has ten points. -/
theorem lt2 (t : Fin cfg2.N) : t.val < 10 := by
  have h := t.isLt
  have hN : cfg2.N = 10 := N_2
  omega

/-- The block index of every window at tile t: (t, 0) for the per-node arrays, zero for the weights and the bias. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Tile t of the aggregated features: its row p is row 2000 t + p of the array. -/
theorem read2_0 (X : FVec Ideal S20000x256 .f32) (t : Fin cfg2.N) (p : Fin 2000) (k : Fin 256) (r : Fin 20000)
    (hr : r.val = t.val * 2000 + p.val) :
    (((cfg2.win 0).blk t).view.read (Elt Ideal) X : Vec Ideal S2000x256 .f32) (ix2 p k) = X (ix2 r k) := by
  show X (((cfg2.win 0).blk t).view.emb (ix2 p k)) = X _
  refine congrArg X ?_
  funext a; apply Fin.ext
  match a with
  | ⟨0, _⟩ => show win2_0.index t (0 : Fin 2) * 2000 + 1 * p.val = r.val; rw [(idx2 t).1, hr]; omega
  | ⟨1, _⟩ => show win2_0.index t (1 : Fin 2) * 256 + 1 * k.val = k.val; rw [(idx2 t).2.1]; omega

/-- Tile t of the target-side factor, a column. -/
theorem read2_1 (X : FVec Ideal S20000x1 .f32) (t : Fin cfg2.N) (p : Fin 2000) (r : Fin 20000)
    (hr : r.val = t.val * 2000 + p.val) :
    (((cfg2.win 1).blk t).view.read (Elt Ideal) X : Vec Ideal S2000x1 .f32) (ix2 p 0) = X (ix2 r 0) := by
  show X (((cfg2.win 1).blk t).view.emb (ix2 p 0)) = X _
  refine congrArg X ?_
  funext a; apply Fin.ext
  match a with
  | ⟨0, _⟩ => show win2_1.index t (0 : Fin 2) * 2000 + 1 * p.val = r.val; rw [(idx2 t).2.2.1, hr]; omega
  | ⟨1, _⟩ => show win2_1.index t (1 : Fin 2) * 1 + 1 * 0 = 0; rw [(idx2 t).2.2.2.1]

/-- Tile t of the source-side factor, a column. -/
theorem read2_2 (X : FVec Ideal S20000x1 .f32) (t : Fin cfg2.N) (p : Fin 2000) (r : Fin 20000)
    (hr : r.val = t.val * 2000 + p.val) :
    (((cfg2.win 2).blk t).view.read (Elt Ideal) X : Vec Ideal S2000x1 .f32) (ix2 p 0) = X (ix2 r 0) := by
  show X (((cfg2.win 2).blk t).view.emb (ix2 p 0)) = X _
  refine congrArg X ?_
  funext a; apply Fin.ext
  match a with
  | ⟨0, _⟩ => show win2_2.index t (0 : Fin 2) * 2000 + 1 * p.val = r.val; rw [(idx2 t).2.2.2.2.1, hr]; omega
  | ⟨1, _⟩ => show win2_2.index t (1 : Fin 2) * 1 + 1 * 0 = 0; rw [(idx2 t).2.2.2.2.2.1]

/-- The weights' one block is the whole array. -/
theorem read2_3 (X : FVec Ideal S256x256 .bf16) (t : Fin cfg2.N) :
    (((cfg2.win 3).blk t).view.read (Elt Ideal) X : Vec Ideal S256x256 .bf16) = X := by
  funext y
  show X (((cfg2.win 3).blk t).view.emb y) = X y
  refine congrArg X ?_
  funext a; apply Fin.ext
  match a with
  | ⟨0, _⟩ => show win2_3.index t (0 : Fin 2) * 256 + 1 * (y 0).val = (y 0).val; rw [(idx2 t).2.2.2.2.2.2.1]; omega
  | ⟨1, _⟩ => show win2_3.index t (1 : Fin 2) * 256 + 1 * (y 1).val = (y 1).val; rw [(idx2 t).2.2.2.2.2.2.2.1]; omega

/-- The bias's one block is the whole array. -/
theorem read2_4 (X : FVec Ideal S256 .f32) (t : Fin cfg2.N) :
    (((cfg2.win 4).blk t).view.read (Elt Ideal) X : Vec Ideal S256 .f32) = X := by
  funext y
  show X (((cfg2.win 4).blk t).view.emb y) = X y
  refine congrArg X ?_
  funext a; apply Fin.ext
  match a with
  | ⟨0, _⟩ => show win2_4.index t (0 : Fin 1) * 256 + 1 * (y 0).val = (y 0).val; rw [(idx2 t).2.2.2.2.2.2.2.2.1]; omega

/-- Tile t of the first output: its row p is row 2000 t + p of the array. -/
theorem read2_5 (X : FVec Ideal S20000x256 .f32) (t : Fin cfg2.N) (p : Fin 2000) (k : Fin 256) (r : Fin 20000)
    (hr : r.val = t.val * 2000 + p.val) :
    (((cfg2.win 5).blk t).view.read (Elt Ideal) X : Vec Ideal S2000x256 .f32) (ix2 p k) = X (ix2 r k) := by
  show X (((cfg2.win 5).blk t).view.emb (ix2 p k)) = X _
  refine congrArg X ?_
  funext a; apply Fin.ext
  match a with
  | ⟨0, _⟩ => show win2_5.index t (0 : Fin 2) * 2000 + 1 * p.val = r.val; rw [(idx2 t).2.2.2.2.2.2.2.2.2.1, hr]; omega
  | ⟨1, _⟩ => show win2_5.index t (1 : Fin 2) * 256 + 1 * k.val = k.val; rw [(idx2 t).2.2.2.2.2.2.2.2.2.2.1]; omega

/-- Tile t of the second output. -/
theorem read2_6 (X : FVec Ideal S20000x256 .f32) (t : Fin cfg2.N) (p : Fin 2000) (k : Fin 256) (r : Fin 20000)
    (hr : r.val = t.val * 2000 + p.val) :
    (((cfg2.win 6).blk t).view.read (Elt Ideal) X : Vec Ideal S2000x256 .f32) (ix2 p k) = X (ix2 r k) := by
  show X (((cfg2.win 6).blk t).view.emb (ix2 p k)) = X _
  refine congrArg X ?_
  funext a; apply Fin.ext
  match a with
  | ⟨0, _⟩ => show win2_6.index t (0 : Fin 2) * 2000 + 1 * p.val = r.val; rw [(idx2 t).2.2.2.2.2.2.2.2.2.2.2.1, hr]; omega
  | ⟨1, _⟩ => show win2_6.index t (1 : Fin 2) * 256 + 1 * k.val = k.val; rw [(idx2 t).2.2.2.2.2.2.2.2.2.2.2.2]; omega

/-- An index of the first output array is in tile t's block iff each coordinate is in the block's range on its axis. -/
theorem mem_blk2_5 (t : Fin cfg2.N) (i : S20000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v61_0).slice (win2_5.rect t)).set ↔ _
  rw [View.set_slice_whole, Rect.mem_set_unit]
  exact Iff.rfl

/-- The same for the second output array. -/
theorem mem_blk2_6 (t : Fin cfg2.N) (i : S20000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v61_1).slice (win2_6.rect t)).set ↔ _
  rw [View.set_slice_whole, Rect.mem_set_unit]
  exact Iff.rfl

/-- Row r of the first output lies in the block of tile r / 2000, which is written back. -/
theorem cover2_5 (i : S20000x256.Idx) : ∃ t : Fin cfg2.N, (cfg2.win 5).flush t = true ∧ i ∈ ((cfg2.win 5).blk t).view.set := by
  have hi0 : (i 0).val < 20000 := (i 0).isLt
  have hi1 : (i 1).val < 256 := (i 1).isLt
  have hN : cfg2.N = 10 := N_2
  refine ⟨⟨(i 0).val / 2000, by omega⟩, flush2_5 _, ?_⟩
  rw [mem_blk2_5]
  intro a
  have e := idx2 ⟨(i 0).val / 2000, by omega⟩
  match a with
  | ⟨0, _⟩ => show win2_5.index _ (0 : Fin 2) * 2000 ≤ (i 0).val ∧ (i 0).val < win2_5.index _ (0 : Fin 2) * 2000 + 2000
              rw [e.2.2.2.2.2.2.2.2.2.1]; show (i 0).val / 2000 * 2000 ≤ (i 0).val ∧ (i 0).val < (i 0).val / 2000 * 2000 + 2000; omega
  | ⟨1, _⟩ => show win2_5.index _ (1 : Fin 2) * 256 ≤ (i 1).val ∧ (i 1).val < win2_5.index _ (1 : Fin 2) * 256 + 256
              rw [e.2.2.2.2.2.2.2.2.2.2.1]; omega

/-- The same for the second output. -/
theorem cover2_6 (i : S20000x256.Idx) : ∃ t : Fin cfg2.N, (cfg2.win 6).flush t = true ∧ i ∈ ((cfg2.win 6).blk t).view.set := by
  have hi0 : (i 0).val < 20000 := (i 0).isLt
  have hi1 : (i 1).val < 256 := (i 1).isLt
  have hN : cfg2.N = 10 := N_2
  refine ⟨⟨(i 0).val / 2000, by omega⟩, flush2_6 _, ?_⟩
  rw [mem_blk2_6]
  intro a
  have e := idx2 ⟨(i 0).val / 2000, by omega⟩
  match a with
  | ⟨0, _⟩ => show win2_6.index _ (0 : Fin 2) * 2000 ≤ (i 0).val ∧ (i 0).val < win2_6.index _ (0 : Fin 2) * 2000 + 2000
              rw [e.2.2.2.2.2.2.2.2.2.2.2.1]; show (i 0).val / 2000 * 2000 ≤ (i 0).val ∧ (i 0).val < (i 0).val / 2000 * 2000 + 2000; omega
  | ⟨1, _⟩ => show win2_6.index _ (1 : Fin 2) * 256 ≤ (i 1).val ∧ (i 1).val < win2_6.index _ (1 : Fin 2) * 256 + 256
              rw [e.2.2.2.2.2.2.2.2.2.2.2.2]; omega

end Cert.KernelIdeal.ConvVal

end
-- ==== Proof.Conv2.lean ====
/-
  Region 2 of the network: the two output arrays after its ten row tiles. Each tile's write-back is the tile's rows of one
  whole-array function of the arrays the region finds — the rectified linear part of the convolution (the aggregated features times
  the target-side factor, times the weights, plus the bias, then max(·, 0)), and that times the source-side factor — because a tile's
  row p reads row 2000 t + p of every per-node array and all of the weights and the bias. The ten tiles cover the array, so
  the arrays end holding those functions.
-/
import proofs.«126634_j63780264346183_1_alg».proof.Proof.Gen.KernelIdeal.Frame
import proofs.«126634_j63780264346183_1_alg».proof.Proof.Spec
import proofs.«126634_j63780264346183_1_alg».proof.Proof.ConvTile
import proofs.«126634_j63780264346183_1_alg».proof.Proof.ConvTileSame
import proofs.«126634_j63780264346183_1_alg».proof.Proof.Conv2Blocks

noncomputable section

namespace Cert.KernelIdeal.ConvVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

theorem hz2_2 : (![0, 0] : Fin 2 → Nat) = fun _ => 0 := funext fun a => by fin_cases a <;> rfl
theorem hz2_1 : (![0] : Fin 1 → Nat) = fun _ => 0 := funext fun a => by fin_cases a; rfl

/-- The rectified linear part on the arrays region 2 finds, with the weights before their rounding named W. -/
abbrev G2_5 (W : FVec Ideal S256x256 .f32) : FVec Ideal S20000x256 .f32 :=
  Cert.Spec.relu256 (Cert.Spec.lin256 (V c (Pipeline.arrRef spec2 0)) (V c (Pipeline.arrRef spec2 1)) W (V c (Pipeline.arrRef spec2 4)))

/-- The same scaled by the source-side factor along the features. -/
abbrev G2_6 (W : FVec Ideal S256x256 .f32) : FVec Ideal S20000x256 .f32 :=
  mulf (G2_5 V c W) (Cert.Spec.along256 (V c (Pipeline.arrRef spec2 2)))

/-- What tile t writes back to the first output is tile t of the rectified linear part. -/
theorem flushed2_5 (W : FVec Ideal S256x256 .f32) (hW : V c (Pipeline.arrRef spec2 3) = truncf .bf16 W bitsLt_bf16_f32)
    (t : Fin cfg2.N) :
    (dat2 V c).flushed 5 t = ((cfg2.win 5).blk t).view.read (Elt Ideal) (G2_5 V c W) := by
  show (cfg2.win 5).cut (grid2.coords t) ((dat2 V c).after 5 t) = _
  rw [after2_5]
  unfold out2_5
  rw [View.canon_unit_zero hz2_2]
  simp only [View.ld_unit_zero (S := S2000x256) hz2_2, View.ld_unit_zero (S := S2000x1) hz2_2,
    View.ld_unit_zero (S := S256x256) hz2_2, View.ld_unit_zero (S := S256) hz2_1]
  have key : (k1_pay1 (iblk2 V c 0 t) (iblk2 V c 1 t) (iblk2 V c 3 t) (iblk2 V c 4 t) : Vec Ideal S2000x256 .f32)
      = (((cfg2.win 5).blk t).view.read (Elt Ideal) (G2_5 V c W) : Vec Ideal S2000x256 .f32) := by
    funext j
    obtain ⟨p, q, rfl⟩ : ∃ (p : Fin 2000) (q : Fin 256), j = ix2 p q := ⟨j 0, j 1, eq_ix2 j⟩
    refine (ConvTile.pay256_relu (A := (V c (Pipeline.arrRef spec2 0))) (D := (V c (Pipeline.arrRef spec2 1))) (W := W) (B := (V c (Pipeline.arrRef spec2 4)))
      (x0 := iblk2 V c 0 t) (x1 := iblk2 V c 1 t) (x3 := iblk2 V c 3 t) (x4 := iblk2 V c 4 t) (t := t.val) (ht := lt2 t)
      (h0 := ?_) (h1 := ?_) (h3 := ?_) (h4 := ?_) (p := p) (q := q)).trans ?_
    · intro p k; exact read2_0 (V c (Pipeline.arrRef spec2 0)) t p k _ rfl
    · intro p; exact read2_1 (V c (Pipeline.arrRef spec2 1)) t p _ rfl
    · exact (read2_3 (V c (Pipeline.arrRef spec2 3)) t).trans hW
    · exact read2_4 (V c (Pipeline.arrRef spec2 4)) t
    · exact (read2_5 (G2_5 V c W) t p q _ rfl).symm
  rw [ConvTile.k2_pay1_eq]
  exact key

/-- What tile t writes back to the second output is tile t of the scaled rectified linear part. -/
theorem flushed2_6 (W : FVec Ideal S256x256 .f32) (hW : V c (Pipeline.arrRef spec2 3) = truncf .bf16 W bitsLt_bf16_f32)
    (t : Fin cfg2.N) :
    (dat2 V c).flushed 6 t = ((cfg2.win 6).blk t).view.read (Elt Ideal) (G2_6 V c W) := by
  show (cfg2.win 6).cut (grid2.coords t) ((dat2 V c).after 6 t) = _
  rw [after2_6]
  unfold out2_6
  rw [View.canon_unit_zero hz2_2]
  simp only [View.ld_unit_zero (S := S2000x256) hz2_2, View.ld_unit_zero (S := S2000x1) hz2_2,
    View.ld_unit_zero (S := S256x256) hz2_2, View.ld_unit_zero (S := S256) hz2_1]
  have key : (k1_pay2 (iblk2 V c 0 t) (iblk2 V c 1 t) (iblk2 V c 3 t) (iblk2 V c 4 t) (iblk2 V c 2 t) : Vec Ideal S2000x256 .f32)
      = (((cfg2.win 6).blk t).view.read (Elt Ideal) (G2_6 V c W) : Vec Ideal S2000x256 .f32) := by
    funext j
    obtain ⟨p, q, rfl⟩ : ∃ (p : Fin 2000) (q : Fin 256), j = ix2 p q := ⟨j 0, j 1, eq_ix2 j⟩
    refine (ConvTile.pay256_relu_scaled (A := (V c (Pipeline.arrRef spec2 0))) (D := (V c (Pipeline.arrRef spec2 1))) (W := W) (B := (V c (Pipeline.arrRef spec2 4))) (D2 := (V c (Pipeline.arrRef spec2 2)))
      (x0 := iblk2 V c 0 t) (x1 := iblk2 V c 1 t) (x3 := iblk2 V c 3 t) (x4 := iblk2 V c 4 t) (x2 := iblk2 V c 2 t)
      (t := t.val) (ht := lt2 t) (h0 := ?_) (h1 := ?_) (h2 := ?_) (h3 := ?_) (h4 := ?_) (p := p) (q := q)).trans ?_
    · intro p k; exact read2_0 (V c (Pipeline.arrRef spec2 0)) t p k _ rfl
    · intro p; exact read2_1 (V c (Pipeline.arrRef spec2 1)) t p _ rfl
    · intro p; exact read2_2 (V c (Pipeline.arrRef spec2 2)) t p _ rfl
    · exact (read2_3 (V c (Pipeline.arrRef spec2 3)) t).trans hW
    · exact read2_4 (V c (Pipeline.arrRef spec2 4)) t
    · exact (read2_6 (G2_6 V c W) t p q _ rfl).symm
  rw [ConvTile.k2_pay2_eq]
  exact key

/-- The first output array after the region: the rectified linear part of the arrays the region finds. -/
theorem arr2_5 (W : FVec Ideal S256x256 .f32) (hW : V c (Pipeline.arrRef spec2 3) = truncf .bf16 W bitsLt_bf16_f32) :
    (dat2 V c).arrAt 5 cfg2.N = Cert.Spec.relu256 (Cert.Spec.lin256 (V c (Pipeline.arrRef spec2 0)) (V c (Pipeline.arrRef spec2 1)) W (V c (Pipeline.arrRef spec2 4))) :=
  (dat2 V c).arrAt_eq_of_cover 5 (G2_5 V c W) (fun t _ => flushed2_5 V c W hW t) cover2_5

/-- The second output array after the region: the same times the source-side factor. -/
theorem arr2_6 (W : FVec Ideal S256x256 .f32) (hW : V c (Pipeline.arrRef spec2 3) = truncf .bf16 W bitsLt_bf16_f32) :
    (dat2 V c).arrAt 6 cfg2.N = mulf (Cert.Spec.relu256 (Cert.Spec.lin256 (V c (Pipeline.arrRef spec2 0)) (V c (Pipeline.arrRef spec2 1)) W (V c (Pipeline.arrRef spec2 4)))) (Cert.Spec.along256 (V c (Pipeline.arrRef spec2 2))) :=
  (dat2 V c).arrAt_eq_of_cover 6 (G2_6 V c W) (fun t _ => flushed2_6 V c W hW t) cover2_6

end Cert.KernelIdeal.ConvVal

end
-- ==== Proof.KLayer2.lean ====
/-
  Convolution 2 (layer 1 of the stacked parameters). The stretch of host operations before it gathers the previous features,
  already scaled by the source-side degree column, at the edges' sources and adds them into the targets, and slices the layer's
  weights (bf16) and bias out of the stacks; the launch writes back, row tile by row tile, max(·, 0) of the linear map of the
  target-scaled aggregate plus the bias, and the same scaled by the source-side column for the next gather.
-/
import proofs.«126634_j63780264346183_1_alg».proof.Proof.Gen.KernelIdeal.Frame
import proofs.«126634_j63780264346183_1_alg».proof.Proof.KStretch
import proofs.«126634_j63780264346183_1_alg».proof.Proof.KAt
import proofs.«126634_j63780264346183_1_alg».proof.Proof.KBasics
import proofs.«126634_j63780264346183_1_alg».proof.Proof.KFeat
import proofs.«126634_j63780264346183_1_alg».proof.Proof.Conv2

set_option maxRecDepth 16384

noncomputable section

namespace Cert.KernelIdeal.KVal

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-- After launch 2: the features of convolution 2, and those features scaled by the source-side degree column. -/
theorem layer2 (ih : W4 m ρ c (Proc.devRef .tc main_v46_1) = mulf (feat1 m c) (Cert.Spec.along256 (F := Ideal) (dOutCol m c))) :
    W6 m ρ c (Proc.devRef .tc main_v61_0) = feat2 m c
    ∧ W6 m ρ c (Proc.devRef .tc main_v61_1) = mulf (feat2 m c) (Cert.Spec.along256 (F := Ideal) (dOutCol m c)) := by
  have hdo : W5 m ρ c (Proc.devRef .tc main_v13) = dOutCol m c :=
    (at5_main_v13 m ρ c).trans (col_eq _ _ Cert.ReferenceIdeal.Facts₀.bcast_S20000_S20000x1_0)
  have hdi : W5 m ρ c (Proc.devRef .tc main_v16) = dInCol m c :=
    (at5_main_v16 m ρ c).trans (col_eq _ _ Cert.ReferenceIdeal.Facts₀.bcast_S20000_S20000x1_0)
  have hw : W5 m ρ c (Proc.devRef .tc main_v58) = truncf .bf16 (Cert.Spec.sliceW (F := Ideal) (m ((c : Thread nD τ).loc main_arg4)) 1 Cert.ReferenceIdeal.Facts₀.slices_S10x256x256_S1x256x256_1_0_0) bitsLt_bf16_f32 := by
    refine (wsl2 (W4 m ρ c)).trans ?_
    rw [at4_main_v18]
    rfl
  have hb : W5 m ρ c (Proc.devRef .tc main_v60) = Cert.Spec.sliceB (F := Ideal) (m ((c : Thread nD τ).loc main_arg5)) 1 Cert.ReferenceIdeal.Facts₀.slices_S10x256_S1x256_1_0 := by
    refine (bsl2 (W4 m ρ c)).trans ?_
    rw [at4_main_arg5]
  have hagg : W5 m ρ c (Proc.devRef .tc main_v56)
      = Cert.Spec.spread256 (F := Ideal) (m ((c : Thread nD τ).loc main_arg12)) (m ((c : Thread nD τ).loc main_arg13)) (mulf (feat1 m c) (Cert.Spec.along256 (F := Ideal) (dOutCol m c))) := by
    refine (agg2 (W4 m ρ c)).trans ?_
    rw [at4_main_arg12, at4_main_arg13, ih]
  refine ⟨(W6_arr m ρ c 5).trans ((ConvVal.arr2_5 (V5 m ρ) c (Cert.Spec.sliceW (F := Ideal) (m ((c : Thread nD τ).loc main_arg4)) 1 Cert.ReferenceIdeal.Facts₀.slices_S10x256x256_S1x256x256_1_0_0) hw).trans ?_),
    (W6_arr m ρ c 6).trans ((ConvVal.arr2_6 (V5 m ρ) c (Cert.Spec.sliceW (F := Ideal) (m ((c : Thread nD τ).loc main_arg4)) 1 Cert.ReferenceIdeal.Facts₀.slices_S10x256x256_S1x256x256_1_0_0) hw).trans ?_)⟩
  · show Cert.Spec.relu256 (F := Ideal) (Cert.Spec.lin256 (F := Ideal) (W5 m ρ c (Proc.devRef .tc main_v56)) (W5 m ρ c (Proc.devRef .tc main_v16)) _ (W5 m ρ c (Proc.devRef .tc main_v60))) = _
    rw [hagg, hdi, hb]
    rfl
  · show mulf (Cert.Spec.relu256 (F := Ideal) (Cert.Spec.lin256 (F := Ideal) (W5 m ρ c (Proc.devRef .tc main_v56)) (W5 m ρ c (Proc.devRef .tc main_v16)) _ (W5 m ρ c (Proc.devRef .tc main_v60))))
        (Cert.Spec.along256 (F := Ideal) (W5 m ρ c (Proc.devRef .tc main_v13))) = _
    rw [hagg, hdi, hb, hdo]
    rfl

end Cert.KernelIdeal.KVal

end
-- ==== Proof.Conv3Blocks.lean ====
/-
  Region 3 of the network (a convolution's dense part over 10 row tiles of 2000 nodes): where each window's block sits
  in its array. Tile t of a per-node array is rows 2000 t … 2000 t + 1999 with all columns; the weights and the bias have one
  block, the whole array. An index of an output array lies in the block of tile (row / 2000), so the ten blocks cover it.
-/
import proofs.«126634_j63780264346183_1_alg».proof.Proof.Gen.KernelIdeal.Points
import proofs.«126634_j63780264346183_1_alg».proof.Proof.Gen.KernelIdeal.Launch
import Idealize.ShloMosaic.Lib.Pipeline.Value
import Idealize.ShloMosaic.Lib.ValueIdx

noncomputable section

namespace Cert.KernelIdeal.ConvVal

open Cert.KernelIdeal Cert.KernelIdeal.Gen Idealize.ShloMosaic Idealize.ShloMosaic.TcCoe Idealize.SL.Sem
open Idealize.ShloMosaic.ValueIdx

/-- The grid of region 3 has ten points. -/
theorem lt3 (t : Fin cfg3.N) : t.val < 10 := by
  have h := t.isLt
  have hN : cfg3.N = 10 := N_3
  omega

/-- The block index of every window at tile t: (t, 0) for the per-node arrays, zero for the weights and the bias. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Tile t of the aggregated features: its row p is row 2000 t + p of the array. -/
theorem read3_0 (X : FVec Ideal S20000x256 .f32) (t : Fin cfg3.N) (p : Fin 2000) (k : Fin 256) (r : Fin 20000)
    (hr : r.val = t.val * 2000 + p.val) :
    (((cfg3.win 0).blk t).view.read (Elt Ideal) X : Vec Ideal S2000x256 .f32) (ix2 p k) = X (ix2 r k) := by
  show X (((cfg3.win 0).blk t).view.emb (ix2 p k)) = X _
  refine congrArg X ?_
  funext a; apply Fin.ext
  match a with
  | ⟨0, _⟩ => show win3_0.index t (0 : Fin 2) * 2000 + 1 * p.val = r.val; rw [(idx3 t).1, hr]; omega
  | ⟨1, _⟩ => show win3_0.index t (1 : Fin 2) * 256 + 1 * k.val = k.val; rw [(idx3 t).2.1]; omega

/-- Tile t of the target-side factor, a column. -/
theorem read3_1 (X : FVec Ideal S20000x1 .f32) (t : Fin cfg3.N) (p : Fin 2000) (r : Fin 20000)
    (hr : r.val = t.val * 2000 + p.val) :
    (((cfg3.win 1).blk t).view.read (Elt Ideal) X : Vec Ideal S2000x1 .f32) (ix2 p 0) = X (ix2 r 0) := by
  show X (((cfg3.win 1).blk t).view.emb (ix2 p 0)) = X _
  refine congrArg X ?_
  funext a; apply Fin.ext
  match a with
  | ⟨0, _⟩ => show win3_1.index t (0 : Fin 2) * 2000 + 1 * p.val = r.val; rw [(idx3 t).2.2.1, hr]; omega
  | ⟨1, _⟩ => show win3_1.index t (1 : Fin 2) * 1 + 1 * 0 = 0; rw [(idx3 t).2.2.2.1]

/-- Tile t of the source-side factor, a column. -/
theorem read3_2 (X : FVec Ideal S20000x1 .f32) (t : Fin cfg3.N) (p : Fin 2000) (r : Fin 20000)
    (hr : r.val = t.val * 2000 + p.val) :
    (((cfg3.win 2).blk t).view.read (Elt Ideal) X : Vec Ideal S2000x1 .f32) (ix2 p 0) = X (ix2 r 0) := by
  show X (((cfg3.win 2).blk t).view.emb (ix2 p 0)) = X _
  refine congrArg X ?_
  funext a; apply Fin.ext
  match a with
  | ⟨0, _⟩ => show win3_2.index t (0 : Fin 2) * 2000 + 1 * p.val = r.val; rw [(idx3 t).2.2.2.2.1, hr]; omega
  | ⟨1, _⟩ => show win3_2.index t (1 : Fin 2) * 1 + 1 * 0 = 0; rw [(idx3 t).2.2.2.2.2.1]

/-- The weights' one block is the whole array. -/
theorem read3_3 (X : FVec Ideal S256x256 .bf16) (t : Fin cfg3.N) :
    (((cfg3.win 3).blk t).view.read (Elt Ideal) X : Vec Ideal S256x256 .bf16) = X := by
  funext y
  show X (((cfg3.win 3).blk t).view.emb y) = X y
  refine congrArg X ?_
  funext a; apply Fin.ext
  match a with
  | ⟨0, _⟩ => show win3_3.index t (0 : Fin 2) * 256 + 1 * (y 0).val = (y 0).val; rw [(idx3 t).2.2.2.2.2.2.1]; omega
  | ⟨1, _⟩ => show win3_3.index t (1 : Fin 2) * 256 + 1 * (y 1).val = (y 1).val; rw [(idx3 t).2.2.2.2.2.2.2.1]; omega

/-- The bias's one block is the whole array. -/
theorem read3_4 (X : FVec Ideal S256 .f32) (t : Fin cfg3.N) :
    (((cfg3.win 4).blk t).view.read (Elt Ideal) X : Vec Ideal S256 .f32) = X := by
  funext y
  show X (((cfg3.win 4).blk t).view.emb y) = X y
  refine congrArg X ?_
  funext a; apply Fin.ext
  match a with
  | ⟨0, _⟩ => show win3_4.index t (0 : Fin 1) * 256 + 1 * (y 0).val = (y 0).val; rw [(idx3 t).2.2.2.2.2.2.2.2.1]; omega

/-- Tile t of the first output: its row p is row 2000 t + p of the array. -/
theorem read3_5 (X : FVec Ideal S20000x256 .f32) (t : Fin cfg3.N) (p : Fin 2000) (k : Fin 256) (r : Fin 20000)
    (hr : r.val = t.val * 2000 + p.val) :
    (((cfg3.win 5).blk t).view.read (Elt Ideal) X : Vec Ideal S2000x256 .f32) (ix2 p k) = X (ix2 r k) := by
  show X (((cfg3.win 5).blk t).view.emb (ix2 p k)) = X _
  refine congrArg X ?_
  funext a; apply Fin.ext
  match a with
  | ⟨0, _⟩ => show win3_5.index t (0 : Fin 2) * 2000 + 1 * p.val = r.val; rw [(idx3 t).2.2.2.2.2.2.2.2.2.1, hr]; omega
  | ⟨1, _⟩ => show win3_5.index t (1 : Fin 2) * 256 + 1 * k.val = k.val; rw [(idx3 t).2.2.2.2.2.2.2.2.2.2.1]; omega

/-- Tile t of the second output. -/
theorem read3_6 (X : FVec Ideal S20000x256 .f32) (t : Fin cfg3.N) (p : Fin 2000) (k : Fin 256) (r : Fin 20000)
    (hr : r.val = t.val * 2000 + p.val) :
    (((cfg3.win 6).blk t).view.read (Elt Ideal) X : Vec Ideal S2000x256 .f32) (ix2 p k) = X (ix2 r k) := by
  show X (((cfg3.win 6).blk t).view.emb (ix2 p k)) = X _
  refine congrArg X ?_
  funext a; apply Fin.ext
  match a with
  | ⟨0, _⟩ => show win3_6.index t (0 : Fin 2) * 2000 + 1 * p.val = r.val; rw [(idx3 t).2.2.2.2.2.2.2.2.2.2.2.1, hr]; omega
  | ⟨1, _⟩ => show win3_6.index t (1 : Fin 2) * 256 + 1 * k.val = k.val; rw [(idx3 t).2.2.2.2.2.2.2.2.2.2.2.2]; omega

/-- An index of the first output array is in tile t's block iff each coordinate is in the block's range on its axis. -/
theorem mem_blk3_5 (t : Fin cfg3.N) (i : S20000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v76_0).slice (win3_5.rect t)).set ↔ _
  rw [View.set_slice_whole, Rect.mem_set_unit]
  exact Iff.rfl

/-- The same for the second output array. -/
theorem mem_blk3_6 (t : Fin cfg3.N) (i : S20000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v76_1).slice (win3_6.rect t)).set ↔ _
  rw [View.set_slice_whole, Rect.mem_set_unit]
  exact Iff.rfl

/-- Row r of the first output lies in the block of tile r / 2000, which is written back. -/
theorem cover3_5 (i : S20000x256.Idx) : ∃ t : Fin cfg3.N, (cfg3.win 5).flush t = true ∧ i ∈ ((cfg3.win 5).blk t).view.set := by
  have hi0 : (i 0).val < 20000 := (i 0).isLt
  have hi1 : (i 1).val < 256 := (i 1).isLt
  have hN : cfg3.N = 10 := N_3
  refine ⟨⟨(i 0).val / 2000, by omega⟩, flush3_5 _, ?_⟩
  rw [mem_blk3_5]
  intro a
  have e := idx3 ⟨(i 0).val / 2000, by omega⟩
  match a with
  | ⟨0, _⟩ => show win3_5.index _ (0 : Fin 2) * 2000 ≤ (i 0).val ∧ (i 0).val < win3_5.index _ (0 : Fin 2) * 2000 + 2000
              rw [e.2.2.2.2.2.2.2.2.2.1]; show (i 0).val / 2000 * 2000 ≤ (i 0).val ∧ (i 0).val < (i 0).val / 2000 * 2000 + 2000; omega
  | ⟨1, _⟩ => show win3_5.index _ (1 : Fin 2) * 256 ≤ (i 1).val ∧ (i 1).val < win3_5.index _ (1 : Fin 2) * 256 + 256
              rw [e.2.2.2.2.2.2.2.2.2.2.1]; omega

/-- The same for the second output. -/
theorem cover3_6 (i : S20000x256.Idx) : ∃ t : Fin cfg3.N, (cfg3.win 6).flush t = true ∧ i ∈ ((cfg3.win 6).blk t).view.set := by
  have hi0 : (i 0).val < 20000 := (i 0).isLt
  have hi1 : (i 1).val < 256 := (i 1).isLt
  have hN : cfg3.N = 10 := N_3
  refine ⟨⟨(i 0).val / 2000, by omega⟩, flush3_6 _, ?_⟩
  rw [mem_blk3_6]
  intro a
  have e := idx3 ⟨(i 0).val / 2000, by omega⟩
  match a with
  | ⟨0, _⟩ => show win3_6.index _ (0 : Fin 2) * 2000 ≤ (i 0).val ∧ (i 0).val < win3_6.index _ (0 : Fin 2) * 2000 + 2000
              rw [e.2.2.2.2.2.2.2.2.2.2.2.1]; show (i 0).val / 2000 * 2000 ≤ (i 0).val ∧ (i 0).val < (i 0).val / 2000 * 2000 + 2000; omega
  | ⟨1, _⟩ => show win3_6.index _ (1 : Fin 2) * 256 ≤ (i 1).val ∧ (i 1).val < win3_6.index _ (1 : Fin 2) * 256 + 256
              rw [e.2.2.2.2.2.2.2.2.2.2.2.2]; omega

end Cert.KernelIdeal.ConvVal

end
-- ==== Proof.Conv3.lean ====
/-
  Region 3 of the network: the two output arrays after its ten row tiles. Each tile's write-back is the tile's rows of one
  whole-array function of the arrays the region finds — the rectified linear part of the convolution (the aggregated features times
  the target-side factor, times the weights, plus the bias, then max(·, 0)), and that times the source-side factor — because a tile's
  row p reads row 2000 t + p of every per-node array and all of the weights and the bias. The ten tiles cover the array, so
  the arrays end holding those functions.
-/
import proofs.«126634_j63780264346183_1_alg».proof.Proof.Gen.KernelIdeal.Frame
import proofs.«126634_j63780264346183_1_alg».proof.Proof.Spec
import proofs.«126634_j63780264346183_1_alg».proof.Proof.ConvTile
import proofs.«126634_j63780264346183_1_alg».proof.Proof.ConvTileSame
import proofs.«126634_j63780264346183_1_alg».proof.Proof.Conv3Blocks

noncomputable section

namespace Cert.KernelIdeal.ConvVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

theorem hz3_2 : (![0, 0] : Fin 2 → Nat) = fun _ => 0 := funext fun a => by fin_cases a <;> rfl
theorem hz3_1 : (![0] : Fin 1 → Nat) = fun _ => 0 := funext fun a => by fin_cases a; rfl

/-- The rectified linear part on the arrays region 3 finds, with the weights before their rounding named W. -/
abbrev G3_5 (W : FVec Ideal S256x256 .f32) : FVec Ideal S20000x256 .f32 :=
  Cert.Spec.relu256 (Cert.Spec.lin256 (V c (Pipeline.arrRef spec3 0)) (V c (Pipeline.arrRef spec3 1)) W (V c (Pipeline.arrRef spec3 4)))

/-- The same scaled by the source-side factor along the features. -/
abbrev G3_6 (W : FVec Ideal S256x256 .f32) : FVec Ideal S20000x256 .f32 :=
  mulf (G3_5 V c W) (Cert.Spec.along256 (V c (Pipeline.arrRef spec3 2)))

/-- What tile t writes back to the first output is tile t of the rectified linear part. -/
theorem flushed3_5 (W : FVec Ideal S256x256 .f32) (hW : V c (Pipeline.arrRef spec3 3) = truncf .bf16 W bitsLt_bf16_f32)
    (t : Fin cfg3.N) :
    (dat3 V c).flushed 5 t = ((cfg3.win 5).blk t).view.read (Elt Ideal) (G3_5 V c W) := by
  show (cfg3.win 5).cut (grid3.coords t) ((dat3 V c).after 5 t) = _
  rw [after3_5]
  unfold out3_5
  rw [View.canon_unit_zero hz3_2]
  simp only [View.ld_unit_zero (S := S2000x256) hz3_2, View.ld_unit_zero (S := S2000x1) hz3_2,
    View.ld_unit_zero (S := S256x256) hz3_2, View.ld_unit_zero (S := S256) hz3_1]
  have key : (k1_pay1 (iblk3 V c 0 t) (iblk3 V c 1 t) (iblk3 V c 3 t) (iblk3 V c 4 t) : Vec Ideal S2000x256 .f32)
      = (((cfg3.win 5).blk t).view.read (Elt Ideal) (G3_5 V c W) : Vec Ideal S2000x256 .f32) := by
    funext j
    obtain ⟨p, q, rfl⟩ : ∃ (p : Fin 2000) (q : Fin 256), j = ix2 p q := ⟨j 0, j 1, eq_ix2 j⟩
    refine (ConvTile.pay256_relu (A := (V c (Pipeline.arrRef spec3 0))) (D := (V c (Pipeline.arrRef spec3 1))) (W := W) (B := (V c (Pipeline.arrRef spec3 4)))
      (x0 := iblk3 V c 0 t) (x1 := iblk3 V c 1 t) (x3 := iblk3 V c 3 t) (x4 := iblk3 V c 4 t) (t := t.val) (ht := lt3 t)
      (h0 := ?_) (h1 := ?_) (h3 := ?_) (h4 := ?_) (p := p) (q := q)).trans ?_
    · intro p k; exact read3_0 (V c (Pipeline.arrRef spec3 0)) t p k _ rfl
    · intro p; exact read3_1 (V c (Pipeline.arrRef spec3 1)) t p _ rfl
    · exact (read3_3 (V c (Pipeline.arrRef spec3 3)) t).trans hW
    · exact read3_4 (V c (Pipeline.arrRef spec3 4)) t
    · exact (read3_5 (G3_5 V c W) t p q _ rfl).symm
  rw [ConvTile.k3_pay1_eq]
  exact key

/-- What tile t writes back to the second output is tile t of the scaled rectified linear part. -/
theorem flushed3_6 (W : FVec Ideal S256x256 .f32) (hW : V c (Pipeline.arrRef spec3 3) = truncf .bf16 W bitsLt_bf16_f32)
    (t : Fin cfg3.N) :
    (dat3 V c).flushed 6 t = ((cfg3.win 6).blk t).view.read (Elt Ideal) (G3_6 V c W) := by
  show (cfg3.win 6).cut (grid3.coords t) ((dat3 V c).after 6 t) = _
  rw [after3_6]
  unfold out3_6
  rw [View.canon_unit_zero hz3_2]
  simp only [View.ld_unit_zero (S := S2000x256) hz3_2, View.ld_unit_zero (S := S2000x1) hz3_2,
    View.ld_unit_zero (S := S256x256) hz3_2, View.ld_unit_zero (S := S256) hz3_1]
  have key : (k1_pay2 (iblk3 V c 0 t) (iblk3 V c 1 t) (iblk3 V c 3 t) (iblk3 V c 4 t) (iblk3 V c 2 t) : Vec Ideal S2000x256 .f32)
      = (((cfg3.win 6).blk t).view.read (Elt Ideal) (G3_6 V c W) : Vec Ideal S2000x256 .f32) := by
    funext j
    obtain ⟨p, q, rfl⟩ : ∃ (p : Fin 2000) (q : Fin 256), j = ix2 p q := ⟨j 0, j 1, eq_ix2 j⟩
    refine (ConvTile.pay256_relu_scaled (A := (V c (Pipeline.arrRef spec3 0))) (D := (V c (Pipeline.arrRef spec3 1))) (W := W) (B := (V c (Pipeline.arrRef spec3 4))) (D2 := (V c (Pipeline.arrRef spec3 2)))
      (x0 := iblk3 V c 0 t) (x1 := iblk3 V c 1 t) (x3 := iblk3 V c 3 t) (x4 := iblk3 V c 4 t) (x2 := iblk3 V c 2 t)
      (t := t.val) (ht := lt3 t) (h0 := ?_) (h1 := ?_) (h2 := ?_) (h3 := ?_) (h4 := ?_) (p := p) (q := q)).trans ?_
    · intro p k; exact read3_0 (V c (Pipeline.arrRef spec3 0)) t p k _ rfl
    · intro p; exact read3_1 (V c (Pipeline.arrRef spec3 1)) t p _ rfl
    · intro p; exact read3_2 (V c (Pipeline.arrRef spec3 2)) t p _ rfl
    · exact (read3_3 (V c (Pipeline.arrRef spec3 3)) t).trans hW
    · exact read3_4 (V c (Pipeline.arrRef spec3 4)) t
    · exact (read3_6 (G3_6 V c W) t p q _ rfl).symm
  rw [ConvTile.k3_pay2_eq]
  exact key

/-- The first output array after the region: the rectified linear part of the arrays the region finds. -/
theorem arr3_5 (W : FVec Ideal S256x256 .f32) (hW : V c (Pipeline.arrRef spec3 3) = truncf .bf16 W bitsLt_bf16_f32) :
    (dat3 V c).arrAt 5 cfg3.N = Cert.Spec.relu256 (Cert.Spec.lin256 (V c (Pipeline.arrRef spec3 0)) (V c (Pipeline.arrRef spec3 1)) W (V c (Pipeline.arrRef spec3 4))) :=
  (dat3 V c).arrAt_eq_of_cover 5 (G3_5 V c W) (fun t _ => flushed3_5 V c W hW t) cover3_5

/-- The second output array after the region: the same times the source-side factor. -/
theorem arr3_6 (W : FVec Ideal S256x256 .f32) (hW : V c (Pipeline.arrRef spec3 3) = truncf .bf16 W bitsLt_bf16_f32) :
    (dat3 V c).arrAt 6 cfg3.N = mulf (Cert.Spec.relu256 (Cert.Spec.lin256 (V c (Pipeline.arrRef spec3 0)) (V c (Pipeline.arrRef spec3 1)) W (V c (Pipeline.arrRef spec3 4)))) (Cert.Spec.along256 (V c (Pipeline.arrRef spec3 2))) :=
  (dat3 V c).arrAt_eq_of_cover 6 (G3_6 V c W) (fun t _ => flushed3_6 V c W hW t) cover3_6

end Cert.KernelIdeal.ConvVal

end
-- ==== Proof.KLayer3.lean ====
/-
  Convolution 3 (layer 2 of the stacked parameters). The stretch of host operations before it gathers the previous features,
  already scaled by the source-side degree column, at the edges' sources and adds them into the targets, and slices the layer's
  weights (bf16) and bias out of the stacks; the launch writes back, row tile by row tile, max(·, 0) of the linear map of the
  target-scaled aggregate plus the bias, and the same scaled by the source-side column for the next gather.
-/
import proofs.«126634_j63780264346183_1_alg».proof.Proof.Gen.KernelIdeal.Frame
import proofs.«126634_j63780264346183_1_alg».proof.Proof.KStretch
import proofs.«126634_j63780264346183_1_alg».proof.Proof.KAt
import proofs.«126634_j63780264346183_1_alg».proof.Proof.KBasics
import proofs.«126634_j63780264346183_1_alg».proof.Proof.KFeat
import proofs.«126634_j63780264346183_1_alg».proof.Proof.Conv3

set_option maxRecDepth 16384

noncomputable section

namespace Cert.KernelIdeal.KVal

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-- After launch 3: the features of convolution 3, and those features scaled by the source-side degree column. -/
theorem layer3 (ih : W6 m ρ c (Proc.devRef .tc main_v61_1) = mulf (feat2 m c) (Cert.Spec.along256 (F := Ideal) (dOutCol m c))) :
    W8 m ρ c (Proc.devRef .tc main_v76_0) = feat3 m c
    ∧ W8 m ρ c (Proc.devRef .tc main_v76_1) = mulf (feat3 m c) (Cert.Spec.along256 (F := Ideal) (dOutCol m c)) := by
  have hdo : W7 m ρ c (Proc.devRef .tc main_v13) = dOutCol m c :=
    (at7_main_v13 m ρ c).trans (col_eq _ _ Cert.ReferenceIdeal.Facts₀.bcast_S20000_S20000x1_0)
  have hdi : W7 m ρ c (Proc.devRef .tc main_v16) = dInCol m c :=
    (at7_main_v16 m ρ c).trans (col_eq _ _ Cert.ReferenceIdeal.Facts₀.bcast_S20000_S20000x1_0)
  have hw : W7 m ρ c (Proc.devRef .tc main_v73) = truncf .bf16 (Cert.Spec.sliceW (F := Ideal) (m ((c : Thread nD τ).loc main_arg4)) 2 Cert.ReferenceIdeal.Facts₀.slices_S10x256x256_S1x256x256_2_0_0) bitsLt_bf16_f32 := by
    refine (wsl3 (W6 m ρ c)).trans ?_
    rw [at6_main_v18]
    rfl
  have hb : W7 m ρ c (Proc.devRef .tc main_v75) = Cert.Spec.sliceB (F := Ideal) (m ((c : Thread nD τ).loc main_arg5)) 2 Cert.ReferenceIdeal.Facts₀.slices_S10x256_S1x256_2_0 := by
    refine (bsl3 (W6 m ρ c)).trans ?_
    rw [at6_main_arg5]
  have hagg : W7 m ρ c (Proc.devRef .tc main_v71)
      = Cert.Spec.spread256 (F := Ideal) (m ((c : Thread nD τ).loc main_arg12)) (m ((c : Thread nD τ).loc main_arg13)) (mulf (feat2 m c) (Cert.Spec.along256 (F := Ideal) (dOutCol m c))) := by
    refine (agg3 (W6 m ρ c)).trans ?_
    rw [at6_main_arg12, at6_main_arg13, ih]
  refine ⟨(W8_arr m ρ c 5).trans ((ConvVal.arr3_5 (V7 m ρ) c (Cert.Spec.sliceW (F := Ideal) (m ((c : Thread nD τ).loc main_arg4)) 2 Cert.ReferenceIdeal.Facts₀.slices_S10x256x256_S1x256x256_2_0_0) hw).trans ?_),
    (W8_arr m ρ c 6).trans ((ConvVal.arr3_6 (V7 m ρ) c (Cert.Spec.sliceW (F := Ideal) (m ((c : Thread nD τ).loc main_arg4)) 2 Cert.ReferenceIdeal.Facts₀.slices_S10x256x256_S1x256x256_2_0_0) hw).trans ?_)⟩
  · show Cert.Spec.relu256 (F := Ideal) (Cert.Spec.lin256 (F := Ideal) (W7 m ρ c (Proc.devRef .tc main_v71)) (W7 m ρ c (Proc.devRef .tc main_v16)) _ (W7 m ρ c (Proc.devRef .tc main_v75))) = _
    rw [hagg, hdi, hb]
    rfl
  · show mulf (Cert.Spec.relu256 (F := Ideal) (Cert.Spec.lin256 (F := Ideal) (W7 m ρ c (Proc.devRef .tc main_v71)) (W7 m ρ c (Proc.devRef .tc main_v16)) _ (W7 m ρ c (Proc.devRef .tc main_v75))))
        (Cert.Spec.along256 (F := Ideal) (W7 m ρ c (Proc.devRef .tc main_v13))) = _
    rw [hagg, hdi, hb, hdo]
    rfl

end Cert.KernelIdeal.KVal

end
-- ==== Proof.Conv4Blocks.lean ====
/-
  Region 4 of the network (a convolution's dense part over 10 row tiles of 2000 nodes): where each window's block sits
  in its array. Tile t of a per-node array is rows 2000 t … 2000 t + 1999 with all columns; the weights and the bias have one
  block, the whole array. An index of an output array lies in the block of tile (row / 2000), so the ten blocks cover it.
-/
import proofs.«126634_j63780264346183_1_alg».proof.Proof.Gen.KernelIdeal.Points
import proofs.«126634_j63780264346183_1_alg».proof.Proof.Gen.KernelIdeal.Launch
import Idealize.ShloMosaic.Lib.Pipeline.Value
import Idealize.ShloMosaic.Lib.ValueIdx

noncomputable section

namespace Cert.KernelIdeal.ConvVal

open Cert.KernelIdeal Cert.KernelIdeal.Gen Idealize.ShloMosaic Idealize.ShloMosaic.TcCoe Idealize.SL.Sem
open Idealize.ShloMosaic.ValueIdx

/-- The grid of region 4 has ten points. -/
theorem lt4 (t : Fin cfg4.N) : t.val < 10 := by
  have h := t.isLt
  have hN : cfg4.N = 10 := N_4
  omega

/-- The block index of every window at tile t: (t, 0) for the per-node arrays, zero for the weights and the bias. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-- Tile t of the aggregated features: its row p is row 2000 t + p of the array. -/
theorem read4_0 (X : FVec Ideal S20000x256 .f32) (t : Fin cfg4.N) (p : Fin 2000) (k : Fin 256) (r : Fin 20000)
    (hr : r.val = t.val * 2000 + p.val) :
    (((cfg4.win 0).blk t).view.read (Elt Ideal) X : Vec Ideal S2000x256 .f32) (ix2 p k) = X (ix2 r k) := by
  show X (((cfg4.win 0).blk t).view.emb (ix2 p k)) = X _
  refine congrArg X ?_
  funext a; apply Fin.ext
  match a with
  | ⟨0, _⟩ => show win4_0.index t (0 : Fin 2) * 2000 + 1 * p.val = r.val; rw [(idx4 t).1, hr]; omega
  | ⟨1, _⟩ => show win4_0.index t (1 : Fin 2) * 256 + 1 * k.val = k.val; rw [(idx4 t).2.1]; omega

/-- Tile t of the target-side factor, a column. -/
theorem read4_1 (X : FVec Ideal S20000x1 .f32) (t : Fin cfg4.N) (p : Fin 2000) (r : Fin 20000)
    (hr : r.val = t.val * 2000 + p.val) :
    (((cfg4.win 1).blk t).view.read (Elt Ideal) X : Vec Ideal S2000x1 .f32) (ix2 p 0) = X (ix2 r 0) := by
  show X (((cfg4.win 1).blk t).view.emb (ix2 p 0)) = X _
  refine congrArg X ?_
  funext a; apply Fin.ext
  match a with
  | ⟨0, _⟩ => show win4_1.index t (0 : Fin 2) * 2000 + 1 * p.val = r.val; rw [(idx4 t).2.2.1, hr]; omega
  | ⟨1, _⟩ => show win4_1.index t (1 : Fin 2) * 1 + 1 * 0 = 0; rw [(idx4 t).2.2.2.1]

/-- Tile t of the source-side factor, a column. -/
theorem read4_2 (X : FVec Ideal S20000x1 .f32) (t : Fin cfg4.N) (p : Fin 2000) (r : Fin 20000)
    (hr : r.val = t.val * 2000 + p.val) :
    (((cfg4.win 2).blk t).view.read (Elt Ideal) X : Vec Ideal S2000x1 .f32) (ix2 p 0) = X (ix2 r 0) := by
  show X (((cfg4.win 2).blk t).view.emb (ix2 p 0)) = X _
  refine congrArg X ?_
  funext a; apply Fin.ext
  match a with
  | ⟨0, _⟩ => show win4_2.index t (0 : Fin 2) * 2000 + 1 * p.val = r.val; rw [(idx4 t).2.2.2.2.1, hr]; omega
  | ⟨1, _⟩ => show win4_2.index t (1 : Fin 2) * 1 + 1 * 0 = 0; rw [(idx4 t).2.2.2.2.2.1]

/-- The weights' one block is the whole array. -/
theorem read4_3 (X : FVec Ideal S256x256 .bf16) (t : Fin cfg4.N) :
    (((cfg4.win 3).blk t).view.read (Elt Ideal) X : Vec Ideal S256x256 .bf16) = X := by
  funext y
  show X (((cfg4.win 3).blk t).view.emb y) = X y
  refine congrArg X ?_
  funext a; apply Fin.ext
  match a with
  | ⟨0, _⟩ => show win4_3.index t (0 : Fin 2) * 256 + 1 * (y 0).val = (y 0).val; rw [(idx4 t).2.2.2.2.2.2.1]; omega
  | ⟨1, _⟩ => show win4_3.index t (1 : Fin 2) * 256 + 1 * (y 1).val = (y 1).val; rw [(idx4 t).2.2.2.2.2.2.2.1]; omega

/-- The bias's one block is the whole array. -/
theorem read4_4 (X : FVec Ideal S256 .f32) (t : Fin cfg4.N) :
    (((cfg4.win 4).blk t).view.read (Elt Ideal) X : Vec Ideal S256 .f32) = X := by
  funext y
  show X (((cfg4.win 4).blk t).view.emb y) = X y
  refine congrArg X ?_
  funext a; apply Fin.ext
  match a with
  | ⟨0, _⟩ => show win4_4.index t (0 : Fin 1) * 256 + 1 * (y 0).val = (y 0).val; rw [(idx4 t).2.2.2.2.2.2.2.2.1]; omega

/-- Tile t of the first output: its row p is row 2000 t + p of the array. -/
theorem read4_5 (X : FVec Ideal S20000x256 .f32) (t : Fin cfg4.N) (p : Fin 2000) (k : Fin 256) (r : Fin 20000)
    (hr : r.val = t.val * 2000 + p.val) :
    (((cfg4.win 5).blk t).view.read (Elt Ideal) X : Vec Ideal S2000x256 .f32) (ix2 p k) = X (ix2 r k) := by
  show X (((cfg4.win 5).blk t).view.emb (ix2 p k)) = X _
  refine congrArg X ?_
  funext a; apply Fin.ext
  match a with
  | ⟨0, _⟩ => show win4_5.index t (0 : Fin 2) * 2000 + 1 * p.val = r.val; rw [(idx4 t).2.2.2.2.2.2.2.2.2.1, hr]; omega
  | ⟨1, _⟩ => show win4_5.index t (1 : Fin 2) * 256 + 1 * k.val = k.val; rw [(idx4 t).2.2.2.2.2.2.2.2.2.2.1]; omega

/-- Tile t of the second output. -/
theorem read4_6 (X : FVec Ideal S20000x256 .f32) (t : Fin cfg4.N) (p : Fin 2000) (k : Fin 256) (r : Fin 20000)
    (hr : r.val = t.val * 2000 + p.val) :
    (((cfg4.win 6).blk t).view.read (Elt Ideal) X : Vec Ideal S2000x256 .f32) (ix2 p k) = X (ix2 r k) := by
  show X (((cfg4.win 6).blk t).view.emb (ix2 p k)) = X _
  refine congrArg X ?_
  funext a; apply Fin.ext
  match a with
  | ⟨0, _⟩ => show win4_6.index t (0 : Fin 2) * 2000 + 1 * p.val = r.val; rw [(idx4 t).2.2.2.2.2.2.2.2.2.2.2.1, hr]; omega
  | ⟨1, _⟩ => show win4_6.index t (1 : Fin 2) * 256 + 1 * k.val = k.val; rw [(idx4 t).2.2.2.2.2.2.2.2.2.2.2.2]; omega

/-- An index of the first output array is in tile t's block iff each coordinate is in the block's range on its axis. -/
theorem mem_blk4_5 (t : Fin cfg4.N) (i : S20000x256.Idx) :
    i ∈ ((cfg4.win 5).blk t).view.set ↔ ∀ a : Fin 2, win4_5.index t a * S2000x256.size a ≤ (i a).val ∧ (i a).val < win4_5.index t a * S2000x256.size a + S2000x256.size a := by
  show i ∈ ((View.whole main_v91_0).slice (win4_5.rect t)).set ↔ _
  rw [View.set_slice_whole, Rect.mem_set_unit]
  exact Iff.rfl

/-- The same for the second output array. -/
theorem mem_blk4_6 (t : Fin cfg4.N) (i : S20000x256.Idx) :
    i ∈ ((cfg4.win 6).blk t).view.set ↔ ∀ a : Fin 2, win4_6.index t a * S2000x256.size a ≤ (i a).val ∧ (i a).val < win4_6.index t a * S2000x256.size a + S2000x256.size a := by
  show i ∈ ((View.whole main_v91_1).slice (win4_6.rect t)).set ↔ _
  rw [View.set_slice_whole, Rect.mem_set_unit]
  exact Iff.rfl

/-- Row r of the first output lies in the block of tile r / 2000, which is written back. -/
theorem cover4_5 (i : S20000x256.Idx) : ∃ t : Fin cfg4.N, (cfg4.win 5).flush t = true ∧ i ∈ ((cfg4.win 5).blk t).view.set := by
  have hi0 : (i 0).val < 20000 := (i 0).isLt
  have hi1 : (i 1).val < 256 := (i 1).isLt
  have hN : cfg4.N = 10 := N_4
  refine ⟨⟨(i 0).val / 2000, by omega⟩, flush4_5 _, ?_⟩
  rw [mem_blk4_5]
  intro a
  have e := idx4 ⟨(i 0).val / 2000, by omega⟩
  match a with
  | ⟨0, _⟩ => show win4_5.index _ (0 : Fin 2) * 2000 ≤ (i 0).val ∧ (i 0).val < win4_5.index _ (0 : Fin 2) * 2000 + 2000
              rw [e.2.2.2.2.2.2.2.2.2.1]; show (i 0).val / 2000 * 2000 ≤ (i 0).val ∧ (i 0).val < (i 0).val / 2000 * 2000 + 2000; omega
  | ⟨1, _⟩ => show win4_5.index _ (1 : Fin 2) * 256 ≤ (i 1).val ∧ (i 1).val < win4_5.index _ (1 : Fin 2) * 256 + 256
              rw [e.2.2.2.2.2.2.2.2.2.2.1]; omega

/-- The same for the second output. -/
theorem cover4_6 (i : S20000x256.Idx) : ∃ t : Fin cfg4.N, (cfg4.win 6).flush t = true ∧ i ∈ ((cfg4.win 6).blk t).view.set := by
  have hi0 : (i 0).val < 20000 := (i 0).isLt
  have hi1 : (i 1).val < 256 := (i 1).isLt
  have hN : cfg4.N = 10 := N_4
  refine ⟨⟨(i 0).val / 2000, by omega⟩, flush4_6 _, ?_⟩
  rw [mem_blk4_6]
  intro a
  have e := idx4 ⟨(i 0).val / 2000, by omega⟩
  match a with
  | ⟨0, _⟩ => show win4_6.index _ (0 : Fin 2) * 2000 ≤ (i 0).val ∧ (i 0).val < win4_6.index _ (0 : Fin 2) * 2000 + 2000
              rw [e.2.2.2.2.2.2.2.2.2.2.2.1]; show (i 0).val / 2000 * 2000 ≤ (i 0).val ∧ (i 0).val < (i 0).val / 2000 * 2000 + 2000; omega
  | ⟨1, _⟩ => show win4_6.index _ (1 : Fin 2) * 256 ≤ (i 1).val ∧ (i 1).val < win4_6.index _ (1 : Fin 2) * 256 + 256
              rw [e.2.2.2.2.2.2.2.2.2.2.2.2]; omega

end Cert.KernelIdeal.ConvVal

end
-- ==== Proof.Conv4.lean ====
/-
  Region 4 of the network: the two output arrays after its ten row tiles. Each tile's write-back is the tile's rows of one
  whole-array function of the arrays the region finds — the rectified linear part of the convolution (the aggregated features times
  the target-side factor, times the weights, plus the bias, then max(·, 0)), and that times the source-side factor — because a tile's
  row p reads row 2000 t + p of every per-node array and all of the weights and the bias. The ten tiles cover the array, so
  the arrays end holding those functions.
-/
import proofs.«126634_j63780264346183_1_alg».proof.Proof.Gen.KernelIdeal.Frame
import proofs.«126634_j63780264346183_1_alg».proof.Proof.Spec
import proofs.«126634_j63780264346183_1_alg».proof.Proof.ConvTile
import proofs.«126634_j63780264346183_1_alg».proof.Proof.ConvTileSame
import proofs.«126634_j63780264346183_1_alg».proof.Proof.Conv4Blocks

noncomputable section

namespace Cert.KernelIdeal.ConvVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

theorem hz4_2 : (![0, 0] : Fin 2 → Nat) = fun _ => 0 := funext fun a => by fin_cases a <;> rfl
theorem hz4_1 : (![0] : Fin 1 → Nat) = fun _ => 0 := funext fun a => by fin_cases a; rfl

/-- The rectified linear part on the arrays region 4 finds, with the weights before their rounding named W. -/
abbrev G4_5 (W : FVec Ideal S256x256 .f32) : FVec Ideal S20000x256 .f32 :=
  Cert.Spec.relu256 (Cert.Spec.lin256 (V c (Pipeline.arrRef spec4 0)) (V c (Pipeline.arrRef spec4 1)) W (V c (Pipeline.arrRef spec4 4)))

/-- The same scaled by the source-side factor along the features. -/
abbrev G4_6 (W : FVec Ideal S256x256 .f32) : FVec Ideal S20000x256 .f32 :=
  mulf (G4_5 V c W) (Cert.Spec.along256 (V c (Pipeline.arrRef spec4 2)))

/-- What tile t writes back to the first output is tile t of the rectified linear part. -/
theorem flushed4_5 (W : FVec Ideal S256x256 .f32) (hW : V c (Pipeline.arrRef spec4 3) = truncf .bf16 W bitsLt_bf16_f32)
    (t : Fin cfg4.N) :
    (dat4 V c).flushed 5 t = ((cfg4.win 5).blk t).view.read (Elt Ideal) (G4_5 V c W) := by
  show (cfg4.win 5).cut (grid4.coords t) ((dat4 V c).after 5 t) = _
  rw [after4_5]
  unfold out4_5
  rw [View.canon_unit_zero hz4_2]
  simp only [View.ld_unit_zero (S := S2000x256) hz4_2, View.ld_unit_zero (S := S2000x1) hz4_2,
    View.ld_unit_zero (S := S256x256) hz4_2, View.ld_unit_zero (S := S256) hz4_1]
  have key : (k1_pay1 (iblk4 V c 0 t) (iblk4 V c 1 t) (iblk4 V c 3 t) (iblk4 V c 4 t) : Vec Ideal S2000x256 .f32)
      = (((cfg4.win 5).blk t).view.read (Elt Ideal) (G4_5 V c W) : Vec Ideal S2000x256 .f32) := by
    funext j
    obtain ⟨p, q, rfl⟩ : ∃ (p : Fin 2000) (q : Fin 256), j = ix2 p q := ⟨j 0, j 1, eq_ix2 j⟩
    refine (ConvTile.pay256_relu (A := (V c (Pipeline.arrRef spec4 0))) (D := (V c (Pipeline.arrRef spec4 1))) (W := W) (B := (V c (Pipeline.arrRef spec4 4)))
      (x0 := iblk4 V c 0 t) (x1 := iblk4 V c 1 t) (x3 := iblk4 V c 3 t) (x4 := iblk4 V c 4 t) (t := t.val) (ht := lt4 t)
      (h0 := ?_) (h1 := ?_) (h3 := ?_) (h4 := ?_) (p := p) (q := q)).trans ?_
    · intro p k; exact read4_0 (V c (Pipeline.arrRef spec4 0)) t p k _ rfl
    · intro p; exact read4_1 (V c (Pipeline.arrRef spec4 1)) t p _ rfl
    · exact (read4_3 (V c (Pipeline.arrRef spec4 3)) t).trans hW
    · exact read4_4 (V c (Pipeline.arrRef spec4 4)) t
    · exact (read4_5 (G4_5 V c W) t p q _ rfl).symm
  rw [ConvTile.k4_pay1_eq]
  exact key

/-- What tile t writes back to the second output is tile t of the scaled rectified linear part. -/
theorem flushed4_6 (W : FVec Ideal S256x256 .f32) (hW : V c (Pipeline.arrRef spec4 3) = truncf .bf16 W bitsLt_bf16_f32)
    (t : Fin cfg4.N) :
    (dat4 V c).flushed 6 t = ((cfg4.win 6).blk t).view.read (Elt Ideal) (G4_6 V c W) := by
  show (cfg4.win 6).cut (grid4.coords t) ((dat4 V c).after 6 t) = _
  rw [after4_6]
  unfold out4_6
  rw [View.canon_unit_zero hz4_2]
  simp only [View.ld_unit_zero (S := S2000x256) hz4_2, View.ld_unit_zero (S := S2000x1) hz4_2,
    View.ld_unit_zero (S := S256x256) hz4_2, View.ld_unit_zero (S := S256) hz4_1]
  have key : (k1_pay2 (iblk4 V c 0 t) (iblk4 V c 1 t) (iblk4 V c 3 t) (iblk4 V c 4 t) (iblk4 V c 2 t) : Vec Ideal S2000x256 .f32)
      = (((cfg4.win 6).blk t).view.read (Elt Ideal) (G4_6 V c W) : Vec Ideal S2000x256 .f32) := by
    funext j
    obtain ⟨p, q, rfl⟩ : ∃ (p : Fin 2000) (q : Fin 256), j = ix2 p q := ⟨j 0, j 1, eq_ix2 j⟩
    refine (ConvTile.pay256_relu_scaled (A := (V c (Pipeline.arrRef spec4 0))) (D := (V c (Pipeline.arrRef spec4 1))) (W := W) (B := (V c (Pipeline.arrRef spec4 4))) (D2 := (V c (Pipeline.arrRef spec4 2)))
      (x0 := iblk4 V c 0 t) (x1 := iblk4 V c 1 t) (x3 := iblk4 V c 3 t) (x4 := iblk4 V c 4 t) (x2 := iblk4 V c 2 t)
      (t := t.val) (ht := lt4 t) (h0 := ?_) (h1 := ?_) (h2 := ?_) (h3 := ?_) (h4 := ?_) (p := p) (q := q)).trans ?_
    · intro p k; exact read4_0 (V c (Pipeline.arrRef spec4 0)) t p k _ rfl
    · intro p; exact read4_1 (V c (Pipeline.arrRef spec4 1)) t p _ rfl
    · intro p; exact read4_2 (V c (Pipeline.arrRef spec4 2)) t p _ rfl
    · exact (read4_3 (V c (Pipeline.arrRef spec4 3)) t).trans hW
    · exact read4_4 (V c (Pipeline.arrRef spec4 4)) t
    · exact (read4_6 (G4_6 V c W) t p q _ rfl).symm
  rw [ConvTile.k4_pay2_eq]
  exact key

/-- The first output array after the region: the rectified linear part of the arrays the region finds. -/
theorem arr4_5 (W : FVec Ideal S256x256 .f32) (hW : V c (Pipeline.arrRef spec4 3) = truncf .bf16 W bitsLt_bf16_f32) :
    (dat4 V c).arrAt 5 cfg4.N = Cert.Spec.relu256 (Cert.Spec.lin256 (V c (Pipeline.arrRef spec4 0)) (V c (Pipeline.arrRef spec4 1)) W (V c (Pipeline.arrRef spec4 4))) :=
  (dat4 V c).arrAt_eq_of_cover 5 (G4_5 V c W) (fun t _ => flushed4_5 V c W hW t) cover4_5

/-- The second output array after the region: the same times the source-side factor. -/
theorem arr4_6 (W : FVec Ideal S256x256 .f32) (hW : V c (Pipeline.arrRef spec4 3) = truncf .bf16 W bitsLt_bf16_f32) :
    (dat4 V c).arrAt 6 cfg4.N = mulf (Cert.Spec.relu256 (Cert.Spec.lin256 (V c (Pipeline.arrRef spec4 0)) (V c (Pipeline.arrRef spec4 1)) W (V c (Pipeline.arrRef spec4 4)))) (Cert.Spec.along256 (V c (Pipeline.arrRef spec4 2))) :=
  (dat4 V c).arrAt_eq_of_cover 6 (G4_6 V c W) (fun t _ => flushed4_6 V c W hW t) cover4_6

end Cert.KernelIdeal.ConvVal

end
-- ==== Proof.KLayer4.lean ====
/-
  Convolution 4 (layer 3 of the stacked parameters). The stretch of host operations before it gathers the previous features,
  already scaled by the source-side degree column, at the edges' sources and adds them into the targets, and slices the layer's
  weights (bf16) and bias out of the stacks; the launch writes back, row tile by row tile, max(·, 0) of the linear map of the
  target-scaled aggregate plus the bias, and the same scaled by the source-side column for the next gather.
-/
import proofs.«126634_j63780264346183_1_alg».proof.Proof.Gen.KernelIdeal.Frame
import proofs.«126634_j63780264346183_1_alg».proof.Proof.KStretch
import proofs.«126634_j63780264346183_1_alg».proof.Proof.KAt
import proofs.«126634_j63780264346183_1_alg».proof.Proof.KBasics
import proofs.«126634_j63780264346183_1_alg».proof.Proof.KFeat
import proofs.«126634_j63780264346183_1_alg».proof.Proof.Conv4

set_option maxRecDepth 16384

noncomputable section

namespace Cert.KernelIdeal.KVal

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-- After launch 4: the features of convolution 4, and those features scaled by the source-side degree column. -/
theorem layer4 (ih : W8 m ρ c (Proc.devRef .tc main_v76_1) = mulf (feat3 m c) (Cert.Spec.along256 (F := Ideal) (dOutCol m c))) :
    W10 m ρ c (Proc.devRef .tc main_v91_0) = feat4 m c
    ∧ W10 m ρ c (Proc.devRef .tc main_v91_1) = mulf (feat4 m c) (Cert.Spec.along256 (F := Ideal) (dOutCol m c)) := by
  have hdo : W9 m ρ c (Proc.devRef .tc main_v13) = dOutCol m c :=
    (at9_main_v13 m ρ c).trans (col_eq _ _ Cert.ReferenceIdeal.Facts₀.bcast_S20000_S20000x1_0)
  have hdi : W9 m ρ c (Proc.devRef .tc main_v16) = dInCol m c :=
    (at9_main_v16 m ρ c).trans (col_eq _ _ Cert.ReferenceIdeal.Facts₀.bcast_S20000_S20000x1_0)
  have hw : W9 m ρ c (Proc.devRef .tc main_v88) = truncf .bf16 (Cert.Spec.sliceW (F := Ideal) (m ((c : Thread nD τ).loc main_arg4)) 3 Cert.ReferenceIdeal.Facts₀.slices_S10x256x256_S1x256x256_3_0_0) bitsLt_bf16_f32 := by
    refine (wsl4 (W8 m ρ c)).trans ?_
    rw [at8_main_v18]
    rfl
  have hb : W9 m ρ c (Proc.devRef .tc main_v90) = Cert.Spec.sliceB (F := Ideal) (m ((c : Thread nD τ).loc main_arg5)) 3 Cert.ReferenceIdeal.Facts₀.slices_S10x256_S1x256_3_0 := by
    refine (bsl4 (W8 m ρ c)).trans ?_
    rw [at8_main_arg5]
  have hagg : W9 m ρ c (Proc.devRef .tc main_v86)
      = Cert.Spec.spread256 (F := Ideal) (m ((c : Thread nD τ).loc main_arg12)) (m ((c : Thread nD τ).loc main_arg13)) (mulf (feat3 m c) (Cert.Spec.along256 (F := Ideal) (dOutCol m c))) := by
    refine (agg4 (W8 m ρ c)).trans ?_
    rw [at8_main_arg12, at8_main_arg13, ih]
  refine ⟨(W10_arr m ρ c 5).trans ((ConvVal.arr4_5 (V9 m ρ) c (Cert.Spec.sliceW (F := Ideal) (m ((c : Thread nD τ).loc main_arg4)) 3 Cert.ReferenceIdeal.Facts₀.slices_S10x256x256_S1x256x256_3_0_0) hw).trans ?_),
    (W10_arr m ρ c 6).trans ((ConvVal.arr4_6 (V9 m ρ) c (Cert.Spec.sliceW (F := Ideal) (m ((c : Thread nD τ).loc main_arg4)) 3 Cert.ReferenceIdeal.Facts₀.slices_S10x256x256_S1x256x256_3_0_0) hw).trans ?_)⟩
  · show Cert.Spec.relu256 (F := Ideal) (Cert.Spec.lin256 (F := Ideal) (W9 m ρ c (Proc.devRef .tc main_v86)) (W9 m ρ c (Proc.devRef .tc main_v16)) _ (W9 m ρ c (Proc.devRef .tc main_v90))) = _
    rw [hagg, hdi, hb]
    rfl
  · show mulf (Cert.Spec.relu256 (F := Ideal) (Cert.Spec.lin256 (F := Ideal) (W9 m ρ c (Proc.devRef .tc main_v86)) (W9 m ρ c (Proc.devRef .tc main_v16)) _ (W9 m ρ c (Proc.devRef .tc main_v90))))
        (Cert.Spec.along256 (F := Ideal) (W9 m ρ c (Proc.devRef .tc main_v13))) = _
    rw [hagg, hdi, hb, hdo]
    rfl

end Cert.KernelIdeal.KVal

end
-- ==== Proof.Conv5Blocks.lean ====
/-
  Region 5 of the network (a convolution's dense part over 10 row tiles of 2000 nodes): where each window's block sits
  in its array. Tile t of a per-node array is rows 2000 t … 2000 t + 1999 with all columns; the weights and the bias have one
  block, the whole array. An index of an output array lies in the block of tile (row / 2000), so the ten blocks cover it.
-/
import proofs.«126634_j63780264346183_1_alg».proof.Proof.Gen.KernelIdeal.Points
import proofs.«126634_j63780264346183_1_alg».proof.Proof.Gen.KernelIdeal.Launch
import Idealize.ShloMosaic.Lib.Pipeline.Value
import Idealize.ShloMosaic.Lib.ValueIdx

noncomputable section

namespace Cert.KernelIdeal.ConvVal

open Cert.KernelIdeal Cert.KernelIdeal.Gen Idealize.ShloMosaic Idealize.ShloMosaic.TcCoe Idealize.SL.Sem
open Idealize.ShloMosaic.ValueIdx

/-- The grid of region 5 has ten points. -/
theorem lt5 (t : Fin cfg5.N) : t.val < 10 := by
  have h := t.isLt
  have hN : cfg5.N = 10 := N_5
  omega

/-- The block index of every window at tile t: (t, 0) for the per-node arrays, zero for the weights and the bias. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- Tile t of the aggregated features: its row p is row 2000 t + p of the array. -/
theorem read5_0 (X : FVec Ideal S20000x256 .f32) (t : Fin cfg5.N) (p : Fin 2000) (k : Fin 256) (r : Fin 20000)
    (hr : r.val = t.val * 2000 + p.val) :
    (((cfg5.win 0).blk t).view.read (Elt Ideal) X : Vec Ideal S2000x256 .f32) (ix2 p k) = X (ix2 r k) := by
  show X (((cfg5.win 0).blk t).view.emb (ix2 p k)) = X _
  refine congrArg X ?_
  funext a; apply Fin.ext
  match a with
  | ⟨0, _⟩ => show win5_0.index t (0 : Fin 2) * 2000 + 1 * p.val = r.val; rw [(idx5 t).1, hr]; omega
  | ⟨1, _⟩ => show win5_0.index t (1 : Fin 2) * 256 + 1 * k.val = k.val; rw [(idx5 t).2.1]; omega

/-- Tile t of the target-side factor, a column. -/
theorem read5_1 (X : FVec Ideal S20000x1 .f32) (t : Fin cfg5.N) (p : Fin 2000) (r : Fin 20000)
    (hr : r.val = t.val * 2000 + p.val) :
    (((cfg5.win 1).blk t).view.read (Elt Ideal) X : Vec Ideal S2000x1 .f32) (ix2 p 0) = X (ix2 r 0) := by
  show X (((cfg5.win 1).blk t).view.emb (ix2 p 0)) = X _
  refine congrArg X ?_
  funext a; apply Fin.ext
  match a with
  | ⟨0, _⟩ => show win5_1.index t (0 : Fin 2) * 2000 + 1 * p.val = r.val; rw [(idx5 t).2.2.1, hr]; omega
  | ⟨1, _⟩ => show win5_1.index t (1 : Fin 2) * 1 + 1 * 0 = 0; rw [(idx5 t).2.2.2.1]

/-- Tile t of the source-side factor, a column. -/
theorem read5_2 (X : FVec Ideal S20000x1 .f32) (t : Fin cfg5.N) (p : Fin 2000) (r : Fin 20000)
    (hr : r.val = t.val * 2000 + p.val) :
    (((cfg5.win 2).blk t).view.read (Elt Ideal) X : Vec Ideal S2000x1 .f32) (ix2 p 0) = X (ix2 r 0) := by
  show X (((cfg5.win 2).blk t).view.emb (ix2 p 0)) = X _
  refine congrArg X ?_
  funext a; apply Fin.ext
  match a with
  | ⟨0, _⟩ => show win5_2.index t (0 : Fin 2) * 2000 + 1 * p.val = r.val; rw [(idx5 t).2.2.2.2.1, hr]; omega
  | ⟨1, _⟩ => show win5_2.index t (1 : Fin 2) * 1 + 1 * 0 = 0; rw [(idx5 t).2.2.2.2.2.1]

/-- The weights' one block is the whole array. -/
theorem read5_3 (X : FVec Ideal S256x256 .bf16) (t : Fin cfg5.N) :
    (((cfg5.win 3).blk t).view.read (Elt Ideal) X : Vec Ideal S256x256 .bf16) = X := by
  funext y
  show X (((cfg5.win 3).blk t).view.emb y) = X y
  refine congrArg X ?_
  funext a; apply Fin.ext
  match a with
  | ⟨0, _⟩ => show win5_3.index t (0 : Fin 2) * 256 + 1 * (y 0).val = (y 0).val; rw [(idx5 t).2.2.2.2.2.2.1]; omega
  | ⟨1, _⟩ => show win5_3.index t (1 : Fin 2) * 256 + 1 * (y 1).val = (y 1).val; rw [(idx5 t).2.2.2.2.2.2.2.1]; omega

/-- The bias's one block is the whole array. -/
theorem read5_4 (X : FVec Ideal S256 .f32) (t : Fin cfg5.N) :
    (((cfg5.win 4).blk t).view.read (Elt Ideal) X : Vec Ideal S256 .f32) = X := by
  funext y
  show X (((cfg5.win 4).blk t).view.emb y) = X y
  refine congrArg X ?_
  funext a; apply Fin.ext
  match a with
  | ⟨0, _⟩ => show win5_4.index t (0 : Fin 1) * 256 + 1 * (y 0).val = (y 0).val; rw [(idx5 t).2.2.2.2.2.2.2.2.1]; omega

/-- Tile t of the first output: its row p is row 2000 t + p of the array. -/
theorem read5_5 (X : FVec Ideal S20000x256 .f32) (t : Fin cfg5.N) (p : Fin 2000) (k : Fin 256) (r : Fin 20000)
    (hr : r.val = t.val * 2000 + p.val) :
    (((cfg5.win 5).blk t).view.read (Elt Ideal) X : Vec Ideal S2000x256 .f32) (ix2 p k) = X (ix2 r k) := by
  show X (((cfg5.win 5).blk t).view.emb (ix2 p k)) = X _
  refine congrArg X ?_
  funext a; apply Fin.ext
  match a with
  | ⟨0, _⟩ => show win5_5.index t (0 : Fin 2) * 2000 + 1 * p.val = r.val; rw [(idx5 t).2.2.2.2.2.2.2.2.2.1, hr]; omega
  | ⟨1, _⟩ => show win5_5.index t (1 : Fin 2) * 256 + 1 * k.val = k.val; rw [(idx5 t).2.2.2.2.2.2.2.2.2.2.1]; omega

/-- Tile t of the second output. -/
theorem read5_6 (X : FVec Ideal S20000x256 .f32) (t : Fin cfg5.N) (p : Fin 2000) (k : Fin 256) (r : Fin 20000)
    (hr : r.val = t.val * 2000 + p.val) :
    (((cfg5.win 6).blk t).view.read (Elt Ideal) X : Vec Ideal S2000x256 .f32) (ix2 p k) = X (ix2 r k) := by
  show X (((cfg5.win 6).blk t).view.emb (ix2 p k)) = X _
  refine congrArg X ?_
  funext a; apply Fin.ext
  match a with
  | ⟨0, _⟩ => show win5_6.index t (0 : Fin 2) * 2000 + 1 * p.val = r.val; rw [(idx5 t).2.2.2.2.2.2.2.2.2.2.2.1, hr]; omega
  | ⟨1, _⟩ => show win5_6.index t (1 : Fin 2) * 256 + 1 * k.val = k.val; rw [(idx5 t).2.2.2.2.2.2.2.2.2.2.2.2]; omega

/-- An index of the first output array is in tile t's block iff each coordinate is in the block's range on its axis. -/
theorem mem_blk5_5 (t : Fin cfg5.N) (i : S20000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole main_v106_0).slice (win5_5.rect t)).set ↔ _
  rw [View.set_slice_whole, Rect.mem_set_unit]
  exact Iff.rfl

/-- The same for the second output array. -/
theorem mem_blk5_6 (t : Fin cfg5.N) (i : S20000x256.Idx) :
    i ∈ ((cfg5.win 6).blk t).view.set ↔ ∀ a : Fin 2, win5_6.index t a * S2000x256.size a ≤ (i a).val ∧ (i a).val < win5_6.index t a * S2000x256.size a + S2000x256.size a := by
  show i ∈ ((View.whole main_v106_1).slice (win5_6.rect t)).set ↔ _
  rw [View.set_slice_whole, Rect.mem_set_unit]
  exact Iff.rfl

/-- Row r of the first output lies in the block of tile r / 2000, which is written back. -/
theorem cover5_5 (i : S20000x256.Idx) : ∃ t : Fin cfg5.N, (cfg5.win 5).flush t = true ∧ i ∈ ((cfg5.win 5).blk t).view.set := by
  have hi0 : (i 0).val < 20000 := (i 0).isLt
  have hi1 : (i 1).val < 256 := (i 1).isLt
  have hN : cfg5.N = 10 := N_5
  refine ⟨⟨(i 0).val / 2000, by omega⟩, flush5_5 _, ?_⟩
  rw [mem_blk5_5]
  intro a
  have e := idx5 ⟨(i 0).val / 2000, by omega⟩
  match a with
  | ⟨0, _⟩ => show win5_5.index _ (0 : Fin 2) * 2000 ≤ (i 0).val ∧ (i 0).val < win5_5.index _ (0 : Fin 2) * 2000 + 2000
              rw [e.2.2.2.2.2.2.2.2.2.1]; show (i 0).val / 2000 * 2000 ≤ (i 0).val ∧ (i 0).val < (i 0).val / 2000 * 2000 + 2000; omega
  | ⟨1, _⟩ => show win5_5.index _ (1 : Fin 2) * 256 ≤ (i 1).val ∧ (i 1).val < win5_5.index _ (1 : Fin 2) * 256 + 256
              rw [e.2.2.2.2.2.2.2.2.2.2.1]; omega

/-- The same for the second output. -/
theorem cover5_6 (i : S20000x256.Idx) : ∃ t : Fin cfg5.N, (cfg5.win 6).flush t = true ∧ i ∈ ((cfg5.win 6).blk t).view.set := by
  have hi0 : (i 0).val < 20000 := (i 0).isLt
  have hi1 : (i 1).val < 256 := (i 1).isLt
  have hN : cfg5.N = 10 := N_5
  refine ⟨⟨(i 0).val / 2000, by omega⟩, flush5_6 _, ?_⟩
  rw [mem_blk5_6]
  intro a
  have e := idx5 ⟨(i 0).val / 2000, by omega⟩
  match a with
  | ⟨0, _⟩ => show win5_6.index _ (0 : Fin 2) * 2000 ≤ (i 0).val ∧ (i 0).val < win5_6.index _ (0 : Fin 2) * 2000 + 2000
              rw [e.2.2.2.2.2.2.2.2.2.2.2.1]; show (i 0).val / 2000 * 2000 ≤ (i 0).val ∧ (i 0).val < (i 0).val / 2000 * 2000 + 2000; omega
  | ⟨1, _⟩ => show win5_6.index _ (1 : Fin 2) * 256 ≤ (i 1).val ∧ (i 1).val < win5_6.index _ (1 : Fin 2) * 256 + 256
              rw [e.2.2.2.2.2.2.2.2.2.2.2.2]; omega

end Cert.KernelIdeal.ConvVal

end
-- ==== Proof.Conv5.lean ====
/-
  Region 5 of the network: the two output arrays after its ten row tiles. Each tile's write-back is the tile's rows of one
  whole-array function of the arrays the region finds — the rectified linear part of the convolution (the aggregated features times
  the target-side factor, times the weights, plus the bias, then max(·, 0)), and that times the source-side factor — because a tile's
  row p reads row 2000 t + p of every per-node array and all of the weights and the bias. The ten tiles cover the array, so
  the arrays end holding those functions.
-/
import proofs.«126634_j63780264346183_1_alg».proof.Proof.Gen.KernelIdeal.Frame
import proofs.«126634_j63780264346183_1_alg».proof.Proof.Spec
import proofs.«126634_j63780264346183_1_alg».proof.Proof.ConvTile
import proofs.«126634_j63780264346183_1_alg».proof.Proof.ConvTileSame
import proofs.«126634_j63780264346183_1_alg».proof.Proof.Conv5Blocks

noncomputable section

namespace Cert.KernelIdeal.ConvVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

theorem hz5_2 : (![0, 0] : Fin 2 → Nat) = fun _ => 0 := funext fun a => by fin_cases a <;> rfl
theorem hz5_1 : (![0] : Fin 1 → Nat) = fun _ => 0 := funext fun a => by fin_cases a; rfl

/-- The rectified linear part on the arrays region 5 finds, with the weights before their rounding named W. -/
abbrev G5_5 (W : FVec Ideal S256x256 .f32) : FVec Ideal S20000x256 .f32 :=
  Cert.Spec.relu256 (Cert.Spec.lin256 (V c (Pipeline.arrRef spec5 0)) (V c (Pipeline.arrRef spec5 1)) W (V c (Pipeline.arrRef spec5 4)))

/-- The same scaled by the source-side factor along the features. -/
abbrev G5_6 (W : FVec Ideal S256x256 .f32) : FVec Ideal S20000x256 .f32 :=
  mulf (G5_5 V c W) (Cert.Spec.along256 (V c (Pipeline.arrRef spec5 2)))

/-- What tile t writes back to the first output is tile t of the rectified linear part. -/
theorem flushed5_5 (W : FVec Ideal S256x256 .f32) (hW : V c (Pipeline.arrRef spec5 3) = truncf .bf16 W bitsLt_bf16_f32)
    (t : Fin cfg5.N) :
    (dat5 V c).flushed 5 t = ((cfg5.win 5).blk t).view.read (Elt Ideal) (G5_5 V c W) := by
  show (cfg5.win 5).cut (grid5.coords t) ((dat5 V c).after 5 t) = _
  rw [after5_5]
  unfold out5_5
  rw [View.canon_unit_zero hz5_2]
  simp only [View.ld_unit_zero (S := S2000x256) hz5_2, View.ld_unit_zero (S := S2000x1) hz5_2,
    View.ld_unit_zero (S := S256x256) hz5_2, View.ld_unit_zero (S := S256) hz5_1]
  have key : (k1_pay1 (iblk5 V c 0 t) (iblk5 V c 1 t) (iblk5 V c 3 t) (iblk5 V c 4 t) : Vec Ideal S2000x256 .f32)
      = (((cfg5.win 5).blk t).view.read (Elt Ideal) (G5_5 V c W) : Vec Ideal S2000x256 .f32) := by
    funext j
    obtain ⟨p, q, rfl⟩ : ∃ (p : Fin 2000) (q : Fin 256), j = ix2 p q := ⟨j 0, j 1, eq_ix2 j⟩
    refine (ConvTile.pay256_relu (A := (V c (Pipeline.arrRef spec5 0))) (D := (V c (Pipeline.arrRef spec5 1))) (W := W) (B := (V c (Pipeline.arrRef spec5 4)))
      (x0 := iblk5 V c 0 t) (x1 := iblk5 V c 1 t) (x3 := iblk5 V c 3 t) (x4 := iblk5 V c 4 t) (t := t.val) (ht := lt5 t)
      (h0 := ?_) (h1 := ?_) (h3 := ?_) (h4 := ?_) (p := p) (q := q)).trans ?_
    · intro p k; exact read5_0 (V c (Pipeline.arrRef spec5 0)) t p k _ rfl
    · intro p; exact read5_1 (V c (Pipeline.arrRef spec5 1)) t p _ rfl
    · exact (read5_3 (V c (Pipeline.arrRef spec5 3)) t).trans hW
    · exact read5_4 (V c (Pipeline.arrRef spec5 4)) t
    · exact (read5_5 (G5_5 V c W) t p q _ rfl).symm
  rw [ConvTile.k5_pay1_eq]
  exact key

/-- What tile t writes back to the second output is tile t of the scaled rectified linear part. -/
theorem flushed5_6 (W : FVec Ideal S256x256 .f32) (hW : V c (Pipeline.arrRef spec5 3) = truncf .bf16 W bitsLt_bf16_f32)
    (t : Fin cfg5.N) :
    (dat5 V c).flushed 6 t = ((cfg5.win 6).blk t).view.read (Elt Ideal) (G5_6 V c W) := by
  show (cfg5.win 6).cut (grid5.coords t) ((dat5 V c).after 6 t) = _
  rw [after5_6]
  unfold out5_6
  rw [View.canon_unit_zero hz5_2]
  simp only [View.ld_unit_zero (S := S2000x256) hz5_2, View.ld_unit_zero (S := S2000x1) hz5_2,
    View.ld_unit_zero (S := S256x256) hz5_2, View.ld_unit_zero (S := S256) hz5_1]
  have key : (k1_pay2 (iblk5 V c 0 t) (iblk5 V c 1 t) (iblk5 V c 3 t) (iblk5 V c 4 t) (iblk5 V c 2 t) : Vec Ideal S2000x256 .f32)
      = (((cfg5.win 6).blk t).view.read (Elt Ideal) (G5_6 V c W) : Vec Ideal S2000x256 .f32) := by
    funext j
    obtain ⟨p, q, rfl⟩ : ∃ (p : Fin 2000) (q : Fin 256), j = ix2 p q := ⟨j 0, j 1, eq_ix2 j⟩
    refine (ConvTile.pay256_relu_scaled (A := (V c (Pipeline.arrRef spec5 0))) (D := (V c (Pipeline.arrRef spec5 1))) (W := W) (B := (V c (Pipeline.arrRef spec5 4))) (D2 := (V c (Pipeline.arrRef spec5 2)))
      (x0 := iblk5 V c 0 t) (x1 := iblk5 V c 1 t) (x3 := iblk5 V c 3 t) (x4 := iblk5 V c 4 t) (x2 := iblk5 V c 2 t)
      (t := t.val) (ht := lt5 t) (h0 := ?_) (h1 := ?_) (h2 := ?_) (h3 := ?_) (h4 := ?_) (p := p) (q := q)).trans ?_
    · intro p k; exact read5_0 (V c (Pipeline.arrRef spec5 0)) t p k _ rfl
    · intro p; exact read5_1 (V c (Pipeline.arrRef spec5 1)) t p _ rfl
    · intro p; exact read5_2 (V c (Pipeline.arrRef spec5 2)) t p _ rfl
    · exact (read5_3 (V c (Pipeline.arrRef spec5 3)) t).trans hW
    · exact read5_4 (V c (Pipeline.arrRef spec5 4)) t
    · exact (read5_6 (G5_6 V c W) t p q _ rfl).symm
  rw [ConvTile.k5_pay2_eq]
  exact key

/-- The first output array after the region: the rectified linear part of the arrays the region finds. -/
theorem arr5_5 (W : FVec Ideal S256x256 .f32) (hW : V c (Pipeline.arrRef spec5 3) = truncf .bf16 W bitsLt_bf16_f32) :
    (dat5 V c).arrAt 5 cfg5.N = Cert.Spec.relu256 (Cert.Spec.lin256 (V c (Pipeline.arrRef spec5 0)) (V c (Pipeline.arrRef spec5 1)) W (V c (Pipeline.arrRef spec5 4))) :=
  (dat5 V c).arrAt_eq_of_cover 5 (G5_5 V c W) (fun t _ => flushed5_5 V c W hW t) cover5_5

/-- The second output array after the region: the same times the source-side factor. -/
theorem arr5_6 (W : FVec Ideal S256x256 .f32) (hW : V c (Pipeline.arrRef spec5 3) = truncf .bf16 W bitsLt_bf16_f32) :
    (dat5 V c).arrAt 6 cfg5.N = mulf (Cert.Spec.relu256 (Cert.Spec.lin256 (V c (Pipeline.arrRef spec5 0)) (V c (Pipeline.arrRef spec5 1)) W (V c (Pipeline.arrRef spec5 4)))) (Cert.Spec.along256 (V c (Pipeline.arrRef spec5 2))) :=
  (dat5 V c).arrAt_eq_of_cover 6 (G5_6 V c W) (fun t _ => flushed5_6 V c W hW t) cover5_6

end Cert.KernelIdeal.ConvVal

end
-- ==== Proof.KLayer5.lean ====
/-
  Convolution 5 (layer 4 of the stacked parameters). The stretch of host operations before it gathers the previous features,
  already scaled by the source-side degree column, at the edges' sources and adds them into the targets, and slices the layer's
  weights (bf16) and bias out of the stacks; the launch writes back, row tile by row tile, max(·, 0) of the linear map of the
  target-scaled aggregate plus the bias, and the same scaled by the source-side column for the next gather.
-/
import proofs.«126634_j63780264346183_1_alg».proof.Proof.Gen.KernelIdeal.Frame
import proofs.«126634_j63780264346183_1_alg».proof.Proof.KStretch
import proofs.«126634_j63780264346183_1_alg».proof.Proof.KAt
import proofs.«126634_j63780264346183_1_alg».proof.Proof.KBasics
import proofs.«126634_j63780264346183_1_alg».proof.Proof.KFeat
import proofs.«126634_j63780264346183_1_alg».proof.Proof.Conv5

set_option maxRecDepth 16384

noncomputable section

namespace Cert.KernelIdeal.KVal

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-- After launch 5: the features of convolution 5, and those features scaled by the source-side degree column. -/
theorem layer5 (ih : W10 m ρ c (Proc.devRef .tc main_v91_1) = mulf (feat4 m c) (Cert.Spec.along256 (F := Ideal) (dOutCol m c))) :
    W12 m ρ c (Proc.devRef .tc main_v106_0) = feat5 m c
    ∧ W12 m ρ c (Proc.devRef .tc main_v106_1) = mulf (feat5 m c) (Cert.Spec.along256 (F := Ideal) (dOutCol m c)) := by
  have hdo : W11 m ρ c (Proc.devRef .tc main_v13) = dOutCol m c :=
    (at11_main_v13 m ρ c).trans (col_eq _ _ Cert.ReferenceIdeal.Facts₀.bcast_S20000_S20000x1_0)
  have hdi : W11 m ρ c (Proc.devRef .tc main_v16) = dInCol m c :=
    (at11_main_v16 m ρ c).trans (col_eq _ _ Cert.ReferenceIdeal.Facts₀.bcast_S20000_S20000x1_0)
  have hw : W11 m ρ c (Proc.devRef .tc main_v103) = truncf .bf16 (Cert.Spec.sliceW (F := Ideal) (m ((c : Thread nD τ).loc main_arg4)) 4 Cert.ReferenceIdeal.Facts₀.slices_S10x256x256_S1x256x256_4_0_0) bitsLt_bf16_f32 := by
    refine (wsl5 (W10 m ρ c)).trans ?_
    rw [at10_main_v18]
    rfl
  have hb : W11 m ρ c (Proc.devRef .tc main_v105) = Cert.Spec.sliceB (F := Ideal) (m ((c : Thread nD τ).loc main_arg5)) 4 Cert.ReferenceIdeal.Facts₀.slices_S10x256_S1x256_4_0 := by
    refine (bsl5 (W10 m ρ c)).trans ?_
    rw [at10_main_arg5]
  have hagg : W11 m ρ c (Proc.devRef .tc main_v101)
      = Cert.Spec.spread256 (F := Ideal) (m ((c : Thread nD τ).loc main_arg12)) (m ((c : Thread nD τ).loc main_arg13)) (mulf (feat4 m c) (Cert.Spec.along256 (F := Ideal) (dOutCol m c))) := by
    refine (agg5 (W10 m ρ c)).trans ?_
    rw [at10_main_arg12, at10_main_arg13, ih]
  refine ⟨(W12_arr m ρ c 5).trans ((ConvVal.arr5_5 (V11 m ρ) c (Cert.Spec.sliceW (F := Ideal) (m ((c : Thread nD τ).loc main_arg4)) 4 Cert.ReferenceIdeal.Facts₀.slices_S10x256x256_S1x256x256_4_0_0) hw).trans ?_),
    (W12_arr m ρ c 6).trans ((ConvVal.arr5_6 (V11 m ρ) c (Cert.Spec.sliceW (F := Ideal) (m ((c : Thread nD τ).loc main_arg4)) 4 Cert.ReferenceIdeal.Facts₀.slices_S10x256x256_S1x256x256_4_0_0) hw).trans ?_)⟩
  · show Cert.Spec.relu256 (F := Ideal) (Cert.Spec.lin256 (F := Ideal) (W11 m ρ c (Proc.devRef .tc main_v101)) (W11 m ρ c (Proc.devRef .tc main_v16)) _ (W11 m ρ c (Proc.devRef .tc main_v105))) = _
    rw [hagg, hdi, hb]
    rfl
  · show mulf (Cert.Spec.relu256 (F := Ideal) (Cert.Spec.lin256 (F := Ideal) (W11 m ρ c (Proc.devRef .tc main_v101)) (W11 m ρ c (Proc.devRef .tc main_v16)) _ (W11 m ρ c (Proc.devRef .tc main_v105))))
        (Cert.Spec.along256 (F := Ideal) (W11 m ρ c (Proc.devRef .tc main_v13))) = _
    rw [hagg, hdi, hb, hdo]
    rfl

end Cert.KernelIdeal.KVal

end
-- ==== Proof.Conv6Blocks.lean ====
/-
  Region 6 of the network (a convolution's dense part over 10 row tiles of 2000 nodes): where each window's block sits
  in its array. Tile t of a per-node array is rows 2000 t … 2000 t + 1999 with all columns; the weights and the bias have one
  block, the whole array. An index of an output array lies in the block of tile (row / 2000), so the ten blocks cover it.
-/
import proofs.«126634_j63780264346183_1_alg».proof.Proof.Gen.KernelIdeal.Points
import proofs.«126634_j63780264346183_1_alg».proof.Proof.Gen.KernelIdeal.Launch
import Idealize.ShloMosaic.Lib.Pipeline.Value
import Idealize.ShloMosaic.Lib.ValueIdx

noncomputable section

namespace Cert.KernelIdeal.ConvVal

open Cert.KernelIdeal Cert.KernelIdeal.Gen Idealize.ShloMosaic Idealize.ShloMosaic.TcCoe Idealize.SL.Sem
open Idealize.ShloMosaic.ValueIdx

/-- The grid of region 6 has ten points. -/
theorem lt6 (t : Fin cfg6.N) : t.val < 10 := by
  have h := t.isLt
  have hN : cfg6.N = 10 := N_6
  omega

/-- The block index of every window at tile t: (t, 0) for the per-node arrays, zero for the weights and the bias. -/
theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 1) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

/-- Tile t of the aggregated features: its row p is row 2000 t + p of the array. -/
theorem read6_0 (X : FVec Ideal S20000x256 .f32) (t : Fin cfg6.N) (p : Fin 2000) (k : Fin 256) (r : Fin 20000)
    (hr : r.val = t.val * 2000 + p.val) :
    (((cfg6.win 0).blk t).view.read (Elt Ideal) X : Vec Ideal S2000x256 .f32) (ix2 p k) = X (ix2 r k) := by
  show X (((cfg6.win 0).blk t).view.emb (ix2 p k)) = X _
  refine congrArg X ?_
  funext a; apply Fin.ext
  match a with
  | ⟨0, _⟩ => show win6_0.index t (0 : Fin 2) * 2000 + 1 * p.val = r.val; rw [(idx6 t).1, hr]; omega
  | ⟨1, _⟩ => show win6_0.index t (1 : Fin 2) * 256 + 1 * k.val = k.val; rw [(idx6 t).2.1]; omega

/-- Tile t of the target-side factor, a column. -/
theorem read6_1 (X : FVec Ideal S20000x1 .f32) (t : Fin cfg6.N) (p : Fin 2000) (r : Fin 20000)
    (hr : r.val = t.val * 2000 + p.val) :
    (((cfg6.win 1).blk t).view.read (Elt Ideal) X : Vec Ideal S2000x1 .f32) (ix2 p 0) = X (ix2 r 0) := by
  show X (((cfg6.win 1).blk t).view.emb (ix2 p 0)) = X _
  refine congrArg X ?_
  funext a; apply Fin.ext
  match a with
  | ⟨0, _⟩ => show win6_1.index t (0 : Fin 2) * 2000 + 1 * p.val = r.val; rw [(idx6 t).2.2.1, hr]; omega
  | ⟨1, _⟩ => show win6_1.index t (1 : Fin 2) * 1 + 1 * 0 = 0; rw [(idx6 t).2.2.2.1]

/-- Tile t of the source-side factor, a column. -/
theorem read6_2 (X : FVec Ideal S20000x1 .f32) (t : Fin cfg6.N) (p : Fin 2000) (r : Fin 20000)
    (hr : r.val = t.val * 2000 + p.val) :
    (((cfg6.win 2).blk t).view.read (Elt Ideal) X : Vec Ideal S2000x1 .f32) (ix2 p 0) = X (ix2 r 0) := by
  show X (((cfg6.win 2).blk t).view.emb (ix2 p 0)) = X _
  refine congrArg X ?_
  funext a; apply Fin.ext
  match a with
  | ⟨0, _⟩ => show win6_2.index t (0 : Fin 2) * 2000 + 1 * p.val = r.val; rw [(idx6 t).2.2.2.2.1, hr]; omega
  | ⟨1, _⟩ => show win6_2.index t (1 : Fin 2) * 1 + 1 * 0 = 0; rw [(idx6 t).2.2.2.2.2.1]

/-- The weights' one block is the whole array. -/
theorem read6_3 (X : FVec Ideal S256x256 .bf16) (t : Fin cfg6.N) :
    (((cfg6.win 3).blk t).view.read (Elt Ideal) X : Vec Ideal S256x256 .bf16) = X := by
  funext y
  show X (((cfg6.win 3).blk t).view.emb y) = X y
  refine congrArg X ?_
  funext a; apply Fin.ext
  match a with
  | ⟨0, _⟩ => show win6_3.index t (0 : Fin 2) * 256 + 1 * (y 0).val = (y 0).val; rw [(idx6 t).2.2.2.2.2.2.1]; omega
  | ⟨1, _⟩ => show win6_3.index t (1 : Fin 2) * 256 + 1 * (y 1).val = (y 1).val; rw [(idx6 t).2.2.2.2.2.2.2.1]; omega

/-- The bias's one block is the whole array. -/
theorem read6_4 (X : FVec Ideal S256 .f32) (t : Fin cfg6.N) :
    (((cfg6.win 4).blk t).view.read (Elt Ideal) X : Vec Ideal S256 .f32) = X := by
  funext y
  show X (((cfg6.win 4).blk t).view.emb y) = X y
  refine congrArg X ?_
  funext a; apply Fin.ext
  match a with
  | ⟨0, _⟩ => show win6_4.index t (0 : Fin 1) * 256 + 1 * (y 0).val = (y 0).val; rw [(idx6 t).2.2.2.2.2.2.2.2.1]; omega

/-- Tile t of the first output: its row p is row 2000 t + p of the array. -/
theorem read6_5 (X : FVec Ideal S20000x256 .f32) (t : Fin cfg6.N) (p : Fin 2000) (k : Fin 256) (r : Fin 20000)
    (hr : r.val = t.val * 2000 + p.val) :
    (((cfg6.win 5).blk t).view.read (Elt Ideal) X : Vec Ideal S2000x256 .f32) (ix2 p k) = X (ix2 r k) := by
  show X (((cfg6.win 5).blk t).view.emb (ix2 p k)) = X _
  refine congrArg X ?_
  funext a; apply Fin.ext
  match a with
  | ⟨0, _⟩ => show win6_5.index t (0 : Fin 2) * 2000 + 1 * p.val = r.val; rw [(idx6 t).2.2.2.2.2.2.2.2.2.1, hr]; omega
  | ⟨1, _⟩ => show win6_5.index t (1 : Fin 2) * 256 + 1 * k.val = k.val; rw [(idx6 t).2.2.2.2.2.2.2.2.2.2.1]; omega

/-- Tile t of the second output. -/
theorem read6_6 (X : FVec Ideal S20000x256 .f32) (t : Fin cfg6.N) (p : Fin 2000) (k : Fin 256) (r : Fin 20000)
    (hr : r.val = t.val * 2000 + p.val) :
    (((cfg6.win 6).blk t).view.read (Elt Ideal) X : Vec Ideal S2000x256 .f32) (ix2 p k) = X (ix2 r k) := by
  show X (((cfg6.win 6).blk t).view.emb (ix2 p k)) = X _
  refine congrArg X ?_
  funext a; apply Fin.ext
  match a with
  | ⟨0, _⟩ => show win6_6.index t (0 : Fin 2) * 2000 + 1 * p.val = r.val; rw [(idx6 t).2.2.2.2.2.2.2.2.2.2.2.1, hr]; omega
  | ⟨1, _⟩ => show win6_6.index t (1 : Fin 2) * 256 + 1 * k.val = k.val; rw [(idx6 t).2.2.2.2.2.2.2.2.2.2.2.2]; omega

/-- An index of the first output array is in tile t's block iff each coordinate is in the block's range on its axis. -/
theorem mem_blk6_5 (t : Fin cfg6.N) (i : S20000x256.Idx) :
    i ∈ ((cfg6.win 5).blk t).view.set ↔ ∀ a : Fin 2, win6_5.index t a * S2000x256.size a ≤ (i a).val ∧ (i a).val < win6_5.index t a * S2000x256.size a + S2000x256.size a := by
  show i ∈ ((View.whole main_v121_0).slice (win6_5.rect t)).set ↔ _
  rw [View.set_slice_whole, Rect.mem_set_unit]
  exact Iff.rfl

/-- The same for the second output array. -/
theorem mem_blk6_6 (t : Fin cfg6.N) (i : S20000x256.Idx) :
    i ∈ ((cfg6.win 6).blk t).view.set ↔ ∀ a : Fin 2, win6_6.index t a * S2000x256.size a ≤ (i a).val ∧ (i a).val < win6_6.index t a * S2000x256.size a + S2000x256.size a := by
  show i ∈ ((View.whole main_v121_1).slice (win6_6.rect t)).set ↔ _
  rw [View.set_slice_whole, Rect.mem_set_unit]
  exact Iff.rfl

/-- Row r of the first output lies in the block of tile r / 2000, which is written back. -/
theorem cover6_5 (i : S20000x256.Idx) : ∃ t : Fin cfg6.N, (cfg6.win 5).flush t = true ∧ i ∈ ((cfg6.win 5).blk t).view.set := by
  have hi0 : (i 0).val < 20000 := (i 0).isLt
  have hi1 : (i 1).val < 256 := (i 1).isLt
  have hN : cfg6.N = 10 := N_6
  refine ⟨⟨(i 0).val / 2000, by omega⟩, flush6_5 _, ?_⟩
  rw [mem_blk6_5]
  intro a
  have e := idx6 ⟨(i 0).val / 2000, by omega⟩
  match a with
  | ⟨0, _⟩ => show win6_5.index _ (0 : Fin 2) * 2000 ≤ (i 0).val ∧ (i 0).val < win6_5.index _ (0 : Fin 2) * 2000 + 2000
              rw [e.2.2.2.2.2.2.2.2.2.1]; show (i 0).val / 2000 * 2000 ≤ (i 0).val ∧ (i 0).val < (i 0).val / 2000 * 2000 + 2000; omega
  | ⟨1, _⟩ => show win6_5.index _ (1 : Fin 2) * 256 ≤ (i 1).val ∧ (i 1).val < win6_5.index _ (1 : Fin 2) * 256 + 256
              rw [e.2.2.2.2.2.2.2.2.2.2.1]; omega

/-- The same for the second output. -/
theorem cover6_6 (i : S20000x256.Idx) : ∃ t : Fin cfg6.N, (cfg6.win 6).flush t = true ∧ i ∈ ((cfg6.win 6).blk t).view.set := by
  have hi0 : (i 0).val < 20000 := (i 0).isLt
  have hi1 : (i 1).val < 256 := (i 1).isLt
  have hN : cfg6.N = 10 := N_6
  refine ⟨⟨(i 0).val / 2000, by omega⟩, flush6_6 _, ?_⟩
  rw [mem_blk6_6]
  intro a
  have e := idx6 ⟨(i 0).val / 2000, by omega⟩
  match a with
  | ⟨0, _⟩ => show win6_6.index _ (0 : Fin 2) * 2000 ≤ (i 0).val ∧ (i 0).val < win6_6.index _ (0 : Fin 2) * 2000 + 2000
              rw [e.2.2.2.2.2.2.2.2.2.2.2.1]; show (i 0).val / 2000 * 2000 ≤ (i 0).val ∧ (i 0).val < (i 0).val / 2000 * 2000 + 2000; omega
  | ⟨1, _⟩ => show win6_6.index _ (1 : Fin 2) * 256 ≤ (i 1).val ∧ (i 1).val < win6_6.index _ (1 : Fin 2) * 256 + 256
              rw [e.2.2.2.2.2.2.2.2.2.2.2.2]; omega

end Cert.KernelIdeal.ConvVal

end
-- ==== Proof.Conv6.lean ====
/-
  Region 6 of the network: the two output arrays after its ten row tiles. Each tile's write-back is the tile's rows of one
  whole-array function of the arrays the region finds — the rectified linear part of the convolution (the aggregated features times
  the target-side factor, times the weights, plus the bias, then max(·, 0)), and that times the source-side factor — because a tile's
  row p reads row 2000 t + p of every per-node array and all of the weights and the bias. The ten tiles cover the array, so
  the arrays end holding those functions.
-/
import proofs.«126634_j63780264346183_1_alg».proof.Proof.Gen.KernelIdeal.Frame
import proofs.«126634_j63780264346183_1_alg».proof.Proof.Spec
import proofs.«126634_j63780264346183_1_alg».proof.Proof.ConvTile
import proofs.«126634_j63780264346183_1_alg».proof.Proof.ConvTileSame
import proofs.«126634_j63780264346183_1_alg».proof.Proof.Conv6Blocks

noncomputable section

namespace Cert.KernelIdeal.ConvVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

theorem hz6_2 : (![0, 0] : Fin 2 → Nat) = fun _ => 0 := funext fun a => by fin_cases a <;> rfl
theorem hz6_1 : (![0] : Fin 1 → Nat) = fun _ => 0 := funext fun a => by fin_cases a; rfl

/-- The rectified linear part on the arrays region 6 finds, with the weights before their rounding named W. -/
abbrev G6_5 (W : FVec Ideal S256x256 .f32) : FVec Ideal S20000x256 .f32 :=
  Cert.Spec.relu256 (Cert.Spec.lin256 (V c (Pipeline.arrRef spec6 0)) (V c (Pipeline.arrRef spec6 1)) W (V c (Pipeline.arrRef spec6 4)))

/-- The same scaled by the source-side factor along the features. -/
abbrev G6_6 (W : FVec Ideal S256x256 .f32) : FVec Ideal S20000x256 .f32 :=
  mulf (G6_5 V c W) (Cert.Spec.along256 (V c (Pipeline.arrRef spec6 2)))

/-- What tile t writes back to the first output is tile t of the rectified linear part. -/
theorem flushed6_5 (W : FVec Ideal S256x256 .f32) (hW : V c (Pipeline.arrRef spec6 3) = truncf .bf16 W bitsLt_bf16_f32)
    (t : Fin cfg6.N) :
    (dat6 V c).flushed 5 t = ((cfg6.win 5).blk t).view.read (Elt Ideal) (G6_5 V c W) := by
  show (cfg6.win 5).cut (grid6.coords t) ((dat6 V c).after 5 t) = _
  rw [after6_5]
  unfold out6_5
  rw [View.canon_unit_zero hz6_2]
  simp only [View.ld_unit_zero (S := S2000x256) hz6_2, View.ld_unit_zero (S := S2000x1) hz6_2,
    View.ld_unit_zero (S := S256x256) hz6_2, View.ld_unit_zero (S := S256) hz6_1]
  have key : (k1_pay1 (iblk6 V c 0 t) (iblk6 V c 1 t) (iblk6 V c 3 t) (iblk6 V c 4 t) : Vec Ideal S2000x256 .f32)
      = (((cfg6.win 5).blk t).view.read (Elt Ideal) (G6_5 V c W) : Vec Ideal S2000x256 .f32) := by
    funext j
    obtain ⟨p, q, rfl⟩ : ∃ (p : Fin 2000) (q : Fin 256), j = ix2 p q := ⟨j 0, j 1, eq_ix2 j⟩
    refine (ConvTile.pay256_relu (A := (V c (Pipeline.arrRef spec6 0))) (D := (V c (Pipeline.arrRef spec6 1))) (W := W) (B := (V c (Pipeline.arrRef spec6 4)))
      (x0 := iblk6 V c 0 t) (x1 := iblk6 V c 1 t) (x3 := iblk6 V c 3 t) (x4 := iblk6 V c 4 t) (t := t.val) (ht := lt6 t)
      (h0 := ?_) (h1 := ?_) (h3 := ?_) (h4 := ?_) (p := p) (q := q)).trans ?_
    · intro p k; exact read6_0 (V c (Pipeline.arrRef spec6 0)) t p k _ rfl
    · intro p; exact read6_1 (V c (Pipeline.arrRef spec6 1)) t p _ rfl
    · exact (read6_3 (V c (Pipeline.arrRef spec6 3)) t).trans hW
    · exact read6_4 (V c (Pipeline.arrRef spec6 4)) t
    · exact (read6_5 (G6_5 V c W) t p q _ rfl).symm
  rw [ConvTile.k6_pay1_eq]
  exact key

/-- What tile t writes back to the second output is tile t of the scaled rectified linear part. -/
theorem flushed6_6 (W : FVec Ideal S256x256 .f32) (hW : V c (Pipeline.arrRef spec6 3) = truncf .bf16 W bitsLt_bf16_f32)
    (t : Fin cfg6.N) :
    (dat6 V c).flushed 6 t = ((cfg6.win 6).blk t).view.read (Elt Ideal) (G6_6 V c W) := by
  show (cfg6.win 6).cut (grid6.coords t) ((dat6 V c).after 6 t) = _
  rw [after6_6]
  unfold out6_6
  rw [View.canon_unit_zero hz6_2]
  simp only [View.ld_unit_zero (S := S2000x256) hz6_2, View.ld_unit_zero (S := S2000x1) hz6_2,
    View.ld_unit_zero (S := S256x256) hz6_2, View.ld_unit_zero (S := S256) hz6_1]
  have key : (k1_pay2 (iblk6 V c 0 t) (iblk6 V c 1 t) (iblk6 V c 3 t) (iblk6 V c 4 t) (iblk6 V c 2 t) : Vec Ideal S2000x256 .f32)
      = (((cfg6.win 6).blk t).view.read (Elt Ideal) (G6_6 V c W) : Vec Ideal S2000x256 .f32) := by
    funext j
    obtain ⟨p, q, rfl⟩ : ∃ (p : Fin 2000) (q : Fin 256), j = ix2 p q := ⟨j 0, j 1, eq_ix2 j⟩
    refine (ConvTile.pay256_relu_scaled (A := (V c (Pipeline.arrRef spec6 0))) (D := (V c (Pipeline.arrRef spec6 1))) (W := W) (B := (V c (Pipeline.arrRef spec6 4))) (D2 := (V c (Pipeline.arrRef spec6 2)))
      (x0 := iblk6 V c 0 t) (x1 := iblk6 V c 1 t) (x3 := iblk6 V c 3 t) (x4 := iblk6 V c 4 t) (x2 := iblk6 V c 2 t)
      (t := t.val) (ht := lt6 t) (h0 := ?_) (h1 := ?_) (h2 := ?_) (h3 := ?_) (h4 := ?_) (p := p) (q := q)).trans ?_
    · intro p k; exact read6_0 (V c (Pipeline.arrRef spec6 0)) t p k _ rfl
    · intro p; exact read6_1 (V c (Pipeline.arrRef spec6 1)) t p _ rfl
    · intro p; exact read6_2 (V c (Pipeline.arrRef spec6 2)) t p _ rfl
    · exact (read6_3 (V c (Pipeline.arrRef spec6 3)) t).trans hW
    · exact read6_4 (V c (Pipeline.arrRef spec6 4)) t
    · exact (read6_6 (G6_6 V c W) t p q _ rfl).symm
  rw [ConvTile.k6_pay2_eq]
  exact key

/-- The first output array after the region: the rectified linear part of the arrays the region finds. -/
theorem arr6_5 (W : FVec Ideal S256x256 .f32) (hW : V c (Pipeline.arrRef spec6 3) = truncf .bf16 W bitsLt_bf16_f32) :
    (dat6 V c).arrAt 5 cfg6.N = Cert.Spec.relu256 (Cert.Spec.lin256 (V c (Pipeline.arrRef spec6 0)) (V c (Pipeline.arrRef spec6 1)) W (V c (Pipeline.arrRef spec6 4))) :=
  (dat6 V c).arrAt_eq_of_cover 5 (G6_5 V c W) (fun t _ => flushed6_5 V c W hW t) cover6_5

/-- The second output array after the region: the same times the source-side factor. -/
theorem arr6_6 (W : FVec Ideal S256x256 .f32) (hW : V c (Pipeline.arrRef spec6 3) = truncf .bf16 W bitsLt_bf16_f32) :
    (dat6 V c).arrAt 6 cfg6.N = mulf (Cert.Spec.relu256 (Cert.Spec.lin256 (V c (Pipeline.arrRef spec6 0)) (V c (Pipeline.arrRef spec6 1)) W (V c (Pipeline.arrRef spec6 4)))) (Cert.Spec.along256 (V c (Pipeline.arrRef spec6 2))) :=
  (dat6 V c).arrAt_eq_of_cover 6 (G6_6 V c W) (fun t _ => flushed6_6 V c W hW t) cover6_6

end Cert.KernelIdeal.ConvVal

end
-- ==== Proof.KLayer6.lean ====
/-
  Convolution 6 (layer 5 of the stacked parameters). The stretch of host operations before it gathers the previous features,
  already scaled by the source-side degree column, at the edges' sources and adds them into the targets, and slices the layer's
  weights (bf16) and bias out of the stacks; the launch writes back, row tile by row tile, max(·, 0) of the linear map of the
  target-scaled aggregate plus the bias, and the same scaled by the source-side column for the next gather.
-/
import proofs.«126634_j63780264346183_1_alg».proof.Proof.Gen.KernelIdeal.Frame
import proofs.«126634_j63780264346183_1_alg».proof.Proof.KStretch
import proofs.«126634_j63780264346183_1_alg».proof.Proof.KAt
import proofs.«126634_j63780264346183_1_alg».proof.Proof.KBasics
import proofs.«126634_j63780264346183_1_alg».proof.Proof.KFeat
import proofs.«126634_j63780264346183_1_alg».proof.Proof.Conv6

set_option maxRecDepth 16384

noncomputable section

namespace Cert.KernelIdeal.KVal

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-- After launch 6: the features of convolution 6, and those features scaled by the source-side degree column. -/
theorem layer6 (ih : W12 m ρ c (Proc.devRef .tc main_v106_1) = mulf (feat5 m c) (Cert.Spec.along256 (F := Ideal) (dOutCol m c))) :
    W14 m ρ c (Proc.devRef .tc main_v121_0) = feat6 m c
    ∧ W14 m ρ c (Proc.devRef .tc main_v121_1) = mulf (feat6 m c) (Cert.Spec.along256 (F := Ideal) (dOutCol m c)) := by
  have hdo : W13 m ρ c (Proc.devRef .tc main_v13) = dOutCol m c :=
    (at13_main_v13 m ρ c).trans (col_eq _ _ Cert.ReferenceIdeal.Facts₀.bcast_S20000_S20000x1_0)
  have hdi : W13 m ρ c (Proc.devRef .tc main_v16) = dInCol m c :=
    (at13_main_v16 m ρ c).trans (col_eq _ _ Cert.ReferenceIdeal.Facts₀.bcast_S20000_S20000x1_0)
  have hw : W13 m ρ c (Proc.devRef .tc main_v118) = truncf .bf16 (Cert.Spec.sliceW (F := Ideal) (m ((c : Thread nD τ).loc main_arg4)) 5 Cert.ReferenceIdeal.Facts₀.slices_S10x256x256_S1x256x256_5_0_0) bitsLt_bf16_f32 := by
    refine (wsl6 (W12 m ρ c)).trans ?_
    rw [at12_main_v18]
    rfl
  have hb : W13 m ρ c (Proc.devRef .tc main_v120) = Cert.Spec.sliceB (F := Ideal) (m ((c : Thread nD τ).loc main_arg5)) 5 Cert.ReferenceIdeal.Facts₀.slices_S10x256_S1x256_5_0 := by
    refine (bsl6 (W12 m ρ c)).trans ?_
    rw [at12_main_arg5]
  have hagg : W13 m ρ c (Proc.devRef .tc main_v116)
      = Cert.Spec.spread256 (F := Ideal) (m ((c : Thread nD τ).loc main_arg12)) (m ((c : Thread nD τ).loc main_arg13)) (mulf (feat5 m c) (Cert.Spec.along256 (F := Ideal) (dOutCol m c))) := by
    refine (agg6 (W12 m ρ c)).trans ?_
    rw [at12_main_arg12, at12_main_arg13, ih]
  refine ⟨(W14_arr m ρ c 5).trans ((ConvVal.arr6_5 (V13 m ρ) c (Cert.Spec.sliceW (F := Ideal) (m ((c : Thread nD τ).loc main_arg4)) 5 Cert.ReferenceIdeal.Facts₀.slices_S10x256x256_S1x256x256_5_0_0) hw).trans ?_),
    (W14_arr m ρ c 6).trans ((ConvVal.arr6_6 (V13 m ρ) c (Cert.Spec.sliceW (F := Ideal) (m ((c : Thread nD τ).loc main_arg4)) 5 Cert.ReferenceIdeal.Facts₀.slices_S10x256x256_S1x256x256_5_0_0) hw).trans ?_)⟩
  · show Cert.Spec.relu256 (F := Ideal) (Cert.Spec.lin256 (F := Ideal) (W13 m ρ c (Proc.devRef .tc main_v116)) (W13 m ρ c (Proc.devRef .tc main_v16)) _ (W13 m ρ c (Proc.devRef .tc main_v120))) = _
    rw [hagg, hdi, hb]
    rfl
  · show mulf (Cert.Spec.relu256 (F := Ideal) (Cert.Spec.lin256 (F := Ideal) (W13 m ρ c (Proc.devRef .tc main_v116)) (W13 m ρ c (Proc.devRef .tc main_v16)) _ (W13 m ρ c (Proc.devRef .tc main_v120))))
        (Cert.Spec.along256 (F := Ideal) (W13 m ρ c (Proc.devRef .tc main_v13))) = _
    rw [hagg, hdi, hb, hdo]
    rfl

end Cert.KernelIdeal.KVal

end
-- ==== Proof.Conv7Blocks.lean ====
/-
  Region 7 of the network (a convolution's dense part over 10 row tiles of 2000 nodes): where each window's block sits
  in its array. Tile t of a per-node array is rows 2000 t … 2000 t + 1999 with all columns; the weights and the bias have one
  block, the whole array. An index of an output array lies in the block of tile (row / 2000), so the ten blocks cover it.
-/
import proofs.«126634_j63780264346183_1_alg».proof.Proof.Gen.KernelIdeal.Points
import proofs.«126634_j63780264346183_1_alg».proof.Proof.Gen.KernelIdeal.Launch
import Idealize.ShloMosaic.Lib.Pipeline.Value
import Idealize.ShloMosaic.Lib.ValueIdx

noncomputable section

namespace Cert.KernelIdeal.ConvVal

open Cert.KernelIdeal Cert.KernelIdeal.Gen Idealize.ShloMosaic Idealize.ShloMosaic.TcCoe Idealize.SL.Sem
open Idealize.ShloMosaic.ValueIdx

/-- The grid of region 7 has ten points. -/
theorem lt7 (t : Fin cfg7.N) : t.val < 10 := by
  have h := t.isLt
  have hN : cfg7.N = 10 := N_7
  omega

/-- The block index of every window at tile t: (t, 0) for the per-node arrays, zero for the weights and the bias. -/
theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 1) = 0
    ∧ win7_5.index t (0 : Fin 2) = t.val ∧ win7_5.index t (1 : Fin 2) = 0
    ∧ win7_6.index t (0 : Fin 2) = t.val ∧ win7_6.index t (1 : Fin 2) = 0 :=
  (by decide +kernel : ∀ t : Fin grid7.N, _)

/-- Tile t of the aggregated features: its row p is row 2000 t + p of the array. -/
theorem read7_0 (X : FVec Ideal S20000x256 .f32) (t : Fin cfg7.N) (p : Fin 2000) (k : Fin 256) (r : Fin 20000)
    (hr : r.val = t.val * 2000 + p.val) :
    (((cfg7.win 0).blk t).view.read (Elt Ideal) X : Vec Ideal S2000x256 .f32) (ix2 p k) = X (ix2 r k) := by
  show X (((cfg7.win 0).blk t).view.emb (ix2 p k)) = X _
  refine congrArg X ?_
  funext a; apply Fin.ext
  match a with
  | ⟨0, _⟩ => show win7_0.index t (0 : Fin 2) * 2000 + 1 * p.val = r.val; rw [(idx7 t).1, hr]; omega
  | ⟨1, _⟩ => show win7_0.index t (1 : Fin 2) * 256 + 1 * k.val = k.val; rw [(idx7 t).2.1]; omega

/-- Tile t of the target-side factor, a column. -/
theorem read7_1 (X : FVec Ideal S20000x1 .f32) (t : Fin cfg7.N) (p : Fin 2000) (r : Fin 20000)
    (hr : r.val = t.val * 2000 + p.val) :
    (((cfg7.win 1).blk t).view.read (Elt Ideal) X : Vec Ideal S2000x1 .f32) (ix2 p 0) = X (ix2 r 0) := by
  show X (((cfg7.win 1).blk t).view.emb (ix2 p 0)) = X _
  refine congrArg X ?_
  funext a; apply Fin.ext
  match a with
  | ⟨0, _⟩ => show win7_1.index t (0 : Fin 2) * 2000 + 1 * p.val = r.val; rw [(idx7 t).2.2.1, hr]; omega
  | ⟨1, _⟩ => show win7_1.index t (1 : Fin 2) * 1 + 1 * 0 = 0; rw [(idx7 t).2.2.2.1]

/-- Tile t of the source-side factor, a column. -/
theorem read7_2 (X : FVec Ideal S20000x1 .f32) (t : Fin cfg7.N) (p : Fin 2000) (r : Fin 20000)
    (hr : r.val = t.val * 2000 + p.val) :
    (((cfg7.win 2).blk t).view.read (Elt Ideal) X : Vec Ideal S2000x1 .f32) (ix2 p 0) = X (ix2 r 0) := by
  show X (((cfg7.win 2).blk t).view.emb (ix2 p 0)) = X _
  refine congrArg X ?_
  funext a; apply Fin.ext
  match a with
  | ⟨0, _⟩ => show win7_2.index t (0 : Fin 2) * 2000 + 1 * p.val = r.val; rw [(idx7 t).2.2.2.2.1, hr]; omega
  | ⟨1, _⟩ => show win7_2.index t (1 : Fin 2) * 1 + 1 * 0 = 0; rw [(idx7 t).2.2.2.2.2.1]

/-- The weights' one block is the whole array. -/
theorem read7_3 (X : FVec Ideal S256x256 .bf16) (t : Fin cfg7.N) :
    (((cfg7.win 3).blk t).view.read (Elt Ideal) X : Vec Ideal S256x256 .bf16) = X := by
  funext y
  show X (((cfg7.win 3).blk t).view.emb y) = X y
  refine congrArg X ?_
  funext a; apply Fin.ext
  match a with
  | ⟨0, _⟩ => show win7_3.index t (0 : Fin 2) * 256 + 1 * (y 0).val = (y 0).val; rw [(idx7 t).2.2.2.2.2.2.1]; omega
  | ⟨1, _⟩ => show win7_3.index t (1 : Fin 2) * 256 + 1 * (y 1).val = (y 1).val; rw [(idx7 t).2.2.2.2.2.2.2.1]; omega

/-- The bias's one block is the whole array. -/
theorem read7_4 (X : FVec Ideal S256 .f32) (t : Fin cfg7.N) :
    (((cfg7.win 4).blk t).view.read (Elt Ideal) X : Vec Ideal S256 .f32) = X := by
  funext y
  show X (((cfg7.win 4).blk t).view.emb y) = X y
  refine congrArg X ?_
  funext a; apply Fin.ext
  match a with
  | ⟨0, _⟩ => show win7_4.index t (0 : Fin 1) * 256 + 1 * (y 0).val = (y 0).val; rw [(idx7 t).2.2.2.2.2.2.2.2.1]; omega

/-- Tile t of the first output: its row p is row 2000 t + p of the array. -/
theorem read7_5 (X : FVec Ideal S20000x256 .f32) (t : Fin cfg7.N) (p : Fin 2000) (k : Fin 256) (r : Fin 20000)
    (hr : r.val = t.val * 2000 + p.val) :
    (((cfg7.win 5).blk t).view.read (Elt Ideal) X : Vec Ideal S2000x256 .f32) (ix2 p k) = X (ix2 r k) := by
  show X (((cfg7.win 5).blk t).view.emb (ix2 p k)) = X _
  refine congrArg X ?_
  funext a; apply Fin.ext
  match a with
  | ⟨0, _⟩ => show win7_5.index t (0 : Fin 2) * 2000 + 1 * p.val = r.val; rw [(idx7 t).2.2.2.2.2.2.2.2.2.1, hr]; omega
  | ⟨1, _⟩ => show win7_5.index t (1 : Fin 2) * 256 + 1 * k.val = k.val; rw [(idx7 t).2.2.2.2.2.2.2.2.2.2.1]; omega

/-- Tile t of the second output. -/
theorem read7_6 (X : FVec Ideal S20000x256 .f32) (t : Fin cfg7.N) (p : Fin 2000) (k : Fin 256) (r : Fin 20000)
    (hr : r.val = t.val * 2000 + p.val) :
    (((cfg7.win 6).blk t).view.read (Elt Ideal) X : Vec Ideal S2000x256 .f32) (ix2 p k) = X (ix2 r k) := by
  show X (((cfg7.win 6).blk t).view.emb (ix2 p k)) = X _
  refine congrArg X ?_
  funext a; apply Fin.ext
  match a with
  | ⟨0, _⟩ => show win7_6.index t (0 : Fin 2) * 2000 + 1 * p.val = r.val; rw [(idx7 t).2.2.2.2.2.2.2.2.2.2.2.1, hr]; omega
  | ⟨1, _⟩ => show win7_6.index t (1 : Fin 2) * 256 + 1 * k.val = k.val; rw [(idx7 t).2.2.2.2.2.2.2.2.2.2.2.2]; omega

/-- An index of the first output array is in tile t's block iff each coordinate is in the block's range on its axis. -/
theorem mem_blk7_5 (t : Fin cfg7.N) (i : S20000x256.Idx) :
    i ∈ ((cfg7.win 5).blk t).view.set ↔ ∀ a : Fin 2, win7_5.index t a * S2000x256.size a ≤ (i a).val ∧ (i a).val < win7_5.index t a * S2000x256.size a + S2000x256.size a := by
  show i ∈ ((View.whole main_v136_0).slice (win7_5.rect t)).set ↔ _
  rw [View.set_slice_whole, Rect.mem_set_unit]
  exact Iff.rfl

/-- The same for the second output array. -/
theorem mem_blk7_6 (t : Fin cfg7.N) (i : S20000x256.Idx) :
    i ∈ ((cfg7.win 6).blk t).view.set ↔ ∀ a : Fin 2, win7_6.index t a * S2000x256.size a ≤ (i a).val ∧ (i a).val < win7_6.index t a * S2000x256.size a + S2000x256.size a := by
  show i ∈ ((View.whole main_v136_1).slice (win7_6.rect t)).set ↔ _
  rw [View.set_slice_whole, Rect.mem_set_unit]
  exact Iff.rfl

/-- Row r of the first output lies in the block of tile r / 2000, which is written back. -/
theorem cover7_5 (i : S20000x256.Idx) : ∃ t : Fin cfg7.N, (cfg7.win 5).flush t = true ∧ i ∈ ((cfg7.win 5).blk t).view.set := by
  have hi0 : (i 0).val < 20000 := (i 0).isLt
  have hi1 : (i 1).val < 256 := (i 1).isLt
  have hN : cfg7.N = 10 := N_7
  refine ⟨⟨(i 0).val / 2000, by omega⟩, flush7_5 _, ?_⟩
  rw [mem_blk7_5]
  intro a
  have e := idx7 ⟨(i 0).val / 2000, by omega⟩
  match a with
  | ⟨0, _⟩ => show win7_5.index _ (0 : Fin 2) * 2000 ≤ (i 0).val ∧ (i 0).val < win7_5.index _ (0 : Fin 2) * 2000 + 2000
              rw [e.2.2.2.2.2.2.2.2.2.1]; show (i 0).val / 2000 * 2000 ≤ (i 0).val ∧ (i 0).val < (i 0).val / 2000 * 2000 + 2000; omega
  | ⟨1, _⟩ => show win7_5.index _ (1 : Fin 2) * 256 ≤ (i 1).val ∧ (i 1).val < win7_5.index _ (1 : Fin 2) * 256 + 256
              rw [e.2.2.2.2.2.2.2.2.2.2.1]; omega

/-- The same for the second output. -/
theorem cover7_6 (i : S20000x256.Idx) : ∃ t : Fin cfg7.N, (cfg7.win 6).flush t = true ∧ i ∈ ((cfg7.win 6).blk t).view.set := by
  have hi0 : (i 0).val < 20000 := (i 0).isLt
  have hi1 : (i 1).val < 256 := (i 1).isLt
  have hN : cfg7.N = 10 := N_7
  refine ⟨⟨(i 0).val / 2000, by omega⟩, flush7_6 _, ?_⟩
  rw [mem_blk7_6]
  intro a
  have e := idx7 ⟨(i 0).val / 2000, by omega⟩
  match a with
  | ⟨0, _⟩ => show win7_6.index _ (0 : Fin 2) * 2000 ≤ (i 0).val ∧ (i 0).val < win7_6.index _ (0 : Fin 2) * 2000 + 2000
              rw [e.2.2.2.2.2.2.2.2.2.2.2.1]; show (i 0).val / 2000 * 2000 ≤ (i 0).val ∧ (i 0).val < (i 0).val / 2000 * 2000 + 2000; omega
  | ⟨1, _⟩ => show win7_6.index _ (1 : Fin 2) * 256 ≤ (i 1).val ∧ (i 1).val < win7_6.index _ (1 : Fin 2) * 256 + 256
              rw [e.2.2.2.2.2.2.2.2.2.2.2.2]; omega

end Cert.KernelIdeal.ConvVal

end
-- ==== Proof.Conv7.lean ====
/-
  Region 7 of the network: the two output arrays after its ten row tiles. Each tile's write-back is the tile's rows of one
  whole-array function of the arrays the region finds — the rectified linear part of the convolution (the aggregated features times
  the target-side factor, times the weights, plus the bias, then max(·, 0)), and that times the source-side factor — because a tile's
  row p reads row 2000 t + p of every per-node array and all of the weights and the bias. The ten tiles cover the array, so
  the arrays end holding those functions.
-/
import proofs.«126634_j63780264346183_1_alg».proof.Proof.Gen.KernelIdeal.Frame
import proofs.«126634_j63780264346183_1_alg».proof.Proof.Spec
import proofs.«126634_j63780264346183_1_alg».proof.Proof.ConvTile
import proofs.«126634_j63780264346183_1_alg».proof.Proof.ConvTileSame
import proofs.«126634_j63780264346183_1_alg».proof.Proof.Conv7Blocks

noncomputable section

namespace Cert.KernelIdeal.ConvVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

theorem hz7_2 : (![0, 0] : Fin 2 → Nat) = fun _ => 0 := funext fun a => by fin_cases a <;> rfl
theorem hz7_1 : (![0] : Fin 1 → Nat) = fun _ => 0 := funext fun a => by fin_cases a; rfl

/-- The rectified linear part on the arrays region 7 finds, with the weights before their rounding named W. -/
abbrev G7_5 (W : FVec Ideal S256x256 .f32) : FVec Ideal S20000x256 .f32 :=
  Cert.Spec.relu256 (Cert.Spec.lin256 (V c (Pipeline.arrRef spec7 0)) (V c (Pipeline.arrRef spec7 1)) W (V c (Pipeline.arrRef spec7 4)))

/-- The same scaled by the source-side factor along the features. -/
abbrev G7_6 (W : FVec Ideal S256x256 .f32) : FVec Ideal S20000x256 .f32 :=
  mulf (G7_5 V c W) (Cert.Spec.along256 (V c (Pipeline.arrRef spec7 2)))

/-- What tile t writes back to the first output is tile t of the rectified linear part. -/
theorem flushed7_5 (W : FVec Ideal S256x256 .f32) (hW : V c (Pipeline.arrRef spec7 3) = truncf .bf16 W bitsLt_bf16_f32)
    (t : Fin cfg7.N) :
    (dat7 V c).flushed 5 t = ((cfg7.win 5).blk t).view.read (Elt Ideal) (G7_5 V c W) := by
  show (cfg7.win 5).cut (grid7.coords t) ((dat7 V c).after 5 t) = _
  rw [after7_5]
  unfold out7_5
  rw [View.canon_unit_zero hz7_2]
  simp only [View.ld_unit_zero (S := S2000x256) hz7_2, View.ld_unit_zero (S := S2000x1) hz7_2,
    View.ld_unit_zero (S := S256x256) hz7_2, View.ld_unit_zero (S := S256) hz7_1]
  have key : (k1_pay1 (iblk7 V c 0 t) (iblk7 V c 1 t) (iblk7 V c 3 t) (iblk7 V c 4 t) : Vec Ideal S2000x256 .f32)
      = (((cfg7.win 5).blk t).view.read (Elt Ideal) (G7_5 V c W) : Vec Ideal S2000x256 .f32) := by
    funext j
    obtain ⟨p, q, rfl⟩ : ∃ (p : Fin 2000) (q : Fin 256), j = ix2 p q := ⟨j 0, j 1, eq_ix2 j⟩
    refine (ConvTile.pay256_relu (A := (V c (Pipeline.arrRef spec7 0))) (D := (V c (Pipeline.arrRef spec7 1))) (W := W) (B := (V c (Pipeline.arrRef spec7 4)))
      (x0 := iblk7 V c 0 t) (x1 := iblk7 V c 1 t) (x3 := iblk7 V c 3 t) (x4 := iblk7 V c 4 t) (t := t.val) (ht := lt7 t)
      (h0 := ?_) (h1 := ?_) (h3 := ?_) (h4 := ?_) (p := p) (q := q)).trans ?_
    · intro p k; exact read7_0 (V c (Pipeline.arrRef spec7 0)) t p k _ rfl
    · intro p; exact read7_1 (V c (Pipeline.arrRef spec7 1)) t p _ rfl
    · exact (read7_3 (V c (Pipeline.arrRef spec7 3)) t).trans hW
    · exact read7_4 (V c (Pipeline.arrRef spec7 4)) t
    · exact (read7_5 (G7_5 V c W) t p q _ rfl).symm
  rw [ConvTile.k7_pay1_eq]
  exact key

/-- What tile t writes back to the second output is tile t of the scaled rectified linear part. -/
theorem flushed7_6 (W : FVec Ideal S256x256 .f32) (hW : V c (Pipeline.arrRef spec7 3) = truncf .bf16 W bitsLt_bf16_f32)
    (t : Fin cfg7.N) :
    (dat7 V c).flushed 6 t = ((cfg7.win 6).blk t).view.read (Elt Ideal) (G7_6 V c W) := by
  show (cfg7.win 6).cut (grid7.coords t) ((dat7 V c).after 6 t) = _
  rw [after7_6]
  unfold out7_6
  rw [View.canon_unit_zero hz7_2]
  simp only [View.ld_unit_zero (S := S2000x256) hz7_2, View.ld_unit_zero (S := S2000x1) hz7_2,
    View.ld_unit_zero (S := S256x256) hz7_2, View.ld_unit_zero (S := S256) hz7_1]
  have key : (k1_pay2 (iblk7 V c 0 t) (iblk7 V c 1 t) (iblk7 V c 3 t) (iblk7 V c 4 t) (iblk7 V c 2 t) : Vec Ideal S2000x256 .f32)
      = (((cfg7.win 6).blk t).view.read (Elt Ideal) (G7_6 V c W) : Vec Ideal S2000x256 .f32) := by
    funext j
    obtain ⟨p, q, rfl⟩ : ∃ (p : Fin 2000) (q : Fin 256), j = ix2 p q := ⟨j 0, j 1, eq_ix2 j⟩
    refine (ConvTile.pay256_relu_scaled (A := (V c (Pipeline.arrRef spec7 0))) (D := (V c (Pipeline.arrRef spec7 1))) (W := W) (B := (V c (Pipeline.arrRef spec7 4))) (D2 := (V c (Pipeline.arrRef spec7 2)))
      (x0 := iblk7 V c 0 t) (x1 := iblk7 V c 1 t) (x3 := iblk7 V c 3 t) (x4 := iblk7 V c 4 t) (x2 := iblk7 V c 2 t)
      (t := t.val) (ht := lt7 t) (h0 := ?_) (h1 := ?_) (h2 := ?_) (h3 := ?_) (h4 := ?_) (p := p) (q := q)).trans ?_
    · intro p k; exact read7_0 (V c (Pipeline.arrRef spec7 0)) t p k _ rfl
    · intro p; exact read7_1 (V c (Pipeline.arrRef spec7 1)) t p _ rfl
    · intro p; exact read7_2 (V c (Pipeline.arrRef spec7 2)) t p _ rfl
    · exact (read7_3 (V c (Pipeline.arrRef spec7 3)) t).trans hW
    · exact read7_4 (V c (Pipeline.arrRef spec7 4)) t
    · exact (read7_6 (G7_6 V c W) t p q _ rfl).symm
  rw [ConvTile.k7_pay2_eq]
  exact key

/-- The first output array after the region: the rectified linear part of the arrays the region finds. -/
theorem arr7_5 (W : FVec Ideal S256x256 .f32) (hW : V c (Pipeline.arrRef spec7 3) = truncf .bf16 W bitsLt_bf16_f32) :
    (dat7 V c).arrAt 5 cfg7.N = Cert.Spec.relu256 (Cert.Spec.lin256 (V c (Pipeline.arrRef spec7 0)) (V c (Pipeline.arrRef spec7 1)) W (V c (Pipeline.arrRef spec7 4))) :=
  (dat7 V c).arrAt_eq_of_cover 5 (G7_5 V c W) (fun t _ => flushed7_5 V c W hW t) cover7_5

/-- The second output array after the region: the same times the source-side factor. -/
theorem arr7_6 (W : FVec Ideal S256x256 .f32) (hW : V c (Pipeline.arrRef spec7 3) = truncf .bf16 W bitsLt_bf16_f32) :
    (dat7 V c).arrAt 6 cfg7.N = mulf (Cert.Spec.relu256 (Cert.Spec.lin256 (V c (Pipeline.arrRef spec7 0)) (V c (Pipeline.arrRef spec7 1)) W (V c (Pipeline.arrRef spec7 4)))) (Cert.Spec.along256 (V c (Pipeline.arrRef spec7 2))) :=
  (dat7 V c).arrAt_eq_of_cover 6 (G7_6 V c W) (fun t _ => flushed7_6 V c W hW t) cover7_6

end Cert.KernelIdeal.ConvVal

end
-- ==== Proof.KLayer7.lean ====
/-
  Convolution 7 (layer 6 of the stacked parameters). The stretch of host operations before it gathers the previous features,
  already scaled by the source-side degree column, at the edges' sources and adds them into the targets, and slices the layer's
  weights (bf16) and bias out of the stacks; the launch writes back, row tile by row tile, max(·, 0) of the linear map of the
  target-scaled aggregate plus the bias, and the same scaled by the source-side column for the next gather.
-/
import proofs.«126634_j63780264346183_1_alg».proof.Proof.Gen.KernelIdeal.Frame
import proofs.«126634_j63780264346183_1_alg».proof.Proof.KStretch
import proofs.«126634_j63780264346183_1_alg».proof.Proof.KAt
import proofs.«126634_j63780264346183_1_alg».proof.Proof.KBasics
import proofs.«126634_j63780264346183_1_alg».proof.Proof.KFeat
import proofs.«126634_j63780264346183_1_alg».proof.Proof.Conv7

set_option maxRecDepth 16384

noncomputable section

namespace Cert.KernelIdeal.KVal

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-- After launch 7: the features of convolution 7, and those features scaled by the source-side degree column. -/
theorem layer7 (ih : W14 m ρ c (Proc.devRef .tc main_v121_1) = mulf (feat6 m c) (Cert.Spec.along256 (F := Ideal) (dOutCol m c))) :
    W16 m ρ c (Proc.devRef .tc main_v136_0) = feat7 m c
    ∧ W16 m ρ c (Proc.devRef .tc main_v136_1) = mulf (feat7 m c) (Cert.Spec.along256 (F := Ideal) (dOutCol m c)) := by
  have hdo : W15 m ρ c (Proc.devRef .tc main_v13) = dOutCol m c :=
    (at15_main_v13 m ρ c).trans (col_eq _ _ Cert.ReferenceIdeal.Facts₀.bcast_S20000_S20000x1_0)
  have hdi : W15 m ρ c (Proc.devRef .tc main_v16) = dInCol m c :=
    (at15_main_v16 m ρ c).trans (col_eq _ _ Cert.ReferenceIdeal.Facts₀.bcast_S20000_S20000x1_0)
  have hw : W15 m ρ c (Proc.devRef .tc main_v133) = truncf .bf16 (Cert.Spec.sliceW (F := Ideal) (m ((c : Thread nD τ).loc main_arg4)) 6 Cert.ReferenceIdeal.Facts₀.slices_S10x256x256_S1x256x256_6_0_0) bitsLt_bf16_f32 := by
    refine (wsl7 (W14 m ρ c)).trans ?_
    rw [at14_main_v18]
    rfl
  have hb : W15 m ρ c (Proc.devRef .tc main_v135) = Cert.Spec.sliceB (F := Ideal) (m ((c : Thread nD τ).loc main_arg5)) 6 Cert.ReferenceIdeal.Facts₀.slices_S10x256_S1x256_6_0 := by
    refine (bsl7 (W14 m ρ c)).trans ?_
    rw [at14_main_arg5]
  have hagg : W15 m ρ c (Proc.devRef .tc main_v131)
      = Cert.Spec.spread256 (F := Ideal) (m ((c : Thread nD τ).loc main_arg12)) (m ((c : Thread nD τ).loc main_arg13)) (mulf (feat6 m c) (Cert.Spec.along256 (F := Ideal) (dOutCol m c))) := by
    refine (agg7 (W14 m ρ c)).trans ?_
    rw [at14_main_arg12, at14_main_arg13, ih]
  refine ⟨(W16_arr m ρ c 5).trans ((ConvVal.arr7_5 (V15 m ρ) c (Cert.Spec.sliceW (F := Ideal) (m ((c : Thread nD τ).loc main_arg4)) 6 Cert.ReferenceIdeal.Facts₀.slices_S10x256x256_S1x256x256_6_0_0) hw).trans ?_),
    (W16_arr m ρ c 6).trans ((ConvVal.arr7_6 (V15 m ρ) c (Cert.Spec.sliceW (F := Ideal) (m ((c : Thread nD τ).loc main_arg4)) 6 Cert.ReferenceIdeal.Facts₀.slices_S10x256x256_S1x256x256_6_0_0) hw).trans ?_)⟩
  · show Cert.Spec.relu256 (F := Ideal) (Cert.Spec.lin256 (F := Ideal) (W15 m ρ c (Proc.devRef .tc main_v131)) (W15 m ρ c (Proc.devRef .tc main_v16)) _ (W15 m ρ c (Proc.devRef .tc main_v135))) = _
    rw [hagg, hdi, hb]
    rfl
  · show mulf (Cert.Spec.relu256 (F := Ideal) (Cert.Spec.lin256 (F := Ideal) (W15 m ρ c (Proc.devRef .tc main_v131)) (W15 m ρ c (Proc.devRef .tc main_v16)) _ (W15 m ρ c (Proc.devRef .tc main_v135))))
        (Cert.Spec.along256 (F := Ideal) (W15 m ρ c (Proc.devRef .tc main_v13))) = _
    rw [hagg, hdi, hb, hdo]
    rfl

end Cert.KernelIdeal.KVal

end
-- ==== Proof.Conv8Blocks.lean ====
/-
  Region 8 of the network (a convolution's dense part over 10 row tiles of 2000 nodes): where each window's block sits
  in its array. Tile t of a per-node array is rows 2000 t … 2000 t + 1999 with all columns; the weights and the bias have one
  block, the whole array. An index of an output array lies in the block of tile (row / 2000), so the ten blocks cover it.
-/
import proofs.«126634_j63780264346183_1_alg».proof.Proof.Gen.KernelIdeal.Points
import proofs.«126634_j63780264346183_1_alg».proof.Proof.Gen.KernelIdeal.Launch
import Idealize.ShloMosaic.Lib.Pipeline.Value
import Idealize.ShloMosaic.Lib.ValueIdx

noncomputable section

namespace Cert.KernelIdeal.ConvVal

open Cert.KernelIdeal Cert.KernelIdeal.Gen Idealize.ShloMosaic Idealize.ShloMosaic.TcCoe Idealize.SL.Sem
open Idealize.ShloMosaic.ValueIdx

/-- The grid of region 8 has ten points. -/
theorem lt8 (t : Fin cfg8.N) : t.val < 10 := by
  have h := t.isLt
  have hN : cfg8.N = 10 := N_8
  omega

/-- The block index of every window at tile t: (t, 0) for the per-node arrays, zero for the weights and the bias. -/
theorem idx8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 1) = 0
    ∧ win8_5.index t (0 : Fin 2) = t.val ∧ win8_5.index t (1 : Fin 2) = 0
    ∧ win8_6.index t (0 : Fin 2) = t.val ∧ win8_6.index t (1 : Fin 2) = 0 :=
  (by decide +kernel : ∀ t : Fin grid8.N, _)

/-- Tile t of the aggregated features: its row p is row 2000 t + p of the array. -/
theorem read8_0 (X : FVec Ideal S20000x256 .f32) (t : Fin cfg8.N) (p : Fin 2000) (k : Fin 256) (r : Fin 20000)
    (hr : r.val = t.val * 2000 + p.val) :
    (((cfg8.win 0).blk t).view.read (Elt Ideal) X : Vec Ideal S2000x256 .f32) (ix2 p k) = X (ix2 r k) := by
  show X (((cfg8.win 0).blk t).view.emb (ix2 p k)) = X _
  refine congrArg X ?_
  funext a; apply Fin.ext
  match a with
  | ⟨0, _⟩ => show win8_0.index t (0 : Fin 2) * 2000 + 1 * p.val = r.val; rw [(idx8 t).1, hr]; omega
  | ⟨1, _⟩ => show win8_0.index t (1 : Fin 2) * 256 + 1 * k.val = k.val; rw [(idx8 t).2.1]; omega

/-- Tile t of the target-side factor, a column. -/
theorem read8_1 (X : FVec Ideal S20000x1 .f32) (t : Fin cfg8.N) (p : Fin 2000) (r : Fin 20000)
    (hr : r.val = t.val * 2000 + p.val) :
    (((cfg8.win 1).blk t).view.read (Elt Ideal) X : Vec Ideal S2000x1 .f32) (ix2 p 0) = X (ix2 r 0) := by
  show X (((cfg8.win 1).blk t).view.emb (ix2 p 0)) = X _
  refine congrArg X ?_
  funext a; apply Fin.ext
  match a with
  | ⟨0, _⟩ => show win8_1.index t (0 : Fin 2) * 2000 + 1 * p.val = r.val; rw [(idx8 t).2.2.1, hr]; omega
  | ⟨1, _⟩ => show win8_1.index t (1 : Fin 2) * 1 + 1 * 0 = 0; rw [(idx8 t).2.2.2.1]

/-- Tile t of the source-side factor, a column. -/
theorem read8_2 (X : FVec Ideal S20000x1 .f32) (t : Fin cfg8.N) (p : Fin 2000) (r : Fin 20000)
    (hr : r.val = t.val * 2000 + p.val) :
    (((cfg8.win 2).blk t).view.read (Elt Ideal) X : Vec Ideal S2000x1 .f32) (ix2 p 0) = X (ix2 r 0) := by
  show X (((cfg8.win 2).blk t).view.emb (ix2 p 0)) = X _
  refine congrArg X ?_
  funext a; apply Fin.ext
  match a with
  | ⟨0, _⟩ => show win8_2.index t (0 : Fin 2) * 2000 + 1 * p.val = r.val; rw [(idx8 t).2.2.2.2.1, hr]; omega
  | ⟨1, _⟩ => show win8_2.index t (1 : Fin 2) * 1 + 1 * 0 = 0; rw [(idx8 t).2.2.2.2.2.1]

/-- The weights' one block is the whole array. -/
theorem read8_3 (X : FVec Ideal S256x256 .bf16) (t : Fin cfg8.N) :
    (((cfg8.win 3).blk t).view.read (Elt Ideal) X : Vec Ideal S256x256 .bf16) = X := by
  funext y
  show X (((cfg8.win 3).blk t).view.emb y) = X y
  refine congrArg X ?_
  funext a; apply Fin.ext
  match a with
  | ⟨0, _⟩ => show win8_3.index t (0 : Fin 2) * 256 + 1 * (y 0).val = (y 0).val; rw [(idx8 t).2.2.2.2.2.2.1]; omega
  | ⟨1, _⟩ => show win8_3.index t (1 : Fin 2) * 256 + 1 * (y 1).val = (y 1).val; rw [(idx8 t).2.2.2.2.2.2.2.1]; omega

/-- The bias's one block is the whole array. -/
theorem read8_4 (X : FVec Ideal S256 .f32) (t : Fin cfg8.N) :
    (((cfg8.win 4).blk t).view.read (Elt Ideal) X : Vec Ideal S256 .f32) = X := by
  funext y
  show X (((cfg8.win 4).blk t).view.emb y) = X y
  refine congrArg X ?_
  funext a; apply Fin.ext
  match a with
  | ⟨0, _⟩ => show win8_4.index t (0 : Fin 1) * 256 + 1 * (y 0).val = (y 0).val; rw [(idx8 t).2.2.2.2.2.2.2.2.1]; omega

/-- Tile t of the first output: its row p is row 2000 t + p of the array. -/
theorem read8_5 (X : FVec Ideal S20000x256 .f32) (t : Fin cfg8.N) (p : Fin 2000) (k : Fin 256) (r : Fin 20000)
    (hr : r.val = t.val * 2000 + p.val) :
    (((cfg8.win 5).blk t).view.read (Elt Ideal) X : Vec Ideal S2000x256 .f32) (ix2 p k) = X (ix2 r k) := by
  show X (((cfg8.win 5).blk t).view.emb (ix2 p k)) = X _
  refine congrArg X ?_
  funext a; apply Fin.ext
  match a with
  | ⟨0, _⟩ => show win8_5.index t (0 : Fin 2) * 2000 + 1 * p.val = r.val; rw [(idx8 t).2.2.2.2.2.2.2.2.2.1, hr]; omega
  | ⟨1, _⟩ => show win8_5.index t (1 : Fin 2) * 256 + 1 * k.val = k.val; rw [(idx8 t).2.2.2.2.2.2.2.2.2.2.1]; omega

/-- Tile t of the second output. -/
theorem read8_6 (X : FVec Ideal S20000x256 .f32) (t : Fin cfg8.N) (p : Fin 2000) (k : Fin 256) (r : Fin 20000)
    (hr : r.val = t.val * 2000 + p.val) :
    (((cfg8.win 6).blk t).view.read (Elt Ideal) X : Vec Ideal S2000x256 .f32) (ix2 p k) = X (ix2 r k) := by
  show X (((cfg8.win 6).blk t).view.emb (ix2 p k)) = X _
  refine congrArg X ?_
  funext a; apply Fin.ext
  match a with
  | ⟨0, _⟩ => show win8_6.index t (0 : Fin 2) * 2000 + 1 * p.val = r.val; rw [(idx8 t).2.2.2.2.2.2.2.2.2.2.2.1, hr]; omega
  | ⟨1, _⟩ => show win8_6.index t (1 : Fin 2) * 256 + 1 * k.val = k.val; rw [(idx8 t).2.2.2.2.2.2.2.2.2.2.2.2]; omega

/-- An index of the first output array is in tile t's block iff each coordinate is in the block's range on its axis. -/
theorem mem_blk8_5 (t : Fin cfg8.N) (i : S20000x256.Idx) :
    i ∈ ((cfg8.win 5).blk t).view.set ↔ ∀ a : Fin 2, win8_5.index t a * S2000x256.size a ≤ (i a).val ∧ (i a).val < win8_5.index t a * S2000x256.size a + S2000x256.size a := by
  show i ∈ ((View.whole main_v151_0).slice (win8_5.rect t)).set ↔ _
  rw [View.set_slice_whole, Rect.mem_set_unit]
  exact Iff.rfl

/-- The same for the second output array. -/
theorem mem_blk8_6 (t : Fin cfg8.N) (i : S20000x256.Idx) :
    i ∈ ((cfg8.win 6).blk t).view.set ↔ ∀ a : Fin 2, win8_6.index t a * S2000x256.size a ≤ (i a).val ∧ (i a).val < win8_6.index t a * S2000x256.size a + S2000x256.size a := by
  show i ∈ ((View.whole main_v151_1).slice (win8_6.rect t)).set ↔ _
  rw [View.set_slice_whole, Rect.mem_set_unit]
  exact Iff.rfl

/-- Row r of the first output lies in the block of tile r / 2000, which is written back. -/
theorem cover8_5 (i : S20000x256.Idx) : ∃ t : Fin cfg8.N, (cfg8.win 5).flush t = true ∧ i ∈ ((cfg8.win 5).blk t).view.set := by
  have hi0 : (i 0).val < 20000 := (i 0).isLt
  have hi1 : (i 1).val < 256 := (i 1).isLt
  have hN : cfg8.N = 10 := N_8
  refine ⟨⟨(i 0).val / 2000, by omega⟩, flush8_5 _, ?_⟩
  rw [mem_blk8_5]
  intro a
  have e := idx8 ⟨(i 0).val / 2000, by omega⟩
  match a with
  | ⟨0, _⟩ => show win8_5.index _ (0 : Fin 2) * 2000 ≤ (i 0).val ∧ (i 0).val < win8_5.index _ (0 : Fin 2) * 2000 + 2000
              rw [e.2.2.2.2.2.2.2.2.2.1]; show (i 0).val / 2000 * 2000 ≤ (i 0).val ∧ (i 0).val < (i 0).val / 2000 * 2000 + 2000; omega
  | ⟨1, _⟩ => show win8_5.index _ (1 : Fin 2) * 256 ≤ (i 1).val ∧ (i 1).val < win8_5.index _ (1 : Fin 2) * 256 + 256
              rw [e.2.2.2.2.2.2.2.2.2.2.1]; omega

/-- The same for the second output. -/
theorem cover8_6 (i : S20000x256.Idx) : ∃ t : Fin cfg8.N, (cfg8.win 6).flush t = true ∧ i ∈ ((cfg8.win 6).blk t).view.set := by
  have hi0 : (i 0).val < 20000 := (i 0).isLt
  have hi1 : (i 1).val < 256 := (i 1).isLt
  have hN : cfg8.N = 10 := N_8
  refine ⟨⟨(i 0).val / 2000, by omega⟩, flush8_6 _, ?_⟩
  rw [mem_blk8_6]
  intro a
  have e := idx8 ⟨(i 0).val / 2000, by omega⟩
  match a with
  | ⟨0, _⟩ => show win8_6.index _ (0 : Fin 2) * 2000 ≤ (i 0).val ∧ (i 0).val < win8_6.index _ (0 : Fin 2) * 2000 + 2000
              rw [e.2.2.2.2.2.2.2.2.2.2.2.1]; show (i 0).val / 2000 * 2000 ≤ (i 0).val ∧ (i 0).val < (i 0).val / 2000 * 2000 + 2000; omega
  | ⟨1, _⟩ => show win8_6.index _ (1 : Fin 2) * 256 ≤ (i 1).val ∧ (i 1).val < win8_6.index _ (1 : Fin 2) * 256 + 256
              rw [e.2.2.2.2.2.2.2.2.2.2.2.2]; omega

end Cert.KernelIdeal.ConvVal

end
-- ==== Proof.Conv8.lean ====
/-
  Region 8 of the network: the two output arrays after its ten row tiles. Each tile's write-back is the tile's rows of one
  whole-array function of the arrays the region finds — the rectified linear part of the convolution (the aggregated features times
  the target-side factor, times the weights, plus the bias, then max(·, 0)), and that times the source-side factor — because a tile's
  row p reads row 2000 t + p of every per-node array and all of the weights and the bias. The ten tiles cover the array, so
  the arrays end holding those functions.
-/
import proofs.«126634_j63780264346183_1_alg».proof.Proof.Gen.KernelIdeal.Frame
import proofs.«126634_j63780264346183_1_alg».proof.Proof.Spec
import proofs.«126634_j63780264346183_1_alg».proof.Proof.ConvTile
import proofs.«126634_j63780264346183_1_alg».proof.Proof.ConvTileSame
import proofs.«126634_j63780264346183_1_alg».proof.Proof.Conv8Blocks

noncomputable section

namespace Cert.KernelIdeal.ConvVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

theorem hz8_2 : (![0, 0] : Fin 2 → Nat) = fun _ => 0 := funext fun a => by fin_cases a <;> rfl
theorem hz8_1 : (![0] : Fin 1 → Nat) = fun _ => 0 := funext fun a => by fin_cases a; rfl

/-- The rectified linear part on the arrays region 8 finds, with the weights before their rounding named W. -/
abbrev G8_5 (W : FVec Ideal S256x256 .f32) : FVec Ideal S20000x256 .f32 :=
  Cert.Spec.relu256 (Cert.Spec.lin256 (V c (Pipeline.arrRef spec8 0)) (V c (Pipeline.arrRef spec8 1)) W (V c (Pipeline.arrRef spec8 4)))

/-- The same scaled by the source-side factor along the features. -/
abbrev G8_6 (W : FVec Ideal S256x256 .f32) : FVec Ideal S20000x256 .f32 :=
  mulf (G8_5 V c W) (Cert.Spec.along256 (V c (Pipeline.arrRef spec8 2)))

/-- What tile t writes back to the first output is tile t of the rectified linear part. -/
theorem flushed8_5 (W : FVec Ideal S256x256 .f32) (hW : V c (Pipeline.arrRef spec8 3) = truncf .bf16 W bitsLt_bf16_f32)
    (t : Fin cfg8.N) :
    (dat8 V c).flushed 5 t = ((cfg8.win 5).blk t).view.read (Elt Ideal) (G8_5 V c W) := by
  show (cfg8.win 5).cut (grid8.coords t) ((dat8 V c).after 5 t) = _
  rw [after8_5]
  unfold out8_5
  rw [View.canon_unit_zero hz8_2]
  simp only [View.ld_unit_zero (S := S2000x256) hz8_2, View.ld_unit_zero (S := S2000x1) hz8_2,
    View.ld_unit_zero (S := S256x256) hz8_2, View.ld_unit_zero (S := S256) hz8_1]
  have key : (k1_pay1 (iblk8 V c 0 t) (iblk8 V c 1 t) (iblk8 V c 3 t) (iblk8 V c 4 t) : Vec Ideal S2000x256 .f32)
      = (((cfg8.win 5).blk t).view.read (Elt Ideal) (G8_5 V c W) : Vec Ideal S2000x256 .f32) := by
    funext j
    obtain ⟨p, q, rfl⟩ : ∃ (p : Fin 2000) (q : Fin 256), j = ix2 p q := ⟨j 0, j 1, eq_ix2 j⟩
    refine (ConvTile.pay256_relu (A := (V c (Pipeline.arrRef spec8 0))) (D := (V c (Pipeline.arrRef spec8 1))) (W := W) (B := (V c (Pipeline.arrRef spec8 4)))
      (x0 := iblk8 V c 0 t) (x1 := iblk8 V c 1 t) (x3 := iblk8 V c 3 t) (x4 := iblk8 V c 4 t) (t := t.val) (ht := lt8 t)
      (h0 := ?_) (h1 := ?_) (h3 := ?_) (h4 := ?_) (p := p) (q := q)).trans ?_
    · intro p k; exact read8_0 (V c (Pipeline.arrRef spec8 0)) t p k _ rfl
    · intro p; exact read8_1 (V c (Pipeline.arrRef spec8 1)) t p _ rfl
    · exact (read8_3 (V c (Pipeline.arrRef spec8 3)) t).trans hW
    · exact read8_4 (V c (Pipeline.arrRef spec8 4)) t
    · exact (read8_5 (G8_5 V c W) t p q _ rfl).symm
  rw [ConvTile.k8_pay1_eq]
  exact key

/-- What tile t writes back to the second output is tile t of the scaled rectified linear part. -/
theorem flushed8_6 (W : FVec Ideal S256x256 .f32) (hW : V c (Pipeline.arrRef spec8 3) = truncf .bf16 W bitsLt_bf16_f32)
    (t : Fin cfg8.N) :
    (dat8 V c).flushed 6 t = ((cfg8.win 6).blk t).view.read (Elt Ideal) (G8_6 V c W) := by
  show (cfg8.win 6).cut (grid8.coords t) ((dat8 V c).after 6 t) = _
  rw [after8_6]
  unfold out8_6
  rw [View.canon_unit_zero hz8_2]
  simp only [View.ld_unit_zero (S := S2000x256) hz8_2, View.ld_unit_zero (S := S2000x1) hz8_2,
    View.ld_unit_zero (S := S256x256) hz8_2, View.ld_unit_zero (S := S256) hz8_1]
  have key : (k1_pay2 (iblk8 V c 0 t) (iblk8 V c 1 t) (iblk8 V c 3 t) (iblk8 V c 4 t) (iblk8 V c 2 t) : Vec Ideal S2000x256 .f32)
      = (((cfg8.win 6).blk t).view.read (Elt Ideal) (G8_6 V c W) : Vec Ideal S2000x256 .f32) := by
    funext j
    obtain ⟨p, q, rfl⟩ : ∃ (p : Fin 2000) (q : Fin 256), j = ix2 p q := ⟨j 0, j 1, eq_ix2 j⟩
    refine (ConvTile.pay256_relu_scaled (A := (V c (Pipeline.arrRef spec8 0))) (D := (V c (Pipeline.arrRef spec8 1))) (W := W) (B := (V c (Pipeline.arrRef spec8 4))) (D2 := (V c (Pipeline.arrRef spec8 2)))
      (x0 := iblk8 V c 0 t) (x1 := iblk8 V c 1 t) (x3 := iblk8 V c 3 t) (x4 := iblk8 V c 4 t) (x2 := iblk8 V c 2 t)
      (t := t.val) (ht := lt8 t) (h0 := ?_) (h1 := ?_) (h2 := ?_) (h3 := ?_) (h4 := ?_) (p := p) (q := q)).trans ?_
    · intro p k; exact read8_0 (V c (Pipeline.arrRef spec8 0)) t p k _ rfl
    · intro p; exact read8_1 (V c (Pipeline.arrRef spec8 1)) t p _ rfl
    · intro p; exact read8_2 (V c (Pipeline.arrRef spec8 2)) t p _ rfl
    · exact (read8_3 (V c (Pipeline.arrRef spec8 3)) t).trans hW
    · exact read8_4 (V c (Pipeline.arrRef spec8 4)) t
    · exact (read8_6 (G8_6 V c W) t p q _ rfl).symm
  rw [ConvTile.k8_pay2_eq]
  exact key

/-- The first output array after the region: the rectified linear part of the arrays the region finds. -/
theorem arr8_5 (W : FVec Ideal S256x256 .f32) (hW : V c (Pipeline.arrRef spec8 3) = truncf .bf16 W bitsLt_bf16_f32) :
    (dat8 V c).arrAt 5 cfg8.N = Cert.Spec.relu256 (Cert.Spec.lin256 (V c (Pipeline.arrRef spec8 0)) (V c (Pipeline.arrRef spec8 1)) W (V c (Pipeline.arrRef spec8 4))) :=
  (dat8 V c).arrAt_eq_of_cover 5 (G8_5 V c W) (fun t _ => flushed8_5 V c W hW t) cover8_5

/-- The second output array after the region: the same times the source-side factor. -/
theorem arr8_6 (W : FVec Ideal S256x256 .f32) (hW : V c (Pipeline.arrRef spec8 3) = truncf .bf16 W bitsLt_bf16_f32) :
    (dat8 V c).arrAt 6 cfg8.N = mulf (Cert.Spec.relu256 (Cert.Spec.lin256 (V c (Pipeline.arrRef spec8 0)) (V c (Pipeline.arrRef spec8 1)) W (V c (Pipeline.arrRef spec8 4)))) (Cert.Spec.along256 (V c (Pipeline.arrRef spec8 2))) :=
  (dat8 V c).arrAt_eq_of_cover 6 (G8_6 V c W) (fun t _ => flushed8_6 V c W hW t) cover8_6

end Cert.KernelIdeal.ConvVal

end
-- ==== Proof.KLayer8.lean ====
/-
  Convolution 8 (layer 7 of the stacked parameters). The stretch of host operations before it gathers the previous features,
  already scaled by the source-side degree column, at the edges' sources and adds them into the targets, and slices the layer's
  weights (bf16) and bias out of the stacks; the launch writes back, row tile by row tile, max(·, 0) of the linear map of the
  target-scaled aggregate plus the bias, and the same scaled by the source-side column for the next gather.
-/
import proofs.«126634_j63780264346183_1_alg».proof.Proof.Gen.KernelIdeal.Frame
import proofs.«126634_j63780264346183_1_alg».proof.Proof.KStretch
import proofs.«126634_j63780264346183_1_alg».proof.Proof.KAt
import proofs.«126634_j63780264346183_1_alg».proof.Proof.KBasics
import proofs.«126634_j63780264346183_1_alg».proof.Proof.KFeat
import proofs.«126634_j63780264346183_1_alg».proof.Proof.Conv8

set_option maxRecDepth 16384

noncomputable section

namespace Cert.KernelIdeal.KVal

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-- After launch 8: the features of convolution 8, and those features scaled by the source-side degree column. -/
theorem layer8 (ih : W16 m ρ c (Proc.devRef .tc main_v136_1) = mulf (feat7 m c) (Cert.Spec.along256 (F := Ideal) (dOutCol m c))) :
    W18 m ρ c (Proc.devRef .tc main_v151_0) = feat8 m c
    ∧ W18 m ρ c (Proc.devRef .tc main_v151_1) = mulf (feat8 m c) (Cert.Spec.along256 (F := Ideal) (dOutCol m c)) := by
  have hdo : W17 m ρ c (Proc.devRef .tc main_v13) = dOutCol m c :=
    (at17_main_v13 m ρ c).trans (col_eq _ _ Cert.ReferenceIdeal.Facts₀.bcast_S20000_S20000x1_0)
  have hdi : W17 m ρ c (Proc.devRef .tc main_v16) = dInCol m c :=
    (at17_main_v16 m ρ c).trans (col_eq _ _ Cert.ReferenceIdeal.Facts₀.bcast_S20000_S20000x1_0)
  have hw : W17 m ρ c (Proc.devRef .tc main_v148) = truncf .bf16 (Cert.Spec.sliceW (F := Ideal) (m ((c : Thread nD τ).loc main_arg4)) 7 Cert.ReferenceIdeal.Facts₀.slices_S10x256x256_S1x256x256_7_0_0) bitsLt_bf16_f32 := by
    refine (wsl8 (W16 m ρ c)).trans ?_
    rw [at16_main_v18]
    rfl
  have hb : W17 m ρ c (Proc.devRef .tc main_v150) = Cert.Spec.sliceB (F := Ideal) (m ((c : Thread nD τ).loc main_arg5)) 7 Cert.ReferenceIdeal.Facts₀.slices_S10x256_S1x256_7_0 := by
    refine (bsl8 (W16 m ρ c)).trans ?_
    rw [at16_main_arg5]
  have hagg : W17 m ρ c (Proc.devRef .tc main_v146)
      = Cert.Spec.spread256 (F := Ideal) (m ((c : Thread nD τ).loc main_arg12)) (m ((c : Thread nD τ).loc main_arg13)) (mulf (feat7 m c) (Cert.Spec.along256 (F := Ideal) (dOutCol m c))) := by
    refine (agg8 (W16 m ρ c)).trans ?_
    rw [at16_main_arg12, at16_main_arg13, ih]
  refine ⟨(W18_arr m ρ c 5).trans ((ConvVal.arr8_5 (V17 m ρ) c (Cert.Spec.sliceW (F := Ideal) (m ((c : Thread nD τ).loc main_arg4)) 7 Cert.ReferenceIdeal.Facts₀.slices_S10x256x256_S1x256x256_7_0_0) hw).trans ?_),
    (W18_arr m ρ c 6).trans ((ConvVal.arr8_6 (V17 m ρ) c (Cert.Spec.sliceW (F := Ideal) (m ((c : Thread nD τ).loc main_arg4)) 7 Cert.ReferenceIdeal.Facts₀.slices_S10x256x256_S1x256x256_7_0_0) hw).trans ?_)⟩
  · show Cert.Spec.relu256 (F := Ideal) (Cert.Spec.lin256 (F := Ideal) (W17 m ρ c (Proc.devRef .tc main_v146)) (W17 m ρ c (Proc.devRef .tc main_v16)) _ (W17 m ρ c (Proc.devRef .tc main_v150))) = _
    rw [hagg, hdi, hb]
    rfl
  · show mulf (Cert.Spec.relu256 (F := Ideal) (Cert.Spec.lin256 (F := Ideal) (W17 m ρ c (Proc.devRef .tc main_v146)) (W17 m ρ c (Proc.devRef .tc main_v16)) _ (W17 m ρ c (Proc.devRef .tc main_v150))))
        (Cert.Spec.along256 (F := Ideal) (W17 m ρ c (Proc.devRef .tc main_v13))) = _
    rw [hagg, hdi, hb, hdo]
    rfl

end Cert.KernelIdeal.KVal

end
-- ==== Proof.Conv9Blocks.lean ====
/-
  Region 9 of the network (a convolution's dense part over 10 row tiles of 2000 nodes): where each window's block sits
  in its array. Tile t of a per-node array is rows 2000 t … 2000 t + 1999 with all columns; the weights and the bias have one
  block, the whole array. An index of an output array lies in the block of tile (row / 2000), so the ten blocks cover it.
-/
import proofs.«126634_j63780264346183_1_alg».proof.Proof.Gen.KernelIdeal.Points
import proofs.«126634_j63780264346183_1_alg».proof.Proof.Gen.KernelIdeal.Launch
import Idealize.ShloMosaic.Lib.Pipeline.Value
import Idealize.ShloMosaic.Lib.ValueIdx

noncomputable section

namespace Cert.KernelIdeal.ConvVal

open Cert.KernelIdeal Cert.KernelIdeal.Gen Idealize.ShloMosaic Idealize.ShloMosaic.TcCoe Idealize.SL.Sem
open Idealize.ShloMosaic.ValueIdx

/-- The grid of region 9 has ten points. -/
theorem lt9 (t : Fin cfg9.N) : t.val < 10 := by
  have h := t.isLt
  have hN : cfg9.N = 10 := N_9
  omega

/-- The block index of every window at tile t: (t, 0) for the per-node arrays, zero for the weights and the bias. -/
theorem idx9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 1) = 0
    ∧ win9_5.index t (0 : Fin 2) = t.val ∧ win9_5.index t (1 : Fin 2) = 0
    ∧ win9_6.index t (0 : Fin 2) = t.val ∧ win9_6.index t (1 : Fin 2) = 0 :=
  (by decide +kernel : ∀ t : Fin grid9.N, _)

/-- Tile t of the aggregated features: its row p is row 2000 t + p of the array. -/
theorem read9_0 (X : FVec Ideal S20000x256 .f32) (t : Fin cfg9.N) (p : Fin 2000) (k : Fin 256) (r : Fin 20000)
    (hr : r.val = t.val * 2000 + p.val) :
    (((cfg9.win 0).blk t).view.read (Elt Ideal) X : Vec Ideal S2000x256 .f32) (ix2 p k) = X (ix2 r k) := by
  show X (((cfg9.win 0).blk t).view.emb (ix2 p k)) = X _
  refine congrArg X ?_
  funext a; apply Fin.ext
  match a with
  | ⟨0, _⟩ => show win9_0.index t (0 : Fin 2) * 2000 + 1 * p.val = r.val; rw [(idx9 t).1, hr]; omega
  | ⟨1, _⟩ => show win9_0.index t (1 : Fin 2) * 256 + 1 * k.val = k.val; rw [(idx9 t).2.1]; omega

/-- Tile t of the target-side factor, a column. -/
theorem read9_1 (X : FVec Ideal S20000x1 .f32) (t : Fin cfg9.N) (p : Fin 2000) (r : Fin 20000)
    (hr : r.val = t.val * 2000 + p.val) :
    (((cfg9.win 1).blk t).view.read (Elt Ideal) X : Vec Ideal S2000x1 .f32) (ix2 p 0) = X (ix2 r 0) := by
  show X (((cfg9.win 1).blk t).view.emb (ix2 p 0)) = X _
  refine congrArg X ?_
  funext a; apply Fin.ext
  match a with
  | ⟨0, _⟩ => show win9_1.index t (0 : Fin 2) * 2000 + 1 * p.val = r.val; rw [(idx9 t).2.2.1, hr]; omega
  | ⟨1, _⟩ => show win9_1.index t (1 : Fin 2) * 1 + 1 * 0 = 0; rw [(idx9 t).2.2.2.1]

/-- Tile t of the source-side factor, a column. -/
theorem read9_2 (X : FVec Ideal S20000x1 .f32) (t : Fin cfg9.N) (p : Fin 2000) (r : Fin 20000)
    (hr : r.val = t.val * 2000 + p.val) :
    (((cfg9.win 2).blk t).view.read (Elt Ideal) X : Vec Ideal S2000x1 .f32) (ix2 p 0) = X (ix2 r 0) := by
  show X (((cfg9.win 2).blk t).view.emb (ix2 p 0)) = X _
  refine congrArg X ?_
  funext a; apply Fin.ext
  match a with
  | ⟨0, _⟩ => show win9_2.index t (0 : Fin 2) * 2000 + 1 * p.val = r.val; rw [(idx9 t).2.2.2.2.1, hr]; omega
  | ⟨1, _⟩ => show win9_2.index t (1 : Fin 2) * 1 + 1 * 0 = 0; rw [(idx9 t).2.2.2.2.2.1]

/-- The weights' one block is the whole array. -/
theorem read9_3 (X : FVec Ideal S256x256 .bf16) (t : Fin cfg9.N) :
    (((cfg9.win 3).blk t).view.read (Elt Ideal) X : Vec Ideal S256x256 .bf16) = X := by
  funext y
  show X (((cfg9.win 3).blk t).view.emb y) = X y
  refine congrArg X ?_
  funext a; apply Fin.ext
  match a with
  | ⟨0, _⟩ => show win9_3.index t (0 : Fin 2) * 256 + 1 * (y 0).val = (y 0).val; rw [(idx9 t).2.2.2.2.2.2.1]; omega
  | ⟨1, _⟩ => show win9_3.index t (1 : Fin 2) * 256 + 1 * (y 1).val = (y 1).val; rw [(idx9 t).2.2.2.2.2.2.2.1]; omega

/-- The bias's one block is the whole array. -/
theorem read9_4 (X : FVec Ideal S256 .f32) (t : Fin cfg9.N) :
    (((cfg9.win 4).blk t).view.read (Elt Ideal) X : Vec Ideal S256 .f32) = X := by
  funext y
  show X (((cfg9.win 4).blk t).view.emb y) = X y
  refine congrArg X ?_
  funext a; apply Fin.ext
  match a with
  | ⟨0, _⟩ => show win9_4.index t (0 : Fin 1) * 256 + 1 * (y 0).val = (y 0).val; rw [(idx9 t).2.2.2.2.2.2.2.2.1]; omega

/-- Tile t of the first output: its row p is row 2000 t + p of the array. -/
theorem read9_5 (X : FVec Ideal S20000x256 .f32) (t : Fin cfg9.N) (p : Fin 2000) (k : Fin 256) (r : Fin 20000)
    (hr : r.val = t.val * 2000 + p.val) :
    (((cfg9.win 5).blk t).view.read (Elt Ideal) X : Vec Ideal S2000x256 .f32) (ix2 p k) = X (ix2 r k) := by
  show X (((cfg9.win 5).blk t).view.emb (ix2 p k)) = X _
  refine congrArg X ?_
  funext a; apply Fin.ext
  match a with
  | ⟨0, _⟩ => show win9_5.index t (0 : Fin 2) * 2000 + 1 * p.val = r.val; rw [(idx9 t).2.2.2.2.2.2.2.2.2.1, hr]; omega
  | ⟨1, _⟩ => show win9_5.index t (1 : Fin 2) * 256 + 1 * k.val = k.val; rw [(idx9 t).2.2.2.2.2.2.2.2.2.2.1]; omega

/-- Tile t of the second output. -/
theorem read9_6 (X : FVec Ideal S20000x256 .f32) (t : Fin cfg9.N) (p : Fin 2000) (k : Fin 256) (r : Fin 20000)
    (hr : r.val = t.val * 2000 + p.val) :
    (((cfg9.win 6).blk t).view.read (Elt Ideal) X : Vec Ideal S2000x256 .f32) (ix2 p k) = X (ix2 r k) := by
  show X (((cfg9.win 6).blk t).view.emb (ix2 p k)) = X _
  refine congrArg X ?_
  funext a; apply Fin.ext
  match a with
  | ⟨0, _⟩ => show win9_6.index t (0 : Fin 2) * 2000 + 1 * p.val = r.val; rw [(idx9 t).2.2.2.2.2.2.2.2.2.2.2.1, hr]; omega
  | ⟨1, _⟩ => show win9_6.index t (1 : Fin 2) * 256 + 1 * k.val = k.val; rw [(idx9 t).2.2.2.2.2.2.2.2.2.2.2.2]; omega

/-- An index of the first output array is in tile t's block iff each coordinate is in the block's range on its axis. -/
theorem mem_blk9_5 (t : Fin cfg9.N) (i : S20000x256.Idx) :
    i ∈ ((cfg9.win 5).blk t).view.set ↔ ∀ a : Fin 2, win9_5.index t a * S2000x256.size a ≤ (i a).val ∧ (i a).val < win9_5.index t a * S2000x256.size a + S2000x256.size a := by
  show i ∈ ((View.whole main_v166_0).slice (win9_5.rect t)).set ↔ _
  rw [View.set_slice_whole, Rect.mem_set_unit]
  exact Iff.rfl

/-- The same for the second output array. -/
theorem mem_blk9_6 (t : Fin cfg9.N) (i : S20000x256.Idx) :
    i ∈ ((cfg9.win 6).blk t).view.set ↔ ∀ a : Fin 2, win9_6.index t a * S2000x256.size a ≤ (i a).val ∧ (i a).val < win9_6.index t a * S2000x256.size a + S2000x256.size a := by
  show i ∈ ((View.whole main_v166_1).slice (win9_6.rect t)).set ↔ _
  rw [View.set_slice_whole, Rect.mem_set_unit]
  exact Iff.rfl

/-- Row r of the first output lies in the block of tile r / 2000, which is written back. -/
theorem cover9_5 (i : S20000x256.Idx) : ∃ t : Fin cfg9.N, (cfg9.win 5).flush t = true ∧ i ∈ ((cfg9.win 5).blk t).view.set := by
  have hi0 : (i 0).val < 20000 := (i 0).isLt
  have hi1 : (i 1).val < 256 := (i 1).isLt
  have hN : cfg9.N = 10 := N_9
  refine ⟨⟨(i 0).val / 2000, by omega⟩, flush9_5 _, ?_⟩
  rw [mem_blk9_5]
  intro a
  have e := idx9 ⟨(i 0).val / 2000, by omega⟩
  match a with
  | ⟨0, _⟩ => show win9_5.index _ (0 : Fin 2) * 2000 ≤ (i 0).val ∧ (i 0).val < win9_5.index _ (0 : Fin 2) * 2000 + 2000
              rw [e.2.2.2.2.2.2.2.2.2.1]; show (i 0).val / 2000 * 2000 ≤ (i 0).val ∧ (i 0).val < (i 0).val / 2000 * 2000 + 2000; omega
  | ⟨1, _⟩ => show win9_5.index _ (1 : Fin 2) * 256 ≤ (i 1).val ∧ (i 1).val < win9_5.index _ (1 : Fin 2) * 256 + 256
              rw [e.2.2.2.2.2.2.2.2.2.2.1]; omega

/-- The same for the second output. -/
theorem cover9_6 (i : S20000x256.Idx) : ∃ t : Fin cfg9.N, (cfg9.win 6).flush t = true ∧ i ∈ ((cfg9.win 6).blk t).view.set := by
  have hi0 : (i 0).val < 20000 := (i 0).isLt
  have hi1 : (i 1).val < 256 := (i 1).isLt
  have hN : cfg9.N = 10 := N_9
  refine ⟨⟨(i 0).val / 2000, by omega⟩, flush9_6 _, ?_⟩
  rw [mem_blk9_6]
  intro a
  have e := idx9 ⟨(i 0).val / 2000, by omega⟩
  match a with
  | ⟨0, _⟩ => show win9_6.index _ (0 : Fin 2) * 2000 ≤ (i 0).val ∧ (i 0).val < win9_6.index _ (0 : Fin 2) * 2000 + 2000
              rw [e.2.2.2.2.2.2.2.2.2.2.2.1]; show (i 0).val / 2000 * 2000 ≤ (i 0).val ∧ (i 0).val < (i 0).val / 2000 * 2000 + 2000; omega
  | ⟨1, _⟩ => show win9_6.index _ (1 : Fin 2) * 256 ≤ (i 1).val ∧ (i 1).val < win9_6.index _ (1 : Fin 2) * 256 + 256
              rw [e.2.2.2.2.2.2.2.2.2.2.2.2]; omega

end Cert.KernelIdeal.ConvVal

end
-- ==== Proof.Conv9.lean ====
/-
  Region 9 of the network: the two output arrays after its ten row tiles. Each tile's write-back is the tile's rows of one
  whole-array function of the arrays the region finds — the rectified linear part of the convolution (the aggregated features times
  the target-side factor, times the weights, plus the bias, then max(·, 0)), and that times the source-side factor — because a tile's
  row p reads row 2000 t + p of every per-node array and all of the weights and the bias. The ten tiles cover the array, so
  the arrays end holding those functions.
-/
import proofs.«126634_j63780264346183_1_alg».proof.Proof.Gen.KernelIdeal.Frame
import proofs.«126634_j63780264346183_1_alg».proof.Proof.Spec
import proofs.«126634_j63780264346183_1_alg».proof.Proof.ConvTile
import proofs.«126634_j63780264346183_1_alg».proof.Proof.ConvTileSame
import proofs.«126634_j63780264346183_1_alg».proof.Proof.Conv9Blocks

noncomputable section

namespace Cert.KernelIdeal.ConvVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

theorem hz9_2 : (![0, 0] : Fin 2 → Nat) = fun _ => 0 := funext fun a => by fin_cases a <;> rfl
theorem hz9_1 : (![0] : Fin 1 → Nat) = fun _ => 0 := funext fun a => by fin_cases a; rfl

/-- The rectified linear part on the arrays region 9 finds, with the weights before their rounding named W. -/
abbrev G9_5 (W : FVec Ideal S256x256 .f32) : FVec Ideal S20000x256 .f32 :=
  Cert.Spec.relu256 (Cert.Spec.lin256 (V c (Pipeline.arrRef spec9 0)) (V c (Pipeline.arrRef spec9 1)) W (V c (Pipeline.arrRef spec9 4)))

/-- The same scaled by the source-side factor along the features. -/
abbrev G9_6 (W : FVec Ideal S256x256 .f32) : FVec Ideal S20000x256 .f32 :=
  mulf (G9_5 V c W) (Cert.Spec.along256 (V c (Pipeline.arrRef spec9 2)))

/-- What tile t writes back to the first output is tile t of the rectified linear part. -/
theorem flushed9_5 (W : FVec Ideal S256x256 .f32) (hW : V c (Pipeline.arrRef spec9 3) = truncf .bf16 W bitsLt_bf16_f32)
    (t : Fin cfg9.N) :
    (dat9 V c).flushed 5 t = ((cfg9.win 5).blk t).view.read (Elt Ideal) (G9_5 V c W) := by
  show (cfg9.win 5).cut (grid9.coords t) ((dat9 V c).after 5 t) = _
  rw [after9_5]
  unfold out9_5
  rw [View.canon_unit_zero hz9_2]
  simp only [View.ld_unit_zero (S := S2000x256) hz9_2, View.ld_unit_zero (S := S2000x1) hz9_2,
    View.ld_unit_zero (S := S256x256) hz9_2, View.ld_unit_zero (S := S256) hz9_1]
  have key : (k1_pay1 (iblk9 V c 0 t) (iblk9 V c 1 t) (iblk9 V c 3 t) (iblk9 V c 4 t) : Vec Ideal S2000x256 .f32)
      = (((cfg9.win 5).blk t).view.read (Elt Ideal) (G9_5 V c W) : Vec Ideal S2000x256 .f32) := by
    funext j
    obtain ⟨p, q, rfl⟩ : ∃ (p : Fin 2000) (q : Fin 256), j = ix2 p q := ⟨j 0, j 1, eq_ix2 j⟩
    refine (ConvTile.pay256_relu (A := (V c (Pipeline.arrRef spec9 0))) (D := (V c (Pipeline.arrRef spec9 1))) (W := W) (B := (V c (Pipeline.arrRef spec9 4)))
      (x0 := iblk9 V c 0 t) (x1 := iblk9 V c 1 t) (x3 := iblk9 V c 3 t) (x4 := iblk9 V c 4 t) (t := t.val) (ht := lt9 t)
      (h0 := ?_) (h1 := ?_) (h3 := ?_) (h4 := ?_) (p := p) (q := q)).trans ?_
    · intro p k; exact read9_0 (V c (Pipeline.arrRef spec9 0)) t p k _ rfl
    · intro p; exact read9_1 (V c (Pipeline.arrRef spec9 1)) t p _ rfl
    · exact (read9_3 (V c (Pipeline.arrRef spec9 3)) t).trans hW
    · exact read9_4 (V c (Pipeline.arrRef spec9 4)) t
    · exact (read9_5 (G9_5 V c W) t p q _ rfl).symm
  rw [ConvTile.k9_pay1_eq]
  exact key

/-- What tile t writes back to the second output is tile t of the scaled rectified linear part. -/
theorem flushed9_6 (W : FVec Ideal S256x256 .f32) (hW : V c (Pipeline.arrRef spec9 3) = truncf .bf16 W bitsLt_bf16_f32)
    (t : Fin cfg9.N) :
    (dat9 V c).flushed 6 t = ((cfg9.win 6).blk t).view.read (Elt Ideal) (G9_6 V c W) := by
  show (cfg9.win 6).cut (grid9.coords t) ((dat9 V c).after 6 t) = _
  rw [after9_6]
  unfold out9_6
  rw [View.canon_unit_zero hz9_2]
  simp only [View.ld_unit_zero (S := S2000x256) hz9_2, View.ld_unit_zero (S := S2000x1) hz9_2,
    View.ld_unit_zero (S := S256x256) hz9_2, View.ld_unit_zero (S := S256) hz9_1]
  have key : (k1_pay2 (iblk9 V c 0 t) (iblk9 V c 1 t) (iblk9 V c 3 t) (iblk9 V c 4 t) (iblk9 V c 2 t) : Vec Ideal S2000x256 .f32)
      = (((cfg9.win 6).blk t).view.read (Elt Ideal) (G9_6 V c W) : Vec Ideal S2000x256 .f32) := by
    funext j
    obtain ⟨p, q, rfl⟩ : ∃ (p : Fin 2000) (q : Fin 256), j = ix2 p q := ⟨j 0, j 1, eq_ix2 j⟩
    refine (ConvTile.pay256_relu_scaled (A := (V c (Pipeline.arrRef spec9 0))) (D := (V c (Pipeline.arrRef spec9 1))) (W := W) (B := (V c (Pipeline.arrRef spec9 4))) (D2 := (V c (Pipeline.arrRef spec9 2)))
      (x0 := iblk9 V c 0 t) (x1 := iblk9 V c 1 t) (x3 := iblk9 V c 3 t) (x4 := iblk9 V c 4 t) (x2 := iblk9 V c 2 t)
      (t := t.val) (ht := lt9 t) (h0 := ?_) (h1 := ?_) (h2 := ?_) (h3 := ?_) (h4 := ?_) (p := p) (q := q)).trans ?_
    · intro p k; exact read9_0 (V c (Pipeline.arrRef spec9 0)) t p k _ rfl
    · intro p; exact read9_1 (V c (Pipeline.arrRef spec9 1)) t p _ rfl
    · intro p; exact read9_2 (V c (Pipeline.arrRef spec9 2)) t p _ rfl
    · exact (read9_3 (V c (Pipeline.arrRef spec9 3)) t).trans hW
    · exact read9_4 (V c (Pipeline.arrRef spec9 4)) t
    · exact (read9_6 (G9_6 V c W) t p q _ rfl).symm
  rw [ConvTile.k9_pay2_eq]
  exact key

/-- The first output array after the region: the rectified linear part of the arrays the region finds. -/
theorem arr9_5 (W : FVec Ideal S256x256 .f32) (hW : V c (Pipeline.arrRef spec9 3) = truncf .bf16 W bitsLt_bf16_f32) :
    (dat9 V c).arrAt 5 cfg9.N = Cert.Spec.relu256 (Cert.Spec.lin256 (V c (Pipeline.arrRef spec9 0)) (V c (Pipeline.arrRef spec9 1)) W (V c (Pipeline.arrRef spec9 4))) :=
  (dat9 V c).arrAt_eq_of_cover 5 (G9_5 V c W) (fun t _ => flushed9_5 V c W hW t) cover9_5

/-- The second output array after the region: the same times the source-side factor. -/
theorem arr9_6 (W : FVec Ideal S256x256 .f32) (hW : V c (Pipeline.arrRef spec9 3) = truncf .bf16 W bitsLt_bf16_f32) :
    (dat9 V c).arrAt 6 cfg9.N = mulf (Cert.Spec.relu256 (Cert.Spec.lin256 (V c (Pipeline.arrRef spec9 0)) (V c (Pipeline.arrRef spec9 1)) W (V c (Pipeline.arrRef spec9 4)))) (Cert.Spec.along256 (V c (Pipeline.arrRef spec9 2))) :=
  (dat9 V c).arrAt_eq_of_cover 6 (G9_6 V c W) (fun t _ => flushed9_6 V c W hW t) cover9_6

end Cert.KernelIdeal.ConvVal

end
-- ==== Proof.KLayer9.lean ====
/-
  Convolution 9 (layer 8 of the stacked parameters). The stretch of host operations before it gathers the previous features,
  already scaled by the source-side degree column, at the edges' sources and adds them into the targets, and slices the layer's
  weights (bf16) and bias out of the stacks; the launch writes back, row tile by row tile, max(·, 0) of the linear map of the
  target-scaled aggregate plus the bias, and the same scaled by the source-side column for the next gather.
-/
import proofs.«126634_j63780264346183_1_alg».proof.Proof.Gen.KernelIdeal.Frame
import proofs.«126634_j63780264346183_1_alg».proof.Proof.KStretch
import proofs.«126634_j63780264346183_1_alg».proof.Proof.KAt
import proofs.«126634_j63780264346183_1_alg».proof.Proof.KBasics
import proofs.«126634_j63780264346183_1_alg».proof.Proof.KFeat
import proofs.«126634_j63780264346183_1_alg».proof.Proof.Conv9

set_option maxRecDepth 16384

noncomputable section

namespace Cert.KernelIdeal.KVal

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-- After launch 9: the features of convolution 9, and those features scaled by the source-side degree column. -/
theorem layer9 (ih : W18 m ρ c (Proc.devRef .tc main_v151_1) = mulf (feat8 m c) (Cert.Spec.along256 (F := Ideal) (dOutCol m c))) :
    W20 m ρ c (Proc.devRef .tc main_v166_0) = feat9 m c
    ∧ W20 m ρ c (Proc.devRef .tc main_v166_1) = mulf (feat9 m c) (Cert.Spec.along256 (F := Ideal) (dOutCol m c)) := by
  have hdo : W19 m ρ c (Proc.devRef .tc main_v13) = dOutCol m c :=
    (at19_main_v13 m ρ c).trans (col_eq _ _ Cert.ReferenceIdeal.Facts₀.bcast_S20000_S20000x1_0)
  have hdi : W19 m ρ c (Proc.devRef .tc main_v16) = dInCol m c :=
    (at19_main_v16 m ρ c).trans (col_eq _ _ Cert.ReferenceIdeal.Facts₀.bcast_S20000_S20000x1_0)
  have hw : W19 m ρ c (Proc.devRef .tc main_v163) = truncf .bf16 (Cert.Spec.sliceW (F := Ideal) (m ((c : Thread nD τ).loc main_arg4)) 8 Cert.ReferenceIdeal.Facts₀.slices_S10x256x256_S1x256x256_8_0_0) bitsLt_bf16_f32 := by
    refine (wsl9 (W18 m ρ c)).trans ?_
    rw [at18_main_v18]
    rfl
  have hb : W19 m ρ c (Proc.devRef .tc main_v165) = Cert.Spec.sliceB (F := Ideal) (m ((c : Thread nD τ).loc main_arg5)) 8 Cert.ReferenceIdeal.Facts₀.slices_S10x256_S1x256_8_0 := by
    refine (bsl9 (W18 m ρ c)).trans ?_
    rw [at18_main_arg5]
  have hagg : W19 m ρ c (Proc.devRef .tc main_v161)
      = Cert.Spec.spread256 (F := Ideal) (m ((c : Thread nD τ).loc main_arg12)) (m ((c : Thread nD τ).loc main_arg13)) (mulf (feat8 m c) (Cert.Spec.along256 (F := Ideal) (dOutCol m c))) := by
    refine (agg9 (W18 m ρ c)).trans ?_
    rw [at18_main_arg12, at18_main_arg13, ih]
  refine ⟨(W20_arr m ρ c 5).trans ((ConvVal.arr9_5 (V19 m ρ) c (Cert.Spec.sliceW (F := Ideal) (m ((c : Thread nD τ).loc main_arg4)) 8 Cert.ReferenceIdeal.Facts₀.slices_S10x256x256_S1x256x256_8_0_0) hw).trans ?_),
    (W20_arr m ρ c 6).trans ((ConvVal.arr9_6 (V19 m ρ) c (Cert.Spec.sliceW (F := Ideal) (m ((c : Thread nD τ).loc main_arg4)) 8 Cert.ReferenceIdeal.Facts₀.slices_S10x256x256_S1x256x256_8_0_0) hw).trans ?_)⟩
  · show Cert.Spec.relu256 (F := Ideal) (Cert.Spec.lin256 (F := Ideal) (W19 m ρ c (Proc.devRef .tc main_v161)) (W19 m ρ c (Proc.devRef .tc main_v16)) _ (W19 m ρ c (Proc.devRef .tc main_v165))) = _
    rw [hagg, hdi, hb]
    rfl
  · show mulf (Cert.Spec.relu256 (F := Ideal) (Cert.Spec.lin256 (F := Ideal) (W19 m ρ c (Proc.devRef .tc main_v161)) (W19 m ρ c (Proc.devRef .tc main_v16)) _ (W19 m ρ c (Proc.devRef .tc main_v165))))
        (Cert.Spec.along256 (F := Ideal) (W19 m ρ c (Proc.devRef .tc main_v13))) = _
    rw [hagg, hdi, hb, hdo]
    rfl

end Cert.KernelIdeal.KVal

end
-- ==== Proof.Conv10Blocks.lean ====
/-
  Region 10 of the network (the last convolution's dense part over 10 row tiles of 2000 nodes): where each window's block
  sits in its array. Tile t of a per-node array is rows 2000 t … 2000 t + 1999 with all columns; the weights and the bias have
  one block, the whole array. An index of the output array lies in the block of tile (row / 2000), so the ten blocks cover it.
-/
import proofs.«126634_j63780264346183_1_alg».proof.Proof.Gen.KernelIdeal.Points
import proofs.«126634_j63780264346183_1_alg».proof.Proof.Gen.KernelIdeal.Launch
import Idealize.ShloMosaic.Lib.Pipeline.Value
import Idealize.ShloMosaic.Lib.ValueIdx

noncomputable section

namespace Cert.KernelIdeal.ConvVal

open Cert.KernelIdeal Cert.KernelIdeal.Gen Idealize.ShloMosaic Idealize.ShloMosaic.TcCoe Idealize.SL.Sem
open Idealize.ShloMosaic.ValueIdx

/-- The grid of region 10 has ten points. -/
theorem lt10 (t : Fin cfg10.N) : t.val < 10 := by
  have h := t.isLt
  have hN : cfg10.N = 10 := N_10
  omega

/-- The block index of every window at tile t: (t, 0) for the per-node arrays, zero for the weights and the bias. -/
theorem idx10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 1) = 0
    ∧ win10_4.index t (0 : Fin 2) = t.val ∧ win10_4.index t (1 : Fin 2) = 0 :=
  (by decide +kernel : ∀ t : Fin grid10.N, _)

/-- Tile t of the aggregated features: its row p is row 2000 t + p of the array. -/
theorem read10_0 (X : FVec Ideal S20000x256 .f32) (t : Fin cfg10.N) (p : Fin 2000) (k : Fin 256) (r : Fin 20000)
    (hr : r.val = t.val * 2000 + p.val) :
    (((cfg10.win 0).blk t).view.read (Elt Ideal) X : Vec Ideal S2000x256 .f32) (ix2 p k) = X (ix2 r k) := by
  show X (((cfg10.win 0).blk t).view.emb (ix2 p k)) = X _
  refine congrArg X ?_
  funext a; apply Fin.ext
  match a with
  | ⟨0, _⟩ => show win10_0.index t (0 : Fin 2) * 2000 + 1 * p.val = r.val; rw [(idx10 t).1, hr]; omega
  | ⟨1, _⟩ => show win10_0.index t (1 : Fin 2) * 256 + 1 * k.val = k.val; rw [(idx10 t).2.1]; omega

/-- Tile t of the target-side factor, a column. -/
theorem read10_1 (X : FVec Ideal S20000x1 .f32) (t : Fin cfg10.N) (p : Fin 2000) (r : Fin 20000)
    (hr : r.val = t.val * 2000 + p.val) :
    (((cfg10.win 1).blk t).view.read (Elt Ideal) X : Vec Ideal S2000x1 .f32) (ix2 p 0) = X (ix2 r 0) := by
  show X (((cfg10.win 1).blk t).view.emb (ix2 p 0)) = X _
  refine congrArg X ?_
  funext a; apply Fin.ext
  match a with
  | ⟨0, _⟩ => show win10_1.index t (0 : Fin 2) * 2000 + 1 * p.val = r.val; rw [(idx10 t).2.2.1, hr]; omega
  | ⟨1, _⟩ => show win10_1.index t (1 : Fin 2) * 1 + 1 * 0 = 0; rw [(idx10 t).2.2.2.1]

/-- The weights' one block is the whole array. -/
theorem read10_2 (X : FVec Ideal S256x256 .bf16) (t : Fin cfg10.N) :
    (((cfg10.win 2).blk t).view.read (Elt Ideal) X : Vec Ideal S256x256 .bf16) = X := by
  funext y
  show X (((cfg10.win 2).blk t).view.emb y) = X y
  refine congrArg X ?_
  funext a; apply Fin.ext
  match a with
  | ⟨0, _⟩ => show win10_2.index t (0 : Fin 2) * 256 + 1 * (y 0).val = (y 0).val; rw [(idx10 t).2.2.2.2.1]; omega
  | ⟨1, _⟩ => show win10_2.index t (1 : Fin 2) * 256 + 1 * (y 1).val = (y 1).val; rw [(idx10 t).2.2.2.2.2.1]; omega

/-- The bias's one block is the whole array. -/
theorem read10_3 (X : FVec Ideal S256 .f32) (t : Fin cfg10.N) :
    (((cfg10.win 3).blk t).view.read (Elt Ideal) X : Vec Ideal S256 .f32) = X := by
  funext y
  show X (((cfg10.win 3).blk t).view.emb y) = X y
  refine congrArg X ?_
  funext a; apply Fin.ext
  match a with
  | ⟨0, _⟩ => show win10_3.index t (0 : Fin 1) * 256 + 1 * (y 0).val = (y 0).val; rw [(idx10 t).2.2.2.2.2.2.1]; omega

/-- Tile t of the output: its row p is row 2000 t + p of the array. -/
theorem read10_4 (X : FVec Ideal S20000x256 .f32) (t : Fin cfg10.N) (p : Fin 2000) (k : Fin 256) (r : Fin 20000)
    (hr : r.val = t.val * 2000 + p.val) :
    (((cfg10.win 4).blk t).view.read (Elt Ideal) X : Vec Ideal S2000x256 .f32) (ix2 p k) = X (ix2 r k) := by
  show X (((cfg10.win 4).blk t).view.emb (ix2 p k)) = X _
  refine congrArg X ?_
  funext a; apply Fin.ext
  match a with
  | ⟨0, _⟩ => show win10_4.index t (0 : Fin 2) * 2000 + 1 * p.val = r.val; rw [(idx10 t).2.2.2.2.2.2.2.1, hr]; omega
  | ⟨1, _⟩ => show win10_4.index t (1 : Fin 2) * 256 + 1 * k.val = k.val; rw [(idx10 t).2.2.2.2.2.2.2.2]; omega

/-- An index of the output array is in tile t's block iff each coordinate is in the block's range on its axis. -/
theorem mem_blk10_4 (t : Fin cfg10.N) (i : S20000x256.Idx) :
    i ∈ ((cfg10.win 4).blk t).view.set ↔ ∀ a : Fin 2, win10_4.index t a * S2000x256.size a ≤ (i a).val ∧ (i a).val < win10_4.index t a * S2000x256.size a + S2000x256.size a := by
  show i ∈ ((View.whole main_v181).slice (win10_4.rect t)).set ↔ _
  rw [View.set_slice_whole, Rect.mem_set_unit]
  exact Iff.rfl

/-- Row r of the output lies in the block of tile r / 2000, which is written back. -/
theorem cover10_4 (i : S20000x256.Idx) : ∃ t : Fin cfg10.N, (cfg10.win 4).flush t = true ∧ i ∈ ((cfg10.win 4).blk t).view.set := by
  have hi0 : (i 0).val < 20000 := (i 0).isLt
  have hi1 : (i 1).val < 256 := (i 1).isLt
  have hN : cfg10.N = 10 := N_10
  refine ⟨⟨(i 0).val / 2000, by omega⟩, flush10_4 _, ?_⟩
  rw [mem_blk10_4]
  intro a
  have e := idx10 ⟨(i 0).val / 2000, by omega⟩
  match a with
  | ⟨0, _⟩ => show win10_4.index _ (0 : Fin 2) * 2000 ≤ (i 0).val ∧ (i 0).val < win10_4.index _ (0 : Fin 2) * 2000 + 2000
              rw [e.2.2.2.2.2.2.2.1]; show (i 0).val / 2000 * 2000 ≤ (i 0).val ∧ (i 0).val < (i 0).val / 2000 * 2000 + 2000; omega
  | ⟨1, _⟩ => show win10_4.index _ (1 : Fin 2) * 256 ≤ (i 1).val ∧ (i 1).val < win10_4.index _ (1 : Fin 2) * 256 + 256
              rw [e.2.2.2.2.2.2.2.2]; omega

end Cert.KernelIdeal.ConvVal

end
-- ==== Proof.Conv10.lean ====
/-
  Region 10 of the network: the output array after its ten row tiles. Each tile's write-back is the tile's rows of one
  whole-array function of the arrays the region finds — the rectified linear part of the convolution (the aggregated features
  times the target-side factor, times the weights, plus the bias, then max(·, 0)) — because a tile's row p reads row 2000 t + p
  of every per-node array and all of the weights and the bias. The ten tiles cover the array, so it ends holding that function.
-/
import proofs.«126634_j63780264346183_1_alg».proof.Proof.Gen.KernelIdeal.Frame
import proofs.«126634_j63780264346183_1_alg».proof.Proof.Spec
import proofs.«126634_j63780264346183_1_alg».proof.Proof.ConvTile
import proofs.«126634_j63780264346183_1_alg».proof.Proof.ConvTileSame
import proofs.«126634_j63780264346183_1_alg».proof.Proof.Conv10Blocks

noncomputable section

namespace Cert.KernelIdeal.ConvVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

theorem hz10_2 : (![0, 0] : Fin 2 → Nat) = fun _ => 0 := funext fun a => by fin_cases a <;> rfl
theorem hz10_1 : (![0] : Fin 1 → Nat) = fun _ => 0 := funext fun a => by fin_cases a; rfl

/-- The rectified linear part on the arrays region 10 finds, with the weights before their rounding named W. -/
abbrev G10_4 (W : FVec Ideal S256x256 .f32) : FVec Ideal S20000x256 .f32 :=
  Cert.Spec.relu256 (Cert.Spec.lin256 (V c (Pipeline.arrRef spec10 0)) (V c (Pipeline.arrRef spec10 1)) W (V c (Pipeline.arrRef spec10 3)))

/-- What tile t writes back to the output is tile t of the rectified linear part. -/
theorem flushed10_4 (W : FVec Ideal S256x256 .f32) (hW : V c (Pipeline.arrRef spec10 2) = truncf .bf16 W bitsLt_bf16_f32)
    (t : Fin cfg10.N) :
    (dat10 V c).flushed 4 t = ((cfg10.win 4).blk t).view.read (Elt Ideal) (G10_4 V c W) := by
  show (cfg10.win 4).cut (grid10.coords t) ((dat10 V c).after 4 t) = _
  rw [after10_4]
  unfold out10_4
  rw [View.canon_unit_zero hz10_2]
  simp only [View.ld_unit_zero (S := S2000x256) hz10_2, View.ld_unit_zero (S := S2000x1) hz10_2,
    View.ld_unit_zero (S := S256x256) hz10_2, View.ld_unit_zero (S := S256) hz10_1]
  have key : (k1_pay1 (iblk10 V c 0 t) (iblk10 V c 1 t) (iblk10 V c 2 t) (iblk10 V c 3 t) : Vec Ideal S2000x256 .f32)
      = (((cfg10.win 4).blk t).view.read (Elt Ideal) (G10_4 V c W) : Vec Ideal S2000x256 .f32) := by
    funext j
    obtain ⟨p, q, rfl⟩ : ∃ (p : Fin 2000) (q : Fin 256), j = ix2 p q := ⟨j 0, j 1, eq_ix2 j⟩
    refine (ConvTile.pay256_relu (A := (V c (Pipeline.arrRef spec10 0))) (D := (V c (Pipeline.arrRef spec10 1))) (W := W) (B := (V c (Pipeline.arrRef spec10 3)))
      (x0 := iblk10 V c 0 t) (x1 := iblk10 V c 1 t) (x3 := iblk10 V c 2 t) (x4 := iblk10 V c 3 t) (t := t.val) (ht := lt10 t)
      (h0 := ?_) (h1 := ?_) (h3 := ?_) (h4 := ?_) (p := p) (q := q)).trans ?_
    · intro p k; exact read10_0 (V c (Pipeline.arrRef spec10 0)) t p k _ rfl
    · intro p; exact read10_1 (V c (Pipeline.arrRef spec10 1)) t p _ rfl
    · exact (read10_2 (V c (Pipeline.arrRef spec10 2)) t).trans hW
    · exact read10_3 (V c (Pipeline.arrRef spec10 3)) t
    · exact (read10_4 (G10_4 V c W) t p q _ rfl).symm
  rw [ConvTile.k10_pay1_eq]
  exact key

/-- The output array after the region: the rectified linear part of the arrays the region finds. -/
theorem arr10_4 (W : FVec Ideal S256x256 .f32) (hW : V c (Pipeline.arrRef spec10 2) = truncf .bf16 W bitsLt_bf16_f32) :
    (dat10 V c).arrAt 4 cfg10.N = Cert.Spec.relu256 (Cert.Spec.lin256 (V c (Pipeline.arrRef spec10 0)) (V c (Pipeline.arrRef spec10 1)) W (V c (Pipeline.arrRef spec10 3))) :=
  (dat10 V c).arrAt_eq_of_cover 4 (G10_4 V c W) (fun t _ => flushed10_4 V c W hW t) cover10_4

end Cert.KernelIdeal.ConvVal

end
-- ==== Proof.KLayer10.lean ====
/-
  Convolution 10, the last (layer 9 of the stacked parameters): as the earlier ones, but the launch writes back only the features,
  max(·, 0) of the linear map of the target-scaled aggregate plus the bias: nothing gathers from them again.
-/
import proofs.«126634_j63780264346183_1_alg».proof.Proof.Gen.KernelIdeal.Frame
import proofs.«126634_j63780264346183_1_alg».proof.Proof.KStretch
import proofs.«126634_j63780264346183_1_alg».proof.Proof.KAt
import proofs.«126634_j63780264346183_1_alg».proof.Proof.KBasics
import proofs.«126634_j63780264346183_1_alg».proof.Proof.KFeat
import proofs.«126634_j63780264346183_1_alg».proof.Proof.Conv10

set_option maxRecDepth 16384

noncomputable section

namespace Cert.KernelIdeal.KVal

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-- After launch 10: the node features of the whole stack of convolutions. -/
theorem layer10 (ih : W20 m ρ c (Proc.devRef .tc main_v166_1) = mulf (feat9 m c) (Cert.Spec.along256 (F := Ideal) (dOutCol m c))) :
    W22 m ρ c (Proc.devRef .tc main_v181) = feat10 m c := by
  have hdi : W21 m ρ c (Proc.devRef .tc main_v16) = dInCol m c :=
    (at21_main_v16 m ρ c).trans (col_eq _ _ Cert.ReferenceIdeal.Facts₀.bcast_S20000_S20000x1_0)
  have hw : W21 m ρ c (Proc.devRef .tc main_v178) = truncf .bf16 (Cert.Spec.sliceW (F := Ideal) (m ((c : Thread nD τ).loc main_arg4)) 9 Cert.ReferenceIdeal.Facts₀.slices_S10x256x256_S1x256x256_9_0_0) bitsLt_bf16_f32 := by
    refine (wsl10 (W20 m ρ c)).trans ?_
    rw [at20_main_v18]
    rfl
  have hb : W21 m ρ c (Proc.devRef .tc main_v180) = Cert.Spec.sliceB (F := Ideal) (m ((c : Thread nD τ).loc main_arg5)) 9 Cert.ReferenceIdeal.Facts₀.slices_S10x256_S1x256_9_0 := by
    refine (bsl10 (W20 m ρ c)).trans ?_
    rw [at20_main_arg5]
  have hagg : W21 m ρ c (Proc.devRef .tc main_v176)
      = Cert.Spec.spread256 (F := Ideal) (m ((c : Thread nD τ).loc main_arg12)) (m ((c : Thread nD τ).loc main_arg13)) (mulf (feat9 m c) (Cert.Spec.along256 (F := Ideal) (dOutCol m c))) := by
    refine (agg10 (W20 m ρ c)).trans ?_
    rw [at20_main_arg12, at20_main_arg13, ih]
  refine (W22_arr m ρ c 4).trans ((ConvVal.arr10_4 (V21 m ρ) c (Cert.Spec.sliceW (F := Ideal) (m ((c : Thread nD τ).loc main_arg4)) 9 Cert.ReferenceIdeal.Facts₀.slices_S10x256x256_S1x256x256_9_0_0) hw).trans ?_)
  show Cert.Spec.relu256 (F := Ideal) (Cert.Spec.lin256 (F := Ideal) (W21 m ρ c (Proc.devRef .tc main_v176)) (W21 m ρ c (Proc.devRef .tc main_v16)) _ (W21 m ρ c (Proc.devRef .tc main_v180))) = _
  rw [hagg, hdi, hb]
  rfl

end Cert.KernelIdeal.KVal

end
-- ==== Proof.HeadLaws.lean ====
/-
  Laws of the extended reals' array operations that a dense layer with a leaky rectifier is made of, over abstract
  shapes. A matrix product accumulated into the zero array is the host's product of the same operands, because both
  are the sum over the contraction index of the operands' products, and a change of float format is the identity on
  extended reals. A bias vector [b] repeated along the a rows of an [a, b] array is one array whether it is written as
  a reshape to [1, b] followed by a broadcast, or as the host's two placements of axes. A scalar repeated over a shape
  is the host's splat of the rank-0 constant of the same word, so the rectifier x ≥ 0 ? x : c · x is one array in
  both spellings. Together: one linear layer, rows times weights plus bias, is the same array in both programs.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HeadVal

open Idealize.ShloMosaic Idealize.ShloMosaic.ValueIdx

/-- A matrix product accumulated into the zero splat is the host's product of the same operands: both are the
    sum over the contraction index of the operands' products. The operands may be given in another float format
    (a change of format is the identity on extended reals). -/
theorem matmul_zero_eq_dot {sl sr so : Shape} {φ₁ φ₂ ψ₁ ψ₂ : FTy} (d d' : DotDims sl sr so) (hd : d = d')
    (lhs : FVec Ideal sl φ₁) (rhs : FVec Ideal sr φ₂) (lhs' : FVec Ideal sl ψ₁) (rhs' : FVec Ideal sr ψ₂)
    (hl : ∀ i, lhs i = lhs' i) (hr : ∀ i, rhs i = rhs' i) :
    matmul d none lhs rhs (constant (F := Ideal) so .f32 0x00000000#32) = Host.dotGeneral d' none lhs' rhs' := by
  subst hd
  funext j
  show FloatOps.matmul d none lhs rhs (constant (F := Ideal) so .f32 0x00000000#32) j
    = FloatOps.dotGeneral d none .single lhs' rhs' j
  rw [Ideal.matmul_constant_zero_apply, Ideal.dotGeneral_apply]
  exact Finset.sum_congr rfl fun k _ => by rw [hl, hr]

variable {α : Type}

/-- A vector [b] viewed [1, b] and repeated along a rows reads, at (p, q), the vector at q. -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) :=
  (broadcastTo_1b_ab_apply _ h2 p q).trans (shapeCast_a_1a_apply v h1 0 q)

/-- The host's spelling of the same: the vector placed on axis 1 of [1, b], then [1, b] placed on both axes of [a, b]. -/
theorem rowBiasHost_apply {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (q : Fin b) :
    broadcastInDim ⟨2, ![a, b]⟩ ![0, 1] h2 (broadcastInDim ⟨2, ![1, b]⟩ ![1] h1 v) (ix2 p q) = v (ix1 q) := by
  refine (broadcastInDim_apply _ h2 _ (ix2 p q) (ix2 (0 : Fin 1) q) fun ax => ?_).trans ?_
  · match ax with
    | ⟨0, _⟩ => rfl
    | ⟨1, _⟩ =>
      show q.val = if b = 1 then 0 else q.val
      split
      · have := q.isLt; omega
      · rfl
  · refine broadcastInDim_apply _ h1 _ (ix2 (0 : Fin 1) q) (ix1 q) fun ax => ?_
    match ax with
    | ⟨0, _⟩ =>
      show q.val = if b = 1 then 0 else q.val
      split
      · have := q.isLt; omega
      · rfl

/-- So the two spellings of a bias along the rows are one array. -/
theorem rowBias_eq {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩)
    (h3 : (⟨1, ![b]⟩ : Shape).BroadcastsInDim ⟨2, ![1, b]⟩ (![1] : Fin 1 → Fin 2))
    (h4 : (⟨2, ![1, b]⟩ : Shape).BroadcastsInDim ⟨2, ![a, b]⟩ (![0, 1] : Fin 2 → Fin 2)) :
    broadcastTo ⟨2, ![a, b]⟩ (shapeCast ⟨2, ![1, b]⟩ v h1) h2
      = broadcastInDim ⟨2, ![a, b]⟩ ![0, 1] h4 (broadcastInDim ⟨2, ![1, b]⟩ ![1] h3 v) := by
  funext j
  obtain ⟨p, q, rfl⟩ : ∃ (p : Fin a) (q : Fin b), j = ix2 p q := ⟨j 0, j 1, eq_ix2 j⟩
  rw [rowBias_apply, rowBiasHost_apply]

/-- A scalar repeated over a shape, and the host's splat of the rank-0 constant of the same word, are one array. -/
theorem splat_eq {s : Shape} (w : BitVec 32) (hb : (⟨0, ![]⟩ : Shape).BroadcastsInDim s (![] : Fin 0 → Fin s.rank)) :
    (broadcast s (Scalar.ofBits (F := Ideal) .f32 w) : FVec Ideal s .f32)
      = broadcastInDim s ![] hb (constant (F := Ideal) ⟨0, ![]⟩ .f32 w) := by
  funext i
  exact ((broadcastInDim_apply (![] : Fin 0 → Fin s.rank) hb (constant (F := Ideal) ⟨0, ![]⟩ .f32 w) i ix0
    fun ax => ax.elim0).trans rfl).symm

/-- The leaky rectifier x ≥ 0 ? x : c · x in its two spellings (the zero and the slope as a repeated scalar, or as the
    host's splat of a rank-0 constant) is one array. -/
theorem leaky_eq {s : Shape} (hb : (⟨0, ![]⟩ : Shape).BroadcastsInDim s (![] : Fin 0 → Fin s.rank)) (x : FVec Ideal s .f32) :
    select (cmpf .oge x (broadcast s (Scalar.ofBits (F := Ideal) .f32 0x00000000#32))) x
        (mulf (broadcast s (Scalar.ofBits (F := Ideal) .f32 0x3C23D70A#32)) x)
      = select (cmpf .oge x (broadcastInDim s ![] hb (constant (F := Ideal) ⟨0, ![]⟩ .f32 0x00000000#32))) x
        (mulf (broadcastInDim s ![] hb (constant (F := Ideal) ⟨0, ![]⟩ .f32 0x3C23D70A#32)) x) := by
  rw [splat_eq 0x00000000#32 hb, splat_eq 0x3C23D70A#32 hb]

/-- One linear layer: the rows times the weights, both passed through the narrower format, accumulated into zero, plus
    the bias along the rows — against the host's product plus its spelling of the bias. -/
theorem lin_eq {a k b : ℕ} (d d' : DotDims ⟨2, ![a, k]⟩ ⟨2, ![k, b]⟩ ⟨2, ![a, b]⟩) (hd : d = d')
    (x : FVec Ideal ⟨2, ![a, k]⟩ .f32) (W : FVec Ideal ⟨2, ![k, b]⟩ .f32) (v : FVec Ideal ⟨1, ![b]⟩ .f32)
    (hbits : FTy.bits .bf16 < FTy.bits .f32) (hc : (⟨2, ![k, b]⟩ : Shape).ShapeCasts ⟨2, ![k, b]⟩)
    (h1 : (⟨1, ![b]⟩ : Shape).ShapeCasts ⟨2, ![1, b]⟩) (h2 : (⟨2, ![1, b]⟩ : Shape).Broadcasts ⟨2, ![a, b]⟩)
    (h3 : (⟨1, ![b]⟩ : Shape).BroadcastsInDim ⟨2, ![1, b]⟩ (![1] : Fin 1 → Fin 2))
    (h4 : (⟨2, ![1, b]⟩ : Shape).BroadcastsInDim ⟨2, ![a, b]⟩ (![0, 1] : Fin 2 → Fin 2)) :
    addf (matmul d none (truncf .bf16 x hbits) (shapeCast ⟨2, ![k, b]⟩ (truncf .bf16 W hbits) hc)
          (constant (F := Ideal) ⟨2, ![a, b]⟩ .f32 0x00000000#32))
        (broadcastTo ⟨2, ![a, b]⟩ (shapeCast ⟨2, ![1, b]⟩ v h1) h2)
      = addf (Host.dotGeneral d' none x W) (broadcastInDim ⟨2, ![a, b]⟩ ![0, 1] h4 (broadcastInDim ⟨2, ![1, b]⟩ ![1] h3 v)) := by
  have e1 := matmul_zero_eq_dot d d' hd (truncf .bf16 x hbits) (shapeCast ⟨2, ![k, b]⟩ (truncf .bf16 W hbits) hc) x W
    (fun _ => rfl) (fun i => congrFun (shapeCast_self (truncf .bf16 W hbits) hc) i)
  have e2 := rowBias_eq v h1 h2 h3 h4
  rw [e1, e2]

end Cert.KernelIdeal.HeadVal

end
-- ==== Proof.HeadPay.lean ====
/-
  The head's arithmetic is the specification's head. The kernel body computes, from the pooled features p [64, 256]
  and three weight blocks held in the narrower float format,
      y₁ = leaky (p · W₁ + b₁),   y₂ = leaky (y₁ · W₂ + b₂),   out = y₂ · W₃ + b₃,
  each product accumulated into a zero array with both operands passed through the narrower format, each bias a
  vector repeated along the 64 rows, and leaky x = (x ≥ 0 ? x : c · x) with c the f32 nearest 0.01. On extended reals a
  change of format is the identity, so with the weight blocks the narrowed W₁, W₂, W₃ each layer is the host's product
  plus its bias, and the whole is the specification's head of p, W₁, b₁, W₂, b₂, W₃, b₃ — layer by layer, outermost
  first, by the laws of one linear layer and of the rectifier.
-/
import proofs.«126634_j63780264346183_1_alg».proof.Proof.Gen.KernelIdeal.Skeleton
import proofs.«126634_j63780264346183_1_alg».proof.Proof.Spec
import proofs.«126634_j63780264346183_1_alg».proof.Proof.HeadLaws

noncomputable section

namespace Cert.KernelIdeal.HeadVal

open Idealize.ShloMosaic Cert.KernelIdeal Cert.KernelIdeal.Gen

/-- The two programs' dimension numbers for the three products are the same records. -/
theorem dot1_eq : dot_S64x256_S256x1024_S64x1024_1_0_0_1_n_n = Cert.ReferenceIdeal.dot_S64x256_S256x1024_S64x1024_1_0_0_1_n_n := rfl
theorem dot2_eq : dot_S64x1024_S1024x512_S64x512_1_0_0_1_n_n = Cert.ReferenceIdeal.dot_S64x1024_S1024x512_S64x512_1_0_0_1_n_n := rfl
theorem dot3_eq : dot_S64x512_S512x1_S64x1_1_0_0_1_n_n = Cert.ReferenceIdeal.dot_S64x512_S512x1_S64x1_1_0_0_1_n_n := rfl

/-- The head's payload on the loaded blocks, the three weight blocks being the narrowed weights, is the
    specification's head of the same arrays. -/
theorem pay_eq_head (x0 : Vec Ideal S64x256 .f32) (W1 : FVec Ideal S256x1024 .f32) (x2 : Vec Ideal S1024 .f32)
    (W2 : FVec Ideal S1024x512 .f32) (x4 : Vec Ideal S512 .f32) (W3 : FVec Ideal S512x1 .f32) (x6 : Vec Ideal S1 .f32) :
    k11_pay1 x0 (truncf .bf16 W1 bitsLt_bf16_f32) x2 (truncf .bf16 W2 bitsLt_bf16_f32) x4 (truncf .bf16 W3 bitsLt_bf16_f32) x6
      = Cert.Spec.head x0 W1 x2 W2 x4 W3 x6 := by
  unfold Cert.Spec.head Cert.Spec.leaky512 Cert.Spec.leaky1024 Cert.Spec.zeros
  rw [← lin_eq _ _ dot3_eq _ W3 x6 bitsLt_bf16_f32 shapeCasts_S512x1_S512x1 shapeCasts_S1_S1x1 broadcasts_S1x1_S64x1,
    ← leaky_eq,
    ← lin_eq _ _ dot2_eq _ W2 x4 bitsLt_bf16_f32 shapeCasts_S1024x512_S1024x512 shapeCasts_S512_S1x512 broadcasts_S1x512_S64x512,
    ← leaky_eq,
    ← lin_eq _ _ dot1_eq x0 W1 x2 bitsLt_bf16_f32 shapeCasts_S256x1024_S256x1024 shapeCasts_S1024_S1x1024 broadcasts_S1x1024_S64x1024]
  unfold k11_pay1
  dsimp only
  rw [shapeCast_self x0]

end Cert.KernelIdeal.HeadVal

end
-- ==== Proof.Head.lean ====
/-
  The head region's output array. The region's grid has one point; every window's index map is constantly zero and its
  block has the array's own shape, so each window's one block is its whole array and the one write-back covers the
  output array. The body loads each input buffer whole and stores its result whole, once, so what the point writes
  back is the body's arithmetic on the arrays as the region finds them. With the three weight arrays the narrowed
  weights, that arithmetic is the specification's head; hence after the region the output array is the specification's
  head of the pooled features, the weights and the biases.
-/
import proofs.«126634_j63780264346183_1_alg».proof.Proof.Gen.KernelIdeal.Frame
import proofs.«126634_j63780264346183_1_alg».proof.Proof.HeadPay
import Idealize.ShloMosaic.Lib.Pipeline.Value

noncomputable section

namespace Cert.KernelIdeal.HeadVal

open Cert.KernelIdeal Cert.KernelIdeal.Gen Idealize.ShloMosaic Idealize.ShloMosaic.TcCoe Idealize.SL.Sem
open Idealize.ShloMosaic.Pipeline (Dat)

theorem zero2 : (![0, 0] : Fin 2 → Nat) = fun _ => 0 := funext fun a => by fin_cases a <;> rfl
theorem zero1 : (![0] : Fin 1 → Nat) = fun _ => 0 := funext fun a => by fin_cases a <;> rfl

/-- The body loads each input buffer whole and stores its result whole, once: what it leaves in the output's buffer is the
    payload of the input buffers' contents. -/
theorem out_eq (x0 : Vec Ideal S64x256 .f32) (x1 : Vec Ideal S256x1024 .bf16) (x2 : Vec Ideal S1024 .f32)
    (x3 : Vec Ideal S1024x512 .bf16) (x4 : Vec Ideal S512 .f32) (x5 : Vec Ideal S512x1 .bf16) (x6 : Vec Ideal S1 .f32) :
    out11_7 x0 x1 x2 x3 x4 x5 x6 = k11_pay1 x0 x1 x2 x3 x4 x5 x6 := by
  unfold out11_7
  rw [View.canon_unit_zero zero2]
  simp only [View.ld_unit_zero (S := S64x256) zero2, View.ld_unit_zero (S := S256x1024) zero2,
    View.ld_unit_zero (S := S1024) zero1, View.ld_unit_zero (S := S1024x512) zero2, View.ld_unit_zero (S := S512) zero1,
    View.ld_unit_zero (S := S512x1) zero2, View.ld_unit_zero (S := S1) zero1]

variable (V : (c : Dev nD) → (b : Ref sig .tc) → Buf (Elt Ideal) ((c : Thread nD τ).loc b))

/-- The grid has one point and every index map is constantly zero with the block the array's own shape: each window's
    block is its whole array. -/
theorem iblk_0 (c : Dev nD) (t : Fin cfg11.N) : iblk11 V c 0 t = V c (Pipeline.arrRef spec11 0) :=
  Memref.read_access_unit_zero (Elt Ideal) main_v194 (off := fun a => win11_0.index t a * S64x256.size a)
    (funext fun a => by fin_cases a <;> rfl) _ _
theorem iblk_1 (c : Dev nD) (t : Fin cfg11.N) : iblk11 V c 1 t = V c (Pipeline.arrRef spec11 1) :=
  Memref.read_access_unit_zero (Elt Ideal) main_v195 (off := fun a => win11_1.index t a * S256x1024.size a)
    (funext fun a => by fin_cases a <;> rfl) _ _
theorem iblk_2 (c : Dev nD) (t : Fin cfg11.N) : iblk11 V c 2 t = V c (Pipeline.arrRef spec11 2) :=
  Memref.read_access_unit_zero (Elt Ideal) main_arg7 (off := fun a => win11_2.index t a * S1024.size a)
    (funext fun a => by fin_cases a <;> rfl) _ _
theorem iblk_3 (c : Dev nD) (t : Fin cfg11.N) : iblk11 V c 3 t = V c (Pipeline.arrRef spec11 3) :=
  Memref.read_access_unit_zero (Elt Ideal) main_v196 (off := fun a => win11_3.index t a * S1024x512.size a)
    (funext fun a => by fin_cases a <;> rfl) _ _
theorem iblk_4 (c : Dev nD) (t : Fin cfg11.N) : iblk11 V c 4 t = V c (Pipeline.arrRef spec11 4) :=
  Memref.read_access_unit_zero (Elt Ideal) main_arg9 (off := fun a => win11_4.index t a * S512.size a)
    (funext fun a => by fin_cases a <;> rfl) _ _
theorem iblk_5 (c : Dev nD) (t : Fin cfg11.N) : iblk11 V c 5 t = V c (Pipeline.arrRef spec11 5) :=
  Memref.read_access_unit_zero (Elt Ideal) main_v197 (off := fun a => win11_5.index t a * S512x1.size a)
    (funext fun a => by fin_cases a <;> rfl) _ _
theorem iblk_6 (c : Dev nD) (t : Fin cfg11.N) : iblk11 V c 6 t = V c (Pipeline.arrRef spec11 6) :=
  Memref.read_access_unit_zero (Elt Ideal) main_arg11 (off := fun a => win11_6.index t a * S1.size a)
    (funext fun a => by fin_cases a <;> rfl) _ _

/-- Likewise the output's one block read off any contents of its array is those contents. -/
theorem read_blk_7 (t : Fin cfg11.N) (G : S64x1.Idx → Ideal .f32) :
    ((cfg11.win 7).blk t).view.read (Elt Ideal) G = G :=
  Memref.read_access_unit_zero (Elt Ideal) main_v198 (off := fun a => win11_7.index t a * S64x1.size a)
    (funext fun a => by fin_cases a <;> rfl) _ G

/-- What the one grid point writes back to the output's array is its block of the specification's head of the arrays
    the region finds, the three weight arrays being the narrowed weights. -/
theorem flushed_eq (c : Dev nD) (W1 : FVec Ideal S256x1024 .f32) (W2 : FVec Ideal S1024x512 .f32) (W3 : FVec Ideal S512x1 .f32)
    (hW1 : V c (Pipeline.arrRef spec11 1) = truncf .bf16 W1 bitsLt_bf16_f32)
    (hW2 : V c (Pipeline.arrRef spec11 3) = truncf .bf16 W2 bitsLt_bf16_f32)
    (hW3 : V c (Pipeline.arrRef spec11 5) = truncf .bf16 W3 bitsLt_bf16_f32) (t : Fin cfg11.N) :
    (dat11 V c).flushed 7 t = ((cfg11.win 7).blk t).view.read (Elt Ideal)
      (Cert.Spec.head (F := Ideal) (V c (Pipeline.arrRef spec11 0)) W1 (V c (Pipeline.arrRef spec11 2)) W2
        (V c (Pipeline.arrRef spec11 4)) W3 (V c (Pipeline.arrRef spec11 6))) := by
  show (cfg11.win 7).cut (grid11.coords t) ((dat11 V c).after 7 t) = _
  rw [after11_7, out_eq, iblk_0, iblk_1, iblk_2, iblk_3, iblk_4, iblk_5, iblk_6, hW1, hW2, hW3, pay_eq_head, read_blk_7]
  rfl

/-- The one block is the whole output array: every index is in it. -/
theorem cover_7 (c : Dev nD) (i : ((cfg11.win 7).arr.view.loc (c.tc : Thread nD τ)).2.ty.Idx) :
    ∃ t : Fin cfg11.N, (cfg11.win 7).flush t = true ∧ i ∈ ((cfg11.win 7).blk t).view.set :=
  ⟨t11_0, flush11_7 t11_0, by
    show i ∈ ((View.whole main_v198).slice (win11_7.rect t11_0)).set
    rw [View.set_slice_whole]
    exact View.mem_set_unit_zero (funext fun a => by fin_cases a <;> rfl) _ i⟩

/-- After the region the output array holds the specification's head of the arrays the region finds. -/
theorem arr11_7 (c : Dev nD) (W1 : FVec Ideal S256x1024 .f32) (W2 : FVec Ideal S1024x512 .f32) (W3 : FVec Ideal S512x1 .f32)
    (hW1 : V c (Pipeline.arrRef spec11 1) = truncf .bf16 W1 bitsLt_bf16_f32)
    (hW2 : V c (Pipeline.arrRef spec11 3) = truncf .bf16 W2 bitsLt_bf16_f32)
    (hW3 : V c (Pipeline.arrRef spec11 5) = truncf .bf16 W3 bitsLt_bf16_f32) :
    (dat11 V c).arrAt 7 cfg11.N
      = Cert.Spec.head (F := Ideal) (V c (Pipeline.arrRef spec11 0)) W1 (V c (Pipeline.arrRef spec11 2)) W2
        (V c (Pipeline.arrRef spec11 4)) W3 (V c (Pipeline.arrRef spec11 6)) :=
  (dat11 V c).arrAt_eq_of_cover 7 _ (fun t _ => flushed_eq V c W1 W2 W3 hW1 hW2 hW3 t) (cover_7 c)

end Cert.KernelIdeal.HeadVal

end
-- ==== Proof.KRun.lean ====
/-
  The idealized kernel's run with its result named: every weakly fair execution of @main ends with the returned buffer
  holding what the last boundary's contents give it (the fold of the host stretches and the twelve regions' write-backs
  from the launch memory), and the fifteen arguments as launched.
-/
import proofs.«126634_j63780264346183_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over @main's segments, the last thread state read against the final state: the returned buffer at the last
    boundary's contents, each argument back at its launch contents. -/
theorem run_named : θ_run defs (onTc (τ := τ) (main (F := F))) ⟨m, fun _ => 0, ρ⟩ (fun r => ∀ c : Dev nD,
      r.2.mem ((c.tc : Thread nD τ).loc main_v199) = W25 m ρ c (Proc.devRef .tc main_v199)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v199 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c),
       (h c _ (mem_uc main_arg10 (by decide))).trans (W25_main_arg10 m ρ c),
       (h c _ (mem_uc main_arg11 (by decide))).trans (W25_main_arg11 m ρ c),
       (h c _ (mem_uc main_arg12 (by decide))).trans (W25_main_arg12 m ρ c),
       (h c _ (mem_uc main_arg13 (by decide))).trans (W25_main_arg13 m ρ c),
       (h c _ (mem_uc main_arg14 (by decide))).trans (W25_main_arg14 m ρ c)⟩)

end Cert.KernelIdeal.Gen

end
-- ==== Proof.KTail.lean ====
/-
  The end of the idealized kernel's @main: the per-graph mean of the last features (host operations), the head's launch (one grid
  point; its weights rounded to bf16 on the way in, the identity at the ideal values), and the unit axis dropped. Composed with the
  eleven convolutions this is the specification's function of the argument arrays; and the kernel's run, with its result named, ends
  with the returned buffer holding it.
-/
import proofs.«126634_j63780264346183_1_alg».proof.Proof.Gen.KernelIdeal.Frame
import proofs.«126634_j63780264346183_1_alg».proof.Proof.KStretch
import proofs.«126634_j63780264346183_1_alg».proof.Proof.KAt
import proofs.«126634_j63780264346183_1_alg».proof.Proof.KBasics
import proofs.«126634_j63780264346183_1_alg».proof.Proof.KFeat
import proofs.«126634_j63780264346183_1_alg».proof.Proof.KLayer0
import proofs.«126634_j63780264346183_1_alg».proof.Proof.KLayer1
import proofs.«126634_j63780264346183_1_alg».proof.Proof.KLayer2
import proofs.«126634_j63780264346183_1_alg».proof.Proof.KLayer3
import proofs.«126634_j63780264346183_1_alg».proof.Proof.KLayer4
import proofs.«126634_j63780264346183_1_alg».proof.Proof.KLayer5
import proofs.«126634_j63780264346183_1_alg».proof.Proof.KLayer6
import proofs.«126634_j63780264346183_1_alg».proof.Proof.KLayer7
import proofs.«126634_j63780264346183_1_alg».proof.Proof.KLayer8
import proofs.«126634_j63780264346183_1_alg».proof.Proof.KLayer9
import proofs.«126634_j63780264346183_1_alg».proof.Proof.KLayer10
import proofs.«126634_j63780264346183_1_alg».proof.Proof.Head
import proofs.«126634_j63780264346183_1_alg».proof.Proof.KRun

set_option maxRecDepth 16384

noncomputable section

namespace Cert.KernelIdeal.KVal

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-- The returned buffer at the last boundary is the specification's output of the launch contents of the arguments. -/
theorem result_eq : W25 m ρ c (Proc.devRef .tc main_v199) = Cert.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have l10 : W22 m ρ c (Proc.devRef .tc main_v181) = feat10 m c :=
    layer10 m ρ c (layer9 m ρ c (layer8 m ρ c (layer7 m ρ c (layer6 m ρ c (layer5 m ρ c (layer4 m ρ c (layer3 m ρ c (layer2 m ρ c
      (layer1 m ρ c (layer0 m ρ c).2).2).2).2).2).2).2).2).2).2
  have hp : W23 m ρ c (Proc.devRef .tc main_v194) = Cert.Spec.pool (F := Ideal) (feat10 m c) (m ((c : Thread nD τ).loc main_arg14)) (m ((c : Thread nD τ).loc main_arg1)) := by
    refine (v194_11 (W22 m ρ c)).trans ?_
    rw [l10, at22_main_arg14, at22_main_arg1]
  have hw1 := v195_11 (W22 m ρ c)
  have hw2 := v196_11 (W22 m ρ c)
  have hw3 := v197_11 (W22 m ρ c)
  have hh : W24 m ρ c (Proc.devRef .tc main_v198)
      = Cert.Spec.head (F := Ideal) (Cert.Spec.pool (F := Ideal) (feat10 m c) (m ((c : Thread nD τ).loc main_arg14)) (m ((c : Thread nD τ).loc main_arg1))) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11)) := by
    refine (W24_arr m ρ c 7).trans ((HeadVal.arr11_7 (V23 m ρ) c (W22 m ρ c (Proc.devRef .tc main_arg6)) (W22 m ρ c (Proc.devRef .tc main_arg8)) (W22 m ρ c (Proc.devRef .tc main_arg10)) hw1 hw2 hw3).trans ?_)
    show Cert.Spec.head (F := Ideal) (W23 m ρ c (Proc.devRef .tc main_v194)) (W22 m ρ c (Proc.devRef .tc main_arg6)) (W23 m ρ c (Proc.devRef .tc main_arg7)) (W22 m ρ c (Proc.devRef .tc main_arg8))
      (W23 m ρ c (Proc.devRef .tc main_arg9)) (W22 m ρ c (Proc.devRef .tc main_arg10)) (W23 m ρ c (Proc.devRef .tc main_arg11)) = _
    rw [hp, at22_main_arg6, at23_main_arg7, at22_main_arg8, at23_main_arg9, at22_main_arg10, at23_main_arg11]
  refine (v199_12 (W24 m ρ c)).trans ?_
  rw [hh, feat10_eq]
  rfl

/-- Every weakly fair execution of the idealized kernel's @main terminates with the returned buffer at the specification's output
    of the arguments, and the arguments as launched. -/
theorem run : θ_run (defs (F := Ideal)) (onTc (τ := τ) (main (F := Ideal))) ⟨m, fun _ => 0, ρ⟩ (fun r => ∀ c : Dev nD,
      r.2.mem ((c.tc : Thread nD τ).loc main_v199) = Cert.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run (defs (F := Ideal)) _ _).mono (fun r h c => ⟨(h c).1.trans (result_eq m ρ c), (h c).2⟩) (Gen.run_named m ρ)

end Cert.KernelIdeal.KVal

end
-- ==== Proof.RefLib.lean ====
/-
  Small general facts about a straight line of host operations, used to read a long line piece by piece:
  the fold over a concatenation is the fold of the second piece from the first piece's result; a list predicate
  over a concatenation; an operation that writes one listed reference; a reference no operation of a piece writes
  keeps its contents.
-/
import proofs.«126634_j63780264346183_1_alg».proof.Proof.Gen.ReferenceIdeal
import Idealize.ShloMosaic.Lib.StableHlo.Run

noncomputable section

namespace Cert.ReferenceIdeal.RefValue

open Idealize.ShloMosaic Idealize.SL.Sem Idealize.ShloMosaic.StableHlo

variable {τ : Topo} {sig : RefSig} {Val : EltTy → Type}

/-- The fold over two pieces in a row: the second piece's fold from the first piece's result. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A predicate on every element of two lists holds on every element of their concatenation. -/
theorem forall_append {α : Type _} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- One listed reference, as a set of device buffers, is inside the list's. -/
theorem wr_mem {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

end Cert.ReferenceIdeal.RefValue

end
-- ==== Proof.RefOps.lean ====
/- The operations of the reference's @main in order, the module-local functions' bodies written at their calls over the calls' records,
   cut into consecutive pieces at the layers' first statements and at the printed windows' first statements; per piece the
   references its operations write, that every operation touches TensorCore references only, that each determines its results, and that each writes a listed reference. -/
import proofs.«126634_j63780264346183_1_alg».proof.Proof.RefLib

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Statements 1 … 22 of @main: 22 operations. -/
abbrev pc00 : List (HloOp τ sig (Elt F)) :=
  [ StableHlo.nullary main_cst (constant S_ .f32 0x3F800000#32),
    StableHlo.unary main_cst main_v0 (broadcastInDim S320000 ![] bcast_S_S320000 : (⟨S_, .f32⟩ : BufTy).Contents (Elt F) → (⟨S320000, .f32⟩ : BufTy).Contents (Elt F)),
    StableHlo.nullary main_cst_0 (constant S_ .f32 0x00000000#32),
    StableHlo.unary main_cst_0 main_v1 (broadcastInDim S20000 ![] bcast_S_S20000 : (⟨S_, .f32⟩ : BufTy).Contents (Elt F) → (⟨S20000, .f32⟩ : BufTy).Contents (Elt F)),
    StableHlo.unary main_arg12 main_v2 (broadcastInDim S320000x1 ![0] bcast_S320000_S320000x1_0 : (⟨S320000, .i32⟩ : BufTy).Contents (Elt F) → (⟨S320000x1, .i32⟩ : BufTy).Contents (Elt F)),
    StableHlo.ternary main_v1 main_v2 main_v0 main_v3 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    StableHlo.nullary main_cst_1 (constant S_ .f32 0x3F800000#32),
    StableHlo.unary main_cst_1 main_v4 (broadcastInDim S20000 ![] bcast_S_S20000 : (⟨S_, .f32⟩ : BufTy).Contents (Elt F) → (⟨S20000, .f32⟩ : BufTy).Contents (Elt F)),
    StableHlo.binary main_v3 main_v4 main_v5 (maximumf : (⟨S20000, .f32⟩ : BufTy).Contents (Elt F) → (⟨S20000, .f32⟩ : BufTy).Contents (Elt F) → (⟨S20000, .f32⟩ : BufTy).Contents (Elt F)),
    StableHlo.nullary main_cst_2 (constant S_ .f32 0x00000000#32),
    StableHlo.unary main_cst_2 main_v6 (broadcastInDim S20000 ![] bcast_S_S20000 : (⟨S_, .f32⟩ : BufTy).Contents (Elt F) → (⟨S20000, .f32⟩ : BufTy).Contents (Elt F)),
    StableHlo.unary main_arg13 main_v7 (broadcastInDim S320000x1 ![0] bcast_S320000_S320000x1_0 : (⟨S320000, .i32⟩ : BufTy).Contents (Elt F) → (⟨S320000x1, .i32⟩ : BufTy).Contents (Elt F)),
    StableHlo.ternary main_v6 main_v7 main_v0 main_v8 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    StableHlo.nullary main_cst_3 (constant S_ .f32 0x3F800000#32),
    StableHlo.unary main_cst_3 main_v9 (broadcastInDim S20000 ![] bcast_S_S20000 : (⟨S_, .f32⟩ : BufTy).Contents (Elt F) → (⟨S20000, .f32⟩ : BufTy).Contents (Elt F)),
    StableHlo.binary main_v8 main_v9 main_v10 (maximumf : (⟨S20000, .f32⟩ : BufTy).Contents (Elt F) → (⟨S20000, .f32⟩ : BufTy).Contents (Elt F) → (⟨S20000, .f32⟩ : BufTy).Contents (Elt F)),
    StableHlo.nullary main_cst_4 (constant S_ .f32 0xBF000000#32),
    StableHlo.unary main_cst_4 main_v11 (broadcastInDim S20000 ![] bcast_S_S20000 : (⟨S_, .f32⟩ : BufTy).Contents (Elt F) → (⟨S20000, .f32⟩ : BufTy).Contents (Elt F)),
    StableHlo.binary main_v5 main_v11 main_v12 (Host.powf : (⟨S20000, .f32⟩ : BufTy).Contents (Elt F) → (⟨S20000, .f32⟩ : BufTy).Contents (Elt F) → (⟨S20000, .f32⟩ : BufTy).Contents (Elt F)),
    StableHlo.nullary main_cst_5 (constant S_ .f32 0xBF000000#32),
    StableHlo.unary main_cst_5 main_v13 (broadcastInDim S20000 ![] bcast_S_S20000 : (⟨S_, .f32⟩ : BufTy).Contents (Elt F) → (⟨S20000, .f32⟩ : BufTy).Contents (Elt F)),
    StableHlo.binary main_v10 main_v13 main_v14 (Host.powf : (⟨S20000, .f32⟩ : BufTy).Contents (Elt F) → (⟨S20000, .f32⟩ : BufTy).Contents (Elt F) → (⟨S20000, .f32⟩ : BufTy).Contents (Elt F)) ]

/-- The references they write. -/
abbrev wr00 : List (Ref sig .tc) :=
  [main_cst, main_v0, main_cst_0, main_v1, main_v2, main_v3, main_cst_1, main_v4, main_v5, main_cst_2, main_v6, main_v7, main_v8, main_cst_3, main_v9, main_v10, main_cst_4, main_v11, main_v12, main_cst_5, main_v13, main_v14]

theorem pc00_sub : (pc00 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub ..⟩

theorem pc00_fresh : (pc00 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem pc00_wr : (pc00 : List (HloOp τ sig (Elt F))).Forall fun op => op.writes ⊆ (wr00.map (Proc.devRef (τ := τ) .tc)).toFinset :=
  ⟨wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide)⟩

/-- Statements 23 … 45 of @main: 23 operations. -/
abbrev pc01 : List (HloOp τ sig (Elt F)) :=
  [ StableHlo.unary main_v12 main_v15 (broadcastInDim S20000x1 ![0] bcast_S20000_S20000x1_0 : (⟨S20000, .f32⟩ : BufTy).Contents (Elt F) → (⟨S20000x1, .f32⟩ : BufTy).Contents (Elt F)),
    StableHlo.unary main_v15 main_v16 (broadcastInDim S20000x74 ![0, 1] bcast_S20000x1_S20000x74_0_1 : (⟨S20000x1, .f32⟩ : BufTy).Contents (Elt F) → (⟨S20000x74, .f32⟩ : BufTy).Contents (Elt F)),
    StableHlo.binary main_arg0 main_v16 main_v17 (mulf : (⟨S20000x74, .f32⟩ : BufTy).Contents (Elt F) → (⟨S20000x74, .f32⟩ : BufTy).Contents (Elt F) → (⟨S20000x74, .f32⟩ : BufTy).Contents (Elt F)),
    StableHlo.nullary main_c (constantI S_ 32 0#32),
    StableHlo.unary main_c main_v18 (broadcastInDim S320000 ![] bcast_S_S320000 : (⟨S_, .i32⟩ : BufTy).Contents (Elt F) → (⟨S320000, .i32⟩ : BufTy).Contents (Elt F)),
    StableHlo.binary main_arg12 main_v18 main_v19 (cmpi .slt : (⟨S320000, .i32⟩ : BufTy).Contents (Elt F) → (⟨S320000, .i32⟩ : BufTy).Contents (Elt F) → (⟨S320000, .i1⟩ : BufTy).Contents (Elt F)),
    StableHlo.nullary main_c_6 (constantI S_ 32 20000#32),
    StableHlo.unary main_c_6 main_v20 (broadcastInDim S320000 ![] bcast_S_S320000 : (⟨S_, .i32⟩ : BufTy).Contents (Elt F) → (⟨S320000, .i32⟩ : BufTy).Contents (Elt F)),
    StableHlo.binary main_arg12 main_v20 main_v21 (addi : (⟨S320000, .i32⟩ : BufTy).Contents (Elt F) → (⟨S320000, .i32⟩ : BufTy).Contents (Elt F) → (⟨S320000, .i32⟩ : BufTy).Contents (Elt F)),
    StableHlo.ternary main_v19 main_v21 main_arg12 main_v22 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v22 main_v23 (broadcastInDim S320000x1 ![0] bcast_S320000_S320000x1_0 : (⟨S320000, .i32⟩ : BufTy).Contents (Elt F) → (⟨S320000x1, .i32⟩ : BufTy).Contents (Elt F)),
    StableHlo.binary main_v17 main_v23 main_v24 ((fun x i => Host.gather gather_S20000x74_S320000x1_S320000x74_1_0_n_n_0_1_174 x i) : (⟨S20000x74, .f32⟩ : BufTy).Contents (Elt F) → (⟨S320000x1, .i32⟩ : BufTy).Contents (Elt F) → (⟨S320000x74, .f32⟩ : BufTy).Contents (Elt F)),
    StableHlo.nullary main_cst_7 (constant S_ .f32 0x00000000#32),
    StableHlo.unary main_cst_7 main_v25 (broadcastInDim S20000x74 ![] bcast_S_S20000x74 : (⟨S_, .f32⟩ : BufTy).Contents (Elt F) → (⟨S20000x74, .f32⟩ : BufTy).Contents (Elt F)),
    StableHlo.unary main_arg13 main_v26 (broadcastInDim S320000x1 ![0] bcast_S320000_S320000x1_0 : (⟨S320000, .i32⟩ : BufTy).Contents (Elt F) → (⟨S320000x1, .i32⟩ : BufTy).Contents (Elt F)),
    StableHlo.ternary main_v25 main_v26 main_v24 main_v27 ((fun x i u => Host.scatterAdd scatter_S20000x74_S320000x1_S320000x74_1_0_0_1 x i u) : (⟨S20000x74, .f32⟩ : BufTy).Contents (Elt F) → (⟨S320000x1, .i32⟩ : BufTy).Contents (Elt F) → (⟨S320000x74, .f32⟩ : BufTy).Contents (Elt F) → (⟨S20000x74, .f32⟩ : BufTy).Contents (Elt F)),
    StableHlo.unary main_v14 main_v28 (broadcastInDim S20000x1 ![0] bcast_S20000_S20000x1_0 : (⟨S20000, .f32⟩ : BufTy).Contents (Elt F) → (⟨S20000x1, .f32⟩ : BufTy).Contents (Elt F)),
    StableHlo.unary main_v28 main_v29 (broadcastInDim S20000x74 ![0, 1] bcast_S20000x1_S20000x74_0_1 : (⟨S20000x1, .f32⟩ : BufTy).Contents (Elt F) → (⟨S20000x74, .f32⟩ : BufTy).Contents (Elt F)),
    StableHlo.binary main_v27 main_v29 main_v30 (mulf : (⟨S20000x74, .f32⟩ : BufTy).Contents (Elt F) → (⟨S20000x74, .f32⟩ : BufTy).Contents (Elt F) → (⟨S20000x74, .f32⟩ : BufTy).Contents (Elt F)),
    StableHlo.binary main_v30 main_arg2 main_v31 ((fun l r => Host.dotGeneral dot_S20000x74_S74x256_S20000x256_1_0_0_1_n_n none l r) : (⟨S20000x74, .f32⟩ : BufTy).Contents (Elt F) → (⟨S74x256, .f32⟩ : BufTy).Contents (Elt F) → (⟨S20000x256, .f32⟩ : BufTy).Contents (Elt F)),
    StableHlo.unary main_arg3 main_v32 (broadcastInDim S1x256 ![1] bcast_S256_S1x256_1 : (⟨S256, .f32⟩ : BufTy).Contents (Elt F) → (⟨S1x256, .f32⟩ : BufTy).Contents (Elt F)),
    StableHlo.unary main_v32 main_v33 (broadcastInDim S20000x256 ![0, 1] bcast_S1x256_S20000x256_0_1 : (⟨S1x256, .f32⟩ : BufTy).Contents (Elt F) → (⟨S20000x256, .f32⟩ : BufTy).Contents (Elt F)),
    StableHlo.binary main_v31 main_v33 main_v34 (addf : (⟨S20000x256, .f32⟩ : BufTy).Contents (Elt F) → (⟨S20000x256, .f32⟩ : BufTy).Contents (Elt F) → (⟨S20000x256, .f32⟩ : BufTy).Contents (Elt F)) ]

/-- The references they write. -/
abbrev wr01 : List (Ref sig .tc) :=
  [main_v15, main_v16, main_v17, main_c, main_v18, main_v19, main_c_6, main_v20, main_v21, main_v22, main_v23, main_v24, main_cst_7, main_v25, main_v26, main_v27, main_v28, main_v29, main_v30, main_v31, main_v32, main_v33, main_v34]

theorem pc01_sub : (pc01 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩

theorem pc01_fresh : (pc01 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

theorem pc01_wr : (pc01 : List (HloOp τ sig (Elt F))).Forall fun op => op.writes ⊆ (wr01.map (Proc.devRef (τ := τ) .tc)).toFinset :=
  ⟨wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide)⟩

/-- Statements 46 … 60 of @main: 15 operations. -/
abbrev pc02 : List (HloOp τ sig (Elt F)) :=
  [ StableHlo.unary main_arg4 main_v35 ((extractStridedSlice S1x256x256 ![0, 0, 0] · slices_S10x256x256_S1x256x256_0_0_0) : (⟨S10x256x256, .f32⟩ : BufTy).Contents (Elt F) → (⟨S1x256x256, .f32⟩ : BufTy).Contents (Elt F)),
    StableHlo.reshape main_v35 main_v36 rfl shapeCasts_S1x256x256_S256x256,
    StableHlo.unary main_arg5 main_v37 ((extractStridedSlice S1x256 ![0, 0] · slices_S10x256_S1x256_0_0) : (⟨S10x256, .f32⟩ : BufTy).Contents (Elt F) → (⟨S1x256, .f32⟩ : BufTy).Contents (Elt F)),
    StableHlo.reshape main_v37 main_v38 rfl shapeCasts_S1x256_S256,
    StableHlo.unary main_v12 main_v39 (broadcastInDim S20000x1 ![0] bcast_S20000_S20000x1_0 : (⟨S20000, .f32⟩ : BufTy).Contents (Elt F) → (⟨S20000x1, .f32⟩ : BufTy).Contents (Elt F)),
    StableHlo.unary main_v39 main_v40 (broadcastInDim S20000x256 ![0, 1] bcast_S20000x1_S20000x256_0_1 : (⟨S20000x1, .f32⟩ : BufTy).Contents (Elt F) → (⟨S20000x256, .f32⟩ : BufTy).Contents (Elt F)),
    StableHlo.binary main_v34 main_v40 main_v41 (mulf : (⟨S20000x256, .f32⟩ : BufTy).Contents (Elt F) → (⟨S20000x256, .f32⟩ : BufTy).Contents (Elt F) → (⟨S20000x256, .f32⟩ : BufTy).Contents (Elt F)),
    StableHlo.nullary main_c_8 (constantI S_ 32 0#32),
    StableHlo.unary main_c_8 main_v42 (broadcastInDim S320000 ![] bcast_S_S320000 : (⟨S_, .i32⟩ : BufTy).Contents (Elt F) → (⟨S320000, .i32⟩ : BufTy).Contents (Elt F)),
    StableHlo.binary main_arg12 main_v42 main_v43 (cmpi .slt : (⟨S320000, .i32⟩ : BufTy).Contents (Elt F) → (⟨S320000, .i32⟩ : BufTy).Contents (Elt F) → (⟨S320000, .i1⟩ : BufTy).Contents (Elt F)),
    StableHlo.nullary main_c_9 (constantI S_ 32 20000#32),
    StableHlo.unary main_c_9 main_v44 (broadcastInDim S320000 ![] bcast_S_S320000 : (⟨S_, .i32⟩ : BufTy).Contents (Elt F) → (⟨S320000, .i32⟩ : BufTy).Contents (Elt F)),
    StableHlo.binary main_arg12 main_v44 main_v45 (addi : (⟨S320000, .i32⟩ : BufTy).Contents (Elt F) → (⟨S320000, .i32⟩ : BufTy).Contents (Elt F) → (⟨S320000, .i32⟩ : BufTy).Contents (Elt F)),
    StableHlo.ternary main_v43 main_v45 main_arg12 main_v46 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v46 main_v47 (broadcastInDim S320000x1 ![0] bcast_S320000_S320000x1_0 : (⟨S320000, .i32⟩ : BufTy).Contents (Elt F) → (⟨S320000x1, .i32⟩ : BufTy).Contents (Elt F)) ]

/-- The references they write. -/
abbrev wr02 : List (Ref sig .tc) :=
  [main_v35, main_v36, main_v37, main_v38, main_v39, main_v40, main_v41, main_c_8, main_v42, main_v43, main_c_9, main_v44, main_v45, main_v46, main_v47]

theorem pc02_sub : (pc02 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

theorem pc02_fresh : (pc02 : List (HloOp τ sig (Elt F))).Forall fun op => op.fresh = ∅ :=
  ⟨rfl, rfl, rfl, rfl, rfl, rfl, rfl, rfl, rfl, rfl, rfl, rfl, rfl, rfl, rfl⟩

theorem pc02_wr : (pc02 : List (HloOp τ sig (Elt F))).Forall fun op => op.writes ⊆ (wr02.map (Proc.devRef (τ := τ) .tc)).toFinset :=
  ⟨wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide)⟩

/-- Statements 61 … 73 of @main: 15 operations. -/
abbrev pc03 : List (HloOp τ sig (Elt F)) :=
  [ StableHlo.binary main_v41 main_v47 main_v48 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.nullary main_cst_10 (constant S_ .f32 0x00000000#32),
    StableHlo.unary main_cst_10 main_v49 (broadcastInDim S20000x256 ![] bcast_S_S20000x256 : (⟨S_, .f32⟩ : BufTy).Contents (Elt F) → (⟨S20000x256, .f32⟩ : BufTy).Contents (Elt F)),
    StableHlo.unary main_arg13 main_v50 (broadcastInDim S320000x1 ![0] bcast_S320000_S320000x1_0 : (⟨S320000, .i32⟩ : BufTy).Contents (Elt F) → (⟨S320000x1, .i32⟩ : BufTy).Contents (Elt F)),
    StableHlo.ternary main_v49 main_v50 main_v48 main_v51 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v14 main_v52 (broadcastInDim S20000x1 ![0] bcast_S20000_S20000x1_0 : (⟨S20000, .f32⟩ : BufTy).Contents (Elt F) → (⟨S20000x1, .f32⟩ : BufTy).Contents (Elt F)),
    StableHlo.unary main_v52 main_v53 (broadcastInDim S20000x256 ![0, 1] bcast_S20000x1_S20000x256_0_1 : (⟨S20000x1, .f32⟩ : BufTy).Contents (Elt F) → (⟨S20000x256, .f32⟩ : BufTy).Contents (Elt F)),
    StableHlo.binary main_v51 main_v53 main_v54 (mulf : (⟨S20000x256, .f32⟩ : BufTy).Contents (Elt F) → (⟨S20000x256, .f32⟩ : BufTy).Contents (Elt F) → (⟨S20000x256, .f32⟩ : BufTy).Contents (Elt F)),
    StableHlo.binary main_v54 main_v36 main_v55 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.unary main_v38 main_v56 (broadcastInDim S1x256 ![1] bcast_S256_S1x256_1 : (⟨S256, .f32⟩ : BufTy).Contents (Elt F) → (⟨S1x256, .f32⟩ : BufTy).Contents (Elt F)),
    StableHlo.unary main_v56 main_v57 (broadcastInDim S20000x256 ![0, 1] bcast_S1x256_S20000x256_0_1 : (⟨S1x256, .f32⟩ : BufTy).Contents (Elt F) → (⟨S20000x256, .f32⟩ : BufTy).Contents (Elt F)),
    StableHlo.binary main_v55 main_v57 main_v58 (addf : (⟨S20000x256, .f32⟩ : BufTy).Contents (Elt F) → (⟨S20000x256, .f32⟩ : BufTy).Contents (Elt F) → (⟨S20000x256, .f32⟩ : BufTy).Contents (Elt F)),
    StableHlo.TRef.nullary main_call0.cst (constant S_ .f32 0x00000000#32),
    StableHlo.TRef.unary main_call0.cst main_call0.v0 (broadcastInDim S20000x256 ![] bcast_S_S20000x256),
    StableHlo.TRef.binary (.of main_v58 : StableHlo.TRef sig ⟨S20000x256, .f32⟩) main_call0.v0 main_call0.v1 maximumf ]

/-- The references they write. -/
abbrev wr03 : List (Ref sig .tc) :=
  [main_v48, main_cst_10, main_v49, main_v50, main_v51, main_v52, main_v53, main_v54, main_v55, main_v56, main_v57, main_v58, main_call0.cst.ref, main_call0.v0.ref, main_call0.v1.ref]

theorem pc03_sub : (pc03 : List (HloOp τ sig (Elt F))).Forall fun op => op.bufs ⊆ tcRefs τ sig :=
  ⟨binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

theorem pc03_fresh : (pc03 : List (HloOp τ sig (Elt F))).Forall fun op => op.fresh = ∅ :=
  ⟨rfl, rfl, rfl, rfl, rfl, rfl, rfl, rfl, rfl, rfl, rfl, rfl, rfl, rfl, rfl⟩

theorem pc03_wr : (pc03 : List (HloOp τ sig (Elt F))).Forall fun op => op.writes ⊆ (wr03.map (Proc.devRef (τ := τ) .tc)).toFinset :=
  ⟨wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide)⟩

/-- Statements 74 … 101 of @main: 30 operations. -/
abbrev pc04 : List (HloOp τ sig (Elt F)) :=
  [ StableHlo.unary main_arg4 main_v60 ((extractStridedSlice S1x256x256 ![1, 0, 0] · slices_S10x256x256_S1x256x256_1_0_0) : (⟨S10x256x256, .f32⟩ : BufTy).Contents (Elt F) → (⟨S1x256x256, .f32⟩ : BufTy).Contents (Elt F)),
    StableHlo.reshape main_v60 main_v61 rfl shapeCasts_S1x256x256_S256x256,
    StableHlo.unary main_arg5 main_v62 ((extractStridedSlice S1x256 ![1, 0] · slices_S10x256_S1x256_1_0) : (⟨S10x256, .f32⟩ : BufTy).Contents (Elt F) → (⟨S1x256, .f32⟩ : BufTy).Contents (Elt F)),
    StableHlo.reshape main_v62 main_v63 rfl shapeCasts_S1x256_S256,
    StableHlo.unary main_v12 main_v64 (broadcastInDim S20000x1 ![0] bcast_S20000_S20000x1_0 : (⟨S20000, .f32⟩ : BufTy).Contents (Elt F) → (⟨S20000x1, .f32⟩ : BufTy).Contents (Elt F)),
    StableHlo.unary main_v64 main_v65 (broadcastInDim S20000x256 ![0, 1] bcast_S20000x1_S20000x256_0_1 : (⟨S20000x1, .f32⟩ : BufTy).Contents (Elt F) → (⟨S20000x256, .f32⟩ : BufTy).Contents (Elt F)),
    StableHlo.binary main_v59 main_v65 main_v66 (mulf : (⟨S20000x256, .f32⟩ : BufTy).Contents (Elt F) → (⟨S20000x256, .f32⟩ : BufTy).Contents (Elt F) → (⟨S20000x256, .f32⟩ : BufTy).Contents (Elt F)),
    StableHlo.nullary main_c_11 (constantI S_ 32 0#32),
    StableHlo.unary main_c_11 main_v67 (broadcastInDim S320000 ![] bcast_S_S320000 : (⟨S_, .i32⟩ : BufTy).Contents (Elt F) → (⟨S320000, .i32⟩ : BufTy).Contents (Elt F)),
    StableHlo.binary main_arg12 main_v67 main_v68 (cmpi .slt : (⟨S320000, .i32⟩ : BufTy).Contents (Elt F) → (⟨S320000, .i32⟩ : BufTy).Contents (Elt F) → (⟨S320000, .i1⟩ : BufTy).Contents (Elt F)),
    StableHlo.nullary main_c_12 (constantI S_ 32 20000#32),
    StableHlo.unary main_c_12 main_v69 (broadcastInDim S320000 ![] bcast_S_S320000 : (⟨S_, .i32⟩ : BufTy).Contents (Elt F) → (⟨S320000, .i32⟩ : BufTy).Contents (Elt F)),
    StableHlo.binary main_arg12 main_v69 main_v70 (addi : (⟨S320000, .i32⟩ : BufTy).Contents (Elt F) → (⟨S320000, .i32⟩ : BufTy).Contents (Elt F) → (⟨S320000, .i32⟩ : BufTy).Contents (Elt F)),
    StableHlo.ternary main_v68 main_v70 main_arg12 main_v71 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v71 main_v72 (broadcastInDim S320000x1 ![0] bcast_S320000_S320000x1_0 : (⟨S320000, .i32⟩ : BufTy).Contents (Elt F) → (⟨S320000x1, .i32⟩ : BufTy).Contents (Elt F)),
    StableHlo.binary main_v66 main_v72 main_v73 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.nullary main_cst_13 (constant S_ .f32 0x00000000#32),
    StableHlo.unary main_cst_13 main_v74 (broadcastInDim S20000x256 ![] bcast_S_S20000x256 : (⟨S_, .f32⟩ : BufTy).Contents (Elt F) → (⟨S20000x256, .f32⟩ : BufTy).Contents (Elt F)),
    StableHlo.unary main_arg13 main_v75 (broadcastInDim S320000x1 ![0] bcast_S320000_S320000x1_0 : (⟨S320000, .i32⟩ : BufTy).Contents (Elt F) → (⟨S320000x1, .i32⟩ : BufTy).Contents (Elt F)),
    StableHlo.ternary main_v74 main_v75 main_v73 main_v76 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v14 main_v77 (broadcastInDim S20000x1 ![0] bcast_S20000_S20000x1_0 : (⟨S20000, .f32⟩ : BufTy).Contents (Elt F) → (⟨S20000x1, .f32⟩ : BufTy).Contents (Elt F)),
    StableHlo.unary main_v77 main_v78 (broadcastInDim S20000x256 ![0, 1] bcast_S20000x1_S20000x256_0_1 : (⟨S20000x1, .f32⟩ : BufTy).Contents (Elt F) → (⟨S20000x256, .f32⟩ : BufTy).Contents (Elt F)),
    StableHlo.binary main_v76 main_v78 main_v79 (mulf : (⟨S20000x256, .f32⟩ : BufTy).Contents (Elt F) → (⟨S20000x256, .f32⟩ : BufTy).Contents (Elt F) → (⟨S20000x256, .f32⟩ : BufTy).Contents (Elt F)),
    StableHlo.binary main_v79 main_v61 main_v80 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.unary main_v63 main_v81 (broadcastInDim S1x256 ![1] bcast_S256_S1x256_1 : (⟨S256, .f32⟩ : BufTy).Contents (Elt F) → (⟨S1x256, .f32⟩ : BufTy).Contents (Elt F)),
    StableHlo.unary main_v81 main_v82 (broadcastInDim S20000x256 ![0, 1] bcast_S1x256_S20000x256_0_1 : (⟨S1x256, .f32⟩ : BufTy).Contents (Elt F) → (⟨S20000x256, .f32⟩ : BufTy).Contents (Elt F)),
    StableHlo.binary main_v80 main_v82 main_v83 (addf : (⟨S20000x256, .f32⟩ : BufTy).Contents (Elt F) → (⟨S20000x256, .f32⟩ : BufTy).Contents (Elt F) → (⟨S20000x256, .f32⟩ : BufTy).Contents (Elt F)),
    StableHlo.TRef.nullary main_call1.cst (constant S_ .f32 0x00000000#32),
    StableHlo.TRef.unary main_call1.cst main_call1.v0 (broadcastInDim S20000x256 ![] bcast_S_S20000x256),
    StableHlo.TRef.binary (.of main_v83 : StableHlo.TRef sig ⟨S20000x256, .f32⟩) main_call1.v0 main_call1.v1 maximumf ]

/-- The references they write. -/
abbrev wr04 : List (Ref sig .tc) :=
  [main_v60, main_v61, main_v62, main_v63, main_v64, main_v65, main_v66, main_c_11, main_v67, main_v68, main_c_12, main_v69, main_v70, main_v71, main_v72, main_v73, main_cst_13, main_v74, main_v75, main_v76, main_v77, main_v78, main_v79, main_v80, main_v81, main_v82, main_v83, main_call1.cst.ref, main_call1.v0.ref, main_call1.v1.ref]

theorem pc04_sub : (pc04 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

theorem pc04_fresh : (pc04 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem pc04_wr : (pc04 : List (HloOp τ sig (Elt F))).Forall fun op => op.writes ⊆ (wr04.map (Proc.devRef (τ := τ) .tc)).toFinset :=
  ⟨wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide)⟩

/-- Statements 102 … 120 of @main: 19 operations. -/
abbrev pc05 : List (HloOp τ sig (Elt F)) :=
  [ StableHlo.unary main_arg4 main_v85 ((extractStridedSlice S1x256x256 ![2, 0, 0] · slices_S10x256x256_S1x256x256_2_0_0) : (⟨S10x256x256, .f32⟩ : BufTy).Contents (Elt F) → (⟨S1x256x256, .f32⟩ : BufTy).Contents (Elt F)),
    StableHlo.reshape main_v85 main_v86 rfl shapeCasts_S1x256x256_S256x256,
    StableHlo.unary main_arg5 main_v87 ((extractStridedSlice S1x256 ![2, 0] · slices_S10x256_S1x256_2_0) : (⟨S10x256, .f32⟩ : BufTy).Contents (Elt F) → (⟨S1x256, .f32⟩ : BufTy).Contents (Elt F)),
    StableHlo.reshape main_v87 main_v88 rfl shapeCasts_S1x256_S256,
    StableHlo.unary main_v12 main_v89 (broadcastInDim S20000x1 ![0] bcast_S20000_S20000x1_0 : (⟨S20000, .f32⟩ : BufTy).Contents (Elt F) → (⟨S20000x1, .f32⟩ : BufTy).Contents (Elt F)),
    StableHlo.unary main_v89 main_v90 (broadcastInDim S20000x256 ![0, 1] bcast_S20000x1_S20000x256_0_1 : (⟨S20000x1, .f32⟩ : BufTy).Contents (Elt F) → (⟨S20000x256, .f32⟩ : BufTy).Contents (Elt F)),
    StableHlo.binary main_v84 main_v90 main_v91 (mulf : (⟨S20000x256, .f32⟩ : BufTy).Contents (Elt F) → (⟨S20000x256, .f32⟩ : BufTy).Contents (Elt F) → (⟨S20000x256, .f32⟩ : BufTy).Contents (Elt F)),
    StableHlo.nullary main_c_14 (constantI S_ 32 0#32),
    StableHlo.unary main_c_14 main_v92 (broadcastInDim S320000 ![] bcast_S_S320000 : (⟨S_, .i32⟩ : BufTy).Contents (Elt F) → (⟨S320000, .i32⟩ : BufTy).Contents (Elt F)),
    StableHlo.binary main_arg12 main_v92 main_v93 (cmpi .slt : (⟨S320000, .i32⟩ : BufTy).Contents (Elt F) → (⟨S320000, .i32⟩ : BufTy).Contents (Elt F) → (⟨S320000, .i1⟩ : BufTy).Contents (Elt F)),
    StableHlo.nullary main_c_15 (constantI S_ 32 20000#32),
    StableHlo.unary main_c_15 main_v94 (broadcastInDim S320000 ![] bcast_S_S320000 : (⟨S_, .i32⟩ : BufTy).Contents (Elt F) → (⟨S320000, .i32⟩ : BufTy).Contents (Elt F)),
    StableHlo.binary main_arg12 main_v94 main_v95 (addi : (⟨S320000, .i32⟩ : BufTy).Contents (Elt F) → (⟨S320000, .i32⟩ : BufTy).Contents (Elt F) → (⟨S320000, .i32⟩ : BufTy).Contents (Elt F)),
    StableHlo.ternary main_v93 main_v95 main_arg12 main_v96 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v96 main_v97 (broadcastInDim S320000x1 ![0] bcast_S320000_S320000x1_0 : (⟨S320000, .i32⟩ : BufTy).Contents (Elt F) → (⟨S320000x1, .i32⟩ : BufTy).Contents (Elt F)),
    StableHlo.binary main_v91 main_v97 main_v98 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.nullary main_cst_16 (constant S_ .f32 0x00000000#32),
    StableHlo.unary main_cst_16 main_v99 (broadcastInDim S20000x256 ![] bcast_S_S20000x256 : (⟨S_, .f32⟩ : BufTy).Contents (Elt F) → (⟨S20000x256, .f32⟩ : BufTy).Contents (Elt F)),
    StableHlo.unary main_arg13 main_v100 (broadcastInDim S320000x1 ![0] bcast_S320000_S320000x1_0 : (⟨S320000, .i32⟩ : BufTy).Contents (Elt F) → (⟨S320000x1, .i32⟩ : BufTy).Contents (Elt F)) ]

/-- The references they write. -/
abbrev wr05 : List (Ref sig .tc) :=
  [main_v85, main_v86, main_v87, main_v88, main_v89, main_v90, main_v91, main_c_14, main_v92, main_v93, main_c_15, main_v94, main_v95, main_v96, main_v97, main_v98, main_cst_16, main_v99, main_v100]

theorem pc05_sub : (pc05 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩

theorem pc05_fresh : (pc05 : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem pc05_wr : (pc05 : List (HloOp τ sig (Elt F))).Forall fun op => op.writes ⊆ (wr05.map (Proc.devRef (τ := τ) .tc)).toFinset :=
  ⟨wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide)⟩

/-- Statements 121 … 129 of @main: 11 operations. -/
abbrev pc06 : List (HloOp τ sig (Elt F)) :=
  [ StableHlo.ternary main_v99 main_v100 main_v98 main_v101 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v14 main_v102 (broadcastInDim S20000x1 ![0] bcast_S20000_S20000x1_0 : (⟨S20000, .f32⟩ : BufTy).Contents (Elt F) → (⟨S20000x1, .f32⟩ : BufTy).Contents (Elt F)),
    StableHlo.unary main_v102 main_v103 (broadcastInDim S20000x256 ![0, 1] bcast_S20000x1_S20000x256_0_1 : (⟨S20000x1, .f32⟩ : BufTy).Contents (Elt F) → (⟨S20000x256, .f32⟩ : BufTy).Contents (Elt F)),
    StableHlo.binary main_v101 main_v103 main_v104 (mulf : (⟨S20000x256, .f32⟩ : BufTy).Contents (Elt F) → (⟨S20000x256, .f32⟩ : BufTy).Contents (Elt F) → (⟨S20000x256, .f32⟩ : BufTy).Contents (Elt F)),
    StableHlo.binary main_v104 main_v86 main_v105 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.unary main_v88 main_v106 (broadcastInDim S1x256 ![1] bcast_S256_S1x256_1 : (⟨S256, .f32⟩ : BufTy).Contents (Elt F) → (⟨S1x256, .f32⟩ : BufTy).Contents (Elt F)),
    StableHlo.unary main_v106 main_v107 (broadcastInDim S20000x256 ![0, 1] bcast_S1x256_S20000x256_0_1 : (⟨S1x256, .f32⟩ : BufTy).Contents (Elt F) → (⟨S20000x256, .f32⟩ : BufTy).Contents (Elt F)),
    StableHlo.binary main_v105 main_v107 main_v108 (addf : (⟨S20000x256, .f32⟩ : BufTy).Contents (Elt F) → (⟨S20000x256, .f32⟩ : BufTy).Contents (Elt F) → (⟨S20000x256, .f32⟩ : BufTy).Contents (Elt F)),
    StableHlo.TRef.nullary main_call2.cst (constant S_ .f32 0x00000000#32),
    StableHlo.TRef.unary main_call2.cst main_call2.v0 (broadcastInDim S20000x256 ![] bcast_S_S20000x256),
    StableHlo.TRef.binary (.of main_v108 : StableHlo.TRef sig ⟨S20000x256, .f32⟩) main_call2.v0 main_call2.v1 maximumf ]

/-- The references they write. -/
abbrev wr06 : List (Ref sig .tc) :=
  [main_v101, main_v102, main_v103, main_v104, main_v105, main_v106, main_v107, main_v108, main_call2.cst.ref, main_call2.v0.ref, main_call2.v1.ref]

theorem pc06_sub : (pc06 : List (HloOp τ sig (Elt F))).Forall fun op => op.bufs ⊆ tcRefs τ sig :=
  ⟨ternary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

theorem pc06_fresh : (pc06 : List (HloOp τ sig (Elt F))).Forall fun op => op.fresh = ∅ :=
  ⟨rfl, rfl, rfl, rfl, rfl, rfl, rfl, rfl, rfl, rfl, rfl⟩

theorem pc06_wr : (pc06 : List (HloOp τ sig (Elt F))).Forall fun op => op.writes ⊆ (wr06.map (Proc.devRef (τ := τ) .tc)).toFinset :=
  ⟨wr_mem (by decide), wr_mem (by decide), wr_mem (by decide), wr_mem (by decide), wr_mem (by decide), wr_mem (by decide), wr_mem (by decide), wr_mem (by decide), wr_mem (by decide), wr_mem (by decide), wr_mem (by decide)⟩

/-- Statements 130 … 157 of @main: 30 operations. -/
abbrev pc07 : List (HloOp τ sig (Elt F)) :=
  [ StableHlo.unary main_arg4 main_v110 ((extractStridedSlice S1x256x256 ![3, 0, 0] · slices_S10x256x256_S1x256x256_3_0_0) : (⟨S10x256x256, .f32⟩ : BufTy).Contents (Elt F) → (⟨S1x256x256, .f32⟩ : BufTy).Contents (Elt F)),
    StableHlo.reshape main_v110 main_v111 rfl shapeCasts_S1x256x256_S256x256,
    StableHlo.unary main_arg5 main_v112 ((extractStridedSlice S1x256 ![3, 0] · slices_S10x256_S1x256_3_0) : (⟨S10x256, .f32⟩ : BufTy).Contents (Elt F) → (⟨S1x256, .f32⟩ : BufTy).Contents (Elt F)),
    StableHlo.reshape main_v112 main_v113 rfl shapeCasts_S1x256_S256,
    StableHlo.unary main_v12 main_v114 (broadcastInDim S20000x1 ![0] bcast_S20000_S20000x1_0 : (⟨S20000, .f32⟩ : BufTy).Contents (Elt F) → (⟨S20000x1, .f32⟩ : BufTy).Contents (Elt F)),
    StableHlo.unary main_v114 main_v115 (broadcastInDim S20000x256 ![0, 1] bcast_S20000x1_S20000x256_0_1 : (⟨S20000x1, .f32⟩ : BufTy).Contents (Elt F) → (⟨S20000x256, .f32⟩ : BufTy).Contents (Elt F)),
    StableHlo.binary main_v109 main_v115 main_v116 (mulf : (⟨S20000x256, .f32⟩ : BufTy).Contents (Elt F) → (⟨S20000x256, .f32⟩ : BufTy).Contents (Elt F) → (⟨S20000x256, .f32⟩ : BufTy).Contents (Elt F)),
    StableHlo.nullary main_c_17 (constantI S_ 32 0#32),
    StableHlo.unary main_c_17 main_v117 (broadcastInDim S320000 ![] bcast_S_S320000 : (⟨S_, .i32⟩ : BufTy).Contents (Elt F) → (⟨S320000, .i32⟩ : BufTy).Contents (Elt F)),
    StableHlo.binary main_arg12 main_v117 main_v118 (cmpi .slt : (⟨S320000, .i32⟩ : BufTy).Contents (Elt F) → (⟨S320000, .i32⟩ : BufTy).Contents (Elt F) → (⟨S320000, .i1⟩ : BufTy).Contents (Elt F)),
    StableHlo.nullary main_c_18 (constantI S_ 32 20000#32),
    StableHlo.unary main_c_18 main_v119 (broadcastInDim S320000 ![] bcast_S_S320000 : (⟨S_, .i32⟩ : BufTy).Contents (Elt F) → (⟨S320000, .i32⟩ : BufTy).Contents (Elt F)),
    StableHlo.binary main_arg12 main_v119 main_v120 (addi : (⟨S320000, .i32⟩ : BufTy).Contents (Elt F) → (⟨S320000, .i32⟩ : BufTy).Contents (Elt F) → (⟨S320000, .i32⟩ : BufTy).Contents (Elt F)),
    StableHlo.ternary main_v118 main_v120 main_arg12 main_v121 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v121 main_v122 (broadcastInDim S320000x1 ![0] bcast_S320000_S320000x1_0 : (⟨S320000, .i32⟩ : BufTy).Contents (Elt F) → (⟨S320000x1, .i32⟩ : BufTy).Contents (Elt F)),
    StableHlo.binary main_v116 main_v122 main_v123 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.nullary main_cst_19 (constant S_ .f32 0x00000000#32),
    StableHlo.unary main_cst_19 main_v124 (broadcastInDim S20000x256 ![] bcast_S_S20000x256 : (⟨S_, .f32⟩ : BufTy).Contents (Elt F) → (⟨S20000x256, .f32⟩ : BufTy).Contents (Elt F)),
    StableHlo.unary main_arg13 main_v125 (broadcastInDim S320000x1 ![0] bcast_S320000_S320000x1_0 : (⟨S320000, .i32⟩ : BufTy).Contents (Elt F) → (⟨S320000x1, .i32⟩ : BufTy).Contents (Elt F)),
    StableHlo.ternary main_v124 main_v125 main_v123 main_v126 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v14 main_v127 (broadcastInDim S20000x1 ![0] bcast_S20000_S20000x1_0 : (⟨S20000, .f32⟩ : BufTy).Contents (Elt F) → (⟨S20000x1, .f32⟩ : BufTy).Contents (Elt F)),
    StableHlo.unary main_v127 main_v128 (broadcastInDim S20000x256 ![0, 1] bcast_S20000x1_S20000x256_0_1 : (⟨S20000x1, .f32⟩ : BufTy).Contents (Elt F) → (⟨S20000x256, .f32⟩ : BufTy).Contents (Elt F)),
    StableHlo.binary main_v126 main_v128 main_v129 (mulf : (⟨S20000x256, .f32⟩ : BufTy).Contents (Elt F) → (⟨S20000x256, .f32⟩ : BufTy).Contents (Elt F) → (⟨S20000x256, .f32⟩ : BufTy).Contents (Elt F)),
    StableHlo.binary main_v129 main_v111 main_v130 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.unary main_v113 main_v131 (broadcastInDim S1x256 ![1] bcast_S256_S1x256_1 : (⟨S256, .f32⟩ : BufTy).Contents (Elt F) → (⟨S1x256, .f32⟩ : BufTy).Contents (Elt F)),
    StableHlo.unary main_v131 main_v132 (broadcastInDim S20000x256 ![0, 1] bcast_S1x256_S20000x256_0_1 : (⟨S1x256, .f32⟩ : BufTy).Contents (Elt F) → (⟨S20000x256, .f32⟩ : BufTy).Contents (Elt F)),
    StableHlo.binary main_v130 main_v132 main_v133 (addf : (⟨S20000x256, .f32⟩ : BufTy).Contents (Elt F) → (⟨S20000x256, .f32⟩ : BufTy).Contents (Elt F) → (⟨S20000x256, .f32⟩ : BufTy).Contents (Elt F)),
    StableHlo.TRef.nullary main_call3.cst (constant S_ .f32 0x00000000#32),
    StableHlo.TRef.unary main_call3.cst main_call3.v0 (broadcastInDim S20000x256 ![] bcast_S_S20000x256),
    StableHlo.TRef.binary (.of main_v133 : StableHlo.TRef sig ⟨S20000x256, .f32⟩) main_call3.v0 main_call3.v1 maximumf ]

/-- The references they write. -/
abbrev wr07 : List (Ref sig .tc) :=
  [main_v110, main_v111, main_v112, main_v113, main_v114, main_v115, main_v116, main_c_17, main_v117, main_v118, main_c_18, main_v119, main_v120, main_v121, main_v122, main_v123, main_cst_19, main_v124, main_v125, main_v126, main_v127, main_v128, main_v129, main_v130, main_v131, main_v132, main_v133, main_call3.cst.ref, main_call3.v0.ref, main_call3.v1.ref]

theorem pc07_sub : (pc07 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

theorem pc07_fresh : (pc07 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem pc07_wr : (pc07 : List (HloOp τ sig (Elt F))).Forall fun op => op.writes ⊆ (wr07.map (Proc.devRef (τ := τ) .tc)).toFinset :=
  ⟨wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide)⟩

/-- Statements 158 … 180 of @main: 23 operations. -/
abbrev pc08 : List (HloOp τ sig (Elt F)) :=
  [ StableHlo.unary main_arg4 main_v135 ((extractStridedSlice S1x256x256 ![4, 0, 0] · slices_S10x256x256_S1x256x256_4_0_0) : (⟨S10x256x256, .f32⟩ : BufTy).Contents (Elt F) → (⟨S1x256x256, .f32⟩ : BufTy).Contents (Elt F)),
    StableHlo.reshape main_v135 main_v136 rfl shapeCasts_S1x256x256_S256x256,
    StableHlo.unary main_arg5 main_v137 ((extractStridedSlice S1x256 ![4, 0] · slices_S10x256_S1x256_4_0) : (⟨S10x256, .f32⟩ : BufTy).Contents (Elt F) → (⟨S1x256, .f32⟩ : BufTy).Contents (Elt F)),
    StableHlo.reshape main_v137 main_v138 rfl shapeCasts_S1x256_S256,
    StableHlo.unary main_v12 main_v139 (broadcastInDim S20000x1 ![0] bcast_S20000_S20000x1_0 : (⟨S20000, .f32⟩ : BufTy).Contents (Elt F) → (⟨S20000x1, .f32⟩ : BufTy).Contents (Elt F)),
    StableHlo.unary main_v139 main_v140 (broadcastInDim S20000x256 ![0, 1] bcast_S20000x1_S20000x256_0_1 : (⟨S20000x1, .f32⟩ : BufTy).Contents (Elt F) → (⟨S20000x256, .f32⟩ : BufTy).Contents (Elt F)),
    StableHlo.binary main_v134 main_v140 main_v141 (mulf : (⟨S20000x256, .f32⟩ : BufTy).Contents (Elt F) → (⟨S20000x256, .f32⟩ : BufTy).Contents (Elt F) → (⟨S20000x256, .f32⟩ : BufTy).Contents (Elt F)),
    StableHlo.nullary main_c_20 (constantI S_ 32 0#32),
    StableHlo.unary main_c_20 main_v142 (broadcastInDim S320000 ![] bcast_S_S320000 : (⟨S_, .i32⟩ : BufTy).Contents (Elt F) → (⟨S320000, .i32⟩ : BufTy).Contents (Elt F)),
    StableHlo.binary main_arg12 main_v142 main_v143 (cmpi .slt : (⟨S320000, .i32⟩ : BufTy).Contents (Elt F) → (⟨S320000, .i32⟩ : BufTy).Contents (Elt F) → (⟨S320000, .i1⟩ : BufTy).Contents (Elt F)),
    StableHlo.nullary main_c_21 (constantI S_ 32 20000#32),
    StableHlo.unary main_c_21 main_v144 (broadcastInDim S320000 ![] bcast_S_S320000 : (⟨S_, .i32⟩ : BufTy).Contents (Elt F) → (⟨S320000, .i32⟩ : BufTy).Contents (Elt F)),
    StableHlo.binary main_arg12 main_v144 main_v145 (addi : (⟨S320000, .i32⟩ : BufTy).Contents (Elt F) → (⟨S320000, .i32⟩ : BufTy).Contents (Elt F) → (⟨S320000, .i32⟩ : BufTy).Contents (Elt F)),
    StableHlo.ternary main_v143 main_v145 main_arg12 main_v146 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v146 main_v147 (broadcastInDim S320000x1 ![0] bcast_S320000_S320000x1_0 : (⟨S320000, .i32⟩ : BufTy).Contents (Elt F) → (⟨S320000x1, .i32⟩ : BufTy).Contents (Elt F)),
    StableHlo.binary main_v141 main_v147 main_v148 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.nullary main_cst_22 (constant S_ .f32 0x00000000#32),
    StableHlo.unary main_cst_22 main_v149 (broadcastInDim S20000x256 ![] bcast_S_S20000x256 : (⟨S_, .f32⟩ : BufTy).Contents (Elt F) → (⟨S20000x256, .f32⟩ : BufTy).Contents (Elt F)),
    StableHlo.unary main_arg13 main_v150 (broadcastInDim S320000x1 ![0] bcast_S320000_S320000x1_0 : (⟨S320000, .i32⟩ : BufTy).Contents (Elt F) → (⟨S320000x1, .i32⟩ : BufTy).Contents (Elt F)),
    StableHlo.ternary main_v149 main_v150 main_v148 main_v151 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v14 main_v152 (broadcastInDim S20000x1 ![0] bcast_S20000_S20000x1_0 : (⟨S20000, .f32⟩ : BufTy).Contents (Elt F) → (⟨S20000x1, .f32⟩ : BufTy).Contents (Elt F)),
    StableHlo.unary main_v152 main_v153 (broadcastInDim S20000x256 ![0, 1] bcast_S20000x1_S20000x256_0_1 : (⟨S20000x1, .f32⟩ : BufTy).Contents (Elt F) → (⟨S20000x256, .f32⟩ : BufTy).Contents (Elt F)),
    StableHlo.binary main_v151 main_v153 main_v154 (mulf : (⟨S20000x256, .f32⟩ : BufTy).Contents (Elt F) → (⟨S20000x256, .f32⟩ : BufTy).Contents (Elt F) → (⟨S20000x256, .f32⟩ : BufTy).Contents (Elt F)) ]

/-- The references they write. -/
abbrev wr08 : List (Ref sig .tc) :=
  [main_v135, main_v136, main_v137, main_v138, main_v139, main_v140, main_v141, main_c_20, main_v142, main_v143, main_c_21, main_v144, main_v145, main_v146, main_v147, main_v148, main_cst_22, main_v149, main_v150, main_v151, main_v152, main_v153, main_v154]

theorem pc08_sub : (pc08 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩

theorem pc08_fresh : (pc08 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

theorem pc08_wr : (pc08 : List (HloOp τ sig (Elt F))).Forall fun op => op.writes ⊆ (wr08.map (Proc.devRef (τ := τ) .tc)).toFinset :=
  ⟨wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide)⟩

/-- Statements 181 … 185 of @main: 7 operations. -/
abbrev pc09 : List (HloOp τ sig (Elt F)) :=
  [ StableHlo.binary main_v154 main_v136 main_v155 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.unary main_v138 main_v156 (broadcastInDim S1x256 ![1] bcast_S256_S1x256_1 : (⟨S256, .f32⟩ : BufTy).Contents (Elt F) → (⟨S1x256, .f32⟩ : BufTy).Contents (Elt F)),
    StableHlo.unary main_v156 main_v157 (broadcastInDim S20000x256 ![0, 1] bcast_S1x256_S20000x256_0_1 : (⟨S1x256, .f32⟩ : BufTy).Contents (Elt F) → (⟨S20000x256, .f32⟩ : BufTy).Contents (Elt F)),
    StableHlo.binary main_v155 main_v157 main_v158 (addf : (⟨S20000x256, .f32⟩ : BufTy).Contents (Elt F) → (⟨S20000x256, .f32⟩ : BufTy).Contents (Elt F) → (⟨S20000x256, .f32⟩ : BufTy).Contents (Elt F)),
    StableHlo.TRef.nullary main_call4.cst (constant S_ .f32 0x00000000#32),
    StableHlo.TRef.unary main_call4.cst main_call4.v0 (broadcastInDim S20000x256 ![] bcast_S_S20000x256),
    StableHlo.TRef.binary (.of main_v158 : StableHlo.TRef sig ⟨S20000x256, .f32⟩) main_call4.v0 main_call4.v1 maximumf ]

/-- The references they write. -/
abbrev wr09 : List (Ref sig .tc) :=
  [main_v155, main_v156, main_v157, main_v158, main_call4.cst.ref, main_call4.v0.ref, main_call4.v1.ref]

theorem pc09_sub : (pc09 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩

theorem pc09_fresh : (pc09 : List (HloOp τ sig (Elt F))).Forall fun op => op.fresh = ∅ :=
  ⟨rfl, rfl, rfl, rfl, rfl, rfl, rfl⟩

theorem pc09_wr : (pc09 : List (HloOp τ sig (Elt F))).Forall fun op => op.writes ⊆ (wr09.map (Proc.devRef (τ := τ) .tc)).toFinset :=
  ⟨wr_mem (by decide), wr_mem (by decide), wr_mem (by decide), wr_mem (by decide), wr_mem (by decide), wr_mem (by decide), wr_mem (by decide)⟩

/-- Statements 186 … 213 of @main: 30 operations. -/
abbrev pc10 : List (HloOp τ sig (Elt F)) :=
  [ StableHlo.unary main_arg4 main_v160 ((extractStridedSlice S1x256x256 ![5, 0, 0] · slices_S10x256x256_S1x256x256_5_0_0) : (⟨S10x256x256, .f32⟩ : BufTy).Contents (Elt F) → (⟨S1x256x256, .f32⟩ : BufTy).Contents (Elt F)),
    StableHlo.reshape main_v160 main_v161 rfl shapeCasts_S1x256x256_S256x256,
    StableHlo.unary main_arg5 main_v162 ((extractStridedSlice S1x256 ![5, 0] · slices_S10x256_S1x256_5_0) : (⟨S10x256, .f32⟩ : BufTy).Contents (Elt F) → (⟨S1x256, .f32⟩ : BufTy).Contents (Elt F)),
    StableHlo.reshape main_v162 main_v163 rfl shapeCasts_S1x256_S256,
    StableHlo.unary main_v12 main_v164 (broadcastInDim S20000x1 ![0] bcast_S20000_S20000x1_0 : (⟨S20000, .f32⟩ : BufTy).Contents (Elt F) → (⟨S20000x1, .f32⟩ : BufTy).Contents (Elt F)),
    StableHlo.unary main_v164 main_v165 (broadcastInDim S20000x256 ![0, 1] bcast_S20000x1_S20000x256_0_1 : (⟨S20000x1, .f32⟩ : BufTy).Contents (Elt F) → (⟨S20000x256, .f32⟩ : BufTy).Contents (Elt F)),
    StableHlo.binary main_v159 main_v165 main_v166 (mulf : (⟨S20000x256, .f32⟩ : BufTy).Contents (Elt F) → (⟨S20000x256, .f32⟩ : BufTy).Contents (Elt F) → (⟨S20000x256, .f32⟩ : BufTy).Contents (Elt F)),
    StableHlo.nullary main_c_23 (constantI S_ 32 0#32),
    StableHlo.unary main_c_23 main_v167 (broadcastInDim S320000 ![] bcast_S_S320000 : (⟨S_, .i32⟩ : BufTy).Contents (Elt F) → (⟨S320000, .i32⟩ : BufTy).Contents (Elt F)),
    StableHlo.binary main_arg12 main_v167 main_v168 (cmpi .slt : (⟨S320000, .i32⟩ : BufTy).Contents (Elt F) → (⟨S320000, .i32⟩ : BufTy).Contents (Elt F) → (⟨S320000, .i1⟩ : BufTy).Contents (Elt F)),
    StableHlo.nullary main_c_24 (constantI S_ 32 20000#32),
    StableHlo.unary main_c_24 main_v169 (broadcastInDim S320000 ![] bcast_S_S320000 : (⟨S_, .i32⟩ : BufTy).Contents (Elt F) → (⟨S320000, .i32⟩ : BufTy).Contents (Elt F)),
    StableHlo.binary main_arg12 main_v169 main_v170 (addi : (⟨S320000, .i32⟩ : BufTy).Contents (Elt F) → (⟨S320000, .i32⟩ : BufTy).Contents (Elt F) → (⟨S320000, .i32⟩ : BufTy).Contents (Elt F)),
    StableHlo.ternary main_v168 main_v170 main_arg12 main_v171 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v171 main_v172 (broadcastInDim S320000x1 ![0] bcast_S320000_S320000x1_0 : (⟨S320000, .i32⟩ : BufTy).Contents (Elt F) → (⟨S320000x1, .i32⟩ : BufTy).Contents (Elt F)),
    StableHlo.binary main_v166 main_v172 main_v173 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.nullary main_cst_25 (constant S_ .f32 0x00000000#32),
    StableHlo.unary main_cst_25 main_v174 (broadcastInDim S20000x256 ![] bcast_S_S20000x256 : (⟨S_, .f32⟩ : BufTy).Contents (Elt F) → (⟨S20000x256, .f32⟩ : BufTy).Contents (Elt F)),
    StableHlo.unary main_arg13 main_v175 (broadcastInDim S320000x1 ![0] bcast_S320000_S320000x1_0 : (⟨S320000, .i32⟩ : BufTy).Contents (Elt F) → (⟨S320000x1, .i32⟩ : BufTy).Contents (Elt F)),
    StableHlo.ternary main_v174 main_v175 main_v173 main_v176 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v14 main_v177 (broadcastInDim S20000x1 ![0] bcast_S20000_S20000x1_0 : (⟨S20000, .f32⟩ : BufTy).Contents (Elt F) → (⟨S20000x1, .f32⟩ : BufTy).Contents (Elt F)),
    StableHlo.unary main_v177 main_v178 (broadcastInDim S20000x256 ![0, 1] bcast_S20000x1_S20000x256_0_1 : (⟨S20000x1, .f32⟩ : BufTy).Contents (Elt F) → (⟨S20000x256, .f32⟩ : BufTy).Contents (Elt F)),
    StableHlo.binary main_v176 main_v178 main_v179 (mulf : (⟨S20000x256, .f32⟩ : BufTy).Contents (Elt F) → (⟨S20000x256, .f32⟩ : BufTy).Contents (Elt F) → (⟨S20000x256, .f32⟩ : BufTy).Contents (Elt F)),
    StableHlo.binary main_v179 main_v161 main_v180 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.unary main_v163 main_v181 (broadcastInDim S1x256 ![1] bcast_S256_S1x256_1 : (⟨S256, .f32⟩ : BufTy).Contents (Elt F) → (⟨S1x256, .f32⟩ : BufTy).Contents (Elt F)),
    StableHlo.unary main_v181 main_v182 (broadcastInDim S20000x256 ![0, 1] bcast_S1x256_S20000x256_0_1 : (⟨S1x256, .f32⟩ : BufTy).Contents (Elt F) → (⟨S20000x256, .f32⟩ : BufTy).Contents (Elt F)),
    StableHlo.binary main_v180 main_v182 main_v183 (addf : (⟨S20000x256, .f32⟩ : BufTy).Contents (Elt F) → (⟨S20000x256, .f32⟩ : BufTy).Contents (Elt F) → (⟨S20000x256, .f32⟩ : BufTy).Contents (Elt F)),
    StableHlo.TRef.nullary main_call5.cst (constant S_ .f32 0x00000000#32),
    StableHlo.TRef.unary main_call5.cst main_call5.v0 (broadcastInDim S20000x256 ![] bcast_S_S20000x256),
    StableHlo.TRef.binary (.of main_v183 : StableHlo.TRef sig ⟨S20000x256, .f32⟩) main_call5.v0 main_call5.v1 maximumf ]

/-- The references they write. -/
abbrev wr10 : List (Ref sig .tc) :=
  [main_v160, main_v161, main_v162, main_v163, main_v164, main_v165, main_v166, main_c_23, main_v167, main_v168, main_c_24, main_v169, main_v170, main_v171, main_v172, main_v173, main_cst_25, main_v174, main_v175, main_v176, main_v177, main_v178, main_v179, main_v180, main_v181, main_v182, main_v183, main_call5.cst.ref, main_call5.v0.ref, main_call5.v1.ref]

theorem pc10_sub : (pc10 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

theorem pc10_fresh : (pc10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem pc10_wr : (pc10 : List (HloOp τ sig (Elt F))).Forall fun op => op.writes ⊆ (wr10.map (Proc.devRef (τ := τ) .tc)).toFinset :=
  ⟨wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide)⟩

/-- Statements 214 … 240 of @main: 27 operations. -/
abbrev pc11 : List (HloOp τ sig (Elt F)) :=
  [ StableHlo.unary main_arg4 main_v185 ((extractStridedSlice S1x256x256 ![6, 0, 0] · slices_S10x256x256_S1x256x256_6_0_0) : (⟨S10x256x256, .f32⟩ : BufTy).Contents (Elt F) → (⟨S1x256x256, .f32⟩ : BufTy).Contents (Elt F)),
    StableHlo.reshape main_v185 main_v186 rfl shapeCasts_S1x256x256_S256x256,
    StableHlo.unary main_arg5 main_v187 ((extractStridedSlice S1x256 ![6, 0] · slices_S10x256_S1x256_6_0) : (⟨S10x256, .f32⟩ : BufTy).Contents (Elt F) → (⟨S1x256, .f32⟩ : BufTy).Contents (Elt F)),
    StableHlo.reshape main_v187 main_v188 rfl shapeCasts_S1x256_S256,
    StableHlo.unary main_v12 main_v189 (broadcastInDim S20000x1 ![0] bcast_S20000_S20000x1_0 : (⟨S20000, .f32⟩ : BufTy).Contents (Elt F) → (⟨S20000x1, .f32⟩ : BufTy).Contents (Elt F)),
    StableHlo.unary main_v189 main_v190 (broadcastInDim S20000x256 ![0, 1] bcast_S20000x1_S20000x256_0_1 : (⟨S20000x1, .f32⟩ : BufTy).Contents (Elt F) → (⟨S20000x256, .f32⟩ : BufTy).Contents (Elt F)),
    StableHlo.binary main_v184 main_v190 main_v191 (mulf : (⟨S20000x256, .f32⟩ : BufTy).Contents (Elt F) → (⟨S20000x256, .f32⟩ : BufTy).Contents (Elt F) → (⟨S20000x256, .f32⟩ : BufTy).Contents (Elt F)),
    StableHlo.nullary main_c_26 (constantI S_ 32 0#32),
    StableHlo.unary main_c_26 main_v192 (broadcastInDim S320000 ![] bcast_S_S320000 : (⟨S_, .i32⟩ : BufTy).Contents (Elt F) → (⟨S320000, .i32⟩ : BufTy).Contents (Elt F)),
    StableHlo.binary main_arg12 main_v192 main_v193 (cmpi .slt : (⟨S320000, .i32⟩ : BufTy).Contents (Elt F) → (⟨S320000, .i32⟩ : BufTy).Contents (Elt F) → (⟨S320000, .i1⟩ : BufTy).Contents (Elt F)),
    StableHlo.nullary main_c_27 (constantI S_ 32 20000#32),
    StableHlo.unary main_c_27 main_v194 (broadcastInDim S320000 ![] bcast_S_S320000 : (⟨S_, .i32⟩ : BufTy).Contents (Elt F) → (⟨S320000, .i32⟩ : BufTy).Contents (Elt F)),
    StableHlo.binary main_arg12 main_v194 main_v195 (addi : (⟨S320000, .i32⟩ : BufTy).Contents (Elt F) → (⟨S320000, .i32⟩ : BufTy).Contents (Elt F) → (⟨S320000, .i32⟩ : BufTy).Contents (Elt F)),
    StableHlo.ternary main_v193 main_v195 main_arg12 main_v196 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v196 main_v197 (broadcastInDim S320000x1 ![0] bcast_S320000_S320000x1_0 : (⟨S320000, .i32⟩ : BufTy).Contents (Elt F) → (⟨S320000x1, .i32⟩ : BufTy).Contents (Elt F)),
    StableHlo.binary main_v191 main_v197 main_v198 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.nullary main_cst_28 (constant S_ .f32 0x00000000#32),
    StableHlo.unary main_cst_28 main_v199 (broadcastInDim S20000x256 ![] bcast_S_S20000x256 : (⟨S_, .f32⟩ : BufTy).Contents (Elt F) → (⟨S20000x256, .f32⟩ : BufTy).Contents (Elt F)),
    StableHlo.unary main_arg13 main_v200 (broadcastInDim S320000x1 ![0] bcast_S320000_S320000x1_0 : (⟨S320000, .i32⟩ : BufTy).Contents (Elt F) → (⟨S320000x1, .i32⟩ : BufTy).Contents (Elt F)),
    StableHlo.ternary main_v199 main_v200 main_v198 main_v201 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v14 main_v202 (broadcastInDim S20000x1 ![0] bcast_S20000_S20000x1_0 : (⟨S20000, .f32⟩ : BufTy).Contents (Elt F) → (⟨S20000x1, .f32⟩ : BufTy).Contents (Elt F)),
    StableHlo.unary main_v202 main_v203 (broadcastInDim S20000x256 ![0, 1] bcast_S20000x1_S20000x256_0_1 : (⟨S20000x1, .f32⟩ : BufTy).Contents (Elt F) → (⟨S20000x256, .f32⟩ : BufTy).Contents (Elt F)),
    StableHlo.binary main_v201 main_v203 main_v204 (mulf : (⟨S20000x256, .f32⟩ : BufTy).Contents (Elt F) → (⟨S20000x256, .f32⟩ : BufTy).Contents (Elt F) → (⟨S20000x256, .f32⟩ : BufTy).Contents (Elt F)),
    StableHlo.binary main_v204 main_v186 main_v205 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.unary main_v188 main_v206 (broadcastInDim S1x256 ![1] bcast_S256_S1x256_1 : (⟨S256, .f32⟩ : BufTy).Contents (Elt F) → (⟨S1x256, .f32⟩ : BufTy).Contents (Elt F)),
    StableHlo.unary main_v206 main_v207 (broadcastInDim S20000x256 ![0, 1] bcast_S1x256_S20000x256_0_1 : (⟨S1x256, .f32⟩ : BufTy).Contents (Elt F) → (⟨S20000x256, .f32⟩ : BufTy).Contents (Elt F)),
    StableHlo.binary main_v205 main_v207 main_v208 (addf : (⟨S20000x256, .f32⟩ : BufTy).Contents (Elt F) → (⟨S20000x256, .f32⟩ : BufTy).Contents (Elt F) → (⟨S20000x256, .f32⟩ : BufTy).Contents (Elt F)) ]

/-- The references they write. -/
abbrev wr11 : List (Ref sig .tc) :=
  [main_v185, main_v186, main_v187, main_v188, main_v189, main_v190, main_v191, main_c_26, main_v192, main_v193, main_c_27, main_v194, main_v195, main_v196, main_v197, main_v198, main_cst_28, main_v199, main_v200, main_v201, main_v202, main_v203, main_v204, main_v205, main_v206, main_v207, main_v208]

theorem pc11_sub : (pc11 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩

theorem pc11_fresh : (pc11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

theorem pc11_wr : (pc11 : List (HloOp τ sig (Elt F))).Forall fun op => op.writes ⊆ (wr11.map (Proc.devRef (τ := τ) .tc)).toFinset :=
  ⟨wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide)⟩

/-- Statements 241 … 241 of @main: 3 operations. -/
abbrev pc12 : List (HloOp τ sig (Elt F)) :=
  [ StableHlo.TRef.nullary main_call6.cst (constant S_ .f32 0x00000000#32),
    StableHlo.TRef.unary main_call6.cst main_call6.v0 (broadcastInDim S20000x256 ![] bcast_S_S20000x256),
    StableHlo.TRef.binary (.of main_v208 : StableHlo.TRef sig ⟨S20000x256, .f32⟩) main_call6.v0 main_call6.v1 maximumf ]

/-- The references they write. -/
abbrev wr12 : List (Ref sig .tc) :=
  [main_call6.cst.ref, main_call6.v0.ref, main_call6.v1.ref]

theorem pc12_sub : (pc12 : List (HloOp τ sig (Elt F))).Forall fun op => op.bufs ⊆ tcRefs τ sig :=
  ⟨nullary_bufs_sub .., unary_bufs_sub .., binary_bufs_sub ..⟩

theorem pc12_fresh : (pc12 : List (HloOp τ sig (Elt F))).Forall fun op => op.fresh = ∅ :=
  ⟨rfl, rfl, rfl⟩

theorem pc12_wr : (pc12 : List (HloOp τ sig (Elt F))).Forall fun op => op.writes ⊆ (wr12.map (Proc.devRef (τ := τ) .tc)).toFinset :=
  ⟨wr_mem (by decide), wr_mem (by decide), wr_mem (by decide)⟩

/-- Statements 242 … 269 of @main: 30 operations. -/
abbrev pc13 : List (HloOp τ sig (Elt F)) :=
  [ StableHlo.unary main_arg4 main_v210 ((extractStridedSlice S1x256x256 ![7, 0, 0] · slices_S10x256x256_S1x256x256_7_0_0) : (⟨S10x256x256, .f32⟩ : BufTy).Contents (Elt F) → (⟨S1x256x256, .f32⟩ : BufTy).Contents (Elt F)),
    StableHlo.reshape main_v210 main_v211 rfl shapeCasts_S1x256x256_S256x256,
    StableHlo.unary main_arg5 main_v212 ((extractStridedSlice S1x256 ![7, 0] · slices_S10x256_S1x256_7_0) : (⟨S10x256, .f32⟩ : BufTy).Contents (Elt F) → (⟨S1x256, .f32⟩ : BufTy).Contents (Elt F)),
    StableHlo.reshape main_v212 main_v213 rfl shapeCasts_S1x256_S256,
    StableHlo.unary main_v12 main_v214 (broadcastInDim S20000x1 ![0] bcast_S20000_S20000x1_0 : (⟨S20000, .f32⟩ : BufTy).Contents (Elt F) → (⟨S20000x1, .f32⟩ : BufTy).Contents (Elt F)),
    StableHlo.unary main_v214 main_v215 (broadcastInDim S20000x256 ![0, 1] bcast_S20000x1_S20000x256_0_1 : (⟨S20000x1, .f32⟩ : BufTy).Contents (Elt F) → (⟨S20000x256, .f32⟩ : BufTy).Contents (Elt F)),
    StableHlo.binary main_v209 main_v215 main_v216 (mulf : (⟨S20000x256, .f32⟩ : BufTy).Contents (Elt F) → (⟨S20000x256, .f32⟩ : BufTy).Contents (Elt F) → (⟨S20000x256, .f32⟩ : BufTy).Contents (Elt F)),
    StableHlo.nullary main_c_29 (constantI S_ 32 0#32),
    StableHlo.unary main_c_29 main_v217 (broadcastInDim S320000 ![] bcast_S_S320000 : (⟨S_, .i32⟩ : BufTy).Contents (Elt F) → (⟨S320000, .i32⟩ : BufTy).Contents (Elt F)),
    StableHlo.binary main_arg12 main_v217 main_v218 (cmpi .slt : (⟨S320000, .i32⟩ : BufTy).Contents (Elt F) → (⟨S320000, .i32⟩ : BufTy).Contents (Elt F) → (⟨S320000, .i1⟩ : BufTy).Contents (Elt F)),
    StableHlo.nullary main_c_30 (constantI S_ 32 20000#32),
    StableHlo.unary main_c_30 main_v219 (broadcastInDim S320000 ![] bcast_S_S320000 : (⟨S_, .i32⟩ : BufTy).Contents (Elt F) → (⟨S320000, .i32⟩ : BufTy).Contents (Elt F)),
    StableHlo.binary main_arg12 main_v219 main_v220 (addi : (⟨S320000, .i32⟩ : BufTy).Contents (Elt F) → (⟨S320000, .i32⟩ : BufTy).Contents (Elt F) → (⟨S320000, .i32⟩ : BufTy).Contents (Elt F)),
    StableHlo.ternary main_v218 main_v220 main_arg12 main_v221 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v221 main_v222 (broadcastInDim S320000x1 ![0] bcast_S320000_S320000x1_0 : (⟨S320000, .i32⟩ : BufTy).Contents (Elt F) → (⟨S320000x1, .i32⟩ : BufTy).Contents (Elt F)),
    StableHlo.binary main_v216 main_v222 main_v223 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.nullary main_cst_31 (constant S_ .f32 0x00000000#32),
    StableHlo.unary main_cst_31 main_v224 (broadcastInDim S20000x256 ![] bcast_S_S20000x256 : (⟨S_, .f32⟩ : BufTy).Contents (Elt F) → (⟨S20000x256, .f32⟩ : BufTy).Contents (Elt F)),
    StableHlo.unary main_arg13 main_v225 (broadcastInDim S320000x1 ![0] bcast_S320000_S320000x1_0 : (⟨S320000, .i32⟩ : BufTy).Contents (Elt F) → (⟨S320000x1, .i32⟩ : BufTy).Contents (Elt F)),
    StableHlo.ternary main_v224 main_v225 main_v223 main_v226 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v14 main_v227 (broadcastInDim S20000x1 ![0] bcast_S20000_S20000x1_0 : (⟨S20000, .f32⟩ : BufTy).Contents (Elt F) → (⟨S20000x1, .f32⟩ : BufTy).Contents (Elt F)),
    StableHlo.unary main_v227 main_v228 (broadcastInDim S20000x256 ![0, 1] bcast_S20000x1_S20000x256_0_1 : (⟨S20000x1, .f32⟩ : BufTy).Contents (Elt F) → (⟨S20000x256, .f32⟩ : BufTy).Contents (Elt F)),
    StableHlo.binary main_v226 main_v228 main_v229 (mulf : (⟨S20000x256, .f32⟩ : BufTy).Contents (Elt F) → (⟨S20000x256, .f32⟩ : BufTy).Contents (Elt F) → (⟨S20000x256, .f32⟩ : BufTy).Contents (Elt F)),
    StableHlo.binary main_v229 main_v211 main_v230 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.unary main_v213 main_v231 (broadcastInDim S1x256 ![1] bcast_S256_S1x256_1 : (⟨S256, .f32⟩ : BufTy).Contents (Elt F) → (⟨S1x256, .f32⟩ : BufTy).Contents (Elt F)),
    StableHlo.unary main_v231 main_v232 (broadcastInDim S20000x256 ![0, 1] bcast_S1x256_S20000x256_0_1 : (⟨S1x256, .f32⟩ : BufTy).Contents (Elt F) → (⟨S20000x256, .f32⟩ : BufTy).Contents (Elt F)),
    StableHlo.binary main_v230 main_v232 main_v233 (addf : (⟨S20000x256, .f32⟩ : BufTy).Contents (Elt F) → (⟨S20000x256, .f32⟩ : BufTy).Contents (Elt F) → (⟨S20000x256, .f32⟩ : BufTy).Contents (Elt F)),
    StableHlo.TRef.nullary main_call7.cst (constant S_ .f32 0x00000000#32),
    StableHlo.TRef.unary main_call7.cst main_call7.v0 (broadcastInDim S20000x256 ![] bcast_S_S20000x256),
    StableHlo.TRef.binary (.of main_v233 : StableHlo.TRef sig ⟨S20000x256, .f32⟩) main_call7.v0 main_call7.v1 maximumf ]

/-- The references they write. -/
abbrev wr13 : List (Ref sig .tc) :=
  [main_v210, main_v211, main_v212, main_v213, main_v214, main_v215, main_v216, main_c_29, main_v217, main_v218, main_c_30, main_v219, main_v220, main_v221, main_v222, main_v223, main_cst_31, main_v224, main_v225, main_v226, main_v227, main_v228, main_v229, main_v230, main_v231, main_v232, main_v233, main_call7.cst.ref, main_call7.v0.ref, main_call7.v1.ref]

theorem pc13_sub : (pc13 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

theorem pc13_fresh : (pc13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem pc13_wr : (pc13 : List (HloOp τ sig (Elt F))).Forall fun op => op.writes ⊆ (wr13.map (Proc.devRef (τ := τ) .tc)).toFinset :=
  ⟨wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide)⟩

/-- Statements 270 … 297 of @main: 30 operations. -/
abbrev pc14 : List (HloOp τ sig (Elt F)) :=
  [ StableHlo.unary main_arg4 main_v235 ((extractStridedSlice S1x256x256 ![8, 0, 0] · slices_S10x256x256_S1x256x256_8_0_0) : (⟨S10x256x256, .f32⟩ : BufTy).Contents (Elt F) → (⟨S1x256x256, .f32⟩ : BufTy).Contents (Elt F)),
    StableHlo.reshape main_v235 main_v236 rfl shapeCasts_S1x256x256_S256x256,
    StableHlo.unary main_arg5 main_v237 ((extractStridedSlice S1x256 ![8, 0] · slices_S10x256_S1x256_8_0) : (⟨S10x256, .f32⟩ : BufTy).Contents (Elt F) → (⟨S1x256, .f32⟩ : BufTy).Contents (Elt F)),
    StableHlo.reshape main_v237 main_v238 rfl shapeCasts_S1x256_S256,
    StableHlo.unary main_v12 main_v239 (broadcastInDim S20000x1 ![0] bcast_S20000_S20000x1_0 : (⟨S20000, .f32⟩ : BufTy).Contents (Elt F) → (⟨S20000x1, .f32⟩ : BufTy).Contents (Elt F)),
    StableHlo.unary main_v239 main_v240 (broadcastInDim S20000x256 ![0, 1] bcast_S20000x1_S20000x256_0_1 : (⟨S20000x1, .f32⟩ : BufTy).Contents (Elt F) → (⟨S20000x256, .f32⟩ : BufTy).Contents (Elt F)),
    StableHlo.binary main_v234 main_v240 main_v241 (mulf : (⟨S20000x256, .f32⟩ : BufTy).Contents (Elt F) → (⟨S20000x256, .f32⟩ : BufTy).Contents (Elt F) → (⟨S20000x256, .f32⟩ : BufTy).Contents (Elt F)),
    StableHlo.nullary main_c_32 (constantI S_ 32 0#32),
    StableHlo.unary main_c_32 main_v242 (broadcastInDim S320000 ![] bcast_S_S320000 : (⟨S_, .i32⟩ : BufTy).Contents (Elt F) → (⟨S320000, .i32⟩ : BufTy).Contents (Elt F)),
    StableHlo.binary main_arg12 main_v242 main_v243 (cmpi .slt : (⟨S320000, .i32⟩ : BufTy).Contents (Elt F) → (⟨S320000, .i32⟩ : BufTy).Contents (Elt F) → (⟨S320000, .i1⟩ : BufTy).Contents (Elt F)),
    StableHlo.nullary main_c_33 (constantI S_ 32 20000#32),
    StableHlo.unary main_c_33 main_v244 (broadcastInDim S320000 ![] bcast_S_S320000 : (⟨S_, .i32⟩ : BufTy).Contents (Elt F) → (⟨S320000, .i32⟩ : BufTy).Contents (Elt F)),
    StableHlo.binary main_arg12 main_v244 main_v245 (addi : (⟨S320000, .i32⟩ : BufTy).Contents (Elt F) → (⟨S320000, .i32⟩ : BufTy).Contents (Elt F) → (⟨S320000, .i32⟩ : BufTy).Contents (Elt F)),
    StableHlo.ternary main_v243 main_v245 main_arg12 main_v246 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v246 main_v247 (broadcastInDim S320000x1 ![0] bcast_S320000_S320000x1_0 : (⟨S320000, .i32⟩ : BufTy).Contents (Elt F) → (⟨S320000x1, .i32⟩ : BufTy).Contents (Elt F)),
    StableHlo.binary main_v241 main_v247 main_v248 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.nullary main_cst_34 (constant S_ .f32 0x00000000#32),
    StableHlo.unary main_cst_34 main_v249 (broadcastInDim S20000x256 ![] bcast_S_S20000x256 : (⟨S_, .f32⟩ : BufTy).Contents (Elt F) → (⟨S20000x256, .f32⟩ : BufTy).Contents (Elt F)),
    StableHlo.unary main_arg13 main_v250 (broadcastInDim S320000x1 ![0] bcast_S320000_S320000x1_0 : (⟨S320000, .i32⟩ : BufTy).Contents (Elt F) → (⟨S320000x1, .i32⟩ : BufTy).Contents (Elt F)),
    StableHlo.ternary main_v249 main_v250 main_v248 main_v251 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v14 main_v252 (broadcastInDim S20000x1 ![0] bcast_S20000_S20000x1_0 : (⟨S20000, .f32⟩ : BufTy).Contents (Elt F) → (⟨S20000x1, .f32⟩ : BufTy).Contents (Elt F)),
    StableHlo.unary main_v252 main_v253 (broadcastInDim S20000x256 ![0, 1] bcast_S20000x1_S20000x256_0_1 : (⟨S20000x1, .f32⟩ : BufTy).Contents (Elt F) → (⟨S20000x256, .f32⟩ : BufTy).Contents (Elt F)),
    StableHlo.binary main_v251 main_v253 main_v254 (mulf : (⟨S20000x256, .f32⟩ : BufTy).Contents (Elt F) → (⟨S20000x256, .f32⟩ : BufTy).Contents (Elt F) → (⟨S20000x256, .f32⟩ : BufTy).Contents (Elt F)),
    StableHlo.binary main_v254 main_v236 main_v255 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.unary main_v238 main_v256 (broadcastInDim S1x256 ![1] bcast_S256_S1x256_1 : (⟨S256, .f32⟩ : BufTy).Contents (Elt F) → (⟨S1x256, .f32⟩ : BufTy).Contents (Elt F)),
    StableHlo.unary main_v256 main_v257 (broadcastInDim S20000x256 ![0, 1] bcast_S1x256_S20000x256_0_1 : (⟨S1x256, .f32⟩ : BufTy).Contents (Elt F) → (⟨S20000x256, .f32⟩ : BufTy).Contents (Elt F)),
    StableHlo.binary main_v255 main_v257 main_v258 (addf : (⟨S20000x256, .f32⟩ : BufTy).Contents (Elt F) → (⟨S20000x256, .f32⟩ : BufTy).Contents (Elt F) → (⟨S20000x256, .f32⟩ : BufTy).Contents (Elt F)),
    StableHlo.TRef.nullary main_call8.cst (constant S_ .f32 0x00000000#32),
    StableHlo.TRef.unary main_call8.cst main_call8.v0 (broadcastInDim S20000x256 ![] bcast_S_S20000x256),
    StableHlo.TRef.binary (.of main_v258 : StableHlo.TRef sig ⟨S20000x256, .f32⟩) main_call8.v0 main_call8.v1 maximumf ]

/-- The references they write. -/
abbrev wr14 : List (Ref sig .tc) :=
  [main_v235, main_v236, main_v237, main_v238, main_v239, main_v240, main_v241, main_c_32, main_v242, main_v243, main_c_33, main_v244, main_v245, main_v246, main_v247, main_v248, main_cst_34, main_v249, main_v250, main_v251, main_v252, main_v253, main_v254, main_v255, main_v256, main_v257, main_v258, main_call8.cst.ref, main_call8.v0.ref, main_call8.v1.ref]

theorem pc14_sub : (pc14 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

theorem pc14_fresh : (pc14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem pc14_wr : (pc14 : List (HloOp τ sig (Elt F))).Forall fun op => op.writes ⊆ (wr14.map (Proc.devRef (τ := τ) .tc)).toFinset :=
  ⟨wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide)⟩

/-- Statements 298 … 300 of @main: 3 operations. -/
abbrev pc15 : List (HloOp τ sig (Elt F)) :=
  [ StableHlo.unary main_arg4 main_v260 ((extractStridedSlice S1x256x256 ![9, 0, 0] · slices_S10x256x256_S1x256x256_9_0_0) : (⟨S10x256x256, .f32⟩ : BufTy).Contents (Elt F) → (⟨S1x256x256, .f32⟩ : BufTy).Contents (Elt F)),
    StableHlo.reshape main_v260 main_v261 rfl shapeCasts_S1x256x256_S256x256,
    StableHlo.unary main_arg5 main_v262 ((extractStridedSlice S1x256 ![9, 0] · slices_S10x256_S1x256_9_0) : (⟨S10x256, .f32⟩ : BufTy).Contents (Elt F) → (⟨S1x256, .f32⟩ : BufTy).Contents (Elt F)) ]

/-- The references they write. -/
abbrev wr15 : List (Ref sig .tc) :=
  [main_v260, main_v261, main_v262]

theorem pc15_sub : (pc15 : List (HloOp τ sig (Elt F))).Forall fun op => op.bufs ⊆ tcRefs τ sig :=
  ⟨unary_bufs_sub .., reshape_bufs_sub .., unary_bufs_sub ..⟩

theorem pc15_fresh : (pc15 : List (HloOp τ sig (Elt F))).Forall fun op => op.fresh = ∅ :=
  ⟨rfl, rfl, rfl⟩

theorem pc15_wr : (pc15 : List (HloOp τ sig (Elt F))).Forall fun op => op.writes ⊆ (wr15.map (Proc.devRef (τ := τ) .tc)).toFinset :=
  ⟨wr_mem (by decide), wr_mem (by decide), wr_mem (by decide)⟩

/-- Statements 301 … 325 of @main: 27 operations. -/
abbrev pc16 : List (HloOp τ sig (Elt F)) :=
  [ StableHlo.reshape main_v262 main_v263 rfl shapeCasts_S1x256_S256,
    StableHlo.unary main_v12 main_v264 (broadcastInDim S20000x1 ![0] bcast_S20000_S20000x1_0 : (⟨S20000, .f32⟩ : BufTy).Contents (Elt F) → (⟨S20000x1, .f32⟩ : BufTy).Contents (Elt F)),
    StableHlo.unary main_v264 main_v265 (broadcastInDim S20000x256 ![0, 1] bcast_S20000x1_S20000x256_0_1 : (⟨S20000x1, .f32⟩ : BufTy).Contents (Elt F) → (⟨S20000x256, .f32⟩ : BufTy).Contents (Elt F)),
    StableHlo.binary main_v259 main_v265 main_v266 (mulf : (⟨S20000x256, .f32⟩ : BufTy).Contents (Elt F) → (⟨S20000x256, .f32⟩ : BufTy).Contents (Elt F) → (⟨S20000x256, .f32⟩ : BufTy).Contents (Elt F)),
    StableHlo.nullary main_c_35 (constantI S_ 32 0#32),
    StableHlo.unary main_c_35 main_v267 (broadcastInDim S320000 ![] bcast_S_S320000 : (⟨S_, .i32⟩ : BufTy).Contents (Elt F) → (⟨S320000, .i32⟩ : BufTy).Contents (Elt F)),
    StableHlo.binary main_arg12 main_v267 main_v268 (cmpi .slt : (⟨S320000, .i32⟩ : BufTy).Contents (Elt F) → (⟨S320000, .i32⟩ : BufTy).Contents (Elt F) → (⟨S320000, .i1⟩ : BufTy).Contents (Elt F)),
    StableHlo.nullary main_c_36 (constantI S_ 32 20000#32),
    StableHlo.unary main_c_36 main_v269 (broadcastInDim S320000 ![] bcast_S_S320000 : (⟨S_, .i32⟩ : BufTy).Contents (Elt F) → (⟨S320000, .i32⟩ : BufTy).Contents (Elt F)),
    StableHlo.binary main_arg12 main_v269 main_v270 (addi : (⟨S320000, .i32⟩ : BufTy).Contents (Elt F) → (⟨S320000, .i32⟩ : BufTy).Contents (Elt F) → (⟨S320000, .i32⟩ : BufTy).Contents (Elt F)),
    StableHlo.ternary main_v268 main_v270 main_arg12 main_v271 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v271 main_v272 (broadcastInDim S320000x1 ![0] bcast_S320000_S320000x1_0 : (⟨S320000, .i32⟩ : BufTy).Contents (Elt F) → (⟨S320000x1, .i32⟩ : BufTy).Contents (Elt F)),
    StableHlo.binary main_v266 main_v272 main_v273 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.nullary main_cst_37 (constant S_ .f32 0x00000000#32),
    StableHlo.unary main_cst_37 main_v274 (broadcastInDim S20000x256 ![] bcast_S_S20000x256 : (⟨S_, .f32⟩ : BufTy).Contents (Elt F) → (⟨S20000x256, .f32⟩ : BufTy).Contents (Elt F)),
    StableHlo.unary main_arg13 main_v275 (broadcastInDim S320000x1 ![0] bcast_S320000_S320000x1_0 : (⟨S320000, .i32⟩ : BufTy).Contents (Elt F) → (⟨S320000x1, .i32⟩ : BufTy).Contents (Elt F)),
    StableHlo.ternary main_v274 main_v275 main_v273 main_v276 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v14 main_v277 (broadcastInDim S20000x1 ![0] bcast_S20000_S20000x1_0 : (⟨S20000, .f32⟩ : BufTy).Contents (Elt F) → (⟨S20000x1, .f32⟩ : BufTy).Contents (Elt F)),
    StableHlo.unary main_v277 main_v278 (broadcastInDim S20000x256 ![0, 1] bcast_S20000x1_S20000x256_0_1 : (⟨S20000x1, .f32⟩ : BufTy).Contents (Elt F) → (⟨S20000x256, .f32⟩ : BufTy).Contents (Elt F)),
    StableHlo.binary main_v276 main_v278 main_v279 (mulf : (⟨S20000x256, .f32⟩ : BufTy).Contents (Elt F) → (⟨S20000x256, .f32⟩ : BufTy).Contents (Elt F) → (⟨S20000x256, .f32⟩ : BufTy).Contents (Elt F)),
    StableHlo.binary main_v279 main_v261 main_v280 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.unary main_v263 main_v281 (broadcastInDim S1x256 ![1] bcast_S256_S1x256_1 : (⟨S256, .f32⟩ : BufTy).Contents (Elt F) → (⟨S1x256, .f32⟩ : BufTy).Contents (Elt F)),
    StableHlo.unary main_v281 main_v282 (broadcastInDim S20000x256 ![0, 1] bcast_S1x256_S20000x256_0_1 : (⟨S1x256, .f32⟩ : BufTy).Contents (Elt F) → (⟨S20000x256, .f32⟩ : BufTy).Contents (Elt F)),
    StableHlo.binary main_v280 main_v282 main_v283 (addf : (⟨S20000x256, .f32⟩ : BufTy).Contents (Elt F) → (⟨S20000x256, .f32⟩ : BufTy).Contents (Elt F) → (⟨S20000x256, .f32⟩ : BufTy).Contents (Elt F)),
    StableHlo.TRef.nullary main_call9.cst (constant S_ .f32 0x00000000#32),
    StableHlo.TRef.unary main_call9.cst main_call9.v0 (broadcastInDim S20000x256 ![] bcast_S_S20000x256),
    StableHlo.TRef.binary (.of main_v283 : StableHlo.TRef sig ⟨S20000x256, .f32⟩) main_call9.v0 main_call9.v1 maximumf ]

/-- The references they write. -/
abbrev wr16 : List (Ref sig .tc) :=
  [main_v263, main_v264, main_v265, main_v266, main_c_35, main_v267, main_v268, main_c_36, main_v269, main_v270, main_v271, main_v272, main_v273, main_cst_37, main_v274, main_v275, main_v276, main_v277, main_v278, main_v279, main_v280, main_v281, main_v282, main_v283, main_call9.cst.ref, main_call9.v0.ref, main_call9.v1.ref]

theorem pc16_sub : (pc16 : List (HloOp τ sig (Elt F))).Forall fun op => op.bufs ⊆ tcRefs τ sig :=
  ⟨reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

theorem pc16_fresh : (pc16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

theorem pc16_wr : (pc16 : List (HloOp τ sig (Elt F))).Forall fun op => op.writes ⊆ (wr16.map (Proc.devRef (τ := τ) .tc)).toFinset :=
  ⟨wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide)⟩

/-- Statements 326 … 342 of @main: 17 operations. -/
abbrev pc17 : List (HloOp τ sig (Elt F)) :=
  [ StableHlo.nullary main_cst_38 (constant S_ .f32 0x00000000#32),
    StableHlo.unary main_cst_38 main_v285 (broadcastInDim S64x256 ![] bcast_S_S64x256 : (⟨S_, .f32⟩ : BufTy).Contents (Elt F) → (⟨S64x256, .f32⟩ : BufTy).Contents (Elt F)),
    StableHlo.unary main_arg14 main_v286 (broadcastInDim S20000x1 ![0] bcast_S20000_S20000x1_0 : (⟨S20000, .i32⟩ : BufTy).Contents (Elt F) → (⟨S20000x1, .i32⟩ : BufTy).Contents (Elt F)),
    StableHlo.ternary main_v285 main_v286 main_v284 main_v287 ((fun x i u => Host.scatterAdd scatter_S64x256_S20000x1_S20000x256_1_0_0_1 x i u) : (⟨S64x256, .f32⟩ : BufTy).Contents (Elt F) → (⟨S20000x1, .i32⟩ : BufTy).Contents (Elt F) → (⟨S20000x256, .f32⟩ : BufTy).Contents (Elt F) → (⟨S64x256, .f32⟩ : BufTy).Contents (Elt F)),
    StableHlo.nullary main_cst_39 (constant S_ .f32 0x3F800000#32),
    StableHlo.unary main_cst_39 main_v288 (broadcastInDim S20000 ![] bcast_S_S20000 : (⟨S_, .f32⟩ : BufTy).Contents (Elt F) → (⟨S20000, .f32⟩ : BufTy).Contents (Elt F)),
    StableHlo.nullary main_cst_40 (constant S_ .f32 0x00000000#32),
    StableHlo.unary main_cst_40 main_v289 (broadcastInDim S64 ![] bcast_S_S64 : (⟨S_, .f32⟩ : BufTy).Contents (Elt F) → (⟨S64, .f32⟩ : BufTy).Contents (Elt F)),
    StableHlo.unary main_arg14 main_v290 (broadcastInDim S20000x1 ![0] bcast_S20000_S20000x1_0 : (⟨S20000, .i32⟩ : BufTy).Contents (Elt F) → (⟨S20000x1, .i32⟩ : BufTy).Contents (Elt F)),
    StableHlo.ternary main_v289 main_v290 main_v288 main_v291 ((fun x i u => Host.scatterAdd scatter_S64_S20000x1_S20000_n_0_0_1 x i u) : (⟨S64, .f32⟩ : BufTy).Contents (Elt F) → (⟨S20000x1, .i32⟩ : BufTy).Contents (Elt F) → (⟨S20000, .f32⟩ : BufTy).Contents (Elt F) → (⟨S64, .f32⟩ : BufTy).Contents (Elt F)),
    StableHlo.nullary main_cst_41 (constant S_ .f32 0x3F800000#32),
    StableHlo.unary main_cst_41 main_v292 (broadcastInDim S64 ![] bcast_S_S64 : (⟨S_, .f32⟩ : BufTy).Contents (Elt F) → (⟨S64, .f32⟩ : BufTy).Contents (Elt F)),
    StableHlo.binary main_v291 main_v292 main_v293 (maximumf : (⟨S64, .f32⟩ : BufTy).Contents (Elt F) → (⟨S64, .f32⟩ : BufTy).Contents (Elt F) → (⟨S64, .f32⟩ : BufTy).Contents (Elt F)),
    StableHlo.unary main_v293 main_v294 (broadcastInDim S64x1 ![0] bcast_S64_S64x1_0 : (⟨S64, .f32⟩ : BufTy).Contents (Elt F) → (⟨S64x1, .f32⟩ : BufTy).Contents (Elt F)),
    StableHlo.unary main_v294 main_v295 (broadcastInDim S64x256 ![0, 1] bcast_S64x1_S64x256_0_1 : (⟨S64x1, .f32⟩ : BufTy).Contents (Elt F) → (⟨S64x256, .f32⟩ : BufTy).Contents (Elt F)),
    StableHlo.binary main_v287 main_v295 main_v296 (Host.divf : (⟨S64x256, .f32⟩ : BufTy).Contents (Elt F) → (⟨S64x256, .f32⟩ : BufTy).Contents (Elt F) → (⟨S64x256, .f32⟩ : BufTy).Contents (Elt F)),
    StableHlo.binary main_v296 main_arg1 main_v297 ((fun a b => concatenate S64x256 1 [⟨S64x256, a⟩, ⟨S64x0, b⟩] concatenates_S64x256_S64x0_S64x256_d1) : (⟨S64x256, .f32⟩ : BufTy).Contents (Elt F) → (⟨S64x0, .f32⟩ : BufTy).Contents (Elt F) → (⟨S64x256, .f32⟩ : BufTy).Contents (Elt F)) ]

/-- The references they write. -/
abbrev wr17 : List (Ref sig .tc) :=
  [main_cst_38, main_v285, main_v286, main_v287, main_cst_39, main_v288, main_cst_40, main_v289, main_v290, main_v291, main_cst_41, main_v292, main_v293, main_v294, main_v295, main_v296, main_v297]

theorem pc17_sub : (pc17 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub ..⟩

theorem pc17_fresh : (pc17 : List (HloOp τ sig (Elt F))).Forall fun op => op.fresh = ∅ :=
  ⟨rfl, rfl, rfl, rfl, rfl, rfl, rfl, rfl, rfl, rfl, rfl, rfl, rfl, rfl, rfl, rfl, rfl⟩

theorem pc17_wr : (pc17 : List (HloOp τ sig (Elt F))).Forall fun op => op.writes ⊆ (wr17.map (Proc.devRef (τ := τ) .tc)).toFinset :=
  ⟨wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide)⟩

/-- Statements 343 … 357 of @main: 27 operations. -/
abbrev pc18 : List (HloOp τ sig (Elt F)) :=
  [ StableHlo.binary main_v297 main_arg6 main_v298 ((fun l r => Host.dotGeneral dot_S64x256_S256x1024_S64x1024_1_0_0_1_n_n none l r) : (⟨S64x256, .f32⟩ : BufTy).Contents (Elt F) → (⟨S256x1024, .f32⟩ : BufTy).Contents (Elt F) → (⟨S64x1024, .f32⟩ : BufTy).Contents (Elt F)),
    StableHlo.unary main_arg7 main_v299 (broadcastInDim S1x1024 ![1] bcast_S1024_S1x1024_1 : (⟨S1024, .f32⟩ : BufTy).Contents (Elt F) → (⟨S1x1024, .f32⟩ : BufTy).Contents (Elt F)),
    StableHlo.unary main_v299 main_v300 (broadcastInDim S64x1024 ![0, 1] bcast_S1x1024_S64x1024_0_1 : (⟨S1x1024, .f32⟩ : BufTy).Contents (Elt F) → (⟨S64x1024, .f32⟩ : BufTy).Contents (Elt F)),
    StableHlo.binary main_v298 main_v300 main_v301 (addf : (⟨S64x1024, .f32⟩ : BufTy).Contents (Elt F) → (⟨S64x1024, .f32⟩ : BufTy).Contents (Elt F) → (⟨S64x1024, .f32⟩ : BufTy).Contents (Elt F)),
    StableHlo.TRef.nullary main_call10.cst (constant S_ .f32 0x00000000#32),
    StableHlo.TRef.unary main_call10.cst main_call10.v0 (broadcastInDim S64x1024 ![] bcast_S_S64x1024),
    StableHlo.TRef.binary (.of main_v301 : StableHlo.TRef sig ⟨S64x1024, .f32⟩) main_call10.v0 main_call10.v1 (cmpf .oge),
    StableHlo.TRef.nullary main_call10.cst_0 (constant S_ .f32 0x3C23D70A#32),
    StableHlo.TRef.unary main_call10.cst_0 main_call10.v2 (broadcastInDim S64x1024 ![] bcast_S_S64x1024),
    StableHlo.TRef.binary main_call10.v2 (.of main_v301 : StableHlo.TRef sig ⟨S64x1024, .f32⟩) main_call10.v3 mulf,
    StableHlo.TRef.ternary main_call10.v1 (.of main_v301 : StableHlo.TRef sig ⟨S64x1024, .f32⟩) main_call10.v3 main_call10.call0.v0 select,
    StableHlo.binary main_v302 main_arg8 main_v303 ((fun l r => Host.dotGeneral dot_S64x1024_S1024x512_S64x512_1_0_0_1_n_n none l r) : (⟨S64x1024, .f32⟩ : BufTy).Contents (Elt F) → (⟨S1024x512, .f32⟩ : BufTy).Contents (Elt F) → (⟨S64x512, .f32⟩ : BufTy).Contents (Elt F)),
    StableHlo.unary main_arg9 main_v304 (broadcastInDim S1x512 ![1] bcast_S512_S1x512_1 : (⟨S512, .f32⟩ : BufTy).Contents (Elt F) → (⟨S1x512, .f32⟩ : BufTy).Contents (Elt F)),
    StableHlo.unary main_v304 main_v305 (broadcastInDim S64x512 ![0, 1] bcast_S1x512_S64x512_0_1 : (⟨S1x512, .f32⟩ : BufTy).Contents (Elt F) → (⟨S64x512, .f32⟩ : BufTy).Contents (Elt F)),
    StableHlo.binary main_v303 main_v305 main_v306 (addf : (⟨S64x512, .f32⟩ : BufTy).Contents (Elt F) → (⟨S64x512, .f32⟩ : BufTy).Contents (Elt F) → (⟨S64x512, .f32⟩ : BufTy).Contents (Elt F)),
    StableHlo.TRef.nullary main_call11.cst (constant S_ .f32 0x00000000#32),
    StableHlo.TRef.unary main_call11.cst main_call11.v0 (broadcastInDim S64x512 ![] bcast_S_S64x512),
    StableHlo.TRef.binary (.of main_v306 : StableHlo.TRef sig ⟨S64x512, .f32⟩) main_call11.v0 main_call11.v1 (cmpf .oge),
    StableHlo.TRef.nullary main_call11.cst_0 (constant S_ .f32 0x3C23D70A#32),
    StableHlo.TRef.unary main_call11.cst_0 main_call11.v2 (broadcastInDim S64x512 ![] bcast_S_S64x512),
    StableHlo.TRef.binary main_call11.v2 (.of main_v306 : StableHlo.TRef sig ⟨S64x512, .f32⟩) main_call11.v3 mulf,
    StableHlo.TRef.ternary main_call11.v1 (.of main_v306 : StableHlo.TRef sig ⟨S64x512, .f32⟩) main_call11.v3 main_call11.call0.v0 select,
    StableHlo.binary main_v307 main_arg10 main_v308 ((fun l r => Host.dotGeneral dot_S64x512_S512x1_S64x1_1_0_0_1_n_n none l r) : (⟨S64x512, .f32⟩ : BufTy).Contents (Elt F) → (⟨S512x1, .f32⟩ : BufTy).Contents (Elt F) → (⟨S64x1, .f32⟩ : BufTy).Contents (Elt F)),
    StableHlo.unary main_arg11 main_v309 (broadcastInDim S1x1 ![1] bcast_S1_S1x1_1 : (⟨S1, .f32⟩ : BufTy).Contents (Elt F) → (⟨S1x1, .f32⟩ : BufTy).Contents (Elt F)),
    StableHlo.unary main_v309 main_v310 (broadcastInDim S64x1 ![0, 1] bcast_S1x1_S64x1_0_1 : (⟨S1x1, .f32⟩ : BufTy).Contents (Elt F) → (⟨S64x1, .f32⟩ : BufTy).Contents (Elt F)),
    StableHlo.binary main_v308 main_v310 main_v311 (addf : (⟨S64x1, .f32⟩ : BufTy).Contents (Elt F) → (⟨S64x1, .f32⟩ : BufTy).Contents (Elt F) → (⟨S64x1, .f32⟩ : BufTy).Contents (Elt F)),
    StableHlo.reshape main_v311 main_v312 rfl shapeCasts_S64x1_S64 ]

/-- The references they write. -/
abbrev wr18 : List (Ref sig .tc) :=
  [main_v298, main_v299, main_v300, main_v301, main_call10.cst.ref, main_call10.v0.ref, main_call10.v1.ref, main_call10.cst_0.ref, main_call10.v2.ref, main_call10.v3.ref, main_call10.call0.v0.ref, main_v303, main_v304, main_v305, main_v306, main_call11.cst.ref, main_call11.v0.ref, main_call11.v1.ref, main_call11.cst_0.ref, main_call11.v2.ref, main_call11.v3.ref, main_call11.call0.v0.ref, main_v308, main_v309, main_v310, main_v311, main_v312]

theorem pc18_sub : (pc18 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., reshape_bufs_sub ..⟩

theorem pc18_fresh : (pc18 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

theorem pc18_wr : (pc18 : List (HloOp τ sig (Elt F))).Forall fun op => op.writes ⊆ (wr18.map (Proc.devRef (τ := τ) .tc)).toFinset :=
  ⟨wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide), wr_mem (by decide)⟩

end Cert.ReferenceIdeal.RefValue

end
-- ==== Proof.RefMain.lean ====
/-
  The reference's @main is the straight line of its operations: each printed window is the line of its pieces (the module-local
  functions' bodies unfolded at their calls), the windows in order are the whole line, every operation touches TensorCore
  references only and determines its results, and the signature scopes nothing; so every weakly fair execution terminates with
  every buffer at the fold of the operations over the launch contents.
-/
import proofs.«126634_j63780264346183_1_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: the pieces one after the other. -/
abbrev ops : List (HloOp τ sig (Elt F)) :=
  pc00 ++ (pc01 ++ (pc02 ++ (pc03 ++ (pc04 ++ (pc05 ++ (pc06 ++ (pc07 ++ (pc08 ++ (pc09 ++ (pc10 ++ (pc11 ++ (pc12 ++ (pc13 ++ (pc14 ++ (pc15 ++ (pc16 ++ (pc17 ++ (pc18))))))))))))))))))

set_option maxRecDepth 4096 in
/-- Window 0 of @main is the line of its pieces. -/
theorem part0_eq (d : Dev nD) : main_part0 (F := F) d = (seq pc00 >>= fun _ => seq pc01 >>= fun _ => seq pc02) := by
  simp only [main_part0, fn_relu.body, fn_leaky_relu.body, fn_leaky_relu_0.body, fn_where.body, fn_where_1.body, seq, bind_assoc, pure_bind]
  rfl

set_option maxRecDepth 4096 in
/-- Window 1 of @main is the line of its pieces. -/
theorem part1_eq (d : Dev nD) : main_part1 (F := F) d = (seq pc03 >>= fun _ => seq pc04 >>= fun _ => seq pc05) := by
  simp only [main_part1, fn_relu.body, fn_leaky_relu.body, fn_leaky_relu_0.body, fn_where.body, fn_where_1.body, seq, bind_assoc, pure_bind]
  rfl

set_option maxRecDepth 4096 in
/-- Window 2 of @main is the line of its pieces. -/
theorem part2_eq (d : Dev nD) : main_part2 (F := F) d = (seq pc06 >>= fun _ => seq pc07 >>= fun _ => seq pc08) := by
  simp only [main_part2, fn_relu.body, fn_leaky_relu.body, fn_leaky_relu_0.body, fn_where.body, fn_where_1.body, seq, bind_assoc, pure_bind]
  rfl

set_option maxRecDepth 4096 in
/-- Window 3 of @main is the line of its pieces. -/
theorem part3_eq (d : Dev nD) : main_part3 (F := F) d = (seq pc09 >>= fun _ => seq pc10 >>= fun _ => seq pc11) := by
  simp only [main_part3, fn_relu.body, fn_leaky_relu.body, fn_leaky_relu_0.body, fn_where.body, fn_where_1.body, seq, bind_assoc, pure_bind]
  rfl

set_option maxRecDepth 4096 in
/-- Window 4 of @main is the line of its pieces. -/
theorem part4_eq (d : Dev nD) : main_part4 (F := F) d = (seq pc12 >>= fun _ => seq pc13 >>= fun _ => seq pc14 >>= fun _ => seq pc15) := by
  simp only [main_part4, fn_relu.body, fn_leaky_relu.body, fn_leaky_relu_0.body, fn_where.body, fn_where_1.body, seq, bind_assoc, pure_bind]
  rfl

set_option maxRecDepth 4096 in
/-- Window 5 of @main is the line of its pieces. -/
theorem part5_eq (d : Dev nD) : main_part5 (F := F) d = (seq pc16 >>= fun _ => seq pc17 >>= fun _ => seq pc18) := by
  simp only [main_part5, fn_relu.body, fn_leaky_relu.body, fn_leaky_relu_0.body, fn_where.body, fn_where_1.body, seq, bind_assoc, pure_bind]

/-- @main is the line of all its operations. -/
theorem main_eq (d : Dev nD) : main (F := F) d = seq ops := by
  simp only [main, part0_eq, part1_eq, part2_eq, part3_eq, part4_eq, part5_eq, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append pc00_sub (forall_append pc01_sub (forall_append pc02_sub (forall_append pc03_sub (forall_append pc04_sub (forall_append pc05_sub (forall_append pc06_sub (forall_append pc07_sub (forall_append pc08_sub (forall_append pc09_sub (forall_append pc10_sub (forall_append pc11_sub (forall_append pc12_sub (forall_append pc13_sub (forall_append pc14_sub (forall_append pc15_sub (forall_append pc16_sub (forall_append pc17_sub (pc18_sub))))))))))))))))))

theorem ops_fresh : ∀ op ∈ (ops : List (HloOp τ sig (Elt F))), op.fresh = ∅ :=
  List.forall_iff_forall_mem.1 (forall_append pc00_fresh (forall_append pc01_fresh (forall_append pc02_fresh (forall_append pc03_fresh (forall_append pc04_fresh (forall_append pc05_fresh (forall_append pc06_fresh (forall_append pc07_fresh (forall_append pc08_fresh (forall_append pc09_fresh (forall_append pc10_fresh (forall_append pc11_fresh (forall_append pc12_fresh (forall_append pc13_fresh (forall_append pc14_fresh (forall_append pc15_fresh (forall_append pc16_fresh (forall_append pc17_fresh (pc18_fresh)))))))))))))))))))

/-- From any memory with zero counters every weakly fair execution of @main terminates, each buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefValue

end
-- ==== Proof.RefDeg.lean ====
/-
  The first piece of the reference's line computes the two degree factors: the clamped number of edges at each node, from the
  sources and from the targets, to the power -1/2. Read off the fold, each is the specification's degNorm of its edge list.
-/
import proofs.«126634_j63780264346183_1_alg».proof.Proof.RefOps
import proofs.«126634_j63780264346183_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The source-side factor after the first piece. -/
theorem deg_src (V : Valuation τ sig (Elt F)) :
    after pc00 V (main_v12 : DevRef τ sig) = Cert.Spec.degNorm (V (main_arg12 : DevRef τ sig)) := by
  after_results_simp
  rfl

/-- The target-side factor after the first piece. -/
theorem deg_dst (V : Valuation τ sig (Elt F)) :
    after pc00 V (main_v14 : DevRef τ sig) = Cert.Spec.degNorm (V (main_arg13 : DevRef τ sig)) := by
  after_results_simp
  rfl

end Cert.ReferenceIdeal.RefValue

end
-- ==== Proof.RefLay00.lean ====
/-
  The second piece is the first convolution: the input features scaled by the source-side factor, gathered at the edges'
  sources and added into the targets' rows, scaled by the target-side factor, times the weights plus the bias.
-/
import proofs.«126634_j63780264346183_1_alg».proof.Proof.RefOps
import proofs.«126634_j63780264346183_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first convolution's result, from the buffers the piece reads. -/
theorem layer0 (V : Valuation τ sig (Elt F)) :
    after pc01 V (main_v34 : DevRef τ sig)
      = Cert.Spec.conv0 (V (main_arg0 : DevRef τ sig)) (V (main_v12 : DevRef τ sig)) (V (main_v14 : DevRef τ sig))
          (V (main_arg2 : DevRef τ sig)) (V (main_arg3 : DevRef τ sig)) (V (main_arg12 : DevRef τ sig)) (V (main_arg13 : DevRef τ sig)) := by
  after_results_simp
  rfl

end Cert.ReferenceIdeal.RefValue

end
-- ==== Proof.RefLay01.lean ====
/-
  Convolution 1 of the ten with a rectifier: its statements slice layer 0's weights and bias out of the stacked arrays,
  scale the previous features by the source-side factor, gather and scatter-add along the edges, scale by the target-side
  factor, multiply by the weights, add the bias and take the maximum with zero (the rectifier's body at its call).
-/
import proofs.«126634_j63780264346183_1_alg».proof.Proof.RefOps
import proofs.«126634_j63780264346183_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The convolution's result, from the buffers its statements read. -/
theorem layer1 (V : Valuation τ sig (Elt F)) :
    after pc03 (after pc02 V) (main_v59 : DevRef τ sig)
      = Cert.Spec.conv (V (main_v34 : DevRef τ sig)) (V (main_v12 : DevRef τ sig)) (V (main_v14 : DevRef τ sig))
          (Cert.Spec.sliceW (V (main_arg4 : DevRef τ sig)) 0 slices_S10x256x256_S1x256x256_0_0_0)
          (Cert.Spec.sliceB (V (main_arg5 : DevRef τ sig)) 0 slices_S10x256_S1x256_0_0)
          (V (main_arg12 : DevRef τ sig)) (V (main_arg13 : DevRef τ sig)) := by
  after_results_simp
  rfl

end Cert.ReferenceIdeal.RefValue

end
-- ==== Proof.RefLay02.lean ====
/-
  Convolution 2 of the ten with a rectifier: its statements slice layer 1's weights and bias out of the stacked arrays,
  scale the previous features by the source-side factor, gather and scatter-add along the edges, scale by the target-side
  factor, multiply by the weights, add the bias and take the maximum with zero (the rectifier's body at its call).
-/
import proofs.«126634_j63780264346183_1_alg».proof.Proof.RefOps
import proofs.«126634_j63780264346183_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The convolution's result, from the buffers its statements read. -/
theorem layer2 (V : Valuation τ sig (Elt F)) :
    after pc04 V (main_v84 : DevRef τ sig)
      = Cert.Spec.conv (V (main_v59 : DevRef τ sig)) (V (main_v12 : DevRef τ sig)) (V (main_v14 : DevRef τ sig))
          (Cert.Spec.sliceW (V (main_arg4 : DevRef τ sig)) 1 slices_S10x256x256_S1x256x256_1_0_0)
          (Cert.Spec.sliceB (V (main_arg5 : DevRef τ sig)) 1 slices_S10x256_S1x256_1_0)
          (V (main_arg12 : DevRef τ sig)) (V (main_arg13 : DevRef τ sig)) := by
  after_results_simp
  rfl

end Cert.ReferenceIdeal.RefValue

end
-- ==== Proof.RefLay03.lean ====
/-
  Convolution 3 of the ten with a rectifier: its statements slice layer 2's weights and bias out of the stacked arrays,
  scale the previous features by the source-side factor, gather and scatter-add along the edges, scale by the target-side
  factor, multiply by the weights, add the bias and take the maximum with zero (the rectifier's body at its call).
-/
import proofs.«126634_j63780264346183_1_alg».proof.Proof.RefOps
import proofs.«126634_j63780264346183_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The convolution's result, from the buffers its statements read. -/
theorem layer3 (V : Valuation τ sig (Elt F)) :
    after pc06 (after pc05 V) (main_v109 : DevRef τ sig)
      = Cert.Spec.conv (V (main_v84 : DevRef τ sig)) (V (main_v12 : DevRef τ sig)) (V (main_v14 : DevRef τ sig))
          (Cert.Spec.sliceW (V (main_arg4 : DevRef τ sig)) 2 slices_S10x256x256_S1x256x256_2_0_0)
          (Cert.Spec.sliceB (V (main_arg5 : DevRef τ sig)) 2 slices_S10x256_S1x256_2_0)
          (V (main_arg12 : DevRef τ sig)) (V (main_arg13 : DevRef τ sig)) := by
  after_results_simp
  rfl

end Cert.ReferenceIdeal.RefValue

end
-- ==== Proof.RefLay04.lean ====
/-
  Convolution 4 of the ten with a rectifier: its statements slice layer 3's weights and bias out of the stacked arrays,
  scale the previous features by the source-side factor, gather and scatter-add along the edges, scale by the target-side
  factor, multiply by the weights, add the bias and take the maximum with zero (the rectifier's body at its call).
-/
import proofs.«126634_j63780264346183_1_alg».proof.Proof.RefOps
import proofs.«126634_j63780264346183_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The convolution's result, from the buffers its statements read. -/
theorem layer4 (V : Valuation τ sig (Elt F)) :
    after pc07 V (main_v134 : DevRef τ sig)
      = Cert.Spec.conv (V (main_v109 : DevRef τ sig)) (V (main_v12 : DevRef τ sig)) (V (main_v14 : DevRef τ sig))
          (Cert.Spec.sliceW (V (main_arg4 : DevRef τ sig)) 3 slices_S10x256x256_S1x256x256_3_0_0)
          (Cert.Spec.sliceB (V (main_arg5 : DevRef τ sig)) 3 slices_S10x256_S1x256_3_0)
          (V (main_arg12 : DevRef τ sig)) (V (main_arg13 : DevRef τ sig)) := by
  after_results_simp
  rfl

end Cert.ReferenceIdeal.RefValue

end
-- ==== Proof.RefLay05.lean ====
/-
  Convolution 5 of the ten with a rectifier: its statements slice layer 4's weights and bias out of the stacked arrays,
  scale the previous features by the source-side factor, gather and scatter-add along the edges, scale by the target-side
  factor, multiply by the weights, add the bias and take the maximum with zero (the rectifier's body at its call).
-/
import proofs.«126634_j63780264346183_1_alg».proof.Proof.RefOps
import proofs.«126634_j63780264346183_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The convolution's result, from the buffers its statements read. -/
theorem layer5 (V : Valuation τ sig (Elt F)) :
    after pc09 (after pc08 V) (main_v159 : DevRef τ sig)
      = Cert.Spec.conv (V (main_v134 : DevRef τ sig)) (V (main_v12 : DevRef τ sig)) (V (main_v14 : DevRef τ sig))
          (Cert.Spec.sliceW (V (main_arg4 : DevRef τ sig)) 4 slices_S10x256x256_S1x256x256_4_0_0)
          (Cert.Spec.sliceB (V (main_arg5 : DevRef τ sig)) 4 slices_S10x256_S1x256_4_0)
          (V (main_arg12 : DevRef τ sig)) (V (main_arg13 : DevRef τ sig)) := by
  after_results_simp
  rfl

end Cert.ReferenceIdeal.RefValue

end
-- ==== Proof.RefLay06.lean ====
/-
  Convolution 6 of the ten with a rectifier: its statements slice layer 5's weights and bias out of the stacked arrays,
  scale the previous features by the source-side factor, gather and scatter-add along the edges, scale by the target-side
  factor, multiply by the weights, add the bias and take the maximum with zero (the rectifier's body at its call).
-/
import proofs.«126634_j63780264346183_1_alg».proof.Proof.RefOps
import proofs.«126634_j63780264346183_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The convolution's result, from the buffers its statements read. -/
theorem layer6 (V : Valuation τ sig (Elt F)) :
    after pc10 V (main_v184 : DevRef τ sig)
      = Cert.Spec.conv (V (main_v159 : DevRef τ sig)) (V (main_v12 : DevRef τ sig)) (V (main_v14 : DevRef τ sig))
          (Cert.Spec.sliceW (V (main_arg4 : DevRef τ sig)) 5 slices_S10x256x256_S1x256x256_5_0_0)
          (Cert.Spec.sliceB (V (main_arg5 : DevRef τ sig)) 5 slices_S10x256_S1x256_5_0)
          (V (main_arg12 : DevRef τ sig)) (V (main_arg13 : DevRef τ sig)) := by
  after_results_simp
  rfl

end Cert.ReferenceIdeal.RefValue

end
-- ==== Proof.RefLay07.lean ====
/-
  Convolution 7 of the ten with a rectifier: its statements slice layer 6's weights and bias out of the stacked arrays,
  scale the previous features by the source-side factor, gather and scatter-add along the edges, scale by the target-side
  factor, multiply by the weights, add the bias and take the maximum with zero (the rectifier's body at its call).
-/
import proofs.«126634_j63780264346183_1_alg».proof.Proof.RefOps
import proofs.«126634_j63780264346183_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The convolution's result, from the buffers its statements read. -/
theorem layer7 (V : Valuation τ sig (Elt F)) :
    after pc12 (after pc11 V) (main_v209 : DevRef τ sig)
      = Cert.Spec.conv (V (main_v184 : DevRef τ sig)) (V (main_v12 : DevRef τ sig)) (V (main_v14 : DevRef τ sig))
          (Cert.Spec.sliceW (V (main_arg4 : DevRef τ sig)) 6 slices_S10x256x256_S1x256x256_6_0_0)
          (Cert.Spec.sliceB (V (main_arg5 : DevRef τ sig)) 6 slices_S10x256_S1x256_6_0)
          (V (main_arg12 : DevRef τ sig)) (V (main_arg13 : DevRef τ sig)) := by
  after_results_simp
  rfl

end Cert.ReferenceIdeal.RefValue

end
-- ==== Proof.RefLay08.lean ====
/-
  Convolution 8 of the ten with a rectifier: its statements slice layer 7's weights and bias out of the stacked arrays,
  scale the previous features by the source-side factor, gather and scatter-add along the edges, scale by the target-side
  factor, multiply by the weights, add the bias and take the maximum with zero (the rectifier's body at its call).
-/
import proofs.«126634_j63780264346183_1_alg».proof.Proof.RefOps
import proofs.«126634_j63780264346183_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The convolution's result, from the buffers its statements read. -/
theorem layer8 (V : Valuation τ sig (Elt F)) :
    after pc13 V (main_v234 : DevRef τ sig)
      = Cert.Spec.conv (V (main_v209 : DevRef τ sig)) (V (main_v12 : DevRef τ sig)) (V (main_v14 : DevRef τ sig))
          (Cert.Spec.sliceW (V (main_arg4 : DevRef τ sig)) 7 slices_S10x256x256_S1x256x256_7_0_0)
          (Cert.Spec.sliceB (V (main_arg5 : DevRef τ sig)) 7 slices_S10x256_S1x256_7_0)
          (V (main_arg12 : DevRef τ sig)) (V (main_arg13 : DevRef τ sig)) := by
  after_results_simp
  rfl

end Cert.ReferenceIdeal.RefValue

end
-- ==== Proof.RefLay09.lean ====
/-
  Convolution 9 of the ten with a rectifier: its statements slice layer 8's weights and bias out of the stacked arrays,
  scale the previous features by the source-side factor, gather and scatter-add along the edges, scale by the target-side
  factor, multiply by the weights, add the bias and take the maximum with zero (the rectifier's body at its call).
-/
import proofs.«126634_j63780264346183_1_alg».proof.Proof.RefOps
import proofs.«126634_j63780264346183_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The convolution's result, from the buffers its statements read. -/
theorem layer9 (V : Valuation τ sig (Elt F)) :
    after pc14 V (main_v259 : DevRef τ sig)
      = Cert.Spec.conv (V (main_v234 : DevRef τ sig)) (V (main_v12 : DevRef τ sig)) (V (main_v14 : DevRef τ sig))
          (Cert.Spec.sliceW (V (main_arg4 : DevRef τ sig)) 8 slices_S10x256x256_S1x256x256_8_0_0)
          (Cert.Spec.sliceB (V (main_arg5 : DevRef τ sig)) 8 slices_S10x256_S1x256_8_0)
          (V (main_arg12 : DevRef τ sig)) (V (main_arg13 : DevRef τ sig)) := by
  after_results_simp
  rfl

end Cert.ReferenceIdeal.RefValue

end
-- ==== Proof.RefLay10.lean ====
/-
  Convolution 10 of the ten with a rectifier: its statements slice layer 9's weights and bias out of the stacked arrays,
  scale the previous features by the source-side factor, gather and scatter-add along the edges, scale by the target-side
  factor, multiply by the weights, add the bias and take the maximum with zero (the rectifier's body at its call).
-/
import proofs.«126634_j63780264346183_1_alg».proof.Proof.RefOps
import proofs.«126634_j63780264346183_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The convolution's result, from the buffers its statements read. -/
theorem layer10 (V : Valuation τ sig (Elt F)) :
    after pc16 (after pc15 V) (main_v284 : DevRef τ sig)
      = Cert.Spec.conv (V (main_v259 : DevRef τ sig)) (V (main_v12 : DevRef τ sig)) (V (main_v14 : DevRef τ sig))
          (Cert.Spec.sliceW (V (main_arg4 : DevRef τ sig)) 9 slices_S10x256x256_S1x256x256_9_0_0)
          (Cert.Spec.sliceB (V (main_arg5 : DevRef τ sig)) 9 slices_S10x256_S1x256_9_0)
          (V (main_arg12 : DevRef τ sig)) (V (main_arg13 : DevRef τ sig)) := by
  after_results_simp
  rfl

end Cert.ReferenceIdeal.RefValue

end
-- ==== Proof.RefPool.lean ====
/-
  The per-graph mean: the node features added into their graphs' rows, divided by the clamped number of nodes of each graph,
  with the empty extra features appended.
-/
import proofs.«126634_j63780264346183_1_alg».proof.Proof.RefOps
import proofs.«126634_j63780264346183_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The pooled features, from the buffers the piece reads. -/
theorem pooled (V : Valuation τ sig (Elt F)) :
    after pc17 V (main_v297 : DevRef τ sig)
      = Cert.Spec.pool (V (main_v284 : DevRef τ sig)) (V (main_arg14 : DevRef τ sig)) (V (main_arg1 : DevRef τ sig)) := by
  after_results_simp
  rfl

end Cert.ReferenceIdeal.RefValue

end
-- ==== Proof.RefHead.lean ====
/-
  The head: three dense layers, the first two followed by the leaky rectifier (its body, and the select's inside it, at their calls),
  and the result's column read as a vector.
-/
import proofs.«126634_j63780264346183_1_alg».proof.Proof.RefOps
import proofs.«126634_j63780264346183_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The result vector, from the buffers the piece reads. -/
theorem headed (V : Valuation τ sig (Elt F)) :
    after pc18 V (main_v312 : DevRef τ sig)
      = shapeCast S64 (Cert.Spec.head (V (main_v297 : DevRef τ sig)) (V (main_arg6 : DevRef τ sig)) (V (main_arg7 : DevRef τ sig)) (V (main_arg8 : DevRef τ sig))
          (V (main_arg9 : DevRef τ sig)) (V (main_arg10 : DevRef τ sig)) (V (main_arg11 : DevRef τ sig))) shapeCasts_S64x1_S64 := by
  after_results_simp
  rfl

end Cert.ReferenceIdeal.RefValue

end
-- ==== Proof.RefRun.lean ====
/-
  The reference's run, read: the line's fold piece by piece. The first piece leaves the two degree factors; every later piece leaves the
  arguments and the two factors as it finds them and turns the previous features into the next (one convolution, the pooling, the head),
  so the result buffer ends at the specification's network of the arguments' launch contents, and the arguments end unchanged.
-/
import proofs.«126634_j63780264346183_1_alg».proof.Proof.RefMain
import proofs.«126634_j63780264346183_1_alg».proof.Proof.RefDeg
import proofs.«126634_j63780264346183_1_alg».proof.Proof.RefLay00
import proofs.«126634_j63780264346183_1_alg».proof.Proof.RefLay01
import proofs.«126634_j63780264346183_1_alg».proof.Proof.RefLay02
import proofs.«126634_j63780264346183_1_alg».proof.Proof.RefLay03
import proofs.«126634_j63780264346183_1_alg».proof.Proof.RefLay04
import proofs.«126634_j63780264346183_1_alg».proof.Proof.RefLay05
import proofs.«126634_j63780264346183_1_alg».proof.Proof.RefLay06
import proofs.«126634_j63780264346183_1_alg».proof.Proof.RefLay07
import proofs.«126634_j63780264346183_1_alg».proof.Proof.RefLay08
import proofs.«126634_j63780264346183_1_alg».proof.Proof.RefLay09
import proofs.«126634_j63780264346183_1_alg».proof.Proof.RefLay10
import proofs.«126634_j63780264346183_1_alg».proof.Proof.RefPool
import proofs.«126634_j63780264346183_1_alg».proof.Proof.RefHead

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The fifteen arguments of @main. -/
abbrev argRefs : List (Ref sig .tc) :=
  [main_arg0, main_arg1, main_arg2, main_arg3, main_arg4, main_arg5, main_arg6, main_arg7, main_arg8, main_arg9, main_arg10, main_arg11, main_arg12, main_arg13, main_arg14]

/-- The buffers every piece after the first leaves alone: the two degree factors' and the arguments'. -/
abbrev keepRefs : List (Ref sig .tc) := main_v12 :: main_v14 :: argRefs

/-- A reference whose index is not among a list's indices is not in the list. -/
theorem not_mem_of_idx {r : Ref sig .tc} {W : List (Ref sig .tc)} (h : r.idx.val ∉ W.map fun w => w.idx.val) : r ∉ W :=
  fun hm => h (List.mem_map.2 ⟨r, hm, rfl⟩)

/-- Membership in a literal list, by position. -/
macro "list_mem" : tactic => `(tactic| repeat (first | exact List.mem_cons_self | apply List.mem_cons_of_mem))

/-- What every piece after the first leaves as it finds it: the arguments' contents, and the two degree factors of the edge lists. -/
structure Keeps (V₀ V : Valuation τ sig (Elt F)) : Prop where
  args : ∀ r ∈ argRefs, V (r : DevRef τ sig) = V₀ (r : DevRef τ sig)
  dOut : V (main_v12 : DevRef τ sig) = Cert.Spec.degNorm (V₀ (main_arg12 : DevRef τ sig))
  dIn : V (main_v14 : DevRef τ sig) = Cert.Spec.degNorm (V₀ (main_arg13 : DevRef τ sig))

/-- A piece that writes none of those buffers keeps them. -/
theorem Keeps.step {V₀ V : Valuation τ sig (Elt F)} (h : Keeps V₀ V) (l : List (HloOp τ sig (Elt F))) (W : List (Ref sig .tc))
    (hW : l.Forall fun op => op.writes ⊆ (W.map (Proc.devRef (τ := τ) .tc)).toFinset)
    (hd : ∀ n ∈ keepRefs.map (fun r => r.idx.val), n ∉ W.map fun w => w.idx.val) : Keeps V₀ (after l V) :=
  have hk : ∀ r ∈ keepRefs, r ∉ W := fun r hr => not_mem_of_idx (hd _ (List.mem_map.2 ⟨r, hr, rfl⟩))
  { args := fun r hr => (after_of_writes_sub l V hW (hk r (List.mem_cons_of_mem _ (List.mem_cons_of_mem _ hr)))).trans (h.args r hr)
    dOut := (after_of_writes_sub l V hW (hk main_v12 List.mem_cons_self)).trans h.dOut
    dIn := (after_of_writes_sub l V hW (hk main_v14 (List.mem_cons_of_mem _ List.mem_cons_self))).trans h.dIn }

/-- A convolution over kept buffers is the specification's layer of the launch contents. -/
theorem conv_keeps {V₀ V : Valuation τ sig (Elt F)} (h : Keeps V₀ V) (i : Nat) (hs : S10x256x256.Slices ![i, 0, 0] S1x256x256)
    (hb : S10x256.Slices ![i, 0] S1x256) (X : FVec F S20000x256 .f32) :
    Cert.Spec.conv X (V (main_v12 : DevRef τ sig)) (V (main_v14 : DevRef τ sig)) (Cert.Spec.sliceW (V (main_arg4 : DevRef τ sig)) i hs)
        (Cert.Spec.sliceB (V (main_arg5 : DevRef τ sig)) i hb) (V (main_arg12 : DevRef τ sig)) (V (main_arg13 : DevRef τ sig))
      = Cert.Spec.convK (V₀ (main_arg4 : DevRef τ sig)) (V₀ (main_arg5 : DevRef τ sig)) (V₀ (main_arg12 : DevRef τ sig)) (V₀ (main_arg13 : DevRef τ sig)) i hs hb X := by
  rw [h.dOut, h.dIn, h.args main_arg4 (by list_mem), h.args main_arg5 (by list_mem), h.args main_arg12 (by list_mem),
    h.args main_arg13 (by list_mem)]
  rfl

/-- The whole line's fold: the arguments and the factors kept, the result buffer at the network of the arguments. -/
theorem fold_eq (V₀ : Valuation τ sig (Elt F)) :
    Keeps V₀ (after ops V₀) ∧
      after ops V₀ (main_v312 : DevRef τ sig)
        = Cert.Spec.out (V₀ (main_arg0 : DevRef τ sig)) (V₀ (main_arg1 : DevRef τ sig)) (V₀ (main_arg2 : DevRef τ sig)) (V₀ (main_arg3 : DevRef τ sig)) (V₀ (main_arg4 : DevRef τ sig)) (V₀ (main_arg5 : DevRef τ sig)) (V₀ (main_arg6 : DevRef τ sig)) (V₀ (main_arg7 : DevRef τ sig)) (V₀ (main_arg8 : DevRef τ sig)) (V₀ (main_arg9 : DevRef τ sig)) (V₀ (main_arg10 : DevRef τ sig)) (V₀ (main_arg11 : DevRef τ sig)) (V₀ (main_arg12 : DevRef τ sig)) (V₀ (main_arg13 : DevRef τ sig)) (V₀ (main_arg14 : DevRef τ sig)) := by
  simp only [ops, after_append]
  have k : Keeps V₀ (after pc00 V₀) :=
    ⟨fun r hr => after_of_writes_sub pc00 V₀ pc00_wr (not_mem_of_idx ((by decide : ∀ n ∈ argRefs.map (fun r => r.idx.val), n ∉ wr00.map fun w => w.idx.val) _
      (List.mem_map.2 ⟨r, hr, rfl⟩))), deg_src V₀, deg_dst V₀⟩
  generalize after pc00 V₀ = S at k ⊢
  -- the first convolution
  have e := layer0 S
  rw [k.args main_arg0 (by list_mem), k.dOut, k.dIn, k.args main_arg2 (by list_mem), k.args main_arg3 (by list_mem),
    k.args main_arg12 (by list_mem), k.args main_arg13 (by list_mem)] at e
  replace k := k.step pc01 wr01 pc01_wr (by decide)
  generalize after pc01 S = S' at e k ⊢
  clear S; rename' S' => S
  -- convolution 1
  have e' := layer1 S
  rw [e, conv_keeps k] at e'
  replace k := (k.step pc02 wr02 pc02_wr (by decide)).step pc03 wr03 pc03_wr (by decide)
  generalize after pc03 (after pc02 S) = S' at e' k ⊢
  clear e S; rename' S' => S, e' => e
  -- convolution 2
  have e' := layer2 S
  rw [e, conv_keeps k] at e'
  replace k := k.step pc04 wr04 pc04_wr (by decide)
  generalize after pc04 S = S' at e' k ⊢
  clear e S; rename' S' => S, e' => e
  -- convolution 3
  have e' := layer3 S
  rw [e, conv_keeps k] at e'
  replace k := (k.step pc05 wr05 pc05_wr (by decide)).step pc06 wr06 pc06_wr (by decide)
  generalize after pc06 (after pc05 S) = S' at e' k ⊢
  clear e S; rename' S' => S, e' => e
  -- convolution 4
  have e' := layer4 S
  rw [e, conv_keeps k] at e'
  replace k := k.step pc07 wr07 pc07_wr (by decide)
  generalize after pc07 S = S' at e' k ⊢
  clear e S; rename' S' => S, e' => e
  -- convolution 5
  have e' := layer5 S
  rw [e, conv_keeps k] at e'
  replace k := (k.step pc08 wr08 pc08_wr (by decide)).step pc09 wr09 pc09_wr (by decide)
  generalize after pc09 (after pc08 S) = S' at e' k ⊢
  clear e S; rename' S' => S, e' => e
  -- convolution 6
  have e' := layer6 S
  rw [e, conv_keeps k] at e'
  replace k := k.step pc10 wr10 pc10_wr (by decide)
  generalize after pc10 S = S' at e' k ⊢
  clear e S; rename' S' => S, e' => e
  -- convolution 7
  have e' := layer7 S
  rw [e, conv_keeps k] at e'
  replace k := (k.step pc11 wr11 pc11_wr (by decide)).step pc12 wr12 pc12_wr (by decide)
  generalize after pc12 (after pc11 S) = S' at e' k ⊢
  clear e S; rename' S' => S, e' => e
  -- convolution 8
  have e' := layer8 S
  rw [e, conv_keeps k] at e'
  replace k := k.step pc13 wr13 pc13_wr (by decide)
  generalize after pc13 S = S' at e' k ⊢
  clear e S; rename' S' => S, e' => e
  -- convolution 9
  have e' := layer9 S
  rw [e, conv_keeps k] at e'
  replace k := k.step pc14 wr14 pc14_wr (by decide)
  generalize after pc14 S = S' at e' k ⊢
  clear e S; rename' S' => S, e' => e
  -- convolution 10
  have e' := layer10 S
  rw [e, conv_keeps k] at e'
  replace k := (k.step pc15 wr15 pc15_wr (by decide)).step pc16 wr16 pc16_wr (by decide)
  generalize after pc16 (after pc15 S) = S' at e' k ⊢
  clear e S; rename' S' => S, e' => e
  -- the pooling
  have e' := pooled S
  rw [e, k.args main_arg14 (by list_mem), k.args main_arg1 (by list_mem)] at e'
  replace k := k.step pc17 wr17 pc17_wr (by decide)
  generalize after pc17 S = S' at e' k ⊢
  clear e S; rename' S' => S, e' => e
  -- the head
  have e' := headed S
  rw [e, k.args main_arg6 (by list_mem), k.args main_arg7 (by list_mem), k.args main_arg8 (by list_mem), k.args main_arg9 (by list_mem),
    k.args main_arg10 (by list_mem), k.args main_arg11 (by list_mem)] at e'
  exact ⟨k.step pc18 wr18 pc18_wr (by decide), e'.trans rfl⟩

/-- From any memory with zero counters every weakly fair execution of @main terminates with the result buffer at the specification's
    network of the arguments' launch contents, and every argument unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v312)
        = Cert.Spec.out (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
    have f := fold_eq (launchContents m c)
    ⟨(h c main_v312).trans f.2,
      (h c main_arg0).trans (f.1.args main_arg0 (by list_mem)),
      (h c main_arg1).trans (f.1.args main_arg1 (by list_mem)),
      (h c main_arg2).trans (f.1.args main_arg2 (by list_mem)),
      (h c main_arg3).trans (f.1.args main_arg3 (by list_mem)),
      (h c main_arg4).trans (f.1.args main_arg4 (by list_mem)),
      (h c main_arg5).trans (f.1.args main_arg5 (by list_mem)),
      (h c main_arg6).trans (f.1.args main_arg6 (by list_mem)),
      (h c main_arg7).trans (f.1.args main_arg7 (by list_mem)),
      (h c main_arg8).trans (f.1.args main_arg8 (by list_mem)),
      (h c main_arg9).trans (f.1.args main_arg9 (by list_mem)),
      (h c main_arg10).trans (f.1.args main_arg10 (by list_mem)),
      (h c main_arg11).trans (f.1.args main_arg11 (by list_mem)),
      (h c main_arg12).trans (f.1.args main_arg12 (by list_mem)),
      (h c main_arg13).trans (f.1.args main_arg13 (by list_mem)),
      (h c main_arg14).trans (f.1.args main_arg14 (by list_mem))⟩)
    (run_main m ρ)

end Cert.ReferenceIdeal.RefValue

end
-- ==== Proof.lean ====
/-
  The certificate of the graph network's kernel against its jnp reference.

  Both programs compute, per graph, a three-layer head of the mean over the graph's nodes of the node features after eleven graph
  convolutions h ↦ [max(·, 0)] (((S (h · dOut)) · dIn) W + b), where S gathers rows at the edges' sources and adds them into the
  rows of the edges' targets and dOut, dIn are the clamped degrees to the power -1/2 (Proof/Spec.lean writes this function once).
  The reference does every step with host operations. The kernel does the gathers, scatter-adds, degree factors and the mean with
  the same host operations, and each convolution's dense part (scale by dIn, product with the layer's weights rounded to bf16,
  bias, rectifier, and the scaling by dOut for the next gather) in a launch over ten row tiles of 2000 nodes, the head in one more
  launch. At the ideal values rounding to bf16 is the identity and a row tile's matrix product is the rows of the whole product, so
  every launch writes back exactly the array the reference's operations give; no law of arithmetic beyond that is used, and the
  precondition (finite inputs) is not needed.

  The frames of the two kernel programs are the generated ones; the reference's frame is its run with the result dropped.
-/
import proofs.«126634_j63780264346183_1_alg».proof.Defs
import proofs.«126634_j63780264346183_1_alg».proof.Proof.Gen.Kernel
import proofs.«126634_j63780264346183_1_alg».proof.Proof.Gen.Kernel.Frame
import proofs.«126634_j63780264346183_1_alg».proof.Proof.Gen.KernelIdeal
import proofs.«126634_j63780264346183_1_alg».proof.Proof.Gen.KernelIdeal.Frame
import proofs.«126634_j63780264346183_1_alg».proof.Proof.Gen.ReferenceIdeal
import proofs.«126634_j63780264346183_1_alg».proof.Proof.Gen.Pre_finite_inputs
import proofs.«126634_j63780264346183_1_alg».proof.Proof.KTail
import proofs.«126634_j63780264346183_1_alg».proof.Proof.RefRun

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- Both runs end with the returned buffer at the specification's output of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KVal.run m ρ, ?_⟩
  refine (θ_run Cert.ReferenceIdeal.defs _ _).mono (fun _ h c => ⟨(h c).1.trans ?_, (h c).2⟩) (Cert.ReferenceIdeal.RefValue.run m' ρ')
  obtain ⟨a0, a1, a2, a3, a4, a5, a6, a7, a8, a9, a10, a11, a12, a13, a14⟩ := hagree c
  rw [a0, a1, a2, a3, a4, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
